-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S1024x4096 : Shape := ⟨2, ![1024, 4096]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1024x1024 .f32) (main_arg1 : FVec F S1024x4096 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Pre_finite_inputs_ReferenceIdeal.lean ====
abbrev S2048x1024 : Shape := ⟨2, ![2048, 1024]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : FVec F S2048x1024 .f32) (main_arg1 : FVec F S2048x4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  main_v8
-- ==== Kernel.lean ====
abbrev S1024x1024 : Shape := ⟨2, ![1024, 1024]⟩
abbrev S1024x4096 : Shape := ⟨2, ![1024, 4096]⟩
abbrev S512x4096 : Shape := ⟨2, ![512, 4096]⟩
abbrev S8x512x256 : Shape := ⟨3, ![8, 512, 256]⟩
abbrev S8 : Shape := ⟨1, ![8]⟩
abbrev S_ : Shape := ⟨0, ![]⟩
abbrev S1024x512 : Shape := ⟨2, ![1024, 512]⟩
abbrev S1024x256 : Shape := ⟨2, ![1024, 256]⟩
abbrev S512x256 : Shape := ⟨2, ![512, 256]⟩
abbrev S1x512x256 : Shape := ⟨3, ![1, 512, 256]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .f32⟩
  | .local _ .vmem, ⟨0, _⟩ => ⟨S1024x1024, .f32⟩
  | .local _ .vmem, ⟨1, _⟩ => ⟨S1024x4096, .f32⟩
  | .local _ .vmem, ⟨2, _⟩ => ⟨S512x4096, .f32⟩
  | .local _ .vmem, ⟨3, _⟩ => ⟨S8x512x256, .bf16⟩
  | .local _ .vmem, ⟨4, _⟩ => ⟨S8x512x256, .bf16⟩
  | .local _ .vmem, ⟨5, _⟩ => ⟨S8x512x256, .bf16⟩
  | .local _ .vmem, ⟨6, _⟩ => ⟨S8x512x256, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  { ofTc nBuf bufTy 1 35 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v16 : BitVec 32 := Scalar.muli v7 c1_i32_10
  let v17 : BitVec 32 := Scalar.addi v15 v16
  v17.toNat
def k0_off1 (d0 : Dev nD) : Fin 2 → Nat :=
  let c0 : Index := 0#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32 : BitVec 32 := 512#32
  let v18 : BitVec 32 := Scalar.muli v7 c512_i32
  let v19 : Index := Scalar.indexCast v18
  ![0, v19.toNat]
def k0_off2 (d0 : Dev nD) : Fin 2 → Nat :=
  let c0_13 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_12 : BitVec 32 := 512#32
  let v23 : BitVec 32 := Scalar.muli v5 c512_i32_12
  let v24 : Index := Scalar.indexCast v23
  ![0, v24.toNat]
def k0_off3 (d0 : Dev nD) (c0_i32_14 : BitVec 32) : Fin 2 → Nat :=
  let c0_15 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v8 : BitVec 32 := Scalar.muli v2 c2048_i32
  let v28 : BitVec 32 := Scalar.addi v8 c0_i32_14
  let v29 : Index := Scalar.indexCast v28
  ![0, v29.toNat]
def k0_dev3 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v38 : BitVec 32 := Scalar.muli v2 c2_i32_23
  let v39 : BitVec 32 := Scalar.addi c0_i32_24 v38
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_25 : BitVec 32 := 1#32
  let v40 : BitVec 32 := Scalar.muli v7 c1_i32_25
  let v41 : BitVec 32 := Scalar.addi v39 v40
  v41.toNat
def k0_dev4 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v60 : BitVec 32 := Scalar.muli v2 c2_i32_38
  let v61 : BitVec 32 := Scalar.addi c0_i32_39 v60
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_40 : BitVec 32 := 1#32
  let v62 : BitVec 32 := Scalar.muli v7 c1_i32_40
  let v63 : BitVec 32 := Scalar.addi v61 v62
  v63.toNat
def k0_dev5 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v82 : BitVec 32 := Scalar.muli v2 c2_i32_54
  let v83 : BitVec 32 := Scalar.addi c0_i32_55 v82
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_56 : BitVec 32 := 1#32
  let v84 : BitVec 32 := Scalar.muli v7 c1_i32_56
  let v85 : BitVec 32 := Scalar.addi v83 v84
  v85.toNat
def k0_dev6 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v104 : BitVec 32 := Scalar.muli v2 c2_i32_68
  let v105 : BitVec 32 := Scalar.addi c0_i32_69 v104
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_70 : BitVec 32 := 1#32
  let v106 : BitVec 32 := Scalar.muli v7 c1_i32_70
  let v107 : BitVec 32 := Scalar.addi v105 v106
  v107.toNat
def k0_dev7 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v126 : BitVec 32 := Scalar.muli v2 c2_i32_82
  let v127 : BitVec 32 := Scalar.addi c0_i32_83 v126
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_84 : BitVec 32 := 1#32
  let v128 : BitVec 32 := Scalar.muli v7 c1_i32_84
  let v129 : BitVec 32 := Scalar.addi v127 v128
  v129.toNat
def k0_dev8 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v148 : BitVec 32 := Scalar.muli v2 c2_i32_96
  let v149 : BitVec 32 := Scalar.addi c0_i32_97 v148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_98 : BitVec 32 := 1#32
  let v150 : BitVec 32 := Scalar.muli v7 c1_i32_98
  let v151 : BitVec 32 := Scalar.addi v149 v150
  v151.toNat
def k0_dev9 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v170 : BitVec 32 := Scalar.muli v2 c2_i32_110
  let v171 : BitVec 32 := Scalar.addi c0_i32_111 v170
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_112 : BitVec 32 := 1#32
  let v172 : BitVec 32 := Scalar.muli v7 c1_i32_112
  let v173 : BitVec 32 := Scalar.addi v171 v172
  v173.toNat
def k0_dev10 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v192 : BitVec 32 := Scalar.muli v2 c2_i32_124
  let v193 : BitVec 32 := Scalar.addi c0_i32_125 v192
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_126 : BitVec 32 := 1#32
  let v194 : BitVec 32 := Scalar.muli v7 c1_i32_126
  let v195 : BitVec 32 := Scalar.addi v193 v194
  v195.toNat
def k0_dev11 (d0 : Dev nD) : Nat :=
  let c0_i32_165 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_164 : BitVec 32 := 2#32
  let v234 : BitVec 32 := Scalar.muli v6 c2_i32_164
  let v235 : BitVec 32 := Scalar.addi c0_i32_165 v234
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v236 : BitVec 32 := Scalar.muli v5 c1_i32_166
  let v237 : BitVec 32 := Scalar.addi v235 v236
  v237.toNat
def k0_off4 (d0 : Dev nD) (c0_i32_171 : BitVec 32) : Fin 2 → Nat :=
  let c0_172 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v8 : BitVec 32 := Scalar.muli v2 c2048_i32
  let v246 : BitVec 32 := Scalar.addi v8 c0_i32_171
  let v247 : Index := Scalar.indexCast v246
  ![0, v247.toNat]
def k0_dev12 (d0 : Dev nD) : Nat :=
  let c0_i32_207 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_206 : BitVec 32 := 2#32
  let v279 : BitVec 32 := Scalar.muli v6 c2_i32_206
  let v280 : BitVec 32 := Scalar.addi c0_i32_207 v279
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_208 : BitVec 32 := 1#32
  let v281 : BitVec 32 := Scalar.muli v5 c1_i32_208
  let v282 : BitVec 32 := Scalar.addi v280 v281
  v282.toNat
def k0_dev13 (d0 : Dev nD) : Nat :=
  let c0_i32_249 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_248 : BitVec 32 := 2#32
  let v324 : BitVec 32 := Scalar.muli v6 c2_i32_248
  let v325 : BitVec 32 := Scalar.addi c0_i32_249 v324
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_250 : BitVec 32 := 1#32
  let v326 : BitVec 32 := Scalar.muli v5 c1_i32_250
  let v327 : BitVec 32 := Scalar.addi v325 v326
  v327.toNat
def k0_dev14 (d0 : Dev nD) : Nat :=
  let c0_i32_291 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_290 : BitVec 32 := 2#32
  let v369 : BitVec 32 := Scalar.muli v6 c2_i32_290
  let v370 : BitVec 32 := Scalar.addi c0_i32_291 v369
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_292 : BitVec 32 := 1#32
  let v371 : BitVec 32 := Scalar.muli v5 c1_i32_292
  let v372 : BitVec 32 := Scalar.addi v370 v371
  v372.toNat
def k0_dev15 (d0 : Dev nD) : Nat :=
  let c0_i32_333 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_332 : BitVec 32 := 2#32
  let v414 : BitVec 32 := Scalar.muli v6 c2_i32_332
  let v415 : BitVec 32 := Scalar.addi c0_i32_333 v414
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_334 : BitVec 32 := 1#32
  let v416 : BitVec 32 := Scalar.muli v5 c1_i32_334
  let v417 : BitVec 32 := Scalar.addi v415 v416
  v417.toNat
def k0_dev16 (d0 : Dev nD) : Nat :=
  let c0_i32_375 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_374 : BitVec 32 := 2#32
  let v459 : BitVec 32 := Scalar.muli v6 c2_i32_374
  let v460 : BitVec 32 := Scalar.addi c0_i32_375 v459
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_376 : BitVec 32 := 1#32
  let v461 : BitVec 32 := Scalar.muli v5 c1_i32_376
  let v462 : BitVec 32 := Scalar.addi v460 v461
  v462.toNat
def k0_dev17 (d0 : Dev nD) : Nat :=
  let c0_i32_417 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_416 : BitVec 32 := 2#32
  let v504 : BitVec 32 := Scalar.muli v6 c2_i32_416
  let v505 : BitVec 32 := Scalar.addi c0_i32_417 v504
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_418 : BitVec 32 := 1#32
  let v506 : BitVec 32 := Scalar.muli v5 c1_i32_418
  let v507 : BitVec 32 := Scalar.addi v505 v506
  v507.toNat
def k0_dev18 (d0 : Dev nD) : Nat :=
  let c0_i32_459 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_458 : BitVec 32 := 2#32
  let v549 : BitVec 32 := Scalar.muli v6 c2_i32_458
  let v550 : BitVec 32 := Scalar.addi c0_i32_459 v549
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_460 : BitVec 32 := 1#32
  let v551 : BitVec 32 := Scalar.muli v5 c1_i32_460
  let v552 : BitVec 32 := Scalar.addi v550 v551
  v552.toNat
def k0_off5 (d0 : Dev nD) (c0_i32_491 : BitVec 32) : Fin 2 → Nat :=
  let c0_492 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2048_i32_490 : BitVec 32 := 2048#32
  let v583 : BitVec 32 := Scalar.muli v6 c2048_i32_490
  let v584 : BitVec 32 := Scalar.addi v583 c0_i32_491
  let v585 : Index := Scalar.indexCast v584
  ![0, v585.toNat]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_2 : (2#32 : BitVec 32).msb = false
  h_S1024x512 : 0 < S1024x512.numel
  shapeCasts_S1024x512_S1024x512 : S1024x512.ShapeCasts S1024x512
  bitsLt_bf16_f32 : FTy.bits .bf16 < FTy.bits .f32
  h_S1024x256 : 0 < S1024x256.numel
  shapeCasts_S1024x256_S1024x256 : S1024x256.ShapeCasts S1024x256
  inb_S8x512x256_S1x512x256_0_0_0 : ∀ a, (![0, 0, 0] : Fin 3 → Nat) a + S1x512x256.size a ≤ S8x512x256.size a
  h_S1x512x256 : 0 < S1x512x256.numel
  shapeCasts_S1x512x256_S512x256 : S1x512x256.ShapeCasts S512x256
  shapeCasts_S512x256_S1x512x256 : S512x256.ShapeCasts S1x512x256
  packedbf16_S8x512x256_S1x512x256_0_0_0 : (Rect.unit (s := S8x512x256) ![0, 0, 0] S1x512x256.size inb_S8x512x256_S1x512x256_0_0_0).PackedRows (EltTy.packing .bf16)
  inb_S8_S1_0 : ∀ a, (![0] : Fin 1 → Nat) a + S1.size a ≤ S8.size a
  squeezes_S1_S_ : S1.Squeezes S_
  squeezes_S1x512x256_S512x256 : S1x512x256.Squeezes S512x256
  wordsbf16_S8x512x256_S1x512x256_0_0_0 : (Rect.unit (s := S8x512x256) ![0, 0, 0] S1x512x256.size inb_S8x512x256_S1x512x256_0_0_0).WholeWords (EltTy.packing .bf16)
  inb_S8x512x256_S1x512x256_1_0_0 : ∀ a, (![1, 0, 0] : Fin 3 → Nat) a + S1x512x256.size a ≤ S8x512x256.size a
  packedbf16_S8x512x256_S1x512x256_1_0_0 : (Rect.unit (s := S8x512x256) ![1, 0, 0] S1x512x256.size inb_S8x512x256_S1x512x256_1_0_0).PackedRows (EltTy.packing .bf16)
  inb_S8_S1_1 : ∀ a, (![1] : Fin 1 → Nat) a + S1.size a ≤ S8.size a
  wordsbf16_S8x512x256_S1x512x256_1_0_0 : (Rect.unit (s := S8x512x256) ![1, 0, 0] S1x512x256.size inb_S8x512x256_S1x512x256_1_0_0).WholeWords (EltTy.packing .bf16)
  inb_S8x512x256_S1x512x256_2_0_0 : ∀ a, (![2, 0, 0] : Fin 3 → Nat) a + S1x512x256.size a ≤ S8x512x256.size a
  packedbf16_S8x512x256_S1x512x256_2_0_0 : (Rect.unit (s := S8x512x256) ![2, 0, 0] S1x512x256.size inb_S8x512x256_S1x512x256_2_0_0).PackedRows (EltTy.packing .bf16)
  inb_S8_S1_2 : ∀ a, (![2] : Fin 1 → Nat) a + S1.size a ≤ S8.size a
  wordsbf16_S8x512x256_S1x512x256_2_0_0 : (Rect.unit (s := S8x512x256) ![2, 0, 0] S1x512x256.size inb_S8x512x256_S1x512x256_2_0_0).WholeWords (EltTy.packing .bf16)
  inb_S8x512x256_S1x512x256_3_0_0 : ∀ a, (![3, 0, 0] : Fin 3 → Nat) a + S1x512x256.size a ≤ S8x512x256.size a
  packedbf16_S8x512x256_S1x512x256_3_0_0 : (Rect.unit (s := S8x512x256) ![3, 0, 0] S1x512x256.size inb_S8x512x256_S1x512x256_3_0_0).PackedRows (EltTy.packing .bf16)
  inb_S8_S1_3 : ∀ a, (![3] : Fin 1 → Nat) a + S1.size a ≤ S8.size a
  wordsbf16_S8x512x256_S1x512x256_3_0_0 : (Rect.unit (s := S8x512x256) ![3, 0, 0] S1x512x256.size inb_S8x512x256_S1x512x256_3_0_0).WholeWords (EltTy.packing .bf16)
  inb_S8x512x256_S1x512x256_4_0_0 : ∀ a, (![4, 0, 0] : Fin 3 → Nat) a + S1x512x256.size a ≤ S8x512x256.size a
  packedbf16_S8x512x256_S1x512x256_4_0_0 : (Rect.unit (s := S8x512x256) ![4, 0, 0] S1x512x256.size inb_S8x512x256_S1x512x256_4_0_0).PackedRows (EltTy.packing .bf16)
  inb_S8_S1_4 : ∀ a, (![4] : Fin 1 → Nat) a + S1.size a ≤ S8.size a
  wordsbf16_S8x512x256_S1x512x256_4_0_0 : (Rect.unit (s := S8x512x256) ![4, 0, 0] S1x512x256.size inb_S8x512x256_S1x512x256_4_0_0).WholeWords (EltTy.packing .bf16)
  inb_S8x512x256_S1x512x256_5_0_0 : ∀ a, (![5, 0, 0] : Fin 3 → Nat) a + S1x512x256.size a ≤ S8x512x256.size a
  packedbf16_S8x512x256_S1x512x256_5_0_0 : (Rect.unit (s := S8x512x256) ![5, 0, 0] S1x512x256.size inb_S8x512x256_S1x512x256_5_0_0).PackedRows (EltTy.packing .bf16)
  inb_S8_S1_5 : ∀ a, (![5] : Fin 1 → Nat) a + S1.size a ≤ S8.size a
  wordsbf16_S8x512x256_S1x512x256_5_0_0 : (Rect.unit (s := S8x512x256) ![5, 0, 0] S1x512x256.size inb_S8x512x256_S1x512x256_5_0_0).WholeWords (EltTy.packing .bf16)
  inb_S8x512x256_S1x512x256_6_0_0 : ∀ a, (![6, 0, 0] : Fin 3 → Nat) a + S1x512x256.size a ≤ S8x512x256.size a
  packedbf16_S8x512x256_S1x512x256_6_0_0 : (Rect.unit (s := S8x512x256) ![6, 0, 0] S1x512x256.size inb_S8x512x256_S1x512x256_6_0_0).PackedRows (EltTy.packing .bf16)
  inb_S8_S1_6 : ∀ a, (![6] : Fin 1 → Nat) a + S1.size a ≤ S8.size a
  wordsbf16_S8x512x256_S1x512x256_6_0_0 : (Rect.unit (s := S8x512x256) ![6, 0, 0] S1x512x256.size inb_S8x512x256_S1x512x256_6_0_0).WholeWords (EltTy.packing .bf16)
  inb_S8x512x256_S1x512x256_7_0_0 : ∀ a, (![7, 0, 0] : Fin 3 → Nat) a + S1x512x256.size a ≤ S8x512x256.size a
  packedbf16_S8x512x256_S1x512x256_7_0_0 : (Rect.unit (s := S8x512x256) ![7, 0, 0] S1x512x256.size inb_S8x512x256_S1x512x256_7_0_0).PackedRows (EltTy.packing .bf16)
  inb_S8_S1_7 : ∀ a, (![7] : Fin 1 → Nat) a + S1.size a ≤ S8.size a
  wordsbf16_S8x512x256_S1x512x256_7_0_0 : (Rect.unit (s := S8x512x256) ![7, 0, 0] S1x512x256.size inb_S8x512x256_S1x512x256_7_0_0).WholeWords (EltTy.packing .bf16)
  h_S512x256 : 0 < S512x256.numel
  dot_S1024x512_S1024x256_S512x256_0_0_1_1_n_n_wf : DotDims.WF S1024x512 S1024x256 S512x256 [0] [0] [1] [1] [] []
  hcc0_scratch4 : 3 + S8.numel ≤ 35
  hcc0_scratch5 : 11 + S8.numel ≤ 35
  hcc0_scratch6 : 19 + S8.numel ≤ 35
  hcc0_scratch7 : 27 + S8.numel ≤ 35
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1024x512.size a ≤ S1024x1024.size a
  k0_off2_inb : ∀ d0 : Dev nD, ∀ a, (k0_off2 d0) a + S1024x512.size a ≤ S1024x1024.size a
  k0_off3_inb : ∀ d0 : Dev nD, ∀ (r : Fin 8), ∀ a, (k0_off3 d0 (BitVec.ofNat 32 (256 * r.val))) a + S1024x256.size a ≤ S1024x4096.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off4_inb : ∀ d0 : Dev nD, ∀ (r : Fin 8), ∀ a, (k0_off4 d0 (BitVec.ofNat 32 (256 * r.val))) a + S512x256.size a ≤ S512x4096.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off5_inb : ∀ d0 : Dev nD, ∀ (r : Fin 8), ∀ a, (k0_off5 d0 (BitVec.ofNat 32 (256 * r.val))) a + S512x256.size a ≤ S512x4096.size a
  hstage0_0 : ∀ j, (stage0_0 j).IsWhole
  hstage0_1 : ∀ j, (stage0_1 j).IsWhole
  hstage0_2 : ∀ j, (stage0_2 j).IsWhole

variable [Facts₀]

abbrev cc0_scratch4 : DmaSems sig S8 := SemArray.consecutive 3 S8 hcc0_scratch4
abbrev cc0_scratch5 : DmaSems sig S8 := SemArray.consecutive 11 S8 hcc0_scratch5
abbrev cc0_scratch6 : DmaSems sig S8 := SemArray.consecutive 19 S8 hcc0_scratch6
abbrev cc0_scratch7 : DmaSems sig S8 := SemArray.consecutive 27 S8 hcc0_scratch7
def dot_S1024x512_S1024x256_S512x256_0_0_1_1_n_n : DotDims S1024x512 S1024x256 S512x256 where
  lhsContracting := [0]
  rhsContracting := [0]
  lhsNonContracting := [1]
  rhsNonContracting := [1]
  lhsBatch := []
  rhsBatch := []
  wf := dot_S1024x512_S1024x256_S512x256_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S2048x1024_S1024x2048_1_0 : S2048x1024.Transposes [1, 0] S1024x2048
  dot_S1024x2048_S2048x4096_S1024x4096_1_0_0_1_n_n_wf : DotDims.WF S1024x2048 S2048x4096 S1024x4096 [1] [0] [0] [1] [] []

variable [Facts₀]

def dot_S1024x2048_S2048x4096_S1024x4096_1_0_0_1_n_n : DotDims S1024x2048 S2048x4096 S1024x4096 where
  lhsContracting := [1]
  rhsContracting := [0]
  lhsNonContracting := [0]
  rhsNonContracting := [1]
  lhsBatch := []
  rhsBatch := []
  wf := dot_S1024x2048_S2048x4096_S1024x4096_1_0_0_1_n_n_wf

class Facts : Prop extends Facts₀ where

variable [Facts]
-- ==== Proof.KernelIdeal.Vals.lean ====
/-
  The values one device computes, as pure functions of the two staged input blocks.

  Device `c = 2·x + y` of the 2×2 mesh holds rows `y·1024 … y·1024+1023` of both inputs. Writing `A_c` for its
  block of the first input and `B_c` for its block of the second, chunk `k < 8` of its column half `x` is the
  256 columns `2048·x + 256·k …` of `B_c`. With `other = 1 - y`:
    * `partY c k`  = (the `other` half of `A_c`'s columns)ᵀ · chunk k            — sent to the y-neighbour,
    * `rowSum c k` = (the `y` half of `A_c`'s columns)ᵀ · chunk k + what the y-neighbour sent for chunk k
                     — 512 × 256 entries of the result, and sent on to the x-neighbour,
    * `fromX c k`  = what the x-neighbour's `rowSum` is once received.
  Every change of float format is written as the program writes it, so the same text serves both float instances.
-/
import proofs.«900475_g7700000000000476_dist_rsdw_v7x_xy2x2_y_m1024_d1024_f4096_bf16_1_alg».proof.Proof.Gen.KernelIdeal.Frame
import proofs.«900475_g7700000000000476_dist_rsdw_v7x_xy2x2_y_m1024_d1024_f4096_bf16_1_alg».proof.Proof.Gen.KernelIdeal.Skeleton

noncomputable section

namespace Cert.KernelIdeal.Vals

open Cert.KernelIdeal Cert.KernelIdeal.Gen
open Idealize.ShloMosaic Idealize.ShloMosaic.TcCoe Idealize.SL.Sem

variable {F : FTy → Type} [FloatOps F]

/-- The mesh neighbour along the first mesh axis (the device with the other `x`, the same `y`). -/
def pX (c : Dev nD) : Dev nD := ⟨((c.val % 2) + 2) - 2 * (c.val / 2), by have h : c.val < 4 := c.isLt; show _ < 4; omega⟩
/-- The mesh neighbour along the second mesh axis (the same `x`, the other `y`). -/
def pY (c : Dev nD) : Dev nD := ⟨(2 * (c.val / 2) + 1) - (c.val % 2), by have h : c.val < 4 := c.isLt; show _ < 4; omega⟩

theorem pX_pX (c : Dev nD) : pX (pX c) = c := by revert c; decide
theorem pY_pY (c : Dev nD) : pY (pY c) = c := by revert c; decide
theorem pX_ne (c : Dev nD) : pX c ≠ c := by revert c; decide
theorem pY_ne (c : Dev nD) : pY c ≠ c := by revert c; decide
theorem pX_ne_pY (c : Dev nD) : pX c ≠ pY c := by revert c; decide

/-- A loaded f32 tile recast to bf16, as the program does it (a same-shape cast, then the truncation). -/
def toB16 {S : Shape} (h : S.ShapeCasts S) (v : Vec F S .f32) : FVec F S .bf16 := truncf .bf16 (shapeCast S v h) bitsLt_bf16_f32

/-- The product of two bf16 tiles contracted over their 1024 rows, accumulated from zero. -/
def mmT (a : FVec F S1024x512 .bf16) (b : FVec F S1024x256 .bf16) : FVec F S512x256 .f32 :=
  matmul dot_S1024x512_S1024x256_S512x256_0_0_1_1_n_n none a b (constant S512x256 .f32 0x00000000#32)

/-- What is stored in a send slot for the y-neighbour: the partial product, truncated and given the slot's leading unit axis. -/
def sendY (xo : Vec F S1024x512 .f32) (dy : Vec F S1024x256 .f32) : FVec F S1x512x256 .bf16 :=
  shapeCast S1x512x256 (truncf .bf16 (mmT (toB16 shapeCasts_S1024x512_S1024x512 xo) (toB16 shapeCasts_S1024x256_S1024x256 dy)) bitsLt_bf16_f32) shapeCasts_S512x256_S1x512x256

/-- The own partial product plus the slot received from the y-neighbour. -/
def sumY (xk : Vec F S1024x512 .f32) (dy : Vec F S1024x256 .f32) (yr : Vec F S1x512x256 .bf16) : FVec F S512x256 .f32 :=
  addf (mmT (toB16 shapeCasts_S1024x512_S1024x512 xk) (toB16 shapeCasts_S1024x256_S1024x256 dy))
    (extf .f32 (shapeCast S512x256 yr shapeCasts_S1x512x256_S512x256) bitsLt_bf16_f32)

/-- What is stored in a send slot for the x-neighbour. -/
def sendX (r : FVec F S512x256 .f32) : FVec F S1x512x256 .bf16 :=
  shapeCast S1x512x256 (truncf .bf16 r bitsLt_bf16_f32) shapeCasts_S512x256_S1x512x256

/-- A slot received from the x-neighbour, as it is stored into the result. -/
def recvX (xr : Vec F S1x512x256 .bf16) : FVec F S512x256 .f32 :=
  extf .f32 (shapeCast S512x256 xr shapeCasts_S1x512x256_S512x256) bitsLt_bf16_f32

variable (m : (ℓ : Loc nD τ sig) → Buf (Elt F) ℓ)

/-- Device `c`'s staged block of the first input, and of the second. -/
def stgA (c : Dev nD) : (cc0_stg0_0 : Ref sig .tc).ty.Contents (Elt F) := iblk m c 0 t0_0
def stgB (c : Dev nD) : (cc0_stg1_0 : Ref sig .tc).ty.Contents (Elt F) := iblk m c 1 t0_0

/-- The column half of `A_c` that belongs to the OTHER row block of the result, and the one that belongs to this device's. -/
def loadO (c : Dev nD) : Vec F S1024x512 .f32 :=
  (Memref.whole cc0_stg0_0 : Memref sig .tc .vmem S1024x1024 .f32).view.readAt (Elt F)
    (Rect.unit (s := S1024x1024) (k0_off1 c) S1024x512.size (k0_off1_inb c)).toLoadRect (stgA m c)
def loadK (c : Dev nD) : Vec F S1024x512 .f32 :=
  (Memref.whole cc0_stg0_0 : Memref sig .tc .vmem S1024x1024 .f32).view.readAt (Elt F)
    (Rect.unit (s := S1024x1024) (k0_off2 c) S1024x512.size (k0_off2_inb c)).toLoadRect (stgA m c)
/-- Chunk `k` of this device's column half of `B_c`. -/
def loadD (c : Dev nD) (k : Fin 8) : Vec F S1024x256 .f32 :=
  (Memref.whole cc0_stg1_0 : Memref sig .tc .vmem S1024x4096 .f32).view.readAt (Elt F)
    (Rect.unit (s := S1024x4096) (k0_off3 c (BitVec.ofNat 32 (256 * k.val))) S1024x256.size (k0_off3_inb c k)).toLoadRect (stgB m c)

def partY (c : Dev nD) (k : Fin 8) : FVec F S1x512x256 .bf16 := sendY (loadO m c) (loadD m c k)
def rowSum (c : Dev nD) (k : Fin 8) : FVec F S512x256 .f32 := sumY (loadK m c) (loadD m c k) (partY m (pY c) k)
def partX (c : Dev nD) (k : Fin 8) : FVec F S1x512x256 .bf16 := sendX (rowSum m c k)
def fromX (c : Dev nD) (k : Fin 8) : FVec F S512x256 .f32 := recvX (partX m (pX c) k)

end Cert.KernelIdeal.Vals

end
-- ==== Proof.KernelIdeal.Proto.lean ====
/-
  The protocol of the four devices, under the rounds discipline.

  Every device has 33 semaphore cells: the barrier cell, and four families of eight DMA cells, one per chunk `k`:
    family 0  — credited when this device's chunk-`k` slot for its y-neighbour has been read out of its send buffer,
    family 1  — credited when the y-neighbour's chunk-`k` slot has been written into this device's receive buffer,
    family 2, family 3 — the same two for the x-neighbour.
  Each cell has ONE round. The barrier cell's round has two duties of one unit: `false`, paid by the x-neighbour, whose
  payload is the x-neighbour's eight receive slots (so that this device may write into them); `true`, paid by the
  y-neighbour, with the y-neighbour's eight receive slots. A DMA cell's round has the one duty `false` of a slot's
  credit: a send cell hands the slot of the send buffer back; a receive cell hands the receive slot over TOGETHER WITH
  what it now holds — the sender's `partY` (family 1) or `partX` (family 3) of that chunk.
  A device waits on its barrier cell while it still owes all sixteen arrivals; on its families 0 and 1 while it still owes
  arrivals at its x-neighbour; on families 2 and 3 owing nothing: barrier < family 1 < family 3 orders the waits.
-/
import proofs.«900475_g7700000000000476_dist_rsdw_v7x_xy2x2_y_m1024_d1024_f4096_bf16_1_alg».proof.Proof.KernelIdeal.Vals
import proofs.«900475_g7700000000000476_dist_rsdw_v7x_xy2x2_y_m1024_d1024_f4096_bf16_1_alg».proof.Proof.Gen.KernelIdeal.Launch
import proofs.«900475_g7700000000000476_dist_rsdw_v7x_xy2x2_y_m1024_d1024_f4096_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's copy of the rounds algebra beside one whose duties are named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The neighbours the program names -/

theorem dev1_eq (c : Dev nD) : (⟨k0_dev1 c, k0_dev1_lt c⟩ : Dev nD) = pX c := Fin.ext (k0_dev1_eq c)
theorem dev11_eq (c : Dev nD) : (⟨k0_dev11 c, k0_dev11_lt c⟩ : Dev nD) = pX c := Fin.ext (k0_dev11_eq c)
theorem dev12_eq (c : Dev nD) : (⟨k0_dev12 c, k0_dev12_lt c⟩ : Dev nD) = pX c := Fin.ext (k0_dev12_eq c)
theorem dev13_eq (c : Dev nD) : (⟨k0_dev13 c, k0_dev13_lt c⟩ : Dev nD) = pX c := Fin.ext (k0_dev13_eq c)
theorem dev14_eq (c : Dev nD) : (⟨k0_dev14 c, k0_dev14_lt c⟩ : Dev nD) = pX c := Fin.ext (k0_dev14_eq c)
theorem dev15_eq (c : Dev nD) : (⟨k0_dev15 c, k0_dev15_lt c⟩ : Dev nD) = pX c := Fin.ext (k0_dev15_eq c)
theorem dev16_eq (c : Dev nD) : (⟨k0_dev16 c, k0_dev16_lt c⟩ : Dev nD) = pX c := Fin.ext (k0_dev16_eq c)
theorem dev17_eq (c : Dev nD) : (⟨k0_dev17 c, k0_dev17_lt c⟩ : Dev nD) = pX c := Fin.ext (k0_dev17_eq c)
theorem dev18_eq (c : Dev nD) : (⟨k0_dev18 c, k0_dev18_lt c⟩ : Dev nD) = pX c := Fin.ext (k0_dev18_eq c)
theorem dev2_eq (c : Dev nD) : (⟨k0_dev2 c, k0_dev2_lt c⟩ : Dev nD) = pY c := Fin.ext (k0_dev2_eq c)
theorem dev3_eq (c : Dev nD) : (⟨k0_dev3 c, k0_dev3_lt c⟩ : Dev nD) = pY c := Fin.ext (k0_dev3_eq c)
theorem dev4_eq (c : Dev nD) : (⟨k0_dev4 c, k0_dev4_lt c⟩ : Dev nD) = pY c := Fin.ext (k0_dev4_eq c)
theorem dev5_eq (c : Dev nD) : (⟨k0_dev5 c, k0_dev5_lt c⟩ : Dev nD) = pY c := Fin.ext (k0_dev5_eq c)
theorem dev6_eq (c : Dev nD) : (⟨k0_dev6 c, k0_dev6_lt c⟩ : Dev nD) = pY c := Fin.ext (k0_dev6_eq c)
theorem dev7_eq (c : Dev nD) : (⟨k0_dev7 c, k0_dev7_lt c⟩ : Dev nD) = pY c := Fin.ext (k0_dev7_eq c)
theorem dev8_eq (c : Dev nD) : (⟨k0_dev8 c, k0_dev8_lt c⟩ : Dev nD) = pY c := Fin.ext (k0_dev8_eq c)
theorem dev9_eq (c : Dev nD) : (⟨k0_dev9 c, k0_dev9_lt c⟩ : Dev nD) = pY c := Fin.ext (k0_dev9_eq c)
theorem dev10_eq (c : Dev nD) : (⟨k0_dev10 c, k0_dev10_lt c⟩ : Dev nD) = pY c := Fin.ext (k0_dev10_eq c)

/-! ## The four slotted scratch buffers -/

abbrev ysM : Memref sig .tc .vmem S8x512x256 .bf16 := Memref.whole cc0_scratch0
abbrev yrM : Memref sig .tc .vmem S8x512x256 .bf16 := Memref.whole cc0_scratch1
abbrev xsM : Memref sig .tc .vmem S8x512x256 .bf16 := Memref.whole cc0_scratch2
abbrev xrM : Memref sig .tc .vmem S8x512x256 .bf16 := Memref.whole cc0_scratch3

/-- Slot `k` of a slotted buffer: the rectangle `[k, 0..511, 0..255]`. -/
abbrev slotOff (k : Fin 8) : Fin 3 → Nat := ![k.val, 0, 0]
theorem slot_inb : ∀ (k : Fin 8) a, slotOff k a + S1x512x256.size a ≤ S8x512x256.size a := by decide
abbrev slotR (k : Fin 8) : Rect S8x512x256 := Rect.unit (s := S8x512x256) (slotOff k) S1x512x256.size (slot_inb k)
/-- The slot as the transfers name it: the slice, without its leading unit axis. -/
abbrev slotOf (M : Memref sig .tc .vmem S8x512x256 .bf16) (k : Fin 8) : Memref sig .tc .vmem S512x256 .bf16 :=
  (M.slice (slotR k) (fun _ => rfl)).squeeze S512x256 squeezes_S1x512x256_S512x256

/-- What a transfer of one slot credits. -/
abbrev Ncr : ℕ := (slotOf ysM 0).view.dmaCredit
theorem Ncr_pos : 0 < Ncr := View.dmaCredit_pos _ (by decide)

theorem mem_slot {k : Fin 8} {i : S8x512x256.Idx} : i ∈ (slotR k).set ↔ (i 0).val = k.val := by
  rw [Rect.mem_set_unit]
  constructor
  · intro h
    have h0 := h 0
    simp only [slotOff, Matrix.cons_val_zero] at h0
    have := h0.1; have := h0.2; omega
  · intro h0 a
    fin_cases a
    · simp only [slotOff]; exact ⟨by simpa using h0.ge, by simp; omega⟩
    · exact ⟨Nat.zero_le _, by have := (i 1).isLt; simpa using this⟩
    · exact ⟨Nat.zero_le _, by have := (i 2).isLt; simpa using this⟩

theorem slot_disjoint (a b : Fin 8) (h : a ≠ b) : Disjoint (slotR a).set (slotR b).set := by
  rw [Finset.disjoint_left]
  intro i hi hi'
  exact h (Fin.ext ((mem_slot.mp hi).symm.trans (mem_slot.mp hi')))

theorem slot_cover : (Finset.univ : Finset (Fin 8)).biUnion (fun k => (slotR k).set) = Finset.univ := by
  ext i
  simp only [Finset.mem_biUnion, Finset.mem_univ, true_and, iff_true]
  exact ⟨⟨(i 0).val, (i 0).isLt⟩, mem_slot.mpr rfl⟩

/-! ## The cells -/

abbrev barS : Sem sig := (SemArray.scalar (sig.barrier 0 rfl) : Sems sig S_).sem
/-- DMA semaphore `k` of family `a`. -/
abbrev qS (a : Fin 4) (k : Fin 8) : DmaSem sig :=
  ⟨3 + 8 * a.val + k.val, Nat.lt_of_lt_of_le (show 3 + 8 * a.val + k.val < 35 by have := a.isLt; have := k.isLt; omega) (by decide)⟩

abbrev barCell (c : Dev nD) : GSem nD τ sig := ((c : Thread nD τ), .reg barS)
abbrev qCell (a : Fin 4) (k : Fin 8) (c : Dev nD) : GSem nD τ sig := ((c : Thread nD τ), .dma (qS a k))

/-! ## The schedule -/

/-- A slot held whole, at the full share, over some contents. -/
def slotAny (M : Memref sig .tc .vmem S8x512x256 .bf16) (c : Dev nD) (k : Fin 8) : sProp 𝕄 :=
  iprop(∃ f, (slotOf M k).view.loc (c : Thread nD τ) ↦[(slotOf M k).view.set]{fullShare} f)
/-- A slot held whole that reads, through the transfers' view, as the tile `v` without its leading unit axis. -/
def slotIs (M : Memref sig .tc .vmem S8x512x256 .bf16) (c : Dev nD) (k : Fin 8) (v : FVec F S1x512x256 .bf16) : sProp 𝕄 :=
  iprop(∃ f, ((slotOf M k).view.loc (c : Thread nD τ) ↦[(slotOf M k).view.set]{fullShare} f)
    ∗ ⌜(slotOf M k).view.read (Elt F) f = shapeCast S512x256 v shapeCasts_S1x512x256_S512x256⌝)

/-- The eight receive slots of a buffer, each over some contents. -/
def slotsAny (M : Memref sig .tc .vmem S8x512x256 .bf16) (c : Dev nD) : sProp 𝕄 :=
  bigSep Finset.univ fun k : Fin 8 => slotAny (F := F) M c k

/-- What the one duty of DMA cell (family `a`, chunk `k`) of device `c` hands `c`. -/
def payQ (c : Dev nD) (a : Fin 4) (k : Fin 8) : sProp 𝕄 :=
  match a with
  | 0 => slotAny ysM c k
  | 1 => slotIs yrM c k (partY m (pY c) k)
  | 2 => slotAny xsM c k
  | 3 => slotIs xrM c k (partX m (pX c) k)

abbrev IsBar (g : GSem nD τ sig) : Prop := g.1.2 = .tc ∧ g.2 = .reg barS
abbrev IsXfer (g : GSem nD τ sig) : Prop := g.1.2 = .tc ∧ ∃ q : DmaSem sig, g.2 = .dma q ∧ 3 ≤ q.val

def sched : Rounds.Schedule (GSem nD τ sig) Bool 𝕄 where
  duties g r := if r = 0 ∧ IsBar g then Finset.univ else if r = 0 ∧ IsXfer g then {false} else ∅
  unitless _ := False
  amount g _ _ := if g.2 = .reg barS then 1 else Ncr
  payload g _ d :=
    match g.2 with
    | .reg _ => if d then slotsAny yrM (pY g.1.1) else slotsAny xrM (pX g.1.1)
    | .dma q => if h : 3 ≤ q.val then
        payQ m g.1.1 ⟨(q.val - 3) / 8, by have := q.isLt; have h35 : sig.nDmaSem = 35 := rfl; omega⟩ ⟨(q.val - 3) % 8, Nat.mod_lt _ (by decide)⟩
      else iprop(emp)
  amount_pos g _ _ _ := by
    by_cases h : g.2 = .reg barS
    · rw [if_pos h]; exact Nat.one_pos
    · rw [if_neg h]; exact Ncr_pos

instance payQ_storable (c : Dev nD) (a : Fin 4) (k : Fin 8) : BI.Storable (upEmb : UEmb _ 𝕄) (payQ (F := F) m c a k) := by
  unfold payQ slotAny slotIs
  fin_cases a <;> infer_instance

instance slotsAny_storable (M : Memref sig .tc .vmem S8x512x256 .bf16) (c : Dev nD) : BI.Storable (upEmb : UEmb _ 𝕄) (slotsAny (F := F) M c) := by
  unfold slotsAny slotAny; infer_instance

instance sched_payload_storable (g : GSem nD τ sig) (r : ℕ) (d : Bool) :
    BI.Storable (upEmb : UEmb _ 𝕄) ((sched (F := F) m).payload g r d) := by
  obtain ⟨t, s⟩ := g
  cases s with
  | reg s => dsimp only [sched]; split <;> infer_instance
  | dma q => dsimp only [sched]; split <;> infer_instance

section Tables
variable (c : Dev nD) (a : Fin 4) (k : Fin 8)

theorem q_ne_bar : (SemLoc.dma (qS a k) : SemLoc sig) ≠ .reg barS := fun h => by cases h
theorem qS_ge : 3 ≤ (qS a k).val := Nat.le_add_right_of_le (Nat.le_add_right 3 _)
theorem qS_fam : (⟨((qS a k).val - 3) / 8, by have := (qS a k).isLt; have h35 : sig.nDmaSem = 35 := rfl; omega⟩ : Fin 4) = a :=
  Fin.ext (by show (3 + 8 * a.val + k.val - 3) / 8 = a.val; have := k.isLt; omega)
theorem qS_chunk : (⟨((qS a k).val - 3) % 8, Nat.mod_lt _ (by decide)⟩ : Fin 8) = k :=
  Fin.ext (by show (3 + 8 * a.val + k.val - 3) % 8 = k.val; have := k.isLt; omega)
theorem not_bar_q : ¬ IsBar (qCell a k c) := fun h => q_ne_bar a k h.2
theorem xfer_q : IsXfer (qCell a k c) := ⟨rfl, qS a k, rfl, qS_ge a k⟩

theorem duties_bar : (sched (F := F) m).duties (barCell c) 0 = Finset.univ := by dsimp only [sched]; exact if_pos ⟨rfl, rfl, rfl⟩
theorem duties_q : (sched (F := F) m).duties (qCell a k c) 0 = {false} := by
  dsimp only [sched]; rw [if_neg (fun h => not_bar_q c a k h.2)]; exact if_pos ⟨rfl, xfer_q c a k⟩
theorem duties_later (g : GSem nD τ sig) : ∀ r, 1 ≤ r → (sched (F := F) m).duties g r = ∅ :=
  fun r hr => by dsimp only [sched]; rw [if_neg fun h => by omega, if_neg fun h => by omega]

theorem amount_bar (d : Bool) : (sched (F := F) m).amount (barCell c) 0 d = 1 := by dsimp only [sched]; exact if_pos rfl
theorem amount_q (d : Bool) : (sched (F := F) m).amount (qCell a k c) 0 d = Ncr := by dsimp only [sched]; exact if_neg (q_ne_bar a k)

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_q : (sched (F := F) m).expect (qCell a k c) 0 = Ncr := by
  unfold Schedule.expect Schedule.amountOf; rw [duties_q, Finset.sum_singleton, amount_q]

theorem payload_bar_true : (sched (F := F) m).payload (barCell c) 0 true = slotsAny yrM (pY c) := by dsimp only [sched]; rfl
theorem payload_bar_false : (sched (F := F) m).payload (barCell c) 0 false = slotsAny xrM (pX c) := by dsimp only [sched]; rfl
theorem payload_q (d : Bool) : (sched (F := F) m).payload (qCell a k c) 0 d = payQ m c a k := by
  dsimp only [sched]; rw [dif_pos (qS_ge a k), qS_fam, qS_chunk]

/-- The rest of the barrier cell's round, no duty taken: both neighbours' receive slots. -/
theorem rest_bar : bigSep ((sched (F := F) m).duties (barCell c) 0 \ ∅) (fun d => (sched (F := F) m).payload (barCell c) 0 d)
    = iprop(slotsAny xrM (pX c) ∗ slotsAny yrM (pY c)) := by
  rw [Finset.sdiff_empty, duties_bar, bigSep_univ_eq_bigSepL [false, true] (by decide) (by decide), bigSepL_cons_cons, bigSepL_singleton,
    payload_bar_false, payload_bar_true]
  rfl
theorem rest_q : bigSep ((sched (F := F) m).duties (qCell a k c) 0 \ ∅) (fun d => (sched (F := F) m).payload (qCell a k c) 0 d) = payQ m c a k := by
  rw [Finset.sdiff_empty, duties_q, bigSep_singleton, payload_q]

end Tables

/-! ## What each device owes at launch; the levels -/

/-- The arrival of chunk `k` that device `c` owes its y-neighbour's receive cell, and its x-neighbour's. -/
def tY (c : Dev nD) (k : Fin 8) : CellTallies nD τ sig Unit := tallyAt (qCell 1 k (pY c)) () Ncr
def tX (c : Dev nD) (k : Fin 8) : CellTallies nD τ sig Unit := tallyAt (qCell 3 k (pX c)) () Ncr

/-- The tallies of chunks `n, n+1, …, 7`, summed so that chunk `n`'s is the last summand. -/
def owedFrom (t : Fin 8 → CellTallies nD τ sig Unit) : ℕ → CellTallies nD τ sig Unit
  | n => if h : n < 8 then owedFrom t (n + 1) + t ⟨n, h⟩ else 0
termination_by n => 8 - n

theorem owedFrom_step (t : Fin 8 → CellTallies nD τ sig Unit) (n : ℕ) (h : n < 8) : owedFrom t n = owedFrom t (n + 1) + t ⟨n, h⟩ := by
  rw [owedFrom, dif_pos h]
theorem owedFrom_end (t : Fin 8 → CellTallies nD τ sig Unit) (n : ℕ) (h : 8 ≤ n) : owedFrom t n = 0 := by
  rw [owedFrom, dif_neg (by omega)]

theorem owedFrom_pos (t : Fin 8 → CellTallies nD τ sig Unit) (g : GSem nD τ sig) (u : Unit) :
    ∀ (j n : ℕ), 8 - n = j → 0 < owedFrom t n g u → ∃ k : Fin 8, n ≤ k.val ∧ 0 < t k g u := by
  intro j
  induction j with
  | zero => intro n hn h; rw [owedFrom_end t n (by omega)] at h; exact absurd h (Nat.lt_irrefl 0)
  | succ j ih =>
    intro n hn h
    have hlt : n < 8 := by omega
    rw [owedFrom_step t n hlt, Pi.add_apply, Finsupp.add_apply] at h
    rcases Nat.add_pos_iff_pos_or_pos.mp h with h1 | h2
    · obtain ⟨k, hk, hp⟩ := ih (n + 1) (by omega) h1
      exact ⟨k, by omega, hp⟩
    · exact ⟨⟨n, hlt⟩, le_refl _, h2⟩

/-- Before anything is sent, device `c` owes: every arrival at its x-neighbour, every arrival at its y-neighbour, and one
    unit to each neighbour's barrier cell (the x-neighbour's is signalled first: the last summand). -/
def Oxy (c : Dev nD) (i j : ℕ) : CellTallies nD τ sig Unit := owedFrom (tX c) i + owedFrom (tY c) j
def O₁ (c : Dev nD) : CellTallies nD τ sig Unit := Oxy c 0 0 + tallyAt (barCell (pY c)) () 1
def O₀ (c : Dev nD) : CellTallies nD τ sig Unit := O₁ c + tallyAt (barCell (pX c)) () 1

def L (g : GSem nD τ sig) : Finset Unit := if g.1.2 = .tc then {()} else ∅
/-- Staging and send cells at 0, the barrier at 1, the y receive cells at 2, the x receive cells at 3. -/
def lv (g : GSem nD τ sig) (_ : Unit) : ℕ :=
  match g.2 with
  | .reg _ => 1
  | .dma q => if 27 ≤ q.val then 3 else if 11 ≤ q.val ∧ q.val < 19 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_q0 (c : Dev nD) (k : Fin 8) (u : Unit) : lv (qCell 0 k c) u = 0 := by
  show (if 27 ≤ 3 + 8 * 0 + k.val then 3 else if 11 ≤ 3 + 8 * 0 + k.val ∧ 3 + 8 * 0 + k.val < 19 then 2 else 0) = 0
  have := k.isLt; rw [if_neg (by omega), if_neg (by omega)]
theorem lv_q1 (c : Dev nD) (k : Fin 8) (u : Unit) : lv (qCell 1 k c) u = 2 := by
  show (if 27 ≤ 3 + 8 * 1 + k.val then 3 else if 11 ≤ 3 + 8 * 1 + k.val ∧ 3 + 8 * 1 + k.val < 19 then 2 else 0) = 2
  have := k.isLt; rw [if_neg (by omega), if_pos (by omega)]
theorem lv_q2 (c : Dev nD) (k : Fin 8) (u : Unit) : lv (qCell 2 k c) u = 0 := by
  show (if 27 ≤ 3 + 8 * 2 + k.val then 3 else if 11 ≤ 3 + 8 * 2 + k.val ∧ 3 + 8 * 2 + k.val < 19 then 2 else 0) = 0
  have := k.isLt; rw [if_neg (by omega), if_neg (by omega)]
theorem lv_q3 (c : Dev nD) (k : Fin 8) (u : Unit) : lv (qCell 3 k c) u = 3 := by
  show (if 27 ≤ 3 + 8 * 3 + k.val then 3 else if 11 ≤ 3 + 8 * 3 + k.val ∧ 3 + 8 * 3 + k.val < 19 then 2 else 0) = 3
  have := k.isLt; rw [if_pos (by omega)]

theorem tX_pos {c : Dev nD} {k : Fin 8} {g : GSem nD τ sig} {u : Unit} (h : 0 < tX c k g u) : g = qCell 3 k (pX c) := by
  unfold tX at h; rw [tallyAt_apply] at h
  by_contra hn; rw [if_neg (fun h' => hn h'.1)] at h; exact Nat.lt_irrefl 0 h
theorem tY_pos {c : Dev nD} {k : Fin 8} {g : GSem nD τ sig} {u : Unit} (h : 0 < tY c k g u) : g = qCell 1 k (pY c) := by
  unfold tY at h; rw [tallyAt_apply] at h
  by_contra hn; rw [if_neg (fun h' => hn h'.1)] at h; exact Nat.lt_irrefl 0 h
theorem bar_pos {d : Dev nD} {g : GSem nD τ sig} {u : Unit} (h : 0 < tallyAt (barCell d) () 1 g u) : g = barCell d := by
  rw [tallyAt_apply] at h
  by_contra hn; rw [if_neg (fun h' => hn h'.1)] at h; exact Nat.lt_irrefl 0 h

/-- What is still owed once `i` chunks have gone to the x-neighbour and `j` to the y-neighbour sits on receive cells:
    x receive cells, and y receive cells unless every y chunk is sent. -/
theorem Oxy_pos {c : Dev nD} {i j : ℕ} {g : GSem nD τ sig} {u : Unit} (h : 0 < Oxy c i j g u) :
    (∃ k, g = qCell 3 k (pX c)) ∨ (j < 8 ∧ ∃ k, g = qCell 1 k (pY c)) := by
  unfold Oxy at h
  rw [Pi.add_apply, Finsupp.add_apply] at h
  rcases Nat.add_pos_iff_pos_or_pos.mp h with h1 | h2
  · obtain ⟨k, _, hp⟩ := owedFrom_pos (tX c) g u _ i rfl h1
    exact .inl ⟨k, tX_pos hp⟩
  · obtain ⟨k, hk, hp⟩ := owedFrom_pos (tY c) g u _ j rfl h2
    exact .inr ⟨by have := k.isLt; omega, k, tY_pos hp⟩

/-- A wait at level at most `b` while everything owed sits on TensorCore cells strictly above `b`. -/
theorem mayWait_cut (c : Dev nD) (sm : SemLoc sig) (b : ℕ) (O : CellTallies nD τ sig Unit)
    (hw : lv ((c : Thread nD τ), sm) () ≤ b) (hO : ∀ g u, 0 < O g u → g.1.2 = .tc ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hw)
    (fun g u hg => (hO g u hg).2)

theorem Oxy_above {c : Dev nD} {i j : ℕ} (b : ℕ) (hb : b < 2 ∨ (b < 3 ∧ 8 ≤ j)) :
    ∀ g u, 0 < Oxy c i j g u → g.1.2 = .tc ∧ b < lv g u := by
  intro g u h
  rcases Oxy_pos h with ⟨k, rfl⟩ | ⟨hj, k, rfl⟩
  · exact ⟨rfl, by rw [lv_q3]; omega⟩
  · exact ⟨rfl, by rw [lv_q1]; omega⟩

end Cert.KernelIdealProof

end
-- ==== Proof.KernelIdeal.OutAt.lean ====
/-
  What one device leaves in its result block, entry by entry: column `q` of the 4096 lies in column half `q / 2048`,
  chunk `(q % 2048) / 256`, at position `q % 256` of the chunk. The device's own column half holds its row sums, the other
  half what its neighbour along the first mesh axis computed and sent.
-/
import proofs.«900475_g7700000000000476_dist_rsdw_v7x_xy2x2_y_m1024_d1024_f4096_bf16_1_alg».proof.Proof.KernelIdeal.Vals

noncomputable section

namespace Cert.KernelIdeal.Vals

open Cert.KernelIdeal Cert.KernelIdeal.Gen
open Idealize.ShloMosaic Idealize.ShloMosaic.TcCoe Idealize.SL.Sem

variable {F : FTy → Type} [FloatOps F]

/-- The chunk a column of the result block lies in. -/
def chunkOf (q : Fin 4096) : Fin 8 := ⟨(q.val % 2048) / 256, by omega⟩

/-- The column's position inside its chunk. -/
def posOf (q : Fin 4096) : Fin 256 := ⟨q.val % 256, Nat.mod_lt _ (by decide)⟩

/-- A row and a position of a chunk as an index of a 512 x 256 tile. -/
def tileIx (p : Fin 512) (j : Fin 256) : S512x256.Idx :=
  fun a => match a with
    | ⟨0, _⟩ => p
    | ⟨1, _⟩ => j

variable (m : (ℓ : Loc nD τ sig) → Buf (Elt F) ℓ)

/-- Device `c`'s result block: entry `(p, q)` is the row sum of chunk `chunkOf q` where `q` lies in the device's own
    column half, and what the neighbour along the first mesh axis sent for that chunk in the other half. -/
def outAt (c : Dev nD) : (cc0_stg2_0 : Ref sig .tc).ty.Contents (Elt F) :=
  fun i =>
    let p : Fin 512 := ⟨(i 0).val, (i 0).isLt⟩
    let q : Fin 4096 := ⟨(i 1).val, (i 1).isLt⟩
    if q.val / 2048 = c.val / 2 then rowSum m c (chunkOf q) (tileIx p (posOf q))
    else fromX m c (chunkOf q) (tileIx p (posOf q))

theorem outAt_apply (c : Dev nD) (i : S512x4096.Idx) :
    outAt m c i =
      if (i 1).val / 2048 = c.val / 2
      then rowSum m c (chunkOf ⟨(i 1).val, (i 1).isLt⟩) (tileIx ⟨(i 0).val, (i 0).isLt⟩ (posOf ⟨(i 1).val, (i 1).isLt⟩))
      else fromX m c (chunkOf ⟨(i 1).val, (i 1).isLt⟩) (tileIx ⟨(i 0).val, (i 0).isLt⟩ (posOf ⟨(i 1).val, (i 1).isLt⟩)) := rfl

/-- In the device's own column half. -/
theorem outAt_own (c : Dev nD) (i : S512x4096.Idx) (h : (i 1).val / 2048 = c.val / 2) :
    outAt m c i = rowSum m c (chunkOf ⟨(i 1).val, (i 1).isLt⟩) (tileIx ⟨(i 0).val, (i 0).isLt⟩ (posOf ⟨(i 1).val, (i 1).isLt⟩)) := by
  rw [outAt_apply, if_pos h]

/-- In the other column half. -/
theorem outAt_other (c : Dev nD) (i : S512x4096.Idx) (h : ¬ (i 1).val / 2048 = c.val / 2) :
    outAt m c i = fromX m c (chunkOf ⟨(i 1).val, (i 1).isLt⟩) (tileIx ⟨(i 0).val, (i 0).isLt⟩ (posOf ⟨(i 1).val, (i 1).isLt⟩)) := by
  rw [outAt_apply, if_neg h]

/-- A column is its half, chunk and position put together. -/
theorem col_eq (q : Fin 4096) : q.val = 2048 * (q.val / 2048) + 256 * (chunkOf q).val + (posOf q).val := by
  show q.val = 2048 * (q.val / 2048) + 256 * ((q.val % 2048) / 256) + q.val % 256
  omega

end Cert.KernelIdeal.Vals

end
-- ==== Proof.KernelIdeal.Ghost.lean ====
/-
  What one device holds while it runs, and the pipeline's proof data.

  Handed to every device: the invariant of every cell of every device and the fact that round 0 of each is reached (both
  persistent). Kept by device `c` alone: its position (round 0, nothing taken) on each of its 33 cells; the one-shot tokens
  of the duties IT pays — one unit on each neighbour's barrier cell, the departure of each of its own sixteen transfers and
  their arrival at the neighbour —; the credit for what others owe its cells — two barrier units, a slot's credit on each of
  its sixteen receive cells —; and its four slotted scratch buffers.
-/
import proofs.«900475_g7700000000000476_dist_rsdw_v7x_xy2x2_y_m1024_d1024_f4096_bf16_1_alg».proof.Proof.KernelIdeal.Proto
import proofs.«900475_g7700000000000476_dist_rsdw_v7x_xy2x2_y_m1024_d1024_f4096_bf16_1_alg».proof.Proof.KernelIdeal.OutAt

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

abbrev 𝒱₀ : Variants := Variants.none

/-! ## A device's own cells, indexed -/

/-- `none` is the barrier cell, `some (a, k)` DMA cell `k` of family `a`. -/
abbrev CIx : Type := Option (Fin 4 × Fin 8)
abbrev csem : CIx → SemLoc sig
  | none => .reg barS
  | some ak => .dma (qS ak.1 ak.2)
abbrev kcell (ck : Dev nD × CIx) : GSem nD τ sig := ((ck.1 : Thread nD τ), csem ck.2)
/-- The kernel's OWN (scoped) semaphores: the 32 DMA semaphores. -/
abbrev osem : Fin 4 × Fin 8 → SemLoc sig := fun ak => .dma (qS ak.1 ak.2)

/-! ## The ghost state -/

def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records m K) := by unfold records; infer_instance

/-- The tokens of the duties device `c` pays. -/
def payToks (c : Dev nD) : sProp 𝕄 :=
  iprop(dutyTok ER (barCell (pX c)) 0 false ∗ dutyTok ER (barCell (pY c)) 0 true
    ∗ (bigSep Finset.univ fun k : Fin 8 => dutyTok ER (qCell 0 k c) 0 false)
    ∗ (bigSep Finset.univ fun k : Fin 8 => dutyTok ER (qCell 1 k (pY c)) 0 false)
    ∗ (bigSep Finset.univ fun k : Fin 8 => dutyTok ER (qCell 2 k c) 0 false)
    ∗ (bigSep Finset.univ fun k : Fin 8 => dutyTok ER (qCell 3 k (pX c)) 0 false))

/-- Device `c`'s positions on its own cells. -/
def positions (c : Dev nD) : sProp 𝕄 :=
  iprop(atPos ER (barCell c) 0 ∅ 0 ∗ bigSep Finset.univ fun ak : Fin 4 × Fin 8 => atPos ER (qCell ak.1 ak.2 c) 0 ∅ 0)

def ghost (K : Dev nD × CIx → ℕ) (c : Dev nD) : sProp 𝕄 := iprop(records m K ∗ positions c ∗ payToks c)

/-- The credit for what the neighbours owe device `c`'s cells. -/
def creds (c : Dev nD) : sProp 𝕄 :=
  iprop(cred (tallyAt (barCell c) () 2)
    ∗ (bigSep Finset.univ fun k : Fin 8 => cred (tallyAt (qCell 1 k c) () Ncr))
    ∗ (bigSep Finset.univ fun k : Fin 8 => cred (tallyAt (qCell 3 k c) () Ncr)))

def start (c : Dev nD) : sProp 𝕄 := iprop((∃ K, ghost m K c) ∗ creds c ∗ levAts L lv)

/-- The four slotted scratch buffers, each whole over some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch c)
/-- After the body: the scratch buffers back whole, the 32 own cells at zero, closed. -/
def Φ₁ (c : Dev nD) : sProp 𝕄 :=
  iprop(scratch c ∗ bigSep Finset.univ fun ak : Fin 4 × Fin 8 => semVal (qCell ak.1 ak.2 c) 0)

/-! ## The pipeline's proof data -/

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => stgA m c
    | ⟨1, _⟩ => stgB m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdealProof

end
-- ==== Proof.KernelIdeal.Launch.lean ====
/-
  The launch: what every device is dealt before its body runs — the invariants of all cells, its positions, the tokens of
  the duties it pays, the credit for what its neighbours owe its cells — and the run of the whole mesh from the bodies.
-/
import proofs.«900475_g7700000000000476_dist_rsdw_v7x_xy2x2_y_m1024_d1024_f4096_bf16_1_alg».proof.Proof.KernelIdeal.Ghost

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens, enumerated -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CIx → SemLoc sig) := by
  intro i i' h
  cases i with
  | none =>
    cases i' with
    | none => rfl
    | some ak => exact absurd h (by intro h'; cases h')
  | some ak =>
    cases i' with
    | none => exact absurd h (by intro h'; cases h')
    | some ak' =>
      obtain ⟨a, k⟩ := ak
      obtain ⟨a', k'⟩ := ak'
      have hq : qS a k = qS a' k' := SemLoc.dma.inj h
      have hv : 3 + 8 * a.val + k.val = 3 + 8 * a'.val + k'.val := congrArg Fin.val hq
      have ha : a = a' := Fin.ext (by have := k.isLt; have := k'.isLt; omega)
      have hk : k = k' := Fin.ext (by have := congrArg Fin.val ha; omega)
      subst ha; subst hk; rfl

theorem kcell_injective : Function.Injective (kcell : Dev nD × CIx → GSem nD τ sig) := by
  rintro ⟨c, i⟩ ⟨c', i'⟩ h
  have h1 : c = c' := by have := congrArg (fun g : GSem nD τ sig => g.1.1) h; exact this
  subst h1
  have h2 : csem i = csem i' := congrArg Prod.snd h
  have := csem_injective h2
  subst this; rfl

def protoCells : Finset (GSem nD τ sig) := Finset.univ.map ⟨kcell, kcell_injective⟩

/-- A device's own cells' duty tokens as minted: its barrier cell's two, and the one of each of its 32 transfer cells. -/
abbrev TIx : Type := Bool ⊕ (Fin 4 × Fin 8)
abbrev tokOf (cj : Dev nD × TIx) : GSem nD τ sig × ℕ × Bool := match cj.2 with
  | .inl d => (barCell cj.1, 0, d)
  | .inr ak => (qCell ak.1 ak.2 cj.1, 0, false)

theorem tokOf_injective : Function.Injective (tokOf : Dev nD × TIx → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  have : j = j' := by
    cases j with
    | inl d =>
      cases j' with
      | inl d' => exact congrArg Sum.inl (congrArg (fun x : GSem nD τ sig × ℕ × Bool => x.2.2) h)
      | inr ak' => exact absurd (congrArg (fun x : GSem nD τ sig × ℕ × Bool => x.1.2) h) (by intro h'; cases h')
    | inr ak =>
      cases j' with
      | inl d' => exact absurd (congrArg (fun x : GSem nD τ sig × ℕ × Bool => x.1.2) h) (by intro h'; cases h')
      | inr ak' =>
        have h2 : csem (some ak) = csem (some ak') := congrArg (fun x : GSem nD τ sig × ℕ × Bool => x.1.2) h
        exact congrArg Sum.inr (Option.some.inj (csem_injective h2))
  subst this; rfl

def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The duty tokens of one family of device `c`'s transfer cells. -/
def tokQ (a : Fin 4) (c : Dev nD) : sProp 𝕄 := bigSep Finset.univ fun k : Fin 8 => dutyTok ER (qCell a k c) 0 false

/-- The duty tokens of device `c`'s own cells. -/
def toks (c : Dev nD) : sProp 𝕄 :=
  iprop((dutyTok ER (barCell c) 0 false ∗ dutyTok ER (barCell c) 0 true)
    ∗ bigSep Finset.univ fun ak : Fin 4 × Fin 8 => dutyTok ER (qCell ak.1 ak.2 c) 0 false)

/-- What the launch element deals device `c`. -/
def G (c : Dev nD) : sProp 𝕄 :=
  iprop((bigSep Finset.univ fun i : CIx => roundState ER (sched m) (kcell (c, i)) 0)
    ∗ (bigSep Finset.univ fun i : CIx => iprop(atPos ER (kcell (c, i)) 0 ∅ 0 ∗ reached ER (kcell (c, i)) 0)) ∗ toks c)

/-- What the global step makes of it. -/
def G' (c : Dev nD) : sProp 𝕄 := iprop(∃ K, ghost m K c)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

/-- A `bigSep` over an optional index: the summand at `none`, then the others. -/
theorem bigSep_option {α : Type} [Fintype α] [DecidableEq α] (Φ : Option α → sProp 𝕄) :
    bigSep Finset.univ Φ = iprop(Φ none ∗ bigSep Finset.univ fun a => Φ (some a)) := by
  have h : (Finset.univ : Finset (Option α)) = insert none (Finset.univ.map Function.Embedding.some) := by
    ext x; cases x <;> simp
  rw [h, bigSep_insert (by simp), bigSep_map]; rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun i : CIx => Φ (kcell (c, i)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_bool]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The 32 transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 8 => semVal (qCell ak.1 ak.2 c) 0 := rfl

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 := iprop(positions c ∗ payToks c)

theorem ghost_intro (K : Dev nD × CIx → ℕ) (c : Dev nD) : iprop(records m K ∗ linear c) ⊢ G' m c := by
  unfold linear G' ghost
  iintro ⟨#HR, Hp, Ht⟩
  iexists K
  isplitr; · iexact HR
  isplitl [Hp]; · iexact Hp
  iexact Ht

theorem toks_eq (c : Dev nD) :
    (toks c : sProp 𝕄) = iprop((dutyTok ER (barCell c) 0 false ∗ dutyTok ER (barCell c) 0 true) ∗ tokQ 0 c ∗ tokQ 1 c ∗ tokQ 2 c ∗ tokQ 3 c) := by
  unfold toks tokQ; rw [bigSep_univ_prod, bigSep_fin4]

theorem payToks_eq (c : Dev nD) :
    (payToks c : sProp 𝕄) = iprop(dutyTok ER (barCell (pX c)) 0 false ∗ dutyTok ER (barCell (pY c)) 0 true
      ∗ tokQ 0 c ∗ tokQ 1 (pY c) ∗ tokQ 2 c ∗ tokQ 3 (pX c)) := rfl

def eX : Dev nD ≃ Dev nD := ⟨pX, pX, pX_pX, pX_pX⟩
def eY : Dev nD ≃ Dev nD := ⟨pY, pY, pY_pY, pY_pY⟩

/-- The tokens dealt to their payers: a barrier cell's two go to the two neighbours, an arrival's token to the neighbour
    that sends it. -/
theorem toks_around : (bigSep Finset.univ fun c : Dev nD => (toks c : sProp 𝕄)) ⊢ bigSep Finset.univ fun c : Dev nD => payToks c := by
  have hL : (bigSep Finset.univ fun c : Dev nD => (toks c : sProp 𝕄))
      = iprop(((bigSep Finset.univ fun c : Dev nD => dutyTok ER (barCell c) 0 false) ∗ (bigSep Finset.univ fun c : Dev nD => dutyTok ER (barCell c) 0 true))
        ∗ (bigSep Finset.univ fun c : Dev nD => tokQ 0 c) ∗ (bigSep Finset.univ fun c : Dev nD => tokQ 1 c)
        ∗ (bigSep Finset.univ fun c : Dev nD => tokQ 2 c) ∗ (bigSep Finset.univ fun c : Dev nD => tokQ 3 c)) := by
    rw [bigSep_congr (fun c _ => toks_eq (F := F) c)]
    simp only [bigSep_sep']
  have hR : (bigSep Finset.univ fun c : Dev nD => (payToks c : sProp 𝕄))
      = iprop((bigSep Finset.univ fun c : Dev nD => dutyTok ER (barCell (pX c)) 0 false) ∗ (bigSep Finset.univ fun c : Dev nD => dutyTok ER (barCell (pY c)) 0 true)
        ∗ (bigSep Finset.univ fun c : Dev nD => tokQ 0 c) ∗ (bigSep Finset.univ fun c : Dev nD => tokQ 1 (pY c))
        ∗ (bigSep Finset.univ fun c : Dev nD => tokQ 2 c) ∗ (bigSep Finset.univ fun c : Dev nD => tokQ 3 (pX c))) := by
    rw [bigSep_congr (fun c _ => payToks_eq (F := F) c)]
    simp only [bigSep_sep']
  rw [hL, hR,
    bigSep_univ_equiv eX (fun c : Dev nD => (dutyTok ER (barCell c) 0 false : sProp 𝕄)),
    bigSep_univ_equiv eY (fun c : Dev nD => (dutyTok ER (barCell c) 0 true : sProp 𝕄)),
    bigSep_univ_equiv eY (fun c : Dev nD => (tokQ 1 c : sProp 𝕄)),
    bigSep_univ_equiv eX (fun c : Dev nD => (tokQ 3 c : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem positions_eq (c : Dev nD) : (bigSep Finset.univ fun i : CIx => (atPos ER (kcell (c, i)) 0 ∅ 0 : sProp 𝕄)) = positions c := by
  unfold positions; rw [bigSep_option]

theorem regroup :
    (bigSep Finset.univ fun c : Dev nD => iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CIx => (atPos ER (kcell (c, i)) 0 ∅ 0 : sProp 𝕄)) payToks).symm).trans
      (bigSep_mono fun c _ => show _ ⊢ linear c from Entails.of_eq (by unfold linear; rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩

theorem q_eq_iff {a a' : Fin 4} {k k' : Fin 8} {c c' : Dev nD} : Iff (qCell a k c = qCell a' k' c') (c = c' ∧ a = a' ∧ k = k') := by
  constructor
  · intro h
    have hc : c = c' := Fin.ext (congrArg (fun g : GSem nD τ sig => g.1.1.val) h)
    have hs : csem (some (a, k)) = csem (some (a', k')) := congrArg Prod.snd h
    have := Option.some.inj (csem_injective hs)
    exact ⟨hc, congrArg Prod.fst this, congrArg Prod.snd this⟩
  · rintro ⟨rfl, rfl, rfl⟩; rfl

theorem q_ne_barCell {a : Fin 4} {k : Fin 8} {c c' : Dev nD} : qCell a k c ≠ barCell c' :=
  fun h => q_ne_bar a k (congrArg Prod.snd h)

theorem pX_eq_iff {c d : Dev nD} : Iff (c = pX d) (d = pX c) :=
  ⟨fun h => by rw [h, pX_pX], fun h => by rw [h, pX_pX]⟩
theorem pY_eq_iff {c d : Dev nD} : Iff (c = pY d) (d = pY c) :=
  ⟨fun h => by rw [h, pY_pY], fun h => by rw [h, pY_pY]⟩

/-- The tallies of chunks `n ..` at a cell and index: the sum of the chunks' own. -/
theorem owedFrom_apply (t : Fin 8 → CellTallies nD τ sig Unit) (g : GSem nD τ sig) (u : Unit) :
    ∀ (j n : ℕ), 8 - n = j → owedFrom t n g u = ∑ k : Fin 8, if n ≤ k.val then t k g u else 0 := by
  intro j
  induction j with
  | zero =>
    intro n hn
    rw [owedFrom_end t n (by omega)]
    exact (Finset.sum_eq_zero fun k _ => if_neg (by have := k.isLt; omega)).symm
  | succ j ih =>
    intro n hn
    have hlt : n < 8 := by omega
    rw [owedFrom_step t n hlt, Pi.add_apply, Finsupp.add_apply, ih (n + 1) (by omega)]
    have hk : ∀ k : Fin 8, (if n ≤ k.val then t k g u else 0) = (if n + 1 ≤ k.val then t k g u else 0) + (if k = ⟨n, hlt⟩ then t k g u else 0) := by
      intro k
      by_cases h1 : n + 1 ≤ k.val
      · rw [if_pos (by omega), if_pos h1, if_neg (fun h => by have := congrArg Fin.val h; simp only at this; omega), Nat.add_zero]
      · by_cases h2 : k = ⟨n, hlt⟩
        · rw [if_pos (by have := congrArg Fin.val h2; simp only at this; omega), if_neg h1, if_pos h2, Nat.zero_add]
        · have : ¬ n ≤ k.val := fun h => h2 (Fin.ext (by simp only; omega))
          rw [if_neg this, if_neg h1, if_neg h2]
    rw [Finset.sum_congr rfl fun k _ => hk k, Finset.sum_add_distrib, Finset.sum_ite_eq' Finset.univ (⟨n, hlt⟩ : Fin 8) fun k => t k g u,
      if_pos (Finset.mem_univ _)]

theorem owedFrom_zero_apply (t : Fin 8 → CellTallies nD τ sig Unit) (g : GSem nD τ sig) (u : Unit) :
    owedFrom t 0 g u = ∑ k : Fin 8, t k g u := by
  rw [owedFrom_apply t g u 8 0 rfl]
  exact Finset.sum_congr rfl fun k _ => if_pos (Nat.zero_le _)

theorem Oxy_bar (d c : Dev nD) : Oxy d 0 0 (barCell c) () = 0 := by
  refine Nat.eq_zero_of_not_pos fun h => ?_
  rcases Oxy_pos h with ⟨k, hk⟩ | ⟨_, k, hk⟩
  · exact q_ne_barCell hk.symm
  · exact q_ne_barCell hk.symm

/-- What device `d` owes device `c`'s barrier cell: a unit if it is `c`'s neighbour along the second axis, a unit if along the first. -/
theorem owed_bar (d c : Dev nD) : O₀ d (barCell c) () = (if d = pY c then 1 else 0) + (if d = pX c then 1 else 0) := by
  unfold O₀ O₁
  rw [Pi.add_apply, Finsupp.add_apply, Pi.add_apply, Finsupp.add_apply, Oxy_bar, Nat.zero_add, tallyAt_apply, tallyAt_apply]
  congr 1
  · by_cases h : d = pY c
    · rw [if_pos ⟨bar_eq_iff.mpr (pY_eq_iff.mp h), rfl⟩, if_pos h]
    · rw [if_neg (fun h' => h (pY_eq_iff.mp (bar_eq_iff.mp h'.1))), if_neg h]
  · by_cases h : d = pX c
    · rw [if_pos ⟨bar_eq_iff.mpr (pX_eq_iff.mp h), rfl⟩, if_pos h]
    · rw [if_neg (fun h' => h (pX_eq_iff.mp (bar_eq_iff.mp h'.1))), if_neg h]

theorem tY_at (d c : Dev nD) (k' k : Fin 8) : tY d k' (qCell 1 k c) () = if d = pY c ∧ k' = k then Ncr else 0 := by
  unfold tY; rw [tallyAt_apply]
  by_cases h : d = pY c ∧ k' = k
  · rw [if_pos h, if_pos ⟨q_eq_iff.mpr ⟨pY_eq_iff.mp h.1, rfl, h.2.symm⟩, rfl⟩]
  · rw [if_neg h, if_neg (fun h' => h (by obtain ⟨hc, _, hk⟩ := q_eq_iff.mp h'.1; exact ⟨pY_eq_iff.mp hc, hk.symm⟩))]
theorem tX_at (d c : Dev nD) (k' k : Fin 8) : tX d k' (qCell 3 k c) () = if d = pX c ∧ k' = k then Ncr else 0 := by
  unfold tX; rw [tallyAt_apply]
  by_cases h : d = pX c ∧ k' = k
  · rw [if_pos h, if_pos ⟨q_eq_iff.mpr ⟨pX_eq_iff.mp h.1, rfl, h.2.symm⟩, rfl⟩]
  · rw [if_neg h, if_neg (fun h' => h (by obtain ⟨hc, _, hk⟩ := q_eq_iff.mp h'.1; exact ⟨pX_eq_iff.mp hc, hk.symm⟩))]
theorem tY_at3 (d c : Dev nD) (k' k : Fin 8) : tY d k' (qCell 3 k c) () = 0 := by
  unfold tY; rw [tallyAt_apply, if_neg (fun h' => by have := (q_eq_iff.mp h'.1).2.1; exact absurd this (by decide))]
theorem tX_at1 (d c : Dev nD) (k' k : Fin 8) : tX d k' (qCell 1 k c) () = 0 := by
  unfold tX; rw [tallyAt_apply, if_neg (fun h' => by have := (q_eq_iff.mp h'.1).2.1; exact absurd this (by decide))]

theorem sum_pick (d' : Prop) [Decidable d'] (k : Fin 8) (n : ℕ) : (∑ k' : Fin 8, if d' ∧ k' = k then n else 0) = if d' then n else 0 := by
  by_cases h : d'
  · rw [if_pos h, Finset.sum_congr rfl fun k' _ => show (if d' ∧ k' = k then n else 0) = if k' = k then n else 0 from by
      by_cases hk : k' = k
      · rw [if_pos ⟨h, hk⟩, if_pos hk]
      · rw [if_neg (fun h' => hk h'.2), if_neg hk],
      Finset.sum_ite_eq' Finset.univ k fun _ => n, if_pos (Finset.mem_univ _)]
  · rw [if_neg h]; exact Finset.sum_eq_zero fun k' _ => if_neg (fun h' => h h'.1)

theorem owed_q1 (d c : Dev nD) (k : Fin 8) : O₀ d (qCell 1 k c) () = if d = pY c then Ncr else 0 := by
  unfold O₀ O₁ Oxy
  rw [Pi.add_apply, Finsupp.add_apply, Pi.add_apply, Finsupp.add_apply, Pi.add_apply, Finsupp.add_apply,
    tallyAt_ne_cell q_ne_barCell, tallyAt_ne_cell q_ne_barCell, owedFrom_zero_apply, owedFrom_zero_apply,
    Finset.sum_congr rfl fun k' _ => tX_at1 d c k' k, Finset.sum_congr rfl fun k' _ => tY_at d c k' k, sum_pick]
  simp only [Finset.sum_const_zero, Finsupp.zero_apply, Nat.zero_add, Nat.add_zero]

theorem owed_q3 (d c : Dev nD) (k : Fin 8) : O₀ d (qCell 3 k c) () = if d = pX c then Ncr else 0 := by
  unfold O₀ O₁ Oxy
  rw [Pi.add_apply, Finsupp.add_apply, Pi.add_apply, Finsupp.add_apply, Pi.add_apply, Finsupp.add_apply,
    tallyAt_ne_cell q_ne_barCell, tallyAt_ne_cell q_ne_barCell, owedFrom_zero_apply, owedFrom_zero_apply,
    Finset.sum_congr rfl fun k' _ => tX_at d c k' k, Finset.sum_congr rfl fun k' _ => tY_at3 d c k' k, sum_pick]
  simp only [Finset.sum_const_zero, Finsupp.zero_apply, Nat.zero_add, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pY c) fun _ => 1, Finset.sum_ite_eq' Finset.univ (pX c) fun _ => 1, if_pos (Finset.mem_univ _), if_pos (Finset.mem_univ _)]

theorem launch_q1 (c : Dev nD) (k : Fin 8) :
    tallyOn (qCell 1 k c) (launchCredit (Pipeline.owing O₀) 0 (qCell 1 k c)) = (tallyAt (qCell 1 k c) () Ncr : CellTallies nD τ sig Unit) := by
  unfold tallyAt; refine congrArg _ (Finsupp.ext fun u => ?_); cases u
  rw [Pipeline.launchCredit_owing, Finsupp.single_eq_same, Finset.sum_congr rfl fun d _ => owed_q1 d c k, Finset.sum_ite_eq' Finset.univ (pY c) fun _ => Ncr,
    if_pos (Finset.mem_univ _)]

theorem launch_q3 (c : Dev nD) (k : Fin 8) :
    tallyOn (qCell 3 k c) (launchCredit (Pipeline.owing O₀) 0 (qCell 3 k c)) = (tallyAt (qCell 3 k c) () Ncr : CellTallies nD τ sig Unit) := by
  unfold tallyAt; refine congrArg _ (Finsupp.ext fun u => ?_); cases u
  rw [Pipeline.launchCredit_owing, Finsupp.single_eq_same, Finset.sum_congr rfl fun d _ => owed_q3 d c k, Finset.sum_ite_eq' Finset.univ (pX c) fun _ => Ncr,
    if_pos (Finset.mem_univ _)]

/-- The receive semaphores of one family, as semaphore locations. -/
def famEmb (a : Fin 4) : Fin 8 ↪ SemLoc sig :=
  ⟨fun k => .dma (qS a k), fun k k' h => congrArg Prod.snd (Option.some.inj (csem_injective (show csem (some (a, k)) = csem (some (a, k')) from h)))⟩

theorem launch_creds (c : Dev nD) : (Pipeline.launchCred O₀ c : sProp 𝕄) ⊢ creds c := by
  unfold Pipeline.launchCred creds
  rw [bigSep_univ_at _ (SemLoc.reg barS), launch_bar]
  refine sep_mono_right ?_
  have hsub : (Finset.univ.map (famEmb 1)) ∪ (Finset.univ.map (famEmb 3)) ⊆ (Finset.univ : Finset (SemLoc sig)).erase (SemLoc.reg barS) := by
    intro sm hsm
    refine Finset.mem_erase.mpr ⟨?_, Finset.mem_univ _⟩
    rcases Finset.mem_union.mp hsm with h | h
    · obtain ⟨k, _, rfl⟩ := Finset.mem_map.mp h; exact q_ne_bar 1 k
    · obtain ⟨k, _, rfl⟩ := Finset.mem_map.mp h; exact q_ne_bar 3 k
  have hdisj : Disjoint (Finset.univ.map (famEmb 1)) (Finset.univ.map (famEmb 3)) := by
    rw [Finset.disjoint_left]
    intro sm h1 h3
    obtain ⟨k, _, rfl⟩ := Finset.mem_map.mp h1
    obtain ⟨k', _, hk'⟩ := Finset.mem_map.mp h3
    have := Option.some.inj (csem_injective (show csem (some (3, k')) = csem (some (1, k)) from hk'))
    exact absurd (show (3 : Fin 4) = 1 from congrArg Prod.fst this) (by decide)
  refine (bigSep_subset hsub).trans ?_
  rw [bigSep_union hdisj, bigSep_map, bigSep_map]
  exact BI.sep_mono (Entails.of_eq (bigSep_congr fun k _ => congrArg cred (launch_q1 c k)))
    (Entails.of_eq (bigSep_congr fun k _ => congrArg cred (launch_q3 c k)))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- Everything a device owes at launch sits on TensorCore cells of level at least 1. -/
theorem O₀_above (c : Dev nD) : ∀ g u, 0 < O₀ c g u → g.1.2 = .tc ∧ 0 < lv g u := by
  intro g u h
  unfold O₀ O₁ at h
  rw [Pi.add_apply, Finsupp.add_apply, Pi.add_apply, Finsupp.add_apply] at h
  rcases Nat.add_pos_iff_pos_or_pos.mp h with h1 | h3
  · rcases Nat.add_pos_iff_pos_or_pos.mp h1 with h1 | h2
    · exact Oxy_above 0 (Or.inl (by omega)) g u h1
    · have e := bar_pos h2; subst e; exact ⟨rfl, by rw [lv_bar]; omega⟩
  · have e := bar_pos h3; subst e; exact ⟨rfl, by rw [lv_bar]; omega⟩

theorem lv_stage (c : Dev nD) (q : DmaSem sig) (hq : q.val < 3) : lv ((c : Thread nD τ), .dma q) () = 0 := by
  show (if 27 ≤ q.val then 3 else if 11 ≤ q.val ∧ q.val < 19 then 2 else 0) = 0
  rw [if_neg (by omega), if_neg (by omega)]

theorem waits (c : Dev nD) : (levAts L lv : sProp 𝕄) ⊢ Pipeline.cellsWaits cfgs (dats m ρ) () 0 c :=
  Pipeline.cellsWaits_intro cfgs (dats m ρ) () 0 c fun w s t =>
    mayWait_cut c _ 0 _ (le_of_eq (lv_stage c _ (by fin_cases w <;> fin_cases s <;> decide))) (by
      rcases t with ⟨_ | _, ht⟩
      · exact O₀_above c
      · intro g u h; exact absurd h (Nat.lt_irrefl 0))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given each device's
    body: every weakly fair execution of @main terminates, and every final state has each window's array at the
    contents the proof data name. -/
theorem run_main (hbody : ∀ c, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The first input array after the run holds what it held, -/
theorem finalA_A (c : Dev nD) : finalA m ρ c (0 : Fin 3) = (st₀ m ρ).mem (win0_0.arr.view.loc (c : Thread nD τ)) :=
  (dats (F := F) m ρ 0 c).arrAt_in (0 : Fin 3) rfl _

/-- and so does the second. -/
theorem finalA_B (c : Dev nD) : finalA m ρ c (1 : Fin 3) = (st₀ m ρ).mem (win0_1.arr.view.loc (c : Thread nD τ)) :=
  (dats (F := F) m ρ 0 c).arrAt_in (1 : Fin 3) rfl _

/-- The result array after the run holds the device's result block. -/
theorem finalA_out (c : Dev nD) : finalA m ρ c (2 : Fin 3) = outAt m c := by
  unfold finalA
  have hN : cfg0.N = (t0_0 : Fin grid0.N).val + 1 := N_0
  rw [hN, (dats (F := F) m ρ 0 c).arrAt_succ (2 : Fin 3) t0_0, flush0_2 t0_0, if_pos rfl]
  exact Memref.write_access_unit_zero_univ (Elt F) main_v1 (by funext a; exact Nat.zero_mul _) _ _ _

/-- info: 'Cert.KernelIdealProof.run_main' depends on axioms: [propext, Classical.choice, Quot.sound] -/
#guard_msgs in #print axioms run_main

/-- info: 'Cert.KernelIdealProof.finalA_out' depends on axioms: [propext, Classical.choice, Quot.sound] -/
#guard_msgs in #print axioms finalA_out

end Cert.KernelIdealProof

end
-- ==== Proof.KernelIdeal.BodyDefs.lean ====
/-
  What one device's body starts from and what it leaves, as the pipeline hands them over: the device's ghost state,
  credits and scratch buffers; what it owes; the three staging buffers (the two input blocks as fetched, the result's at
  whatever it held). It leaves the scratch buffers and its 32 cells at zero, owes nothing, the input blocks as they were
  and the result block entry by entry (`outAt`).
-/
import proofs.«900475_g7700000000000476_dist_rsdw_v7x_xy2x2_y_m1024_d1024_f4096_bf16_1_alg».proof.Proof.KernelIdeal.Ghost

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Buffer `b` of device `c` held whole at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CIx → ℕ) (c : Dev nD) : sProp 𝕄 :=
  iprop((ghost m K c ∗ creds c ∗ levAts L lv ∗ scratch c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (stgA m c) ∗ stg c cc0_stg1_0 (stgB m c) ∗ stg c cc0_stg2_0 (outAt m c))

/-- The kernel body as the pipeline calls it at its one grid point. -/
abbrev theBody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

/-- The statement of the body lemma: the body run from `bodyPre` ends in `bodyPost`. -/
def SoundBody : Prop :=
  ∀ (K : Dev nD × CIx → ℕ) (c : Dev nD) (Kt : PUnit → sProp 𝕄),
    iprop(bodyPre m ρ K c ∗ (bodyPost m ρ c -∗ Kt ⟨⟩)) ⊢ wp frame (wpE (defs₀ (F := F)) 𝒱₀ c none) Set.univ (theBody (F := F)) Kt

end Cert.KernelIdealProof

end
-- ==== Proof.KernelIdeal.Obligation.lean ====
/-
  The body lemma, in the form the pipeline asks for it at its one grid point, and the run of the mesh from it.
-/
import proofs.«900475_g7700000000000476_dist_rsdw_v7x_xy2x2_y_m1024_d1024_f4096_bf16_1_alg».proof.Proof.KernelIdeal.Launch
import proofs.«900475_g7700000000000476_dist_rsdw_v7x_xy2x2_y_m1024_d1024_f4096_bf16_1_alg».proof.Proof.KernelIdeal.BodyDefs

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole buffer owned at the full share is the buffer held at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 16384 in
/-- What the pipeline hands the body at the point. -/
def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 16384 in
/-- The library's body obligation on device `c`, from the body lemma. -/
theorem body_obligation (h : SoundBody m ρ) (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hcr, Hlev⟩, Hscr⟩, Ho, Hx, Hy, Hout⟩
  iapply (h K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hy]; · iexact Hy
    iexact Hout
  · iintro H; iexact H

/-- The run of the mesh from the body lemma. -/
theorem run_of_body (h : SoundBody m ρ) : θ_run defs (onTc (τ := τ) (main (F := F))) (st₀ m ρ) (QC m ρ) :=
  run_main m ρ (body_obligation m ρ h)

/-- info: 'Cert.KernelIdealProof.run_of_body' depends on axioms: [propext, Classical.choice, Quot.sound] -/
#guard_msgs in #print axioms run_of_body

end Cert.KernelIdealProof

end
-- ==== Proof.Kernel.Vals.lean ====
/-
  The values one device computes, as pure functions of the two staged input blocks.

  Device `c = 2·x + y` of the 2×2 mesh holds rows `y·1024 … y·1024+1023` of both inputs. Writing `A_c` for its
  block of the first input and `B_c` for its block of the second, chunk `k < 8` of its column half `x` is the
  256 columns `2048·x + 256·k …` of `B_c`. With `other = 1 - y`:
    * `partY c k`  = (the `other` half of `A_c`'s columns)ᵀ · chunk k            — sent to the y-neighbour,
    * `rowSum c k` = (the `y` half of `A_c`'s columns)ᵀ · chunk k + what the y-neighbour sent for chunk k
                     — 512 × 256 entries of the result, and sent on to the x-neighbour,
    * `fromX c k`  = what the x-neighbour's `rowSum` is once received.
  Every change of float format is written as the program writes it, so the same text serves both float instances.
-/
import proofs.«900475_g7700000000000476_dist_rsdw_v7x_xy2x2_y_m1024_d1024_f4096_bf16_1_alg».proof.Proof.Gen.Kernel.Frame
import proofs.«900475_g7700000000000476_dist_rsdw_v7x_xy2x2_y_m1024_d1024_f4096_bf16_1_alg».proof.Proof.Gen.Kernel.Skeleton

noncomputable section

namespace Cert.Kernel.Vals

open Cert.Kernel Cert.Kernel.Gen
open Idealize.ShloMosaic Idealize.ShloMosaic.TcCoe Idealize.SL.Sem

variable {F : FTy → Type} [FloatOps F]

/-- The mesh neighbour along the first mesh axis (the device with the other `x`, the same `y`). -/
def pX (c : Dev nD) : Dev nD := ⟨((c.val % 2) + 2) - 2 * (c.val / 2), by have h : c.val < 4 := c.isLt; show _ < 4; omega⟩
/-- The mesh neighbour along the second mesh axis (the same `x`, the other `y`). -/
def pY (c : Dev nD) : Dev nD := ⟨(2 * (c.val / 2) + 1) - (c.val % 2), by have h : c.val < 4 := c.isLt; show _ < 4; omega⟩

theorem pX_pX (c : Dev nD) : pX (pX c) = c := by revert c; decide
theorem pY_pY (c : Dev nD) : pY (pY c) = c := by revert c; decide
theorem pX_ne (c : Dev nD) : pX c ≠ c := by revert c; decide
theorem pY_ne (c : Dev nD) : pY c ≠ c := by revert c; decide
theorem pX_ne_pY (c : Dev nD) : pX c ≠ pY c := by revert c; decide

/-- A loaded f32 tile recast to bf16, as the program does it (a same-shape cast, then the truncation). -/
def toB16 {S : Shape} (h : S.ShapeCasts S) (v : Vec F S .f32) : FVec F S .bf16 := truncf .bf16 (shapeCast S v h) bitsLt_bf16_f32

/-- The product of two bf16 tiles contracted over their 1024 rows, accumulated from zero. -/
def mmT (a : FVec F S1024x512 .bf16) (b : FVec F S1024x256 .bf16) : FVec F S512x256 .f32 :=
  matmul dot_S1024x512_S1024x256_S512x256_0_0_1_1_n_n none a b (constant S512x256 .f32 0x00000000#32)

/-- What is stored in a send slot for the y-neighbour: the partial product, truncated and given the slot's leading unit axis. -/
def sendY (xo : Vec F S1024x512 .f32) (dy : Vec F S1024x256 .f32) : FVec F S1x512x256 .bf16 :=
  shapeCast S1x512x256 (truncf .bf16 (mmT (toB16 shapeCasts_S1024x512_S1024x512 xo) (toB16 shapeCasts_S1024x256_S1024x256 dy)) bitsLt_bf16_f32) shapeCasts_S512x256_S1x512x256

/-- The own partial product plus the slot received from the y-neighbour. -/
def sumY (xk : Vec F S1024x512 .f32) (dy : Vec F S1024x256 .f32) (yr : Vec F S1x512x256 .bf16) : FVec F S512x256 .f32 :=
  addf (mmT (toB16 shapeCasts_S1024x512_S1024x512 xk) (toB16 shapeCasts_S1024x256_S1024x256 dy))
    (extf .f32 (shapeCast S512x256 yr shapeCasts_S1x512x256_S512x256) bitsLt_bf16_f32)

/-- What is stored in a send slot for the x-neighbour. -/
def sendX (r : FVec F S512x256 .f32) : FVec F S1x512x256 .bf16 :=
  shapeCast S1x512x256 (truncf .bf16 r bitsLt_bf16_f32) shapeCasts_S512x256_S1x512x256

/-- A slot received from the x-neighbour, as it is stored into the result. -/
def recvX (xr : Vec F S1x512x256 .bf16) : FVec F S512x256 .f32 :=
  extf .f32 (shapeCast S512x256 xr shapeCasts_S1x512x256_S512x256) bitsLt_bf16_f32

variable (m : (ℓ : Loc nD τ sig) → Buf (Elt F) ℓ)

/-- Device `c`'s staged block of the first input, and of the second. -/
def stgA (c : Dev nD) : (cc0_stg0_0 : Ref sig .tc).ty.Contents (Elt F) := iblk m c 0 t0_0
def stgB (c : Dev nD) : (cc0_stg1_0 : Ref sig .tc).ty.Contents (Elt F) := iblk m c 1 t0_0

/-- The column half of `A_c` that belongs to the OTHER row block of the result, and the one that belongs to this device's. -/
def loadO (c : Dev nD) : Vec F S1024x512 .f32 :=
  (Memref.whole cc0_stg0_0 : Memref sig .tc .vmem S1024x1024 .f32).view.readAt (Elt F)
    (Rect.unit (s := S1024x1024) (k0_off1 c) S1024x512.size (k0_off1_inb c)).toLoadRect (stgA m c)
def loadK (c : Dev nD) : Vec F S1024x512 .f32 :=
  (Memref.whole cc0_stg0_0 : Memref sig .tc .vmem S1024x1024 .f32).view.readAt (Elt F)
    (Rect.unit (s := S1024x1024) (k0_off2 c) S1024x512.size (k0_off2_inb c)).toLoadRect (stgA m c)
/-- Chunk `k` of this device's column half of `B_c`. -/
def loadD (c : Dev nD) (k : Fin 8) : Vec F S1024x256 .f32 :=
  (Memref.whole cc0_stg1_0 : Memref sig .tc .vmem S1024x4096 .f32).view.readAt (Elt F)
    (Rect.unit (s := S1024x4096) (k0_off3 c (BitVec.ofNat 32 (256 * k.val))) S1024x256.size (k0_off3_inb c k)).toLoadRect (stgB m c)

def partY (c : Dev nD) (k : Fin 8) : FVec F S1x512x256 .bf16 := sendY (loadO m c) (loadD m c k)
def rowSum (c : Dev nD) (k : Fin 8) : FVec F S512x256 .f32 := sumY (loadK m c) (loadD m c k) (partY m (pY c) k)
def partX (c : Dev nD) (k : Fin 8) : FVec F S1x512x256 .bf16 := sendX (rowSum m c k)
def fromX (c : Dev nD) (k : Fin 8) : FVec F S512x256 .f32 := recvX (partX m (pX c) k)

end Cert.Kernel.Vals

end
-- ==== Proof.Kernel.Proto.lean ====
/-
  The protocol of the four devices, under the rounds discipline.

  Every device has 33 semaphore cells: the barrier cell, and four families of eight DMA cells, one per chunk `k`:
    family 0  — credited when this device's chunk-`k` slot for its y-neighbour has been read out of its send buffer,
    family 1  — credited when the y-neighbour's chunk-`k` slot has been written into this device's receive buffer,
    family 2, family 3 — the same two for the x-neighbour.
  Each cell has ONE round. The barrier cell's round has two duties of one unit: `false`, paid by the x-neighbour, whose
  payload is the x-neighbour's eight receive slots (so that this device may write into them); `true`, paid by the
  y-neighbour, with the y-neighbour's eight receive slots. A DMA cell's round has the one duty `false` of a slot's
  credit: a send cell hands the slot of the send buffer back; a receive cell hands the receive slot over TOGETHER WITH
  what it now holds — the sender's `partY` (family 1) or `partX` (family 3) of that chunk.
  A device waits on its barrier cell while it still owes all sixteen arrivals; on its families 0 and 1 while it still owes
  arrivals at its x-neighbour; on families 2 and 3 owing nothing: barrier < family 1 < family 3 orders the waits.
-/
import proofs.«900475_g7700000000000476_dist_rsdw_v7x_xy2x2_y_m1024_d1024_f4096_bf16_1_alg».proof.Proof.Kernel.Vals
import proofs.«900475_g7700000000000476_dist_rsdw_v7x_xy2x2_y_m1024_d1024_f4096_bf16_1_alg».proof.Proof.Gen.Kernel.Launch
import proofs.«900475_g7700000000000476_dist_rsdw_v7x_xy2x2_y_m1024_d1024_f4096_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's copy of the rounds algebra beside one whose duties are named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The neighbours the program names -/

theorem dev1_eq (c : Dev nD) : (⟨k0_dev1 c, k0_dev1_lt c⟩ : Dev nD) = pX c := Fin.ext (k0_dev1_eq c)
theorem dev11_eq (c : Dev nD) : (⟨k0_dev11 c, k0_dev11_lt c⟩ : Dev nD) = pX c := Fin.ext (k0_dev11_eq c)
theorem dev12_eq (c : Dev nD) : (⟨k0_dev12 c, k0_dev12_lt c⟩ : Dev nD) = pX c := Fin.ext (k0_dev12_eq c)
theorem dev13_eq (c : Dev nD) : (⟨k0_dev13 c, k0_dev13_lt c⟩ : Dev nD) = pX c := Fin.ext (k0_dev13_eq c)
theorem dev14_eq (c : Dev nD) : (⟨k0_dev14 c, k0_dev14_lt c⟩ : Dev nD) = pX c := Fin.ext (k0_dev14_eq c)
theorem dev15_eq (c : Dev nD) : (⟨k0_dev15 c, k0_dev15_lt c⟩ : Dev nD) = pX c := Fin.ext (k0_dev15_eq c)
theorem dev16_eq (c : Dev nD) : (⟨k0_dev16 c, k0_dev16_lt c⟩ : Dev nD) = pX c := Fin.ext (k0_dev16_eq c)
theorem dev17_eq (c : Dev nD) : (⟨k0_dev17 c, k0_dev17_lt c⟩ : Dev nD) = pX c := Fin.ext (k0_dev17_eq c)
theorem dev18_eq (c : Dev nD) : (⟨k0_dev18 c, k0_dev18_lt c⟩ : Dev nD) = pX c := Fin.ext (k0_dev18_eq c)
theorem dev2_eq (c : Dev nD) : (⟨k0_dev2 c, k0_dev2_lt c⟩ : Dev nD) = pY c := Fin.ext (k0_dev2_eq c)
theorem dev3_eq (c : Dev nD) : (⟨k0_dev3 c, k0_dev3_lt c⟩ : Dev nD) = pY c := Fin.ext (k0_dev3_eq c)
theorem dev4_eq (c : Dev nD) : (⟨k0_dev4 c, k0_dev4_lt c⟩ : Dev nD) = pY c := Fin.ext (k0_dev4_eq c)
theorem dev5_eq (c : Dev nD) : (⟨k0_dev5 c, k0_dev5_lt c⟩ : Dev nD) = pY c := Fin.ext (k0_dev5_eq c)
theorem dev6_eq (c : Dev nD) : (⟨k0_dev6 c, k0_dev6_lt c⟩ : Dev nD) = pY c := Fin.ext (k0_dev6_eq c)
theorem dev7_eq (c : Dev nD) : (⟨k0_dev7 c, k0_dev7_lt c⟩ : Dev nD) = pY c := Fin.ext (k0_dev7_eq c)
theorem dev8_eq (c : Dev nD) : (⟨k0_dev8 c, k0_dev8_lt c⟩ : Dev nD) = pY c := Fin.ext (k0_dev8_eq c)
theorem dev9_eq (c : Dev nD) : (⟨k0_dev9 c, k0_dev9_lt c⟩ : Dev nD) = pY c := Fin.ext (k0_dev9_eq c)
theorem dev10_eq (c : Dev nD) : (⟨k0_dev10 c, k0_dev10_lt c⟩ : Dev nD) = pY c := Fin.ext (k0_dev10_eq c)

/-! ## The four slotted scratch buffers -/

abbrev ysM : Memref sig .tc .vmem S8x512x256 .bf16 := Memref.whole cc0_scratch0
abbrev yrM : Memref sig .tc .vmem S8x512x256 .bf16 := Memref.whole cc0_scratch1
abbrev xsM : Memref sig .tc .vmem S8x512x256 .bf16 := Memref.whole cc0_scratch2
abbrev xrM : Memref sig .tc .vmem S8x512x256 .bf16 := Memref.whole cc0_scratch3

/-- Slot `k` of a slotted buffer: the rectangle `[k, 0..511, 0..255]`. -/
abbrev slotOff (k : Fin 8) : Fin 3 → Nat := ![k.val, 0, 0]
theorem slot_inb : ∀ (k : Fin 8) a, slotOff k a + S1x512x256.size a ≤ S8x512x256.size a := by decide
abbrev slotR (k : Fin 8) : Rect S8x512x256 := Rect.unit (s := S8x512x256) (slotOff k) S1x512x256.size (slot_inb k)
/-- The slot as the transfers name it: the slice, without its leading unit axis. -/
abbrev slotOf (M : Memref sig .tc .vmem S8x512x256 .bf16) (k : Fin 8) : Memref sig .tc .vmem S512x256 .bf16 :=
  (M.slice (slotR k) (fun _ => rfl)).squeeze S512x256 squeezes_S1x512x256_S512x256

/-- What a transfer of one slot credits. -/
abbrev Ncr : ℕ := (slotOf ysM 0).view.dmaCredit
theorem Ncr_pos : 0 < Ncr := View.dmaCredit_pos _ (by decide)

theorem mem_slot {k : Fin 8} {i : S8x512x256.Idx} : i ∈ (slotR k).set ↔ (i 0).val = k.val := by
  rw [Rect.mem_set_unit]
  constructor
  · intro h
    have h0 := h 0
    simp only [slotOff, Matrix.cons_val_zero] at h0
    have := h0.1; have := h0.2; omega
  · intro h0 a
    fin_cases a
    · simp only [slotOff]; exact ⟨by simpa using h0.ge, by simp; omega⟩
    · exact ⟨Nat.zero_le _, by have := (i 1).isLt; simpa using this⟩
    · exact ⟨Nat.zero_le _, by have := (i 2).isLt; simpa using this⟩

theorem slot_disjoint (a b : Fin 8) (h : a ≠ b) : Disjoint (slotR a).set (slotR b).set := by
  rw [Finset.disjoint_left]
  intro i hi hi'
  exact h (Fin.ext ((mem_slot.mp hi).symm.trans (mem_slot.mp hi')))

theorem slot_cover : (Finset.univ : Finset (Fin 8)).biUnion (fun k => (slotR k).set) = Finset.univ := by
  ext i
  simp only [Finset.mem_biUnion, Finset.mem_univ, true_and, iff_true]
  exact ⟨⟨(i 0).val, (i 0).isLt⟩, mem_slot.mpr rfl⟩

/-! ## The cells -/

abbrev barS : Sem sig := (SemArray.scalar (sig.barrier 0 rfl) : Sems sig S_).sem
/-- DMA semaphore `k` of family `a`. -/
abbrev qS (a : Fin 4) (k : Fin 8) : DmaSem sig :=
  ⟨3 + 8 * a.val + k.val, Nat.lt_of_lt_of_le (show 3 + 8 * a.val + k.val < 35 by have := a.isLt; have := k.isLt; omega) (by decide)⟩

abbrev barCell (c : Dev nD) : GSem nD τ sig := ((c : Thread nD τ), .reg barS)
abbrev qCell (a : Fin 4) (k : Fin 8) (c : Dev nD) : GSem nD τ sig := ((c : Thread nD τ), .dma (qS a k))

/-! ## The schedule -/

/-- A slot held whole, at the full share, over some contents. -/
def slotAny (M : Memref sig .tc .vmem S8x512x256 .bf16) (c : Dev nD) (k : Fin 8) : sProp 𝕄 :=
  iprop(∃ f, (slotOf M k).view.loc (c : Thread nD τ) ↦[(slotOf M k).view.set]{fullShare} f)
/-- A slot held whole that reads, through the transfers' view, as the tile `v` without its leading unit axis. -/
def slotIs (M : Memref sig .tc .vmem S8x512x256 .bf16) (c : Dev nD) (k : Fin 8) (v : FVec F S1x512x256 .bf16) : sProp 𝕄 :=
  iprop(∃ f, ((slotOf M k).view.loc (c : Thread nD τ) ↦[(slotOf M k).view.set]{fullShare} f)
    ∗ ⌜(slotOf M k).view.read (Elt F) f = shapeCast S512x256 v shapeCasts_S1x512x256_S512x256⌝)

/-- The eight receive slots of a buffer, each over some contents. -/
def slotsAny (M : Memref sig .tc .vmem S8x512x256 .bf16) (c : Dev nD) : sProp 𝕄 :=
  bigSep Finset.univ fun k : Fin 8 => slotAny (F := F) M c k

/-- What the one duty of DMA cell (family `a`, chunk `k`) of device `c` hands `c`. -/
def payQ (c : Dev nD) (a : Fin 4) (k : Fin 8) : sProp 𝕄 :=
  match a with
  | 0 => slotAny ysM c k
  | 1 => slotIs yrM c k (partY m (pY c) k)
  | 2 => slotAny xsM c k
  | 3 => slotIs xrM c k (partX m (pX c) k)

abbrev IsBar (g : GSem nD τ sig) : Prop := g.1.2 = .tc ∧ g.2 = .reg barS
abbrev IsXfer (g : GSem nD τ sig) : Prop := g.1.2 = .tc ∧ ∃ q : DmaSem sig, g.2 = .dma q ∧ 3 ≤ q.val

def sched : Rounds.Schedule (GSem nD τ sig) Bool 𝕄 where
  duties g r := if r = 0 ∧ IsBar g then Finset.univ else if r = 0 ∧ IsXfer g then {false} else ∅
  unitless _ := False
  amount g _ _ := if g.2 = .reg barS then 1 else Ncr
  payload g _ d :=
    match g.2 with
    | .reg _ => if d then slotsAny yrM (pY g.1.1) else slotsAny xrM (pX g.1.1)
    | .dma q => if h : 3 ≤ q.val then
        payQ m g.1.1 ⟨(q.val - 3) / 8, by have := q.isLt; have h35 : sig.nDmaSem = 35 := rfl; omega⟩ ⟨(q.val - 3) % 8, Nat.mod_lt _ (by decide)⟩
      else iprop(emp)
  amount_pos g _ _ _ := by
    by_cases h : g.2 = .reg barS
    · rw [if_pos h]; exact Nat.one_pos
    · rw [if_neg h]; exact Ncr_pos

instance payQ_storable (c : Dev nD) (a : Fin 4) (k : Fin 8) : BI.Storable (upEmb : UEmb _ 𝕄) (payQ (F := F) m c a k) := by
  unfold payQ slotAny slotIs
  fin_cases a <;> infer_instance

instance slotsAny_storable (M : Memref sig .tc .vmem S8x512x256 .bf16) (c : Dev nD) : BI.Storable (upEmb : UEmb _ 𝕄) (slotsAny (F := F) M c) := by
  unfold slotsAny slotAny; infer_instance

instance sched_payload_storable (g : GSem nD τ sig) (r : ℕ) (d : Bool) :
    BI.Storable (upEmb : UEmb _ 𝕄) ((sched (F := F) m).payload g r d) := by
  obtain ⟨t, s⟩ := g
  cases s with
  | reg s => dsimp only [sched]; split <;> infer_instance
  | dma q => dsimp only [sched]; split <;> infer_instance

section Tables
variable (c : Dev nD) (a : Fin 4) (k : Fin 8)

theorem q_ne_bar : (SemLoc.dma (qS a k) : SemLoc sig) ≠ .reg barS := fun h => by cases h
theorem qS_ge : 3 ≤ (qS a k).val := Nat.le_add_right_of_le (Nat.le_add_right 3 _)
theorem qS_fam : (⟨((qS a k).val - 3) / 8, by have := (qS a k).isLt; have h35 : sig.nDmaSem = 35 := rfl; omega⟩ : Fin 4) = a :=
  Fin.ext (by show (3 + 8 * a.val + k.val - 3) / 8 = a.val; have := k.isLt; omega)
theorem qS_chunk : (⟨((qS a k).val - 3) % 8, Nat.mod_lt _ (by decide)⟩ : Fin 8) = k :=
  Fin.ext (by show (3 + 8 * a.val + k.val - 3) % 8 = k.val; have := k.isLt; omega)
theorem not_bar_q : ¬ IsBar (qCell a k c) := fun h => q_ne_bar a k h.2
theorem xfer_q : IsXfer (qCell a k c) := ⟨rfl, qS a k, rfl, qS_ge a k⟩

theorem duties_bar : (sched (F := F) m).duties (barCell c) 0 = Finset.univ := by dsimp only [sched]; exact if_pos ⟨rfl, rfl, rfl⟩
theorem duties_q : (sched (F := F) m).duties (qCell a k c) 0 = {false} := by
  dsimp only [sched]; rw [if_neg (fun h => not_bar_q c a k h.2)]; exact if_pos ⟨rfl, xfer_q c a k⟩
theorem duties_later (g : GSem nD τ sig) : ∀ r, 1 ≤ r → (sched (F := F) m).duties g r = ∅ :=
  fun r hr => by dsimp only [sched]; rw [if_neg fun h => by omega, if_neg fun h => by omega]

theorem amount_bar (d : Bool) : (sched (F := F) m).amount (barCell c) 0 d = 1 := by dsimp only [sched]; exact if_pos rfl
theorem amount_q (d : Bool) : (sched (F := F) m).amount (qCell a k c) 0 d = Ncr := by dsimp only [sched]; exact if_neg (q_ne_bar a k)

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_q : (sched (F := F) m).expect (qCell a k c) 0 = Ncr := by
  unfold Schedule.expect Schedule.amountOf; rw [duties_q, Finset.sum_singleton, amount_q]

theorem payload_bar_true : (sched (F := F) m).payload (barCell c) 0 true = slotsAny yrM (pY c) := by dsimp only [sched]; rfl
theorem payload_bar_false : (sched (F := F) m).payload (barCell c) 0 false = slotsAny xrM (pX c) := by dsimp only [sched]; rfl
theorem payload_q (d : Bool) : (sched (F := F) m).payload (qCell a k c) 0 d = payQ m c a k := by
  dsimp only [sched]; rw [dif_pos (qS_ge a k), qS_fam, qS_chunk]

/-- The rest of the barrier cell's round, no duty taken: both neighbours' receive slots. -/
theorem rest_bar : bigSep ((sched (F := F) m).duties (barCell c) 0 \ ∅) (fun d => (sched (F := F) m).payload (barCell c) 0 d)
    = iprop(slotsAny xrM (pX c) ∗ slotsAny yrM (pY c)) := by
  rw [Finset.sdiff_empty, duties_bar, bigSep_univ_eq_bigSepL [false, true] (by decide) (by decide), bigSepL_cons_cons, bigSepL_singleton,
    payload_bar_false, payload_bar_true]
  rfl
theorem rest_q : bigSep ((sched (F := F) m).duties (qCell a k c) 0 \ ∅) (fun d => (sched (F := F) m).payload (qCell a k c) 0 d) = payQ m c a k := by
  rw [Finset.sdiff_empty, duties_q, bigSep_singleton, payload_q]

end Tables

/-! ## What each device owes at launch; the levels -/

/-- The arrival of chunk `k` that device `c` owes its y-neighbour's receive cell, and its x-neighbour's. -/
def tY (c : Dev nD) (k : Fin 8) : CellTallies nD τ sig Unit := tallyAt (qCell 1 k (pY c)) () Ncr
def tX (c : Dev nD) (k : Fin 8) : CellTallies nD τ sig Unit := tallyAt (qCell 3 k (pX c)) () Ncr

/-- The tallies of chunks `n, n+1, …, 7`, summed so that chunk `n`'s is the last summand. -/
def owedFrom (t : Fin 8 → CellTallies nD τ sig Unit) : ℕ → CellTallies nD τ sig Unit
  | n => if h : n < 8 then owedFrom t (n + 1) + t ⟨n, h⟩ else 0
termination_by n => 8 - n

theorem owedFrom_step (t : Fin 8 → CellTallies nD τ sig Unit) (n : ℕ) (h : n < 8) : owedFrom t n = owedFrom t (n + 1) + t ⟨n, h⟩ := by
  rw [owedFrom, dif_pos h]
theorem owedFrom_end (t : Fin 8 → CellTallies nD τ sig Unit) (n : ℕ) (h : 8 ≤ n) : owedFrom t n = 0 := by
  rw [owedFrom, dif_neg (by omega)]

theorem owedFrom_pos (t : Fin 8 → CellTallies nD τ sig Unit) (g : GSem nD τ sig) (u : Unit) :
    ∀ (j n : ℕ), 8 - n = j → 0 < owedFrom t n g u → ∃ k : Fin 8, n ≤ k.val ∧ 0 < t k g u := by
  intro j
  induction j with
  | zero => intro n hn h; rw [owedFrom_end t n (by omega)] at h; exact absurd h (Nat.lt_irrefl 0)
  | succ j ih =>
    intro n hn h
    have hlt : n < 8 := by omega
    rw [owedFrom_step t n hlt, Pi.add_apply, Finsupp.add_apply] at h
    rcases Nat.add_pos_iff_pos_or_pos.mp h with h1 | h2
    · obtain ⟨k, hk, hp⟩ := ih (n + 1) (by omega) h1
      exact ⟨k, by omega, hp⟩
    · exact ⟨⟨n, hlt⟩, le_refl _, h2⟩

/-- Before anything is sent, device `c` owes: every arrival at its x-neighbour, every arrival at its y-neighbour, and one
    unit to each neighbour's barrier cell (the x-neighbour's is signalled first: the last summand). -/
def Oxy (c : Dev nD) (i j : ℕ) : CellTallies nD τ sig Unit := owedFrom (tX c) i + owedFrom (tY c) j
def O₁ (c : Dev nD) : CellTallies nD τ sig Unit := Oxy c 0 0 + tallyAt (barCell (pY c)) () 1
def O₀ (c : Dev nD) : CellTallies nD τ sig Unit := O₁ c + tallyAt (barCell (pX c)) () 1

def L (g : GSem nD τ sig) : Finset Unit := if g.1.2 = .tc then {()} else ∅
/-- Staging and send cells at 0, the barrier at 1, the y receive cells at 2, the x receive cells at 3. -/
def lv (g : GSem nD τ sig) (_ : Unit) : ℕ :=
  match g.2 with
  | .reg _ => 1
  | .dma q => if 27 ≤ q.val then 3 else if 11 ≤ q.val ∧ q.val < 19 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_q0 (c : Dev nD) (k : Fin 8) (u : Unit) : lv (qCell 0 k c) u = 0 := by
  show (if 27 ≤ 3 + 8 * 0 + k.val then 3 else if 11 ≤ 3 + 8 * 0 + k.val ∧ 3 + 8 * 0 + k.val < 19 then 2 else 0) = 0
  have := k.isLt; rw [if_neg (by omega), if_neg (by omega)]
theorem lv_q1 (c : Dev nD) (k : Fin 8) (u : Unit) : lv (qCell 1 k c) u = 2 := by
  show (if 27 ≤ 3 + 8 * 1 + k.val then 3 else if 11 ≤ 3 + 8 * 1 + k.val ∧ 3 + 8 * 1 + k.val < 19 then 2 else 0) = 2
  have := k.isLt; rw [if_neg (by omega), if_pos (by omega)]
theorem lv_q2 (c : Dev nD) (k : Fin 8) (u : Unit) : lv (qCell 2 k c) u = 0 := by
  show (if 27 ≤ 3 + 8 * 2 + k.val then 3 else if 11 ≤ 3 + 8 * 2 + k.val ∧ 3 + 8 * 2 + k.val < 19 then 2 else 0) = 0
  have := k.isLt; rw [if_neg (by omega), if_neg (by omega)]
theorem lv_q3 (c : Dev nD) (k : Fin 8) (u : Unit) : lv (qCell 3 k c) u = 3 := by
  show (if 27 ≤ 3 + 8 * 3 + k.val then 3 else if 11 ≤ 3 + 8 * 3 + k.val ∧ 3 + 8 * 3 + k.val < 19 then 2 else 0) = 3
  have := k.isLt; rw [if_pos (by omega)]

theorem tX_pos {c : Dev nD} {k : Fin 8} {g : GSem nD τ sig} {u : Unit} (h : 0 < tX c k g u) : g = qCell 3 k (pX c) := by
  unfold tX at h; rw [tallyAt_apply] at h
  by_contra hn; rw [if_neg (fun h' => hn h'.1)] at h; exact Nat.lt_irrefl 0 h
theorem tY_pos {c : Dev nD} {k : Fin 8} {g : GSem nD τ sig} {u : Unit} (h : 0 < tY c k g u) : g = qCell 1 k (pY c) := by
  unfold tY at h; rw [tallyAt_apply] at h
  by_contra hn; rw [if_neg (fun h' => hn h'.1)] at h; exact Nat.lt_irrefl 0 h
theorem bar_pos {d : Dev nD} {g : GSem nD τ sig} {u : Unit} (h : 0 < tallyAt (barCell d) () 1 g u) : g = barCell d := by
  rw [tallyAt_apply] at h
  by_contra hn; rw [if_neg (fun h' => hn h'.1)] at h; exact Nat.lt_irrefl 0 h

/-- What is still owed once `i` chunks have gone to the x-neighbour and `j` to the y-neighbour sits on receive cells:
    x receive cells, and y receive cells unless every y chunk is sent. -/
theorem Oxy_pos {c : Dev nD} {i j : ℕ} {g : GSem nD τ sig} {u : Unit} (h : 0 < Oxy c i j g u) :
    (∃ k, g = qCell 3 k (pX c)) ∨ (j < 8 ∧ ∃ k, g = qCell 1 k (pY c)) := by
  unfold Oxy at h
  rw [Pi.add_apply, Finsupp.add_apply] at h
  rcases Nat.add_pos_iff_pos_or_pos.mp h with h1 | h2
  · obtain ⟨k, _, hp⟩ := owedFrom_pos (tX c) g u _ i rfl h1
    exact .inl ⟨k, tX_pos hp⟩
  · obtain ⟨k, hk, hp⟩ := owedFrom_pos (tY c) g u _ j rfl h2
    exact .inr ⟨by have := k.isLt; omega, k, tY_pos hp⟩

/-- A wait at level at most `b` while everything owed sits on TensorCore cells strictly above `b`. -/
theorem mayWait_cut (c : Dev nD) (sm : SemLoc sig) (b : ℕ) (O : CellTallies nD τ sig Unit)
    (hw : lv ((c : Thread nD τ), sm) () ≤ b) (hO : ∀ g u, 0 < O g u → g.1.2 = .tc ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hw)
    (fun g u hg => (hO g u hg).2)

theorem Oxy_above {c : Dev nD} {i j : ℕ} (b : ℕ) (hb : b < 2 ∨ (b < 3 ∧ 8 ≤ j)) :
    ∀ g u, 0 < Oxy c i j g u → g.1.2 = .tc ∧ b < lv g u := by
  intro g u h
  rcases Oxy_pos h with ⟨k, rfl⟩ | ⟨hj, k, rfl⟩
  · exact ⟨rfl, by rw [lv_q3]; omega⟩
  · exact ⟨rfl, by rw [lv_q1]; omega⟩

end Cert.KernelProof

end
-- ==== Proof.Kernel.OutAt.lean ====
/-
  What one device leaves in its result block, entry by entry: column `q` of the 4096 lies in column half `q / 2048`,
  chunk `(q % 2048) / 256`, at position `q % 256` of the chunk. The device's own column half holds its row sums, the other
  half what its neighbour along the first mesh axis computed and sent.
-/
import proofs.«900475_g7700000000000476_dist_rsdw_v7x_xy2x2_y_m1024_d1024_f4096_bf16_1_alg».proof.Proof.Kernel.Vals

noncomputable section

namespace Cert.Kernel.Vals

open Cert.Kernel Cert.Kernel.Gen
open Idealize.ShloMosaic Idealize.ShloMosaic.TcCoe Idealize.SL.Sem

variable {F : FTy → Type} [FloatOps F]

/-- The chunk a column of the result block lies in. -/
def chunkOf (q : Fin 4096) : Fin 8 := ⟨(q.val % 2048) / 256, by omega⟩

/-- The column's position inside its chunk. -/
def posOf (q : Fin 4096) : Fin 256 := ⟨q.val % 256, Nat.mod_lt _ (by decide)⟩

/-- A row and a position of a chunk as an index of a 512 x 256 tile. -/
def tileIx (p : Fin 512) (j : Fin 256) : S512x256.Idx :=
  fun a => match a with
    | ⟨0, _⟩ => p
    | ⟨1, _⟩ => j

variable (m : (ℓ : Loc nD τ sig) → Buf (Elt F) ℓ)

/-- Device `c`'s result block: entry `(p, q)` is the row sum of chunk `chunkOf q` where `q` lies in the device's own
    column half, and what the neighbour along the first mesh axis sent for that chunk in the other half. -/
def outAt (c : Dev nD) : (cc0_stg2_0 : Ref sig .tc).ty.Contents (Elt F) :=
  fun i =>
    let p : Fin 512 := ⟨(i 0).val, (i 0).isLt⟩
    let q : Fin 4096 := ⟨(i 1).val, (i 1).isLt⟩
    if q.val / 2048 = c.val / 2 then rowSum m c (chunkOf q) (tileIx p (posOf q))
    else fromX m c (chunkOf q) (tileIx p (posOf q))

theorem outAt_apply (c : Dev nD) (i : S512x4096.Idx) :
    outAt m c i =
      if (i 1).val / 2048 = c.val / 2
      then rowSum m c (chunkOf ⟨(i 1).val, (i 1).isLt⟩) (tileIx ⟨(i 0).val, (i 0).isLt⟩ (posOf ⟨(i 1).val, (i 1).isLt⟩))
      else fromX m c (chunkOf ⟨(i 1).val, (i 1).isLt⟩) (tileIx ⟨(i 0).val, (i 0).isLt⟩ (posOf ⟨(i 1).val, (i 1).isLt⟩)) := rfl

/-- In the device's own column half. -/
theorem outAt_own (c : Dev nD) (i : S512x4096.Idx) (h : (i 1).val / 2048 = c.val / 2) :
    outAt m c i = rowSum m c (chunkOf ⟨(i 1).val, (i 1).isLt⟩) (tileIx ⟨(i 0).val, (i 0).isLt⟩ (posOf ⟨(i 1).val, (i 1).isLt⟩)) := by
  rw [outAt_apply, if_pos h]

/-- In the other column half. -/
theorem outAt_other (c : Dev nD) (i : S512x4096.Idx) (h : ¬ (i 1).val / 2048 = c.val / 2) :
    outAt m c i = fromX m c (chunkOf ⟨(i 1).val, (i 1).isLt⟩) (tileIx ⟨(i 0).val, (i 0).isLt⟩ (posOf ⟨(i 1).val, (i 1).isLt⟩)) := by
  rw [outAt_apply, if_neg h]

/-- A column is its half, chunk and position put together. -/
theorem col_eq (q : Fin 4096) : q.val = 2048 * (q.val / 2048) + 256 * (chunkOf q).val + (posOf q).val := by
  show q.val = 2048 * (q.val / 2048) + 256 * ((q.val % 2048) / 256) + q.val % 256
  omega

end Cert.Kernel.Vals

end
-- ==== Proof.Kernel.Ghost.lean ====
/-
  What one device holds while it runs, and the pipeline's proof data.

  Handed to every device: the invariant of every cell of every device and the fact that round 0 of each is reached (both
  persistent). Kept by device `c` alone: its position (round 0, nothing taken) on each of its 33 cells; the one-shot tokens
  of the duties IT pays — one unit on each neighbour's barrier cell, the departure of each of its own sixteen transfers and
  their arrival at the neighbour —; the credit for what others owe its cells — two barrier units, a slot's credit on each of
  its sixteen receive cells —; and its four slotted scratch buffers.
-/
import proofs.«900475_g7700000000000476_dist_rsdw_v7x_xy2x2_y_m1024_d1024_f4096_bf16_1_alg».proof.Proof.Kernel.Proto
import proofs.«900475_g7700000000000476_dist_rsdw_v7x_xy2x2_y_m1024_d1024_f4096_bf16_1_alg».proof.Proof.Kernel.OutAt

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

abbrev 𝒱₀ : Variants := Variants.none

/-! ## A device's own cells, indexed -/

/-- `none` is the barrier cell, `some (a, k)` DMA cell `k` of family `a`. -/
abbrev CIx : Type := Option (Fin 4 × Fin 8)
abbrev csem : CIx → SemLoc sig
  | none => .reg barS
  | some ak => .dma (qS ak.1 ak.2)
abbrev kcell (ck : Dev nD × CIx) : GSem nD τ sig := ((ck.1 : Thread nD τ), csem ck.2)
/-- The kernel's OWN (scoped) semaphores: the 32 DMA semaphores. -/
abbrev osem : Fin 4 × Fin 8 → SemLoc sig := fun ak => .dma (qS ak.1 ak.2)

/-! ## The ghost state -/

def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records m K) := by unfold records; infer_instance

/-- The tokens of the duties device `c` pays. -/
def payToks (c : Dev nD) : sProp 𝕄 :=
  iprop(dutyTok ER (barCell (pX c)) 0 false ∗ dutyTok ER (barCell (pY c)) 0 true
    ∗ (bigSep Finset.univ fun k : Fin 8 => dutyTok ER (qCell 0 k c) 0 false)
    ∗ (bigSep Finset.univ fun k : Fin 8 => dutyTok ER (qCell 1 k (pY c)) 0 false)
    ∗ (bigSep Finset.univ fun k : Fin 8 => dutyTok ER (qCell 2 k c) 0 false)
    ∗ (bigSep Finset.univ fun k : Fin 8 => dutyTok ER (qCell 3 k (pX c)) 0 false))

/-- Device `c`'s positions on its own cells. -/
def positions (c : Dev nD) : sProp 𝕄 :=
  iprop(atPos ER (barCell c) 0 ∅ 0 ∗ bigSep Finset.univ fun ak : Fin 4 × Fin 8 => atPos ER (qCell ak.1 ak.2 c) 0 ∅ 0)

def ghost (K : Dev nD × CIx → ℕ) (c : Dev nD) : sProp 𝕄 := iprop(records m K ∗ positions c ∗ payToks c)

/-- The credit for what the neighbours owe device `c`'s cells. -/
def creds (c : Dev nD) : sProp 𝕄 :=
  iprop(cred (tallyAt (barCell c) () 2)
    ∗ (bigSep Finset.univ fun k : Fin 8 => cred (tallyAt (qCell 1 k c) () Ncr))
    ∗ (bigSep Finset.univ fun k : Fin 8 => cred (tallyAt (qCell 3 k c) () Ncr)))

def start (c : Dev nD) : sProp 𝕄 := iprop((∃ K, ghost m K c) ∗ creds c ∗ levAts L lv)

/-- The four slotted scratch buffers, each whole over some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch c)
/-- After the body: the scratch buffers back whole, the 32 own cells at zero, closed. -/
def Φ₁ (c : Dev nD) : sProp 𝕄 :=
  iprop(scratch c ∗ bigSep Finset.univ fun ak : Fin 4 × Fin 8 => semVal (qCell ak.1 ak.2 c) 0)

/-! ## The pipeline's proof data -/

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => stgA m c
    | ⟨1, _⟩ => stgB m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelProof

end
-- ==== Proof.Kernel.Launch.lean ====
/-
  The launch: what every device is dealt before its body runs — the invariants of all cells, its positions, the tokens of
  the duties it pays, the credit for what its neighbours owe its cells — and the run of the whole mesh from the bodies.
-/
import proofs.«900475_g7700000000000476_dist_rsdw_v7x_xy2x2_y_m1024_d1024_f4096_bf16_1_alg».proof.Proof.Kernel.Ghost

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens, enumerated -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CIx → SemLoc sig) := by
  intro i i' h
  cases i with
  | none =>
    cases i' with
    | none => rfl
    | some ak => exact absurd h (by intro h'; cases h')
  | some ak =>
    cases i' with
    | none => exact absurd h (by intro h'; cases h')
    | some ak' =>
      obtain ⟨a, k⟩ := ak
      obtain ⟨a', k'⟩ := ak'
      have hq : qS a k = qS a' k' := SemLoc.dma.inj h
      have hv : 3 + 8 * a.val + k.val = 3 + 8 * a'.val + k'.val := congrArg Fin.val hq
      have ha : a = a' := Fin.ext (by have := k.isLt; have := k'.isLt; omega)
      have hk : k = k' := Fin.ext (by have := congrArg Fin.val ha; omega)
      subst ha; subst hk; rfl

theorem kcell_injective : Function.Injective (kcell : Dev nD × CIx → GSem nD τ sig) := by
  rintro ⟨c, i⟩ ⟨c', i'⟩ h
  have h1 : c = c' := by have := congrArg (fun g : GSem nD τ sig => g.1.1) h; exact this
  subst h1
  have h2 : csem i = csem i' := congrArg Prod.snd h
  have := csem_injective h2
  subst this; rfl

def protoCells : Finset (GSem nD τ sig) := Finset.univ.map ⟨kcell, kcell_injective⟩

/-- A device's own cells' duty tokens as minted: its barrier cell's two, and the one of each of its 32 transfer cells. -/
abbrev TIx : Type := Bool ⊕ (Fin 4 × Fin 8)
abbrev tokOf (cj : Dev nD × TIx) : GSem nD τ sig × ℕ × Bool := match cj.2 with
  | .inl d => (barCell cj.1, 0, d)
  | .inr ak => (qCell ak.1 ak.2 cj.1, 0, false)

theorem tokOf_injective : Function.Injective (tokOf : Dev nD × TIx → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  have : j = j' := by
    cases j with
    | inl d =>
      cases j' with
      | inl d' => exact congrArg Sum.inl (congrArg (fun x : GSem nD τ sig × ℕ × Bool => x.2.2) h)
      | inr ak' => exact absurd (congrArg (fun x : GSem nD τ sig × ℕ × Bool => x.1.2) h) (by intro h'; cases h')
    | inr ak =>
      cases j' with
      | inl d' => exact absurd (congrArg (fun x : GSem nD τ sig × ℕ × Bool => x.1.2) h) (by intro h'; cases h')
      | inr ak' =>
        have h2 : csem (some ak) = csem (some ak') := congrArg (fun x : GSem nD τ sig × ℕ × Bool => x.1.2) h
        exact congrArg Sum.inr (Option.some.inj (csem_injective h2))
  subst this; rfl

def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The duty tokens of one family of device `c`'s transfer cells. -/
def tokQ (a : Fin 4) (c : Dev nD) : sProp 𝕄 := bigSep Finset.univ fun k : Fin 8 => dutyTok ER (qCell a k c) 0 false

/-- The duty tokens of device `c`'s own cells. -/
def toks (c : Dev nD) : sProp 𝕄 :=
  iprop((dutyTok ER (barCell c) 0 false ∗ dutyTok ER (barCell c) 0 true)
    ∗ bigSep Finset.univ fun ak : Fin 4 × Fin 8 => dutyTok ER (qCell ak.1 ak.2 c) 0 false)

/-- What the launch element deals device `c`. -/
def G (c : Dev nD) : sProp 𝕄 :=
  iprop((bigSep Finset.univ fun i : CIx => roundState ER (sched m) (kcell (c, i)) 0)
    ∗ (bigSep Finset.univ fun i : CIx => iprop(atPos ER (kcell (c, i)) 0 ∅ 0 ∗ reached ER (kcell (c, i)) 0)) ∗ toks c)

/-- What the global step makes of it. -/
def G' (c : Dev nD) : sProp 𝕄 := iprop(∃ K, ghost m K c)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

/-- A `bigSep` over an optional index: the summand at `none`, then the others. -/
theorem bigSep_option {α : Type} [Fintype α] [DecidableEq α] (Φ : Option α → sProp 𝕄) :
    bigSep Finset.univ Φ = iprop(Φ none ∗ bigSep Finset.univ fun a => Φ (some a)) := by
  have h : (Finset.univ : Finset (Option α)) = insert none (Finset.univ.map Function.Embedding.some) := by
    ext x; cases x <;> simp
  rw [h, bigSep_insert (by simp), bigSep_map]; rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun i : CIx => Φ (kcell (c, i)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_bool]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The 32 transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 8 => semVal (qCell ak.1 ak.2 c) 0 := rfl

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 := iprop(positions c ∗ payToks c)

theorem ghost_intro (K : Dev nD × CIx → ℕ) (c : Dev nD) : iprop(records m K ∗ linear c) ⊢ G' m c := by
  unfold linear G' ghost
  iintro ⟨#HR, Hp, Ht⟩
  iexists K
  isplitr; · iexact HR
  isplitl [Hp]; · iexact Hp
  iexact Ht

theorem toks_eq (c : Dev nD) :
    (toks c : sProp 𝕄) = iprop((dutyTok ER (barCell c) 0 false ∗ dutyTok ER (barCell c) 0 true) ∗ tokQ 0 c ∗ tokQ 1 c ∗ tokQ 2 c ∗ tokQ 3 c) := by
  unfold toks tokQ; rw [bigSep_univ_prod, bigSep_fin4]

theorem payToks_eq (c : Dev nD) :
    (payToks c : sProp 𝕄) = iprop(dutyTok ER (barCell (pX c)) 0 false ∗ dutyTok ER (barCell (pY c)) 0 true
      ∗ tokQ 0 c ∗ tokQ 1 (pY c) ∗ tokQ 2 c ∗ tokQ 3 (pX c)) := rfl

def eX : Dev nD ≃ Dev nD := ⟨pX, pX, pX_pX, pX_pX⟩
def eY : Dev nD ≃ Dev nD := ⟨pY, pY, pY_pY, pY_pY⟩

/-- The tokens dealt to their payers: a barrier cell's two go to the two neighbours, an arrival's token to the neighbour
    that sends it. -/
theorem toks_around : (bigSep Finset.univ fun c : Dev nD => (toks c : sProp 𝕄)) ⊢ bigSep Finset.univ fun c : Dev nD => payToks c := by
  have hL : (bigSep Finset.univ fun c : Dev nD => (toks c : sProp 𝕄))
      = iprop(((bigSep Finset.univ fun c : Dev nD => dutyTok ER (barCell c) 0 false) ∗ (bigSep Finset.univ fun c : Dev nD => dutyTok ER (barCell c) 0 true))
        ∗ (bigSep Finset.univ fun c : Dev nD => tokQ 0 c) ∗ (bigSep Finset.univ fun c : Dev nD => tokQ 1 c)
        ∗ (bigSep Finset.univ fun c : Dev nD => tokQ 2 c) ∗ (bigSep Finset.univ fun c : Dev nD => tokQ 3 c)) := by
    rw [bigSep_congr (fun c _ => toks_eq (F := F) c)]
    simp only [bigSep_sep']
  have hR : (bigSep Finset.univ fun c : Dev nD => (payToks c : sProp 𝕄))
      = iprop((bigSep Finset.univ fun c : Dev nD => dutyTok ER (barCell (pX c)) 0 false) ∗ (bigSep Finset.univ fun c : Dev nD => dutyTok ER (barCell (pY c)) 0 true)
        ∗ (bigSep Finset.univ fun c : Dev nD => tokQ 0 c) ∗ (bigSep Finset.univ fun c : Dev nD => tokQ 1 (pY c))
        ∗ (bigSep Finset.univ fun c : Dev nD => tokQ 2 c) ∗ (bigSep Finset.univ fun c : Dev nD => tokQ 3 (pX c))) := by
    rw [bigSep_congr (fun c _ => payToks_eq (F := F) c)]
    simp only [bigSep_sep']
  rw [hL, hR,
    bigSep_univ_equiv eX (fun c : Dev nD => (dutyTok ER (barCell c) 0 false : sProp 𝕄)),
    bigSep_univ_equiv eY (fun c : Dev nD => (dutyTok ER (barCell c) 0 true : sProp 𝕄)),
    bigSep_univ_equiv eY (fun c : Dev nD => (tokQ 1 c : sProp 𝕄)),
    bigSep_univ_equiv eX (fun c : Dev nD => (tokQ 3 c : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem positions_eq (c : Dev nD) : (bigSep Finset.univ fun i : CIx => (atPos ER (kcell (c, i)) 0 ∅ 0 : sProp 𝕄)) = positions c := by
  unfold positions; rw [bigSep_option]

theorem regroup :
    (bigSep Finset.univ fun c : Dev nD => iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CIx => (atPos ER (kcell (c, i)) 0 ∅ 0 : sProp 𝕄)) payToks).symm).trans
      (bigSep_mono fun c _ => show _ ⊢ linear c from Entails.of_eq (by unfold linear; rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩

theorem q_eq_iff {a a' : Fin 4} {k k' : Fin 8} {c c' : Dev nD} : Iff (qCell a k c = qCell a' k' c') (c = c' ∧ a = a' ∧ k = k') := by
  constructor
  · intro h
    have hc : c = c' := Fin.ext (congrArg (fun g : GSem nD τ sig => g.1.1.val) h)
    have hs : csem (some (a, k)) = csem (some (a', k')) := congrArg Prod.snd h
    have := Option.some.inj (csem_injective hs)
    exact ⟨hc, congrArg Prod.fst this, congrArg Prod.snd this⟩
  · rintro ⟨rfl, rfl, rfl⟩; rfl

theorem q_ne_barCell {a : Fin 4} {k : Fin 8} {c c' : Dev nD} : qCell a k c ≠ barCell c' :=
  fun h => q_ne_bar a k (congrArg Prod.snd h)

theorem pX_eq_iff {c d : Dev nD} : Iff (c = pX d) (d = pX c) :=
  ⟨fun h => by rw [h, pX_pX], fun h => by rw [h, pX_pX]⟩
theorem pY_eq_iff {c d : Dev nD} : Iff (c = pY d) (d = pY c) :=
  ⟨fun h => by rw [h, pY_pY], fun h => by rw [h, pY_pY]⟩

/-- The tallies of chunks `n ..` at a cell and index: the sum of the chunks' own. -/
theorem owedFrom_apply (t : Fin 8 → CellTallies nD τ sig Unit) (g : GSem nD τ sig) (u : Unit) :
    ∀ (j n : ℕ), 8 - n = j → owedFrom t n g u = ∑ k : Fin 8, if n ≤ k.val then t k g u else 0 := by
  intro j
  induction j with
  | zero =>
    intro n hn
    rw [owedFrom_end t n (by omega)]
    exact (Finset.sum_eq_zero fun k _ => if_neg (by have := k.isLt; omega)).symm
  | succ j ih =>
    intro n hn
    have hlt : n < 8 := by omega
    rw [owedFrom_step t n hlt, Pi.add_apply, Finsupp.add_apply, ih (n + 1) (by omega)]
    have hk : ∀ k : Fin 8, (if n ≤ k.val then t k g u else 0) = (if n + 1 ≤ k.val then t k g u else 0) + (if k = ⟨n, hlt⟩ then t k g u else 0) := by
      intro k
      by_cases h1 : n + 1 ≤ k.val
      · rw [if_pos (by omega), if_pos h1, if_neg (fun h => by have := congrArg Fin.val h; simp only at this; omega), Nat.add_zero]
      · by_cases h2 : k = ⟨n, hlt⟩
        · rw [if_pos (by have := congrArg Fin.val h2; simp only at this; omega), if_neg h1, if_pos h2, Nat.zero_add]
        · have : ¬ n ≤ k.val := fun h => h2 (Fin.ext (by simp only; omega))
          rw [if_neg this, if_neg h1, if_neg h2]
    rw [Finset.sum_congr rfl fun k _ => hk k, Finset.sum_add_distrib, Finset.sum_ite_eq' Finset.univ (⟨n, hlt⟩ : Fin 8) fun k => t k g u,
      if_pos (Finset.mem_univ _)]

theorem owedFrom_zero_apply (t : Fin 8 → CellTallies nD τ sig Unit) (g : GSem nD τ sig) (u : Unit) :
    owedFrom t 0 g u = ∑ k : Fin 8, t k g u := by
  rw [owedFrom_apply t g u 8 0 rfl]
  exact Finset.sum_congr rfl fun k _ => if_pos (Nat.zero_le _)

theorem Oxy_bar (d c : Dev nD) : Oxy d 0 0 (barCell c) () = 0 := by
  refine Nat.eq_zero_of_not_pos fun h => ?_
  rcases Oxy_pos h with ⟨k, hk⟩ | ⟨_, k, hk⟩
  · exact q_ne_barCell hk.symm
  · exact q_ne_barCell hk.symm

/-- What device `d` owes device `c`'s barrier cell: a unit if it is `c`'s neighbour along the second axis, a unit if along the first. -/
theorem owed_bar (d c : Dev nD) : O₀ d (barCell c) () = (if d = pY c then 1 else 0) + (if d = pX c then 1 else 0) := by
  unfold O₀ O₁
  rw [Pi.add_apply, Finsupp.add_apply, Pi.add_apply, Finsupp.add_apply, Oxy_bar, Nat.zero_add, tallyAt_apply, tallyAt_apply]
  congr 1
  · by_cases h : d = pY c
    · rw [if_pos ⟨bar_eq_iff.mpr (pY_eq_iff.mp h), rfl⟩, if_pos h]
    · rw [if_neg (fun h' => h (pY_eq_iff.mp (bar_eq_iff.mp h'.1))), if_neg h]
  · by_cases h : d = pX c
    · rw [if_pos ⟨bar_eq_iff.mpr (pX_eq_iff.mp h), rfl⟩, if_pos h]
    · rw [if_neg (fun h' => h (pX_eq_iff.mp (bar_eq_iff.mp h'.1))), if_neg h]

theorem tY_at (d c : Dev nD) (k' k : Fin 8) : tY d k' (qCell 1 k c) () = if d = pY c ∧ k' = k then Ncr else 0 := by
  unfold tY; rw [tallyAt_apply]
  by_cases h : d = pY c ∧ k' = k
  · rw [if_pos h, if_pos ⟨q_eq_iff.mpr ⟨pY_eq_iff.mp h.1, rfl, h.2.symm⟩, rfl⟩]
  · rw [if_neg h, if_neg (fun h' => h (by obtain ⟨hc, _, hk⟩ := q_eq_iff.mp h'.1; exact ⟨pY_eq_iff.mp hc, hk.symm⟩))]
theorem tX_at (d c : Dev nD) (k' k : Fin 8) : tX d k' (qCell 3 k c) () = if d = pX c ∧ k' = k then Ncr else 0 := by
  unfold tX; rw [tallyAt_apply]
  by_cases h : d = pX c ∧ k' = k
  · rw [if_pos h, if_pos ⟨q_eq_iff.mpr ⟨pX_eq_iff.mp h.1, rfl, h.2.symm⟩, rfl⟩]
  · rw [if_neg h, if_neg (fun h' => h (by obtain ⟨hc, _, hk⟩ := q_eq_iff.mp h'.1; exact ⟨pX_eq_iff.mp hc, hk.symm⟩))]
theorem tY_at3 (d c : Dev nD) (k' k : Fin 8) : tY d k' (qCell 3 k c) () = 0 := by
  unfold tY; rw [tallyAt_apply, if_neg (fun h' => by have := (q_eq_iff.mp h'.1).2.1; exact absurd this (by decide))]
theorem tX_at1 (d c : Dev nD) (k' k : Fin 8) : tX d k' (qCell 1 k c) () = 0 := by
  unfold tX; rw [tallyAt_apply, if_neg (fun h' => by have := (q_eq_iff.mp h'.1).2.1; exact absurd this (by decide))]

theorem sum_pick (d' : Prop) [Decidable d'] (k : Fin 8) (n : ℕ) : (∑ k' : Fin 8, if d' ∧ k' = k then n else 0) = if d' then n else 0 := by
  by_cases h : d'
  · rw [if_pos h, Finset.sum_congr rfl fun k' _ => show (if d' ∧ k' = k then n else 0) = if k' = k then n else 0 from by
      by_cases hk : k' = k
      · rw [if_pos ⟨h, hk⟩, if_pos hk]
      · rw [if_neg (fun h' => hk h'.2), if_neg hk],
      Finset.sum_ite_eq' Finset.univ k fun _ => n, if_pos (Finset.mem_univ _)]
  · rw [if_neg h]; exact Finset.sum_eq_zero fun k' _ => if_neg (fun h' => h h'.1)

theorem owed_q1 (d c : Dev nD) (k : Fin 8) : O₀ d (qCell 1 k c) () = if d = pY c then Ncr else 0 := by
  unfold O₀ O₁ Oxy
  rw [Pi.add_apply, Finsupp.add_apply, Pi.add_apply, Finsupp.add_apply, Pi.add_apply, Finsupp.add_apply,
    tallyAt_ne_cell q_ne_barCell, tallyAt_ne_cell q_ne_barCell, owedFrom_zero_apply, owedFrom_zero_apply,
    Finset.sum_congr rfl fun k' _ => tX_at1 d c k' k, Finset.sum_congr rfl fun k' _ => tY_at d c k' k, sum_pick]
  simp only [Finset.sum_const_zero, Finsupp.zero_apply, Nat.zero_add, Nat.add_zero]

theorem owed_q3 (d c : Dev nD) (k : Fin 8) : O₀ d (qCell 3 k c) () = if d = pX c then Ncr else 0 := by
  unfold O₀ O₁ Oxy
  rw [Pi.add_apply, Finsupp.add_apply, Pi.add_apply, Finsupp.add_apply, Pi.add_apply, Finsupp.add_apply,
    tallyAt_ne_cell q_ne_barCell, tallyAt_ne_cell q_ne_barCell, owedFrom_zero_apply, owedFrom_zero_apply,
    Finset.sum_congr rfl fun k' _ => tX_at d c k' k, Finset.sum_congr rfl fun k' _ => tY_at3 d c k' k, sum_pick]
  simp only [Finset.sum_const_zero, Finsupp.zero_apply, Nat.zero_add, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pY c) fun _ => 1, Finset.sum_ite_eq' Finset.univ (pX c) fun _ => 1, if_pos (Finset.mem_univ _), if_pos (Finset.mem_univ _)]

theorem launch_q1 (c : Dev nD) (k : Fin 8) :
    tallyOn (qCell 1 k c) (launchCredit (Pipeline.owing O₀) 0 (qCell 1 k c)) = (tallyAt (qCell 1 k c) () Ncr : CellTallies nD τ sig Unit) := by
  unfold tallyAt; refine congrArg _ (Finsupp.ext fun u => ?_); cases u
  rw [Pipeline.launchCredit_owing, Finsupp.single_eq_same, Finset.sum_congr rfl fun d _ => owed_q1 d c k, Finset.sum_ite_eq' Finset.univ (pY c) fun _ => Ncr,
    if_pos (Finset.mem_univ _)]

theorem launch_q3 (c : Dev nD) (k : Fin 8) :
    tallyOn (qCell 3 k c) (launchCredit (Pipeline.owing O₀) 0 (qCell 3 k c)) = (tallyAt (qCell 3 k c) () Ncr : CellTallies nD τ sig Unit) := by
  unfold tallyAt; refine congrArg _ (Finsupp.ext fun u => ?_); cases u
  rw [Pipeline.launchCredit_owing, Finsupp.single_eq_same, Finset.sum_congr rfl fun d _ => owed_q3 d c k, Finset.sum_ite_eq' Finset.univ (pX c) fun _ => Ncr,
    if_pos (Finset.mem_univ _)]

/-- The receive semaphores of one family, as semaphore locations. -/
def famEmb (a : Fin 4) : Fin 8 ↪ SemLoc sig :=
  ⟨fun k => .dma (qS a k), fun k k' h => congrArg Prod.snd (Option.some.inj (csem_injective (show csem (some (a, k)) = csem (some (a, k')) from h)))⟩

theorem launch_creds (c : Dev nD) : (Pipeline.launchCred O₀ c : sProp 𝕄) ⊢ creds c := by
  unfold Pipeline.launchCred creds
  rw [bigSep_univ_at _ (SemLoc.reg barS), launch_bar]
  refine sep_mono_right ?_
  have hsub : (Finset.univ.map (famEmb 1)) ∪ (Finset.univ.map (famEmb 3)) ⊆ (Finset.univ : Finset (SemLoc sig)).erase (SemLoc.reg barS) := by
    intro sm hsm
    refine Finset.mem_erase.mpr ⟨?_, Finset.mem_univ _⟩
    rcases Finset.mem_union.mp hsm with h | h
    · obtain ⟨k, _, rfl⟩ := Finset.mem_map.mp h; exact q_ne_bar 1 k
    · obtain ⟨k, _, rfl⟩ := Finset.mem_map.mp h; exact q_ne_bar 3 k
  have hdisj : Disjoint (Finset.univ.map (famEmb 1)) (Finset.univ.map (famEmb 3)) := by
    rw [Finset.disjoint_left]
    intro sm h1 h3
    obtain ⟨k, _, rfl⟩ := Finset.mem_map.mp h1
    obtain ⟨k', _, hk'⟩ := Finset.mem_map.mp h3
    have := Option.some.inj (csem_injective (show csem (some (3, k')) = csem (some (1, k)) from hk'))
    exact absurd (show (3 : Fin 4) = 1 from congrArg Prod.fst this) (by decide)
  refine (bigSep_subset hsub).trans ?_
  rw [bigSep_union hdisj, bigSep_map, bigSep_map]
  exact BI.sep_mono (Entails.of_eq (bigSep_congr fun k _ => congrArg cred (launch_q1 c k)))
    (Entails.of_eq (bigSep_congr fun k _ => congrArg cred (launch_q3 c k)))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- Everything a device owes at launch sits on TensorCore cells of level at least 1. -/
theorem O₀_above (c : Dev nD) : ∀ g u, 0 < O₀ c g u → g.1.2 = .tc ∧ 0 < lv g u := by
  intro g u h
  unfold O₀ O₁ at h
  rw [Pi.add_apply, Finsupp.add_apply, Pi.add_apply, Finsupp.add_apply] at h
  rcases Nat.add_pos_iff_pos_or_pos.mp h with h1 | h3
  · rcases Nat.add_pos_iff_pos_or_pos.mp h1 with h1 | h2
    · exact Oxy_above 0 (Or.inl (by omega)) g u h1
    · have e := bar_pos h2; subst e; exact ⟨rfl, by rw [lv_bar]; omega⟩
  · have e := bar_pos h3; subst e; exact ⟨rfl, by rw [lv_bar]; omega⟩

theorem lv_stage (c : Dev nD) (q : DmaSem sig) (hq : q.val < 3) : lv ((c : Thread nD τ), .dma q) () = 0 := by
  show (if 27 ≤ q.val then 3 else if 11 ≤ q.val ∧ q.val < 19 then 2 else 0) = 0
  rw [if_neg (by omega), if_neg (by omega)]

theorem waits (c : Dev nD) : (levAts L lv : sProp 𝕄) ⊢ Pipeline.cellsWaits cfgs (dats m ρ) () 0 c :=
  Pipeline.cellsWaits_intro cfgs (dats m ρ) () 0 c fun w s t =>
    mayWait_cut c _ 0 _ (le_of_eq (lv_stage c _ (by fin_cases w <;> fin_cases s <;> decide))) (by
      rcases t with ⟨_ | _, ht⟩
      · exact O₀_above c
      · intro g u h; exact absurd h (Nat.lt_irrefl 0))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given each device's
    body: every weakly fair execution of @main terminates, and every final state has each window's array at the
    contents the proof data name. -/
theorem run_main (hbody : ∀ c, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The first input array after the run holds what it held, -/
theorem finalA_A (c : Dev nD) : finalA m ρ c (0 : Fin 3) = (st₀ m ρ).mem (win0_0.arr.view.loc (c : Thread nD τ)) :=
  (dats (F := F) m ρ 0 c).arrAt_in (0 : Fin 3) rfl _

/-- and so does the second. -/
theorem finalA_B (c : Dev nD) : finalA m ρ c (1 : Fin 3) = (st₀ m ρ).mem (win0_1.arr.view.loc (c : Thread nD τ)) :=
  (dats (F := F) m ρ 0 c).arrAt_in (1 : Fin 3) rfl _

/-- The result array after the run holds the device's result block. -/
theorem finalA_out (c : Dev nD) : finalA m ρ c (2 : Fin 3) = outAt m c := by
  unfold finalA
  have hN : cfg0.N = (t0_0 : Fin grid0.N).val + 1 := N_0
  rw [hN, (dats (F := F) m ρ 0 c).arrAt_succ (2 : Fin 3) t0_0, flush0_2 t0_0, if_pos rfl]
  exact Memref.write_access_unit_zero_univ (Elt F) main_v1 (by funext a; exact Nat.zero_mul _) _ _ _

/-- info: 'Cert.KernelProof.run_main' depends on axioms: [propext, Classical.choice, Quot.sound] -/
#guard_msgs in #print axioms run_main

/-- info: 'Cert.KernelProof.finalA_out' depends on axioms: [propext, Classical.choice, Quot.sound] -/
#guard_msgs in #print axioms finalA_out

end Cert.KernelProof

end
-- ==== Proof.Kernel.BodyDefs.lean ====
/-
  What one device's body starts from and what it leaves, as the pipeline hands them over: the device's ghost state,
  credits and scratch buffers; what it owes; the three staging buffers (the two input blocks as fetched, the result's at
  whatever it held). It leaves the scratch buffers and its 32 cells at zero, owes nothing, the input blocks as they were
  and the result block entry by entry (`outAt`).
-/
import proofs.«900475_g7700000000000476_dist_rsdw_v7x_xy2x2_y_m1024_d1024_f4096_bf16_1_alg».proof.Proof.Kernel.Ghost

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Buffer `b` of device `c` held whole at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CIx → ℕ) (c : Dev nD) : sProp 𝕄 :=
  iprop((ghost m K c ∗ creds c ∗ levAts L lv ∗ scratch c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (stgA m c) ∗ stg c cc0_stg1_0 (stgB m c) ∗ stg c cc0_stg2_0 (outAt m c))

/-- The kernel body as the pipeline calls it at its one grid point. -/
abbrev theBody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

/-- The statement of the body lemma: the body run from `bodyPre` ends in `bodyPost`. -/
def SoundBody : Prop :=
  ∀ (K : Dev nD × CIx → ℕ) (c : Dev nD) (Kt : PUnit → sProp 𝕄),
    iprop(bodyPre m ρ K c ∗ (bodyPost m ρ c -∗ Kt ⟨⟩)) ⊢ wp frame (wpE (defs₀ (F := F)) 𝒱₀ c none) Set.univ (theBody (F := F)) Kt

end Cert.KernelProof

end
-- ==== Proof.Kernel.Obligation.lean ====
/-
  The body lemma, in the form the pipeline asks for it at its one grid point, and the run of the mesh from it.
-/
import proofs.«900475_g7700000000000476_dist_rsdw_v7x_xy2x2_y_m1024_d1024_f4096_bf16_1_alg».proof.Proof.Kernel.Launch
import proofs.«900475_g7700000000000476_dist_rsdw_v7x_xy2x2_y_m1024_d1024_f4096_bf16_1_alg».proof.Proof.Kernel.BodyDefs

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole buffer owned at the full share is the buffer held at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 16384 in
/-- What the pipeline hands the body at the point. -/
def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 16384 in
/-- The library's body obligation on device `c`, from the body lemma. -/
theorem body_obligation (h : SoundBody m ρ) (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hcr, Hlev⟩, Hscr⟩, Ho, Hx, Hy, Hout⟩
  iapply (h K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hy]; · iexact Hy
    iexact Hout
  · iintro H; iexact H

/-- The run of the mesh from the body lemma. -/
theorem run_of_body (h : SoundBody m ρ) : θ_run defs (onTc (τ := τ) (main (F := F))) (st₀ m ρ) (QC m ρ) :=
  run_main m ρ (body_obligation m ρ h)

/-- info: 'Cert.KernelProof.run_of_body' depends on axioms: [propext, Classical.choice, Quot.sound] -/
#guard_msgs in #print axioms run_of_body

end Cert.KernelProof

end
-- ==== Proof.RefG.lean ====
/- The reference's result as one function of its two arguments, index by index:
   the contraction over the 2048 rows of the transposed left operand against the right operand. -/
import proofs.«900475_g7700000000000476_dist_rsdw_v7x_xy2x2_y_m1024_d1024_f4096_bf16_1_alg».proof.Proof.Gen.ReferenceIdeal.Read

noncomputable section

open scoped BigOperators

namespace Cert.RefValue

open Cert.ReferenceIdeal Cert.ReferenceIdeal.Gen Cert.ReferenceIdeal.Read Idealize.ShloMosaic Idealize.ShloMosaic.ValueIdx

/-- The reference's result at index `(i, j)`: the sum over the 2048 rows `k` of `X[k, i] * DY[k, j]`
    (the left operand is read transposed). -/
def refG (X : FVec Ideal S2048x1024 .f32) (DY : FVec Ideal S2048x4096 .f32) : FVec Ideal S1024x4096 .f32 :=
  fun i => ∑ k : Fin 2048, X (ix2 k (⟨(i 0).val, (i 0).isLt⟩ : Fin 1024)) * DY (ix2 k (⟨(i 1).val, (i 1).isLt⟩ : Fin 4096))

/-- The same, at an index given by its coordinates. -/
theorem refG_ix2 (X : FVec Ideal S2048x1024 .f32) (DY : FVec Ideal S2048x4096 .f32) (i : Fin 1024) (j : Fin 4096) :
    refG X DY (ix2 i j) = ∑ k : Fin 2048, X (ix2 k i) * DY (ix2 k j) := rfl

/-- The reference's dot_general stage is `refG`. -/
theorem val_main_v1_eq_refG (X : FVec Ideal S2048x1024 .f32) (DY : FVec Ideal S2048x4096 .f32) :
    val_main_v1 (F := Ideal) X DY = refG X DY := by
  funext i
  rw [val_main_v1_apply]
  unfold refG
  refine Finset.sum_congr rfl fun k _ => ?_
  rw [val_main_v0_apply]
  have e0 : idx_main_v0 (lidx_main_v1 i k) = ix2 k (⟨(i 0).val, (i 0).isLt⟩ : Fin 1024) := by
    funext a
    match a with
    | ⟨0, _⟩ => rfl
    | ⟨1, _⟩ => rfl
  have e1 : ridx_main_v1 i k = ix2 k (⟨(i 1).val, (i 1).isLt⟩ : Fin 4096) := by
    funext a
    match a with
    | ⟨0, _⟩ => rfl
    | ⟨1, _⟩ => rfl
  rw [e0, e1]

/-- The term the reference's run states for its result buffer is `refG` of the two argument arrays. -/
theorem run_result_eq_refG (X : FVec Ideal S2048x1024 .f32) (DY : FVec Ideal S2048x4096 .f32) :
    Host.dotGeneral dot_S1024x2048_S2048x4096_S1024x4096_1_0_0_1_n_n none
        (transpose S1024x2048 [1, 0] X transposes_S2048x1024_S1024x2048_1_0) DY
      = refG X DY :=
  (val_main_v1_eq (F := Ideal) X DY).trans (val_main_v1_eq_refG X DY)

end Cert.RefValue

end
-- ==== Proof.MatmulAt.lean ====
/- The kernel's matmul (contracting axis 0 of both operands, into the zero accumulator) read at an index:
   the sum over the 1024 contraction positions of the products of the two operands' columns. -/
import proofs.«900475_g7700000000000476_dist_rsdw_v7x_xy2x2_y_m1024_d1024_f4096_bf16_1_alg».proof.Proof.Gen.KernelIdeal
import Idealize.ShloMosaic.Lib.ValueIdx
import Idealize.ShloMosaic.PureOps.Ideal.Laws

noncomputable section

open scoped BigOperators

namespace Cert.Spec

open Cert.KernelIdeal Cert.KernelIdeal.Gen Idealize.ShloMosaic Idealize.ShloMosaic.ValueIdx

theorem dot_lhs_0 (i : S512x256.Idx) (q : dot_S1024x512_S1024x256_S512x256_0_0_1_1_n_n.contr.Idx) :
    (dot_S1024x512_S1024x256_S512x256_0_0_1_1_n_n.lhsIdx i q 0).val = (q ⟨0, by decide⟩).val :=
  dot_S1024x512_S1024x256_S512x256_0_0_1_1_n_n.lhsIdx_val_of_single rfl i q

theorem dot_lhs_1 (i : S512x256.Idx) (q : dot_S1024x512_S1024x256_S512x256_0_0_1_1_n_n.contr.Idx) :
    (dot_S1024x512_S1024x256_S512x256_0_0_1_1_n_n.lhsIdx i q 1).val = (i 0).val := by
  unfold DotDims.lhsIdx
  rw [dif_neg (show ¬(1 : Fin S1024x512.rank) ∈ dot_S1024x512_S1024x256_S512x256_0_0_1_1_n_n.lhsBatch by decide), dif_pos (show (1 : Fin S1024x512.rank) ∈ dot_S1024x512_S1024x256_S512x256_0_0_1_1_n_n.lhsNonContracting by decide)]
  rfl

theorem dot_rhs_0 (i : S512x256.Idx) (q : dot_S1024x512_S1024x256_S512x256_0_0_1_1_n_n.contr.Idx) :
    (dot_S1024x512_S1024x256_S512x256_0_0_1_1_n_n.rhsIdx i q 0).val = (q ⟨0, by decide⟩).val :=
  dot_S1024x512_S1024x256_S512x256_0_0_1_1_n_n.rhsIdx_val_of_single rfl i q

theorem dot_rhs_1 (i : S512x256.Idx) (q : dot_S1024x512_S1024x256_S512x256_0_0_1_1_n_n.contr.Idx) :
    (dot_S1024x512_S1024x256_S512x256_0_0_1_1_n_n.rhsIdx i q 1).val = (i 1).val := by
  unfold DotDims.rhsIdx
  rw [dif_neg (show ¬(1 : Fin S1024x256.rank) ∈ dot_S1024x512_S1024x256_S512x256_0_0_1_1_n_n.rhsBatch by decide), dif_pos (show (1 : Fin S1024x256.rank) ∈ dot_S1024x512_S1024x256_S512x256_0_0_1_1_n_n.rhsNonContracting by decide)]
  rfl

/-- The matmul into the zero accumulator at `(p, q)`: the sum over `k` of `a[k, p] * b[k, q]`. -/
theorem matmul_at {φ₁ φ₂ : FTy} (a : FVec Ideal S1024x512 φ₁) (b : FVec Ideal S1024x256 φ₂) (p : Fin 512) (q : Fin 256) :
    matmul dot_S1024x512_S1024x256_S512x256_0_0_1_1_n_n none a b (constant S512x256 .f32 0x00000000#32) (ix2 p q)
      = ∑ k : Fin 1024, a (ix2 k p) * b (ix2 k q) := by
  show FloatOps.matmul dot_S1024x512_S1024x256_S512x256_0_0_1_1_n_n none a b (constant S512x256 .f32 0x00000000#32) (ix2 p q) = _
  rw [Ideal.matmul_constant_zero_apply, ← Equiv.sum_comp (ValueIdx.contrEquiv1 dot_S1024x512_S1024x256_S512x256_0_0_1_1_n_n 1024 rfl rfl).symm]
  refine Finset.sum_congr rfl fun k _ => ?_
  have hk := ValueIdx.contrEquiv1_symm_val dot_S1024x512_S1024x256_S512x256_0_0_1_1_n_n 1024 rfl rfl k
  have el : dot_S1024x512_S1024x256_S512x256_0_0_1_1_n_n.lhsIdx (ix2 p q) ((ValueIdx.contrEquiv1 dot_S1024x512_S1024x256_S512x256_0_0_1_1_n_n 1024 rfl rfl).symm k) = ix2 k p := funext fun c => Fin.ext (by
    match c with
    | ⟨0, _⟩ => exact (dot_lhs_0 _ _).trans hk
    | ⟨1, _⟩ => exact dot_lhs_1 _ _)
  have er : dot_S1024x512_S1024x256_S512x256_0_0_1_1_n_n.rhsIdx (ix2 p q) ((ValueIdx.contrEquiv1 dot_S1024x512_S1024x256_S512x256_0_0_1_1_n_n 1024 rfl rfl).symm k) = ix2 k q := funext fun c => Fin.ext (by
    match c with
    | ⟨0, _⟩ => exact (dot_rhs_0 _ _).trans hk
    | ⟨1, _⟩ => exact dot_rhs_1 _ _)
  rw [el, er]

/-- The same at any index of the result. -/
theorem matmul_apply' {φ₁ φ₂ : FTy} (a : FVec Ideal S1024x512 φ₁) (b : FVec Ideal S1024x256 φ₂) (i : S512x256.Idx) :
    matmul dot_S1024x512_S1024x256_S512x256_0_0_1_1_n_n none a b (constant S512x256 .f32 0x00000000#32) i
      = ∑ k : Fin 1024, a (ix2 k (⟨(i 0).val, (i 0).isLt⟩ : Fin 512)) * b (ix2 k (⟨(i 1).val, (i 1).isLt⟩ : Fin 256)) := by
  have h := matmul_at a b (⟨(i 0).val, (i 0).isLt⟩ : Fin 512) (⟨(i 1).val, (i 1).isLt⟩ : Fin 256)
  have hi : i = ix2 (⟨(i 0).val, (i 0).isLt⟩ : Fin 512) (⟨(i 1).val, (i 1).isLt⟩ : Fin 256) := by
    funext c
    match c with
    | ⟨0, _⟩ => rfl
    | ⟨1, _⟩ => rfl
  rw [hi]
  exact h

end Cert.Spec

end
-- ==== Proof.SplitSum.lean ====
/- A sum over 2048 positions is the sum over the first 1024 plus the sum over the last 1024, in either order:
   in any commutative additive monoid, so in particular over the extended reals with no finiteness asked. -/
import Mathlib.Algebra.BigOperators.Fin
import Mathlib.Data.EReal.Basic

open scoped BigOperators

namespace Cert.Spec

/-- The sum over `Fin 2048` is the sum over its lower half plus the sum over its upper half. -/
theorem sum_split_2048 {M : Type*} [AddCommMonoid M] (f : Fin 2048 → M) :
    ∑ k : Fin 2048, f k
      = (∑ k : Fin 1024, f ⟨k.val, by omega⟩) + (∑ k : Fin 1024, f ⟨1024 + k.val, by omega⟩) := by
  have h := Fin.sum_univ_add (a := 1024) (b := 1024) (f := f)
  rw [h]
  rfl

/-- The same with the halves in the other order. -/
theorem sum_split_2048_comm {M : Type*} [AddCommMonoid M] (f : Fin 2048 → M) :
    ∑ k : Fin 2048, f k
      = (∑ k : Fin 1024, f ⟨1024 + k.val, by omega⟩) + (∑ k : Fin 1024, f ⟨k.val, by omega⟩) := by
  rw [sum_split_2048, add_comm]

/-- Over the extended reals, as the value proof uses it. -/
theorem sum_split_2048_ereal (f : Fin 2048 → EReal) :
    ∑ k : Fin 2048, f k
      = (∑ k : Fin 1024, f ⟨k.val, by omega⟩) + (∑ k : Fin 1024, f ⟨1024 + k.val, by omega⟩) :=
  sum_split_2048 f

theorem sum_split_2048_ereal_comm (f : Fin 2048 → EReal) :
    ∑ k : Fin 2048, f k
      = (∑ k : Fin 1024, f ⟨1024 + k.val, by omega⟩) + (∑ k : Fin 1024, f ⟨k.val, by omega⟩) :=
  sum_split_2048_comm f

end Cert.Spec
-- ==== Proof.BlockAt.lean ====
/- A device's block of a whole array, read at an index: on the 2 x 2 mesh with dimension 0 cut along the
   second mesh axis, device `c` holds the rows starting at `(c % 2)` times the block's row count. -/
import Idealize.ShloMosaic.Lib.Layout
import Idealize.ShloMosaic.Lib.ValueIdx

namespace Cert.Spec

open Idealize.ShloMosaic Idealize.ShloMosaic.ValueIdx

/-- Device `c`'s coordinate on the second axis of the 2 x 2 mesh is `c % 2`. -/
theorem meshLin_axis1 (c : Nat) : Layout.meshLin [2, 2] c [1] = c % 2 := by
  simp [Layout.meshLin, Layout.meshCoord, Layout.cutSize]

/-- A dimension that is not cut is in one block, block 0. -/
theorem meshLin_nil (c : Nat) : Layout.meshLin [2, 2] c [] = 0 := rfl

variable {α : Type} {n : Nat}

/-- Rows `1024 * (c % 2) ..` of a `[2048, 1024]` array. -/
theorem blockN_2048x1024_at (c : Fin n) (A : (⟨2, ![2048, 1024]⟩ : Shape).Idx → α) (k : Fin 1024) (i : Fin 1024) :
    (Layout.blockN ⟨2, ![1024, 1024]⟩ ⟨2, ![2048, 1024]⟩ (Layout.meshBlock [2, 2] ![[1], []] c) A) (ix2 k i)
      = A (ix2 (⟨1024 * (c.val % 2) + k.val, by omega⟩ : Fin 2048) i) := by
  rw [Layout.blockN_apply]
  congr 1
  funext b
  match b with
  | ⟨0, _⟩ =>
    apply Fin.ext
    show Layout.meshLin [2, 2] c.val [1] * 1024 + k.val = 1024 * (c.val % 2) + k.val
    rw [meshLin_axis1]; omega
  | ⟨1, _⟩ =>
    apply Fin.ext
    show Layout.meshLin [2, 2] c.val [] * 1024 + i.val = i.val
    rw [meshLin_nil]; omega

/-- Rows `1024 * (c % 2) ..` of a `[2048, 4096]` array. -/
theorem blockN_2048x4096_at (c : Fin n) (A : (⟨2, ![2048, 4096]⟩ : Shape).Idx → α) (k : Fin 1024) (j : Fin 4096) :
    (Layout.blockN ⟨2, ![1024, 4096]⟩ ⟨2, ![2048, 4096]⟩ (Layout.meshBlock [2, 2] ![[1], []] c) A) (ix2 k j)
      = A (ix2 (⟨1024 * (c.val % 2) + k.val, by omega⟩ : Fin 2048) j) := by
  rw [Layout.blockN_apply]
  congr 1
  funext b
  match b with
  | ⟨0, _⟩ =>
    apply Fin.ext
    show Layout.meshLin [2, 2] c.val [1] * 1024 + k.val = 1024 * (c.val % 2) + k.val
    rw [meshLin_axis1]; omega
  | ⟨1, _⟩ =>
    apply Fin.ext
    show Layout.meshLin [2, 2] c.val [] * 4096 + j.val = j.val
    rw [meshLin_nil]; omega

/-- Rows `512 * (c % 2) ..` of a `[1024, 4096]` array. -/
theorem blockN_1024x4096_at (c : Fin n) (A : (⟨2, ![1024, 4096]⟩ : Shape).Idx → α) (p : Fin 512) (j : Fin 4096) :
    (Layout.blockN ⟨2, ![512, 4096]⟩ ⟨2, ![1024, 4096]⟩ (Layout.meshBlock [2, 2] ![[1], []] c) A) (ix2 p j)
      = A (ix2 (⟨512 * (c.val % 2) + p.val, by omega⟩ : Fin 1024) j) := by
  rw [Layout.blockN_apply]
  congr 1
  funext b
  match b with
  | ⟨0, _⟩ =>
    apply Fin.ext
    show Layout.meshLin [2, 2] c.val [1] * 512 + p.val = 512 * (c.val % 2) + p.val
    rw [meshLin_axis1]; omega
  | ⟨1, _⟩ =>
    apply Fin.ext
    show Layout.meshLin [2, 2] c.val [] * 4096 + j.val = j.val
    rw [meshLin_nil]; omega

end Cert.Spec
-- ==== Proof.HalfSums.lean ====
/- The two half-contractions a device adds — over its own rows of the two arguments and over the rows of the
   device holding the other half — are together the device's rows of the whole contraction. -/
import proofs.«900475_g7700000000000476_dist_rsdw_v7x_xy2x2_y_m1024_d1024_f4096_bf16_1_alg».proof.Proof.RefG
import proofs.«900475_g7700000000000476_dist_rsdw_v7x_xy2x2_y_m1024_d1024_f4096_bf16_1_alg».proof.Proof.SplitSum
import proofs.«900475_g7700000000000476_dist_rsdw_v7x_xy2x2_y_m1024_d1024_f4096_bf16_1_alg».proof.Proof.BlockAt

noncomputable section

open scoped BigOperators

namespace Cert.Spec

open Cert.RefValue Idealize.ShloMosaic Idealize.ShloMosaic.ValueIdx

/-- One half-contraction over a device's block of the two arguments, read in the whole arrays: device `d` holds
    rows `1024 * (d % 2) ..` of each. -/
theorem half_sum {n : Nat} (X : FVec Ideal Cert.ReferenceIdeal.S2048x1024 .f32) (DY : FVec Ideal Cert.ReferenceIdeal.S2048x4096 .f32)
    (d : Fin n) (i : Fin 1024) (q : Fin 4096) :
    (∑ k : Fin 1024,
        (Layout.blockN ⟨2, ![1024, 1024]⟩ ⟨2, ![2048, 1024]⟩ (Layout.meshBlock [2, 2] ![[1], []] d) X) (ix2 k i)
          * (Layout.blockN ⟨2, ![1024, 4096]⟩ ⟨2, ![2048, 4096]⟩ (Layout.meshBlock [2, 2] ![[1], []] d) DY) (ix2 k q))
      = ∑ k : Fin 1024, X (ix2 (⟨1024 * (d.val % 2) + k.val, by omega⟩ : Fin 2048) i)
          * DY (ix2 (⟨1024 * (d.val % 2) + k.val, by omega⟩ : Fin 2048) q) :=
  Finset.sum_congr rfl fun k _ => by rw [blockN_2048x1024_at, blockN_2048x4096_at]

/-- Device `c`'s own half plus the half of a device `c'` on the other side of the cut, at row `512 * (c % 2) + p` of the
    left operand's columns, is row `p` of device `c`'s block of the whole contraction. -/
theorem own_add_other {n : Nat} (X : FVec Ideal Cert.ReferenceIdeal.S2048x1024 .f32) (DY : FVec Ideal Cert.ReferenceIdeal.S2048x4096 .f32)
    (c c' : Fin n) (hc : c'.val % 2 = 1 - c.val % 2) (p : Fin 512) (q : Fin 4096) :
    (∑ k : Fin 1024,
        (Layout.blockN ⟨2, ![1024, 1024]⟩ ⟨2, ![2048, 1024]⟩ (Layout.meshBlock [2, 2] ![[1], []] c) X) (ix2 k (⟨512 * (c.val % 2) + p.val, by omega⟩ : Fin 1024))
          * (Layout.blockN ⟨2, ![1024, 4096]⟩ ⟨2, ![2048, 4096]⟩ (Layout.meshBlock [2, 2] ![[1], []] c) DY) (ix2 k q))
      + (∑ k : Fin 1024,
        (Layout.blockN ⟨2, ![1024, 1024]⟩ ⟨2, ![2048, 1024]⟩ (Layout.meshBlock [2, 2] ![[1], []] c') X) (ix2 k (⟨512 * (c.val % 2) + p.val, by omega⟩ : Fin 1024))
          * (Layout.blockN ⟨2, ![1024, 4096]⟩ ⟨2, ![2048, 4096]⟩ (Layout.meshBlock [2, 2] ![[1], []] c') DY) (ix2 k q))
      = (Layout.blockN ⟨2, ![512, 4096]⟩ ⟨2, ![1024, 4096]⟩ (Layout.meshBlock [2, 2] ![[1], []] c) (refG X DY)) (ix2 p q) := by
  rw [blockN_1024x4096_at, refG_ix2, half_sum, half_sum]
  rcases Nat.mod_two_eq_zero_or_one c.val with h0 | h1
  · have h1' : c'.val % 2 = 1 := by omega
    rw [sum_split_2048]
    congr 1
    · refine Finset.sum_congr rfl fun k _ => ?_
      have e : (⟨1024 * (c.val % 2) + k.val, by omega⟩ : Fin 2048) = ⟨k.val, by omega⟩ := Fin.ext (by simp only; omega)
      rw [e]
    · refine Finset.sum_congr rfl fun k _ => ?_
      have e : (⟨1024 * (c'.val % 2) + k.val, by omega⟩ : Fin 2048) = ⟨1024 + k.val, by omega⟩ := Fin.ext (by simp only; omega)
      rw [e]
  · have h0' : c'.val % 2 = 0 := by omega
    rw [sum_split_2048_comm]
    congr 1
    · refine Finset.sum_congr rfl fun k _ => ?_
      have e : (⟨1024 * (c.val % 2) + k.val, by omega⟩ : Fin 2048) = ⟨1024 + k.val, by omega⟩ := Fin.ext (by simp only; omega)
      rw [e]
    · refine Finset.sum_congr rfl fun k _ => ?_
      have e : (⟨1024 * (c'.val % 2) + k.val, by omega⟩ : Fin 2048) = ⟨k.val, by omega⟩ := Fin.ext (by simp only; omega)
      rw [e]

/-- The same sum as the entry of the whole contraction it is. -/
theorem own_add_other_refG {n : Nat} (X : FVec Ideal Cert.ReferenceIdeal.S2048x1024 .f32) (DY : FVec Ideal Cert.ReferenceIdeal.S2048x4096 .f32)
    (c c' : Fin n) (hc : c'.val % 2 = 1 - c.val % 2) (p : Fin 512) (q : Fin 4096) :
    (∑ k : Fin 1024,
        (Layout.blockN ⟨2, ![1024, 1024]⟩ ⟨2, ![2048, 1024]⟩ (Layout.meshBlock [2, 2] ![[1], []] c) X) (ix2 k (⟨512 * (c.val % 2) + p.val, by omega⟩ : Fin 1024))
          * (Layout.blockN ⟨2, ![1024, 4096]⟩ ⟨2, ![2048, 4096]⟩ (Layout.meshBlock [2, 2] ![[1], []] c) DY) (ix2 k q))
      + (∑ k : Fin 1024,
        (Layout.blockN ⟨2, ![1024, 1024]⟩ ⟨2, ![2048, 1024]⟩ (Layout.meshBlock [2, 2] ![[1], []] c') X) (ix2 k (⟨512 * (c.val % 2) + p.val, by omega⟩ : Fin 1024))
          * (Layout.blockN ⟨2, ![1024, 4096]⟩ ⟨2, ![2048, 4096]⟩ (Layout.meshBlock [2, 2] ![[1], []] c') DY) (ix2 k q))
      = refG X DY (ix2 (⟨512 * (c.val % 2) + p.val, by omega⟩ : Fin 1024) q) :=
  (own_add_other X DY c c' hc p q).trans (blockN_1024x4096_at c (refG X DY) p q)

end Cert.Spec

end
-- ==== Proof.Join.lean ====
/-
  The values a device computes are its rows of the whole contraction: at the ideal values every change of float
  format is the identity, each product is a sum over the 1024 rows of a block, a device's row sum is its own
  half-contraction plus its neighbour's along the second mesh axis, and what arrives from the neighbour along the
  first mesh axis is that device's row sum. Together they are the device's block of the reference's result.
-/
import proofs.«900475_g7700000000000476_dist_rsdw_v7x_xy2x2_y_m1024_d1024_f4096_bf16_1_alg».proof.Proof.KernelIdeal.OutAt
import proofs.«900475_g7700000000000476_dist_rsdw_v7x_xy2x2_y_m1024_d1024_f4096_bf16_1_alg».proof.Proof.MatmulAt
import proofs.«900475_g7700000000000476_dist_rsdw_v7x_xy2x2_y_m1024_d1024_f4096_bf16_1_alg».proof.Proof.HalfSums
import Idealize.ShloMosaic.Lib.ValueIdx
import Idealize.ShloMosaic.Lib.ValueLayout
import Idealize.ShloMosaic.Lib.WholeRead

noncomputable section

open scoped BigOperators

namespace Cert.KernelIdeal.Vals

open Cert.KernelIdeal Cert.KernelIdeal.Gen Cert.Spec Cert.RefValue
open Idealize.ShloMosaic Idealize.ShloMosaic.TcCoe Idealize.SL.Sem Idealize.ShloMosaic.ValueIdx

/-! ## The loads, read at an index (any float instance) -/

section Loads

variable {F : FTy → Type} [FloatOps F]
variable (m : (ℓ : Loc nD τ sig) → Buf (Elt F) ℓ)

/-- The staged block of the first input is the device's argument array, -/
theorem stgA_eq (c : Dev nD) : stgA m c = m ((c.tc : Thread nD τ).loc main_arg0) := by
  unfold stgA iblk
  exact Memref.read_access_unit_zero (Elt F) main_arg0 (by funext a; exact Nat.zero_mul _) _ _

/-- and of the second. -/
theorem stgB_eq (c : Dev nD) : stgB m c = m ((c.tc : Thread nD τ).loc main_arg1) := by
  unfold stgB iblk
  exact Memref.read_access_unit_zero (Elt F) main_arg1 (by funext a; exact Nat.zero_mul _) _ _

/-- The column half kept: columns `512 * (c % 2) ..`. -/
theorem loadK_at (c : Dev nD) (k : Fin 1024) (p : Fin 512) :
    loadK m c (ix2 k p) = stgA m c (ix2 k (⟨512 * (c.val % 2) + p.val, by omega⟩ : Fin 1024)) := by
  unfold loadK
  rw [View.readAt_unit_congr_cast _ (k0_off2_eq c), View.readAt_apply]
  show stgA m c ((Rect.unit (s := S1024x1024) ![0, 512 * (c.val % 2)] S1024x512.size _).idx (ix2 k p)) = _
  congr 1
  funext a
  match a with
  | ⟨0, _⟩ => apply Fin.ext; show 0 + 1 * k.val = k.val; omega
  | ⟨1, _⟩ => apply Fin.ext; show 512 * (c.val % 2) + 1 * p.val = 512 * (c.val % 2) + p.val; omega

/-- The column half sent on: columns `512 - 512 * (c % 2) ..`. -/
theorem loadO_at (c : Dev nD) (k : Fin 1024) (p : Fin 512) :
    loadO m c (ix2 k p) = stgA m c (ix2 k (⟨512 - 512 * (c.val % 2) + p.val, by omega⟩ : Fin 1024)) := by
  unfold loadO
  rw [View.readAt_unit_congr_cast _ (k0_off1_eq c), View.readAt_apply]
  show stgA m c ((Rect.unit (s := S1024x1024) ![0, 512 - 512 * (c.val % 2)] S1024x512.size _).idx (ix2 k p)) = _
  congr 1
  funext a
  match a with
  | ⟨0, _⟩ => apply Fin.ext; show 0 + 1 * k.val = k.val; omega
  | ⟨1, _⟩ => apply Fin.ext; show 512 - 512 * (c.val % 2) + 1 * p.val = 512 - 512 * (c.val % 2) + p.val; omega

/-- A column of chunk `k` of the device's column half is a column of the 4096. -/
theorem col_lt (c : Dev nD) (k : Fin 8) (j : Fin 256) : 2048 * (c.val / 2) + 256 * k.val + j.val < 4096 := by
  have hc : c.val < 4 := c.isLt
  omega

/-- Chunk `k`: columns `2048 * (c / 2) + 256 * k ..`. -/
theorem loadD_at (c : Dev nD) (k : Fin 8) (r : Fin 1024) (j : Fin 256) :
    loadD m c k (ix2 r j) = stgB m c (ix2 r (⟨2048 * (c.val / 2) + 256 * k.val + j.val, col_lt c k j⟩ : Fin 4096)) := by
  unfold loadD
  rw [View.readAt_unit_congr_cast _ (k0_off3_eq c k), View.readAt_apply]
  show stgB m c ((Rect.unit (s := S1024x4096) ![0, 2048 * (c.val / 2) + 256 * k.val] S1024x256.size _).idx (ix2 r j)) = _
  congr 1
  funext a
  match a with
  | ⟨0, _⟩ => apply Fin.ext; show 0 + 1 * r.val = r.val; omega
  | ⟨1, _⟩ => apply Fin.ext; show 2048 * (c.val / 2) + 256 * k.val + 1 * j.val = 2048 * (c.val / 2) + 256 * k.val + j.val; omega

end Loads

/-! ## The neighbours' coordinates -/

theorem pY_mod (c : Dev nD) : (pY c).val % 2 = 1 - c.val % 2 := by revert c; decide
theorem pY_div (c : Dev nD) : (pY c).val / 2 = c.val / 2 := by revert c; decide
theorem pX_mod (c : Dev nD) : (pX c).val % 2 = c.val % 2 := by revert c; decide
theorem pX_div (c : Dev nD) : (pX c).val / 2 = 1 - c.val / 2 := by revert c; decide

/-! ## At the ideal values -/

section AtIdeal

variable (m : (ℓ : Loc nD τ sig) → Buf (Elt Ideal) ℓ)

/-- The recast to the narrower format changes nothing. -/
theorem toB16_apply {S : Shape} (h : S.ShapeCasts S) (v : Vec Ideal S .f32) (i : S.Idx) :
    toB16 (F := Ideal) h v i = v i := by
  show shapeCast S v h i = v i
  rw [shapeCast_self]

/-- The product of two recast tiles at `(p, q)`: the sum over the 1024 rows. -/
theorem mmT_toB16_at (a : Vec Ideal S1024x512 .f32) (b : Vec Ideal S1024x256 .f32) (p : Fin 512) (q : Fin 256) :
    mmT (F := Ideal) (toB16 shapeCasts_S1024x512_S1024x512 a) (toB16 shapeCasts_S1024x256_S1024x256 b) (ix2 p q)
      = ∑ k : Fin 1024, a (ix2 k p) * b (ix2 k q) := by
  unfold mmT
  rw [matmul_at]
  exact Finset.sum_congr rfl fun k _ => by rw [toB16_apply, toB16_apply]

/-- A row sum is the device's own product plus its neighbour's along the second mesh axis. -/
theorem rowSum_eq (c : Dev nD) (k : Fin 8) (i : S512x256.Idx) :
    rowSum (F := Ideal) m c k i
      = mmT (F := Ideal) (toB16 shapeCasts_S1024x512_S1024x512 (loadK m c)) (toB16 shapeCasts_S1024x256_S1024x256 (loadD m c k)) i
        + mmT (F := Ideal) (toB16 shapeCasts_S1024x512_S1024x512 (loadO m (pY c))) (toB16 shapeCasts_S1024x256_S1024x256 (loadD m (pY c) k)) i := by
  unfold rowSum sumY partY sendY
  rw [addf_apply, extf_apply, shapeCast_shapeCast, truncf_apply]

/-- What arrives from the neighbour along the first mesh axis is that device's row sum. -/
theorem fromX_eq (c : Dev nD) (k : Fin 8) (i : S512x256.Idx) :
    fromX (F := Ideal) m c k i = rowSum (F := Ideal) m (pX c) k i := by
  unfold fromX recvX partX sendX
  rw [extf_apply, shapeCast_shapeCast, truncf_apply]

variable (X : FVec Ideal Cert.ReferenceIdeal.S2048x1024 .f32) (DY : FVec Ideal Cert.ReferenceIdeal.S2048x4096 .f32)

/-- A row sum is an entry of the whole contraction: row `512 * (c % 2) + p`, column `2048 * (c / 2) + 256 * k + j`. -/
theorem rowSum_at
    (hA : ∀ c : Dev nD, m ((c.tc : Thread nD τ).loc main_arg0) = Layout.blockN ⟨2, ![1024, 1024]⟩ ⟨2, ![2048, 1024]⟩ (Layout.meshBlock [2, 2] ![[1], []] c) X)
    (hB : ∀ c : Dev nD, m ((c.tc : Thread nD τ).loc main_arg1) = Layout.blockN ⟨2, ![1024, 4096]⟩ ⟨2, ![2048, 4096]⟩ (Layout.meshBlock [2, 2] ![[1], []] c) DY)
    (c : Dev nD) (k : Fin 8) (p : Fin 512) (j : Fin 256) :
    rowSum (F := Ideal) m c k (ix2 p j)
      = refG X DY (ix2 (⟨512 * (c.val % 2) + p.val, by omega⟩ : Fin 1024) (⟨2048 * (c.val / 2) + 256 * k.val + j.val, col_lt c k j⟩ : Fin 4096)) := by
  rw [rowSum_eq, mmT_toB16_at, mmT_toB16_at,
    ← own_add_other_refG X DY c (pY c) (pY_mod c) p ⟨2048 * (c.val / 2) + 256 * k.val + j.val, col_lt c k j⟩]
  congr 1
  · refine Finset.sum_congr rfl fun r _ => ?_
    rw [loadK_at, loadD_at, stgA_eq, stgB_eq, hA c, hB c]
  · refine Finset.sum_congr rfl fun r _ => ?_
    rw [loadO_at, loadD_at, stgA_eq, stgB_eq, hA (pY c), hB (pY c)]
    have e1 : (⟨512 - 512 * ((pY c).val % 2) + p.val, by omega⟩ : Fin 1024) = ⟨512 * (c.val % 2) + p.val, by omega⟩ :=
      Fin.ext (by have := pY_mod c; simp only; omega)
    have e2 : (⟨2048 * ((pY c).val / 2) + 256 * k.val + j.val, col_lt (pY c) k j⟩ : Fin 4096) = ⟨2048 * (c.val / 2) + 256 * k.val + j.val, col_lt c k j⟩ :=
      Fin.ext (by have := pY_div c; simp only; omega)
    rw [e1, e2]

/-- What arrives from the neighbour along the first mesh axis is the entry in the other column half. -/
theorem fromX_at
    (hA : ∀ c : Dev nD, m ((c.tc : Thread nD τ).loc main_arg0) = Layout.blockN ⟨2, ![1024, 1024]⟩ ⟨2, ![2048, 1024]⟩ (Layout.meshBlock [2, 2] ![[1], []] c) X)
    (hB : ∀ c : Dev nD, m ((c.tc : Thread nD τ).loc main_arg1) = Layout.blockN ⟨2, ![1024, 4096]⟩ ⟨2, ![2048, 4096]⟩ (Layout.meshBlock [2, 2] ![[1], []] c) DY)
    (c : Dev nD) (k : Fin 8) (p : Fin 512) (j : Fin 256) :
    fromX (F := Ideal) m c k (ix2 p j)
      = refG X DY (ix2 (⟨512 * (c.val % 2) + p.val, by omega⟩ : Fin 1024) (⟨2048 * (1 - c.val / 2) + 256 * k.val + j.val, by omega⟩ : Fin 4096)) := by
  rw [fromX_eq, rowSum_at m X DY hA hB (pX c) k p j]
  have e1 : (⟨512 * ((pX c).val % 2) + p.val, by omega⟩ : Fin 1024) = ⟨512 * (c.val % 2) + p.val, by omega⟩ :=
    Fin.ext (by have := pX_mod c; simp only; omega)
  have e2 : (⟨2048 * ((pX c).val / 2) + 256 * k.val + j.val, col_lt (pX c) k j⟩ : Fin 4096) = ⟨2048 * (1 - c.val / 2) + 256 * k.val + j.val, by omega⟩ :=
    Fin.ext (by have := pX_div c; simp only; omega)
  rw [e1, e2]

/-- A tile index by its row and position is the index by coordinates. -/
theorem tileIx_eq (p : Fin 512) (j : Fin 256) : tileIx p j = ix2 p j := by
  funext a
  match a with
  | ⟨0, _⟩ => rfl
  | ⟨1, _⟩ => rfl

/-- The device's result block is its block of the whole contraction. -/
theorem out_is_block
    (hA : ∀ c : Dev nD, m ((c.tc : Thread nD τ).loc main_arg0) = Layout.blockN ⟨2, ![1024, 1024]⟩ ⟨2, ![2048, 1024]⟩ (Layout.meshBlock [2, 2] ![[1], []] c) X)
    (hB : ∀ c : Dev nD, m ((c.tc : Thread nD τ).loc main_arg1) = Layout.blockN ⟨2, ![1024, 4096]⟩ ⟨2, ![2048, 4096]⟩ (Layout.meshBlock [2, 2] ![[1], []] c) DY)
    (c : Dev nD) :
    outAt (F := Ideal) m c
      = Layout.blockN ⟨2, ![512, 4096]⟩ ⟨2, ![1024, 4096]⟩ (Layout.meshBlock [2, 2] ![[1], []] c) (refG X DY) := by
  funext i
  have hi : i = ix2 (⟨(i 0).val, (i 0).isLt⟩ : Fin 512) (⟨(i 1).val, (i 1).isLt⟩ : Fin 4096) := by
    funext a
    match a with
    | ⟨0, _⟩ => rfl
    | ⟨1, _⟩ => rfl
  have hc : c.val < 4 := c.isLt
  have hq : (i 1).val < 4096 := (i 1).isLt
  have hcol := col_eq ⟨(i 1).val, (i 1).isLt⟩
  by_cases h : (i 1).val / 2048 = c.val / 2
  · rw [outAt_own m c i h, tileIx_eq, rowSum_at m X DY hA hB, hi, blockN_1024x4096_at]
    congr 2
    exact Fin.ext (by simp only at hcol ⊢; omega)
  · rw [outAt_other m c i h, tileIx_eq, fromX_at m X DY hA hB, hi, blockN_1024x4096_at]
    congr 2
    exact Fin.ext (by simp only at hcol ⊢; omega)

end AtIdeal

end Cert.KernelIdeal.Vals

end
-- ==== Proof.Assemble.lean ====
/-
  The certificate's claim from the two body lemmas: the frames are the runs with the values dropped, and the algebraic
  claim is the ideal run read through the value lemmas against the reference's run.
-/
import proofs.«900475_g7700000000000476_dist_rsdw_v7x_xy2x2_y_m1024_d1024_f4096_bf16_1_alg».proof.Defs
import proofs.«900475_g7700000000000476_dist_rsdw_v7x_xy2x2_y_m1024_d1024_f4096_bf16_1_alg».proof.Proof.Gen.Kernel
import proofs.«900475_g7700000000000476_dist_rsdw_v7x_xy2x2_y_m1024_d1024_f4096_bf16_1_alg».proof.Proof.Gen.KernelIdeal
import proofs.«900475_g7700000000000476_dist_rsdw_v7x_xy2x2_y_m1024_d1024_f4096_bf16_1_alg».proof.Proof.Gen.ReferenceIdeal
import proofs.«900475_g7700000000000476_dist_rsdw_v7x_xy2x2_y_m1024_d1024_f4096_bf16_1_alg».proof.Proof.Gen.ReferenceIdeal.Run
import proofs.«900475_g7700000000000476_dist_rsdw_v7x_xy2x2_y_m1024_d1024_f4096_bf16_1_alg».proof.Proof.Gen.Pre_finite_inputs_Kernel
import proofs.«900475_g7700000000000476_dist_rsdw_v7x_xy2x2_y_m1024_d1024_f4096_bf16_1_alg».proof.Proof.Gen.Pre_finite_inputs_ReferenceIdeal
import proofs.«900475_g7700000000000476_dist_rsdw_v7x_xy2x2_y_m1024_d1024_f4096_bf16_1_alg».proof.Proof.KernelIdeal.Obligation
import proofs.«900475_g7700000000000476_dist_rsdw_v7x_xy2x2_y_m1024_d1024_f4096_bf16_1_alg».proof.Proof.Kernel.Obligation
import proofs.«900475_g7700000000000476_dist_rsdw_v7x_xy2x2_y_m1024_d1024_f4096_bf16_1_alg».proof.Proof.RefG
import proofs.«900475_g7700000000000476_dist_rsdw_v7x_xy2x2_y_m1024_d1024_f4096_bf16_1_alg».proof.Proof.Join

noncomputable section

namespace Cert.Assemble

open Idealize.ShloMosaic Idealize.ShloMosaic.TcCoe Idealize.SL.Sem

/-- The word-level program's frame. -/
theorem frame_Kernel_of
    (hB : ∀ (m : (ℓ : Loc Cert.Kernel.nD Cert.Kernel.τ Cert.Kernel.sig) → Buf (Elt Bits) ℓ) (ρ : Dev Cert.Kernel.nD → PrngReg),
      Cert.KernelProof.SoundBody (F := Bits) m ρ) :
    Cert.frame_Kernel (hKernel := Cert.Kernel.Gen.facts) (hPre_finite_inputs_Kernel := Cert.Pre_finite_inputs_Kernel.Gen.facts) :=
  fun m g _ =>
    (θ_run (Cert.Kernel.defs (F := Bits)) _ _).mono
      (fun r h c => ⟨(h c (0 : Fin 3)).trans (Cert.KernelProof.finalA_A m g c), (h c (1 : Fin 3)).trans (Cert.KernelProof.finalA_B m g c)⟩)
      (Cert.KernelProof.run_of_body m g (hB m g))

/-- The idealized program's frame. -/
theorem frame_KernelIdeal_of
    (hI : ∀ (m : (ℓ : Loc Cert.KernelIdeal.nD Cert.KernelIdeal.τ Cert.KernelIdeal.sig) → Buf (Elt Ideal) ℓ) (ρ : Dev Cert.KernelIdeal.nD → PrngReg),
      Cert.KernelIdealProof.SoundBody (F := Ideal) m ρ) :
    Cert.frame_KernelIdeal (hKernelIdeal := Cert.KernelIdeal.Gen.facts) (hPre_finite_inputs_Kernel := Cert.Pre_finite_inputs_Kernel.Gen.facts) :=
  fun m g _ =>
    (θ_run (Cert.KernelIdeal.defs (F := Ideal)) _ _).mono
      (fun r h c => ⟨(h c (0 : Fin 3)).trans (Cert.KernelIdealProof.finalA_A m g c), (h c (1 : Fin 3)).trans (Cert.KernelIdealProof.finalA_B m g c)⟩)
      (Cert.KernelIdealProof.run_of_body m g (hI m g))

/-- The reference's frame: its run with the result dropped. -/
theorem frame_ReferenceIdeal_of :
    Cert.frame_ReferenceIdeal (hReferenceIdeal := Cert.ReferenceIdeal.Gen.facts) (hPre_finite_inputs_ReferenceIdeal := Cert.Pre_finite_inputs_ReferenceIdeal.Gen.facts) :=
  fun m g _ =>
    (θ_run (Cert.ReferenceIdeal.defs (F := Ideal)) _ _).mono (fun r h c => ⟨(h c).2.1, (h c).2.2⟩) (Cert.ReferenceIdeal.Value.run (F := Ideal) m g)

/-- The algebraic claim: the reference's result is the whole contraction, of which every device ends holding its rows. -/
theorem algebraic_of
    (hI : ∀ (m : (ℓ : Loc Cert.KernelIdeal.nD Cert.KernelIdeal.τ Cert.KernelIdeal.sig) → Buf (Elt Ideal) ℓ) (ρ : Dev Cert.KernelIdeal.nD → PrngReg),
      Cert.KernelIdealProof.SoundBody (F := Ideal) m ρ) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) :=
  fun m g m' g' _ hblk =>
    ⟨Cert.RefValue.refG
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run (Cert.KernelIdeal.defs (F := Ideal)) _ _).mono
        (fun r h c => ⟨(h c (2 : Fin 3)).trans ((Cert.KernelIdealProof.finalA_out m g c).trans
              (Cert.KernelIdeal.Vals.out_is_block m _ _ (fun c => (hblk c).1) (fun c => (hblk c).2) c)),
            (h c (0 : Fin 3)).trans (Cert.KernelIdealProof.finalA_A m g c), (h c (1 : Fin 3)).trans (Cert.KernelIdealProof.finalA_B m g c)⟩)
        (Cert.KernelIdealProof.run_of_body m g (hI m g)),
      (θ_run (Cert.ReferenceIdeal.defs (F := Ideal)) _ _).mono
        (fun r h => ⟨((h 0).1).trans (Cert.RefValue.run_result_eq_refG _ _), (h 0).2.1, (h 0).2.2⟩)
        (Cert.ReferenceIdeal.Value.run (F := Ideal) m' g')⟩

/-- The claim, from the body lemma at each float instance. -/
theorem claim_of_bodies
    (hI : ∀ (m : (ℓ : Loc Cert.KernelIdeal.nD Cert.KernelIdeal.τ Cert.KernelIdeal.sig) → Buf (Elt Ideal) ℓ) (ρ : Dev Cert.KernelIdeal.nD → PrngReg),
      Cert.KernelIdealProof.SoundBody (F := Ideal) m ρ)
    (hB : ∀ (m : (ℓ : Loc Cert.Kernel.nD Cert.Kernel.τ Cert.Kernel.sig) → Buf (Elt Bits) ℓ) (ρ : Dev Cert.Kernel.nD → PrngReg),
      Cert.KernelProof.SoundBody (F := Bits) m ρ) :
    Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_Kernel_of hB, frame_KernelIdeal_of hI, frame_ReferenceIdeal_of, trivial, algebraic_of hI⟩

/-- info: 'Cert.Assemble.claim_of_bodies' depends on axioms: [propext, Classical.choice, Quot.sound] -/
#guard_msgs in #print axioms claim_of_bodies

end Cert.Assemble

end
-- ==== Proof.KernelIdeal.Steps.lean ====
/-
  The steps of one device's run that talk to its neighbours, each stated once over the device and the chunk:
  the transfer of chunk `k` to the y-neighbour and to the x-neighbour, and the wait on one of the device's own DMA cells.
  What the neighbours are owed is kept as `Oxy c i j`: the arrivals of chunks `i … 7` at the x-neighbour and of chunks
  `j … 7` at the y-neighbour; a transfer takes its own arrival off it.
-/
import proofs.«900475_g7700000000000476_dist_rsdw_v7x_xy2x2_y_m1024_d1024_f4096_bf16_1_alg».proof.Proof.KernelIdeal.Ghost

noncomputable section

set_option maxRecDepth 16384
namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program's names for the 32 DMA semaphores -/

theorem sem_0_0 : ((cc0_scratch4.slice (Rect.unit (s := S8) ![0] S1.size inb_S8_S1_0)).squeeze S_ squeezes_S1_S_).sem = qS 0 0 := by decide
theorem sem_0_1 : ((cc0_scratch4.slice (Rect.unit (s := S8) ![1] S1.size inb_S8_S1_1)).squeeze S_ squeezes_S1_S_).sem = qS 0 1 := by decide
theorem sem_0_2 : ((cc0_scratch4.slice (Rect.unit (s := S8) ![2] S1.size inb_S8_S1_2)).squeeze S_ squeezes_S1_S_).sem = qS 0 2 := by decide
theorem sem_0_3 : ((cc0_scratch4.slice (Rect.unit (s := S8) ![3] S1.size inb_S8_S1_3)).squeeze S_ squeezes_S1_S_).sem = qS 0 3 := by decide
theorem sem_0_4 : ((cc0_scratch4.slice (Rect.unit (s := S8) ![4] S1.size inb_S8_S1_4)).squeeze S_ squeezes_S1_S_).sem = qS 0 4 := by decide
theorem sem_0_5 : ((cc0_scratch4.slice (Rect.unit (s := S8) ![5] S1.size inb_S8_S1_5)).squeeze S_ squeezes_S1_S_).sem = qS 0 5 := by decide
theorem sem_0_6 : ((cc0_scratch4.slice (Rect.unit (s := S8) ![6] S1.size inb_S8_S1_6)).squeeze S_ squeezes_S1_S_).sem = qS 0 6 := by decide
theorem sem_0_7 : ((cc0_scratch4.slice (Rect.unit (s := S8) ![7] S1.size inb_S8_S1_7)).squeeze S_ squeezes_S1_S_).sem = qS 0 7 := by decide
theorem sem_1_0 : ((cc0_scratch5.slice (Rect.unit (s := S8) ![0] S1.size inb_S8_S1_0)).squeeze S_ squeezes_S1_S_).sem = qS 1 0 := by decide
theorem sem_1_1 : ((cc0_scratch5.slice (Rect.unit (s := S8) ![1] S1.size inb_S8_S1_1)).squeeze S_ squeezes_S1_S_).sem = qS 1 1 := by decide
theorem sem_1_2 : ((cc0_scratch5.slice (Rect.unit (s := S8) ![2] S1.size inb_S8_S1_2)).squeeze S_ squeezes_S1_S_).sem = qS 1 2 := by decide
theorem sem_1_3 : ((cc0_scratch5.slice (Rect.unit (s := S8) ![3] S1.size inb_S8_S1_3)).squeeze S_ squeezes_S1_S_).sem = qS 1 3 := by decide
theorem sem_1_4 : ((cc0_scratch5.slice (Rect.unit (s := S8) ![4] S1.size inb_S8_S1_4)).squeeze S_ squeezes_S1_S_).sem = qS 1 4 := by decide
theorem sem_1_5 : ((cc0_scratch5.slice (Rect.unit (s := S8) ![5] S1.size inb_S8_S1_5)).squeeze S_ squeezes_S1_S_).sem = qS 1 5 := by decide
theorem sem_1_6 : ((cc0_scratch5.slice (Rect.unit (s := S8) ![6] S1.size inb_S8_S1_6)).squeeze S_ squeezes_S1_S_).sem = qS 1 6 := by decide
theorem sem_1_7 : ((cc0_scratch5.slice (Rect.unit (s := S8) ![7] S1.size inb_S8_S1_7)).squeeze S_ squeezes_S1_S_).sem = qS 1 7 := by decide
theorem sem_2_0 : ((cc0_scratch6.slice (Rect.unit (s := S8) ![0] S1.size inb_S8_S1_0)).squeeze S_ squeezes_S1_S_).sem = qS 2 0 := by decide
theorem sem_2_1 : ((cc0_scratch6.slice (Rect.unit (s := S8) ![1] S1.size inb_S8_S1_1)).squeeze S_ squeezes_S1_S_).sem = qS 2 1 := by decide
theorem sem_2_2 : ((cc0_scratch6.slice (Rect.unit (s := S8) ![2] S1.size inb_S8_S1_2)).squeeze S_ squeezes_S1_S_).sem = qS 2 2 := by decide
theorem sem_2_3 : ((cc0_scratch6.slice (Rect.unit (s := S8) ![3] S1.size inb_S8_S1_3)).squeeze S_ squeezes_S1_S_).sem = qS 2 3 := by decide
theorem sem_2_4 : ((cc0_scratch6.slice (Rect.unit (s := S8) ![4] S1.size inb_S8_S1_4)).squeeze S_ squeezes_S1_S_).sem = qS 2 4 := by decide
theorem sem_2_5 : ((cc0_scratch6.slice (Rect.unit (s := S8) ![5] S1.size inb_S8_S1_5)).squeeze S_ squeezes_S1_S_).sem = qS 2 5 := by decide
theorem sem_2_6 : ((cc0_scratch6.slice (Rect.unit (s := S8) ![6] S1.size inb_S8_S1_6)).squeeze S_ squeezes_S1_S_).sem = qS 2 6 := by decide
theorem sem_2_7 : ((cc0_scratch6.slice (Rect.unit (s := S8) ![7] S1.size inb_S8_S1_7)).squeeze S_ squeezes_S1_S_).sem = qS 2 7 := by decide
theorem sem_3_0 : ((cc0_scratch7.slice (Rect.unit (s := S8) ![0] S1.size inb_S8_S1_0)).squeeze S_ squeezes_S1_S_).sem = qS 3 0 := by decide
theorem sem_3_1 : ((cc0_scratch7.slice (Rect.unit (s := S8) ![1] S1.size inb_S8_S1_1)).squeeze S_ squeezes_S1_S_).sem = qS 3 1 := by decide
theorem sem_3_2 : ((cc0_scratch7.slice (Rect.unit (s := S8) ![2] S1.size inb_S8_S1_2)).squeeze S_ squeezes_S1_S_).sem = qS 3 2 := by decide
theorem sem_3_3 : ((cc0_scratch7.slice (Rect.unit (s := S8) ![3] S1.size inb_S8_S1_3)).squeeze S_ squeezes_S1_S_).sem = qS 3 3 := by decide
theorem sem_3_4 : ((cc0_scratch7.slice (Rect.unit (s := S8) ![4] S1.size inb_S8_S1_4)).squeeze S_ squeezes_S1_S_).sem = qS 3 4 := by decide
theorem sem_3_5 : ((cc0_scratch7.slice (Rect.unit (s := S8) ![5] S1.size inb_S8_S1_5)).squeeze S_ squeezes_S1_S_).sem = qS 3 5 := by decide
theorem sem_3_6 : ((cc0_scratch7.slice (Rect.unit (s := S8) ![6] S1.size inb_S8_S1_6)).squeeze S_ squeezes_S1_S_).sem = qS 3 6 := by decide
theorem sem_3_7 : ((cc0_scratch7.slice (Rect.unit (s := S8) ![7] S1.size inb_S8_S1_7)).squeeze S_ squeezes_S1_S_).sem = qS 3 7 := by decide

/-! ## The schedule's tables with the payloads spelt out -/

/-! The schedule's tables with the entry on the left and the payloads spelt out. -/
theorem tb_duties_bar (c : Dev nD) : (sched (F := F) m).duties (barCell c) 0 = Finset.univ := duties_bar m c
theorem tb_duties_q (c : Dev nD) (a : Fin 4) (k : Fin 8) : (sched (F := F) m).duties (qCell a k c) 0 = {false} := duties_q m c a k
theorem tb_amount_bar (c : Dev nD) (d : Bool) : (sched (F := F) m).amount (barCell c) 0 d = 1 := amount_bar m c d
theorem tb_amount_q (c : Dev nD) (a : Fin 4) (k : Fin 8) (d : Bool) : (sched (F := F) m).amount (qCell a k c) 0 d = Ncr := amount_q m c a k d
theorem tb_expect_bar (c : Dev nD) : (sched (F := F) m).expect (barCell c) 0 = 2 := expect_bar m c
theorem tb_expect_q (c : Dev nD) (a : Fin 4) (k : Fin 8) : (sched (F := F) m).expect (qCell a k c) 0 = Ncr := expect_q m c a k
theorem tb_pay_bar_false_px (c : Dev nD) : (sched (F := F) m).payload (barCell (pX c)) 0 false = iprop((∃ f, ((slotOf xrM 0).view.loc ((c : Dev nD) : Thread nD τ) ↦[(slotOf xrM 0).view.set]{fullShare} f)) ∗ (∃ f, ((slotOf xrM 1).view.loc ((c : Dev nD) : Thread nD τ) ↦[(slotOf xrM 1).view.set]{fullShare} f)) ∗ (∃ f, ((slotOf xrM 2).view.loc ((c : Dev nD) : Thread nD τ) ↦[(slotOf xrM 2).view.set]{fullShare} f)) ∗ (∃ f, ((slotOf xrM 3).view.loc ((c : Dev nD) : Thread nD τ) ↦[(slotOf xrM 3).view.set]{fullShare} f)) ∗ (∃ f, ((slotOf xrM 4).view.loc ((c : Dev nD) : Thread nD τ) ↦[(slotOf xrM 4).view.set]{fullShare} f)) ∗ (∃ f, ((slotOf xrM 5).view.loc ((c : Dev nD) : Thread nD τ) ↦[(slotOf xrM 5).view.set]{fullShare} f)) ∗ (∃ f, ((slotOf xrM 6).view.loc ((c : Dev nD) : Thread nD τ) ↦[(slotOf xrM 6).view.set]{fullShare} f)) ∗ (∃ f, ((slotOf xrM 7).view.loc ((c : Dev nD) : Thread nD τ) ↦[(slotOf xrM 7).view.set]{fullShare} f))) := by
  rw [payload_bar_false, pX_pX]; unfold slotsAny slotAny
  rw [bigSep_univ_eq_bigSepL [0, 1, 2, 3, 4, 5, 6, 7] (by decide) (by decide)]; rfl
theorem tb_pay_bar_true_py (c : Dev nD) : (sched (F := F) m).payload (barCell (pY c)) 0 true = iprop((∃ f, ((slotOf yrM 0).view.loc ((c : Dev nD) : Thread nD τ) ↦[(slotOf yrM 0).view.set]{fullShare} f)) ∗ (∃ f, ((slotOf yrM 1).view.loc ((c : Dev nD) : Thread nD τ) ↦[(slotOf yrM 1).view.set]{fullShare} f)) ∗ (∃ f, ((slotOf yrM 2).view.loc ((c : Dev nD) : Thread nD τ) ↦[(slotOf yrM 2).view.set]{fullShare} f)) ∗ (∃ f, ((slotOf yrM 3).view.loc ((c : Dev nD) : Thread nD τ) ↦[(slotOf yrM 3).view.set]{fullShare} f)) ∗ (∃ f, ((slotOf yrM 4).view.loc ((c : Dev nD) : Thread nD τ) ↦[(slotOf yrM 4).view.set]{fullShare} f)) ∗ (∃ f, ((slotOf yrM 5).view.loc ((c : Dev nD) : Thread nD τ) ↦[(slotOf yrM 5).view.set]{fullShare} f)) ∗ (∃ f, ((slotOf yrM 6).view.loc ((c : Dev nD) : Thread nD τ) ↦[(slotOf yrM 6).view.set]{fullShare} f)) ∗ (∃ f, ((slotOf yrM 7).view.loc ((c : Dev nD) : Thread nD τ) ↦[(slotOf yrM 7).view.set]{fullShare} f))) := by
  rw [payload_bar_true, pY_pY]; unfold slotsAny slotAny
  rw [bigSep_univ_eq_bigSepL [0, 1, 2, 3, 4, 5, 6, 7] (by decide) (by decide)]; rfl
theorem tb_pay_bar_false (c : Dev nD) : (sched (F := F) m).payload (barCell c) 0 false = iprop((∃ f, ((slotOf xrM 0).view.loc ((pX c : Dev nD) : Thread nD τ) ↦[(slotOf xrM 0).view.set]{fullShare} f)) ∗ (∃ f, ((slotOf xrM 1).view.loc ((pX c : Dev nD) : Thread nD τ) ↦[(slotOf xrM 1).view.set]{fullShare} f)) ∗ (∃ f, ((slotOf xrM 2).view.loc ((pX c : Dev nD) : Thread nD τ) ↦[(slotOf xrM 2).view.set]{fullShare} f)) ∗ (∃ f, ((slotOf xrM 3).view.loc ((pX c : Dev nD) : Thread nD τ) ↦[(slotOf xrM 3).view.set]{fullShare} f)) ∗ (∃ f, ((slotOf xrM 4).view.loc ((pX c : Dev nD) : Thread nD τ) ↦[(slotOf xrM 4).view.set]{fullShare} f)) ∗ (∃ f, ((slotOf xrM 5).view.loc ((pX c : Dev nD) : Thread nD τ) ↦[(slotOf xrM 5).view.set]{fullShare} f)) ∗ (∃ f, ((slotOf xrM 6).view.loc ((pX c : Dev nD) : Thread nD τ) ↦[(slotOf xrM 6).view.set]{fullShare} f)) ∗ (∃ f, ((slotOf xrM 7).view.loc ((pX c : Dev nD) : Thread nD τ) ↦[(slotOf xrM 7).view.set]{fullShare} f))) := by
  rw [payload_bar_false]; unfold slotsAny slotAny
  rw [bigSep_univ_eq_bigSepL [0, 1, 2, 3, 4, 5, 6, 7] (by decide) (by decide)]; rfl
theorem tb_pay_bar_true (c : Dev nD) : (sched (F := F) m).payload (barCell c) 0 true = iprop((∃ f, ((slotOf yrM 0).view.loc ((pY c : Dev nD) : Thread nD τ) ↦[(slotOf yrM 0).view.set]{fullShare} f)) ∗ (∃ f, ((slotOf yrM 1).view.loc ((pY c : Dev nD) : Thread nD τ) ↦[(slotOf yrM 1).view.set]{fullShare} f)) ∗ (∃ f, ((slotOf yrM 2).view.loc ((pY c : Dev nD) : Thread nD τ) ↦[(slotOf yrM 2).view.set]{fullShare} f)) ∗ (∃ f, ((slotOf yrM 3).view.loc ((pY c : Dev nD) : Thread nD τ) ↦[(slotOf yrM 3).view.set]{fullShare} f)) ∗ (∃ f, ((slotOf yrM 4).view.loc ((pY c : Dev nD) : Thread nD τ) ↦[(slotOf yrM 4).view.set]{fullShare} f)) ∗ (∃ f, ((slotOf yrM 5).view.loc ((pY c : Dev nD) : Thread nD τ) ↦[(slotOf yrM 5).view.set]{fullShare} f)) ∗ (∃ f, ((slotOf yrM 6).view.loc ((pY c : Dev nD) : Thread nD τ) ↦[(slotOf yrM 6).view.set]{fullShare} f)) ∗ (∃ f, ((slotOf yrM 7).view.loc ((pY c : Dev nD) : Thread nD τ) ↦[(slotOf yrM 7).view.set]{fullShare} f))) := by
  rw [payload_bar_true]; unfold slotsAny slotAny
  rw [bigSep_univ_eq_bigSepL [0, 1, 2, 3, 4, 5, 6, 7] (by decide) (by decide)]; rfl
theorem tb_pay_q0 (c : Dev nD) (k : Fin 8) (d : Bool) : (sched (F := F) m).payload (qCell 0 k c) 0 d = iprop(∃ f, ((slotOf ysM k).view.loc ((c : Dev nD) : Thread nD τ) ↦[(slotOf ysM k).view.set]{fullShare} f)) := by
  rw [payload_q]; rfl
theorem tb_pay_q2 (c : Dev nD) (k : Fin 8) (d : Bool) : (sched (F := F) m).payload (qCell 2 k c) 0 d = iprop(∃ f, ((slotOf xsM k).view.loc ((c : Dev nD) : Thread nD τ) ↦[(slotOf xsM k).view.set]{fullShare} f)) := by
  rw [payload_q]; rfl
theorem tb_pay_q1 (c : Dev nD) (k : Fin 8) (d : Bool) : (sched (F := F) m).payload (qCell 1 k c) 0 d = iprop(∃ f, ((slotOf yrM k).view.loc ((c : Dev nD) : Thread nD τ) ↦[(slotOf yrM k).view.set]{fullShare} f) ∗ ⌜(slotOf yrM k).view.read (Elt F) f = shapeCast S512x256 (partY m (pY c) k) shapeCasts_S1x512x256_S512x256⌝) := by
  rw [payload_q]; rfl
theorem tb_pay_q3 (c : Dev nD) (k : Fin 8) (d : Bool) : (sched (F := F) m).payload (qCell 3 k c) 0 d = iprop(∃ f, ((slotOf xrM k).view.loc ((c : Dev nD) : Thread nD τ) ↦[(slotOf xrM k).view.set]{fullShare} f) ∗ ⌜(slotOf xrM k).view.read (Elt F) f = shapeCast S512x256 (partX m (pX c) k) shapeCasts_S1x512x256_S512x256⌝) := by
  rw [payload_q]; rfl
theorem tb_pay_q1_py (c : Dev nD) (k : Fin 8) (d : Bool) : (sched (F := F) m).payload (qCell 1 k (pY c)) 0 d = iprop(∃ f, ((slotOf yrM k).view.loc ((pY c : Dev nD) : Thread nD τ) ↦[(slotOf yrM k).view.set]{fullShare} f) ∗ ⌜(slotOf yrM k).view.read (Elt F) f = shapeCast S512x256 (partY m c k) shapeCasts_S1x512x256_S512x256⌝) := by
  rw [payload_q]; unfold payQ slotIs; rw [pY_pY]
theorem tb_pay_q3_px (c : Dev nD) (k : Fin 8) (d : Bool) : (sched (F := F) m).payload (qCell 3 k (pX c)) 0 d = iprop(∃ f, ((slotOf xrM k).view.loc ((pX c : Dev nD) : Thread nD τ) ↦[(slotOf xrM k).view.set]{fullShare} f) ∗ ⌜(slotOf xrM k).view.read (Elt F) f = shapeCast S512x256 (partX m c k) shapeCasts_S1x512x256_S512x256⌝) := by
  rw [payload_q]; unfold payQ slotIs; rw [pX_pX]

/-! ## Peeling what is owed; the barrier round's rest spelt out -/

theorem Oxy_stepY (c : Dev nD) (i j : ℕ) (h : j < 8) : Oxy c i j = Oxy c i (j + 1) + tallyAt (qCell 1 ⟨j, h⟩ (pY c)) () Ncr := by
  unfold Oxy; rw [owedFrom_step (tY c) j h, ← add_assoc]; rfl
theorem Oxy_stepX (c : Dev nD) (i j : ℕ) (h : i < 8) : Oxy c i j = Oxy c (i + 1) j + tallyAt (qCell 3 ⟨i, h⟩ (pX c)) () Ncr := by
  unfold Oxy; rw [owedFrom_step (tX c) i h, add_right_comm]; rfl
theorem Oxy_done (c : Dev nD) : Oxy c 8 8 = 0 := by
  unfold Oxy; rw [owedFrom_end _ 8 (le_refl _), owedFrom_end _ 8 (le_refl _), add_zero]

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The rest of the barrier cell's round, spelt out: the x-neighbour's eight receive slots, then the y-neighbour's. -/
theorem rest_bar16 (c : Dev nD) : bigSep ((sched (F := F) m).duties (barCell c) 0 \ ∅) (fun d => (sched (F := F) m).payload (barCell c) 0 d)
    = iprop(((∃ f, ((slotOf xrM 0).view.loc ((pX c : Dev nD) : Thread nD τ) ↦[(slotOf xrM 0).view.set]{fullShare} f)) ∗ (∃ f, ((slotOf xrM 1).view.loc ((pX c : Dev nD) : Thread nD τ) ↦[(slotOf xrM 1).view.set]{fullShare} f)) ∗ (∃ f, ((slotOf xrM 2).view.loc ((pX c : Dev nD) : Thread nD τ) ↦[(slotOf xrM 2).view.set]{fullShare} f)) ∗ (∃ f, ((slotOf xrM 3).view.loc ((pX c : Dev nD) : Thread nD τ) ↦[(slotOf xrM 3).view.set]{fullShare} f)) ∗ (∃ f, ((slotOf xrM 4).view.loc ((pX c : Dev nD) : Thread nD τ) ↦[(slotOf xrM 4).view.set]{fullShare} f)) ∗ (∃ f, ((slotOf xrM 5).view.loc ((pX c : Dev nD) : Thread nD τ) ↦[(slotOf xrM 5).view.set]{fullShare} f)) ∗ (∃ f, ((slotOf xrM 6).view.loc ((pX c : Dev nD) : Thread nD τ) ↦[(slotOf xrM 6).view.set]{fullShare} f)) ∗ (∃ f, ((slotOf xrM 7).view.loc ((pX c : Dev nD) : Thread nD τ) ↦[(slotOf xrM 7).view.set]{fullShare} f))) ∗ ((∃ f, ((slotOf yrM 0).view.loc ((pY c : Dev nD) : Thread nD τ) ↦[(slotOf yrM 0).view.set]{fullShare} f)) ∗ (∃ f, ((slotOf yrM 1).view.loc ((pY c : Dev nD) : Thread nD τ) ↦[(slotOf yrM 1).view.set]{fullShare} f)) ∗ (∃ f, ((slotOf yrM 2).view.loc ((pY c : Dev nD) : Thread nD τ) ↦[(slotOf yrM 2).view.set]{fullShare} f)) ∗ (∃ f, ((slotOf yrM 3).view.loc ((pY c : Dev nD) : Thread nD τ) ↦[(slotOf yrM 3).view.set]{fullShare} f)) ∗ (∃ f, ((slotOf yrM 4).view.loc ((pY c : Dev nD) : Thread nD τ) ↦[(slotOf yrM 4).view.set]{fullShare} f)) ∗ (∃ f, ((slotOf yrM 5).view.loc ((pY c : Dev nD) : Thread nD τ) ↦[(slotOf yrM 5).view.set]{fullShare} f)) ∗ (∃ f, ((slotOf yrM 6).view.loc ((pY c : Dev nD) : Thread nD τ) ↦[(slotOf yrM 6).view.set]{fullShare} f)) ∗ (∃ f, ((slotOf yrM 7).view.loc ((pY c : Dev nD) : Thread nD τ) ↦[(slotOf yrM 7).view.set]{fullShare} f)))) := by
  rw [rest_bar]; unfold slotsAny slotAny; rw [bigSep_fin8, bigSep_fin8]

/-! ## Reading a slot -/

/-- A slot read through the transfers' view is the [1, 512, 256] tile the body's loads read there, without its unit axis. -/
theorem slot_read (M : Memref sig .tc .vmem S8x512x256 .bf16) (k : Fin 8) (f : M.view.ty.Contents (Elt F)) :
    (slotOf M k).view.read (Elt F) f
      = shapeCast S512x256 (M.view.readAt (Elt F) (slotR k).toLoadRect f) shapeCasts_S1x512x256_S512x256 := rfl

/-- A slot stored whole through the buffer's access at its rectangle reads back, through the transfers' view, as the tile stored. -/
theorem slot_read_write (M : Memref sig .tc .vmem S8x512x256 .bf16) (k : Fin 8) {off : Fin 3 → Nat} (hoff : off = slotOff k)
    (inb : ∀ a, off a + S1x512x256.size a ≤ S8x512x256.size a) (f : M.view.ty.Contents (Elt F)) (w : Vec F S1x512x256 .bf16) :
    (slotOf M k).view.read (Elt F) (View.write (Elt F) (M.access (Rect.unit (s := S8x512x256) off S1x512x256.size inb)) f w Finset.univ)
      = shapeCast S512x256 w shapeCasts_S1x512x256_S512x256 := by
  subst hoff
  rw [slot_read]
  exact congrArg (fun v => shapeCast S512x256 v shapeCasts_S1x512x256_S512x256) (View.read_write_univ _ _)

/-- The sum with a received tile depends on the tile only through its recast without the unit axis. -/
theorem sumY_congr (xk : Vec F S1024x512 .f32) (dy : Vec F S1024x256 .f32) (yr yr' : Vec F S1x512x256 .bf16)
    (h : shapeCast S512x256 yr shapeCasts_S1x512x256_S512x256 = shapeCast S512x256 yr' shapeCasts_S1x512x256_S512x256) :
    sumY xk dy yr = sumY xk dy yr' := by
  unfold sumY; rw [h]
theorem recvX_congr (xr xr' : Vec F S1x512x256 .bf16)
    (h : shapeCast S512x256 xr shapeCasts_S1x512x256_S512x256 = shapeCast S512x256 xr' shapeCasts_S1x512x256_S512x256) :
    recvX xr = recvX xr' := by
  unfold recvX; rw [h]
theorem zero_above (b : ℕ) : ∀ (g : GSem nD τ sig) (u : Unit), 0 < (0 : CellTallies nD τ sig Unit) g u → g.1.2 = .tc ∧ b < lv g u :=
  fun g u h => absurd h (Nat.lt_irrefl 0)

/-! ## The transfers -/

/-- The chunk-`k` transfer to the y-neighbour: it pays the departure duty of this device's send cell (handing the send slot
    back) and the arrival duty of the neighbour's receive cell (handing the receive slot over, holding what the send slot held). -/
theorem send_y (κ₁ κ₂ : ℕ) (c n : Dev nD) (hn : n = pY c) (k : Fin 8)
    {hsc : (slotOf yrM k : Memref sig (Dev.tc n : Thread nD τ).2.kind .vmem S512x256 .bf16).view.ref.isScScratch = false}
    {hsrc : (slotOf ysM k).view.WordExact} {hdst : (slotOf yrM k).view.WordExact}
    {hsem : DmaTarget.Typed .vmem (.dma (qS 1 k)) (.remote (Dev.tc n : Thread nD τ) (slotOf yrM k) (.dma (qS 0 k)) hsc)}
    {α : Type} {Q : α → sProp 𝕄} {kk : PUnit → Prog (TpuEff nD τ sig (Elt F) Λ₀ .tc) α}
    (fs : Buf (Elt F) ((slotOf ysM k).view.loc (c : Thread nD τ))) (fd : Buf (Elt F) ((slotOf yrM k).view.loc (pY c : Thread nD τ)))
    (hfs : (slotOf ysM k).view.read (Elt F) fs = shapeCast S512x256 (partY m c k) shapeCasts_S1x512x256_S512x256)
    (i j : ℕ) (hk : j = k.val) (W : Waits sig Unit) :
    iprop(cellInv ER (sched m) κ₁ (qCell 0 k c) ∗ cellInv ER (sched m) κ₂ (qCell 1 k (pY c))
        ∗ ((slotOf ysM k).view.loc (c : Thread nD τ) ↦[(slotOf ysM k).view.set]{fullShare} fs)
        ∗ ((slotOf yrM k).view.loc (pY c : Thread nD τ) ↦[(slotOf yrM k).view.set]{fullShare} fd)
        ∗ owes (c : Thread nD τ) (Oxy c i j) W
        ∗ dutyTok ER (qCell 0 k c) 0 false ∗ reached ER (qCell 0 k c) 0
        ∗ dutyTok ER (qCell 1 k (pY c)) 0 false ∗ reached ER (qCell 1 k (pY c)) 0)
      ⊢ iprop(((cred (tallyAt (qCell 0 k c) () Ncr) ∗ owes (c : Thread nD τ) (Oxy c i (j + 1)) W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotOf ysM k) (.remote (Dev.tc n : Thread nD τ) (slotOf yrM k) (.dma (qS 0 k)) hsc) (.dma (qS 1 k)) hsrc hdst hsem) kk) Q) := by
  subst hn; subst hk
  exact Rounds.wp_send_pointsTo 𝒱₀ ER (sched m) (c : Thread nD τ) none (κ₁ := κ₁) (κ₂ := κ₂)
    (r₁ := 0) (r₂ := 0) (d₁ := false) (d₂ := false) (fs := fs) (fd := fd)
    (by rw [duties_q]; exact Finset.mem_singleton_self _) (by rw [duties_q]; exact Finset.mem_singleton_self _)
    () () Ncr rfl (amount_q m c 0 k false) (amount_q m (pY c) 1 k false) (Oxy c i (k.val + 1)) (Oxy_stepY c i k.val k.isLt) (W := W)
    (by rw [tb_pay_q0]; iintro H; iexists _; iexact H)
    (by
      rw [tb_pay_q1_py]; iintro H; iexists _
      isplitl
      · iexact H
      · ipureintro; rw [View.read_write_univ]; exact hfs)

/-- The chunk-`k` transfer to the x-neighbour: it pays the departure duty of this device's send cell (handing the send slot
    back) and the arrival duty of the neighbour's receive cell (handing the receive slot over, holding what the send slot held). -/
theorem send_x (κ₁ κ₂ : ℕ) (c n : Dev nD) (hn : n = pX c) (k : Fin 8)
    {hsc : (slotOf xrM k : Memref sig (Dev.tc n : Thread nD τ).2.kind .vmem S512x256 .bf16).view.ref.isScScratch = false}
    {hsrc : (slotOf xsM k).view.WordExact} {hdst : (slotOf xrM k).view.WordExact}
    {hsem : DmaTarget.Typed .vmem (.dma (qS 3 k)) (.remote (Dev.tc n : Thread nD τ) (slotOf xrM k) (.dma (qS 2 k)) hsc)}
    {α : Type} {Q : α → sProp 𝕄} {kk : PUnit → Prog (TpuEff nD τ sig (Elt F) Λ₀ .tc) α}
    (fs : Buf (Elt F) ((slotOf xsM k).view.loc (c : Thread nD τ))) (fd : Buf (Elt F) ((slotOf xrM k).view.loc (pX c : Thread nD τ)))
    (hfs : (slotOf xsM k).view.read (Elt F) fs = shapeCast S512x256 (partX m c k) shapeCasts_S1x512x256_S512x256)
    (i j : ℕ) (hk : i = k.val) (W : Waits sig Unit) :
    iprop(cellInv ER (sched m) κ₁ (qCell 2 k c) ∗ cellInv ER (sched m) κ₂ (qCell 3 k (pX c))
        ∗ ((slotOf xsM k).view.loc (c : Thread nD τ) ↦[(slotOf xsM k).view.set]{fullShare} fs)
        ∗ ((slotOf xrM k).view.loc (pX c : Thread nD τ) ↦[(slotOf xrM k).view.set]{fullShare} fd)
        ∗ owes (c : Thread nD τ) (Oxy c i j) W
        ∗ dutyTok ER (qCell 2 k c) 0 false ∗ reached ER (qCell 2 k c) 0
        ∗ dutyTok ER (qCell 3 k (pX c)) 0 false ∗ reached ER (qCell 3 k (pX c)) 0)
      ⊢ iprop(((cred (tallyAt (qCell 2 k c) () Ncr) ∗ owes (c : Thread nD τ) (Oxy c (i + 1) j) W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotOf xsM k) (.remote (Dev.tc n : Thread nD τ) (slotOf xrM k) (.dma (qS 2 k)) hsc) (.dma (qS 3 k)) hsrc hdst hsem) kk) Q) := by
  subst hn; subst hk
  exact Rounds.wp_send_pointsTo 𝒱₀ ER (sched m) (c : Thread nD τ) none (κ₁ := κ₁) (κ₂ := κ₂)
    (r₁ := 0) (r₂ := 0) (d₁ := false) (d₂ := false) (fs := fs) (fd := fd)
    (by rw [duties_q]; exact Finset.mem_singleton_self _) (by rw [duties_q]; exact Finset.mem_singleton_self _)
    () () Ncr rfl (amount_q m c 2 k false) (amount_q m (pX c) 3 k false) (Oxy c (k.val + 1) j) (Oxy_stepX c k.val j k.isLt) (W := W)
    (by rw [tb_pay_q2]; iintro H; iexists _; iexact H)
    (by
      rw [tb_pay_q3_px]; iintro H; iexists _
      isplitl
      · iexact H
      · ipureintro; rw [View.read_write_univ]; exact hfs)

/-! ## The waits on the device's own DMA cells -/

/-- The wait for the whole of the one round of DMA cell (family `a`, chunk `k`): allowed while everything still owed sits
    on cells strictly above the cell's level; it hands the round's payload over. -/
theorem wait_q (κ : ℕ) (c : Dev nD) (a : Fin 4) (k : Fin 8) (O : CellTallies nD τ sig Unit) (W : Waits sig Unit)
    (hO : ∀ g u, 0 < O g u → g.1.2 = .tc ∧ lv (qCell a k c) () < lv g u)
    {α : Type} {Q : α → sProp 𝕄} {kk : PUnit → Prog (TpuEff nD τ sig (Elt F) Λ₀ .tc) α}
    {src dst : Memref sig .tc .vmem S512x256 .bf16} {hs : src.view.WordExact} {hd : dst.view.WordExact} :
    iprop(cellInv ER (sched m) κ (qCell a k c) ∗ cred (tallyAt (qCell a k c) () Ncr) ∗ owes (c : Thread nD τ) O W ∗ levAts L lv
        ∗ atPos ER (qCell a k c) 0 ∅ 0)
      ⊢ iprop(((owes (c : Thread nD τ) O (insert (SemLoc.dma (qS a k), ()) W) ∗ atPos ER (qCell a k c) (0 + 1) ∅ 0 ∗ payQ m c a k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (qS a k) src dst hs hd) kk) Q) := by
  iintro ⟨#HI, Hc, HO, #Hlev, Hat⟩ Hk
  iapply (Rounds.wp_wait_rest_token 𝒱₀ ER (sched m) (c : Thread nD τ) none (κ := κ)
      (wpE_waitDma2_eq 𝒱₀ (c : Thread nD τ) none Set.univ) (Set.mem_univ _) () (O := O) (W := W) (R := 0) (m := 0) (T := ∅)
      (by rw [Nat.zero_add, expect_q])) $$ [Hc HO Hat]
  · isplitr; · iexact HI
    isplitl [Hc]; · iexact Hc
    isplitl [HO]; · iexact HO
    isplitr
    · iapply (mayWait_cut c (.dma (qS a k)) (lv (qCell a k c) ()) O (le_refl _) hO); iexact Hlev
    iexact Hat
  iintro ⟨HO, Hat, -, Hpay⟩
  ihave Hp := (Entails.of_eq (rest_q m c a k)) $$ Hpay
  iapply Hk
  isplitl [HO]; · iexact HO
  isplitl [Hat]; · iexact Hat
  iexact Hp

end Cert.KernelIdealProof

end
-- ==== Proof.KernelIdeal.BodyStmt.lean ====
/-
  The statement of one device's run, spelt out hypothesis by hypothesis.

  `CorePre`: the invariants and reached-marks the steps use (its own 33 cells, both neighbours' barrier cells, the
  y-neighbour's eight y receive cells, the x-neighbour's eight x receive cells), its positions, the 34 tokens it pays, its
  17 credits, what it owes, the three staging buffers and the 32 slots of its four scratch buffers.
  `CorePost`: every own DMA cell's position after its one round, nothing owed, the input blocks as they were, the result
  block entry by entry, the 32 slots back over some contents.
-/
import proofs.«900475_g7700000000000476_dist_rsdw_v7x_xy2x2_y_m1024_d1024_f4096_bf16_1_alg».proof.Proof.KernelIdeal.Steps
import proofs.«900475_g7700000000000476_dist_rsdw_v7x_xy2x2_y_m1024_d1024_f4096_bf16_1_alg».proof.Proof.KernelIdeal.BodyDefs

noncomputable section

set_option maxRecDepth 16384
namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def CorePre (K : Dev nD × CIx → ℕ) (c : Dev nD) (W : Waits sig Unit) (g0 : Buf (Elt F) ((c : Thread nD τ).loc cc0_stg2_0))
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3)) : sProp 𝕄 :=
  iprop(cellInv ER (sched m) (K (c, none)) (barCell c)
    ∗ cellInv ER (sched m) (K (pX c, none)) (barCell (pX c))
    ∗ cellInv ER (sched m) (K (pY c, none)) (barCell (pY c))
    ∗ cellInv ER (sched m) (K (c, some (0, 0))) (qCell 0 0 c)
    ∗ cellInv ER (sched m) (K (c, some (0, 1))) (qCell 0 1 c)
    ∗ cellInv ER (sched m) (K (c, some (0, 2))) (qCell 0 2 c)
    ∗ cellInv ER (sched m) (K (c, some (0, 3))) (qCell 0 3 c)
    ∗ cellInv ER (sched m) (K (c, some (0, 4))) (qCell 0 4 c)
    ∗ cellInv ER (sched m) (K (c, some (0, 5))) (qCell 0 5 c)
    ∗ cellInv ER (sched m) (K (c, some (0, 6))) (qCell 0 6 c)
    ∗ cellInv ER (sched m) (K (c, some (0, 7))) (qCell 0 7 c)
    ∗ cellInv ER (sched m) (K (c, some (1, 0))) (qCell 1 0 c)
    ∗ cellInv ER (sched m) (K (c, some (1, 1))) (qCell 1 1 c)
    ∗ cellInv ER (sched m) (K (c, some (1, 2))) (qCell 1 2 c)
    ∗ cellInv ER (sched m) (K (c, some (1, 3))) (qCell 1 3 c)
    ∗ cellInv ER (sched m) (K (c, some (1, 4))) (qCell 1 4 c)
    ∗ cellInv ER (sched m) (K (c, some (1, 5))) (qCell 1 5 c)
    ∗ cellInv ER (sched m) (K (c, some (1, 6))) (qCell 1 6 c)
    ∗ cellInv ER (sched m) (K (c, some (1, 7))) (qCell 1 7 c)
    ∗ cellInv ER (sched m) (K (c, some (2, 0))) (qCell 2 0 c)
    ∗ cellInv ER (sched m) (K (c, some (2, 1))) (qCell 2 1 c)
    ∗ cellInv ER (sched m) (K (c, some (2, 2))) (qCell 2 2 c)
    ∗ cellInv ER (sched m) (K (c, some (2, 3))) (qCell 2 3 c)
    ∗ cellInv ER (sched m) (K (c, some (2, 4))) (qCell 2 4 c)
    ∗ cellInv ER (sched m) (K (c, some (2, 5))) (qCell 2 5 c)
    ∗ cellInv ER (sched m) (K (c, some (2, 6))) (qCell 2 6 c)
    ∗ cellInv ER (sched m) (K (c, some (2, 7))) (qCell 2 7 c)
    ∗ cellInv ER (sched m) (K (c, some (3, 0))) (qCell 3 0 c)
    ∗ cellInv ER (sched m) (K (c, some (3, 1))) (qCell 3 1 c)
    ∗ cellInv ER (sched m) (K (c, some (3, 2))) (qCell 3 2 c)
    ∗ cellInv ER (sched m) (K (c, some (3, 3))) (qCell 3 3 c)
    ∗ cellInv ER (sched m) (K (c, some (3, 4))) (qCell 3 4 c)
    ∗ cellInv ER (sched m) (K (c, some (3, 5))) (qCell 3 5 c)
    ∗ cellInv ER (sched m) (K (c, some (3, 6))) (qCell 3 6 c)
    ∗ cellInv ER (sched m) (K (c, some (3, 7))) (qCell 3 7 c)
    ∗ cellInv ER (sched m) (K (pY c, some (1, 0))) (qCell 1 0 (pY c))
    ∗ cellInv ER (sched m) (K (pY c, some (1, 1))) (qCell 1 1 (pY c))
    ∗ cellInv ER (sched m) (K (pY c, some (1, 2))) (qCell 1 2 (pY c))
    ∗ cellInv ER (sched m) (K (pY c, some (1, 3))) (qCell 1 3 (pY c))
    ∗ cellInv ER (sched m) (K (pY c, some (1, 4))) (qCell 1 4 (pY c))
    ∗ cellInv ER (sched m) (K (pY c, some (1, 5))) (qCell 1 5 (pY c))
    ∗ cellInv ER (sched m) (K (pY c, some (1, 6))) (qCell 1 6 (pY c))
    ∗ cellInv ER (sched m) (K (pY c, some (1, 7))) (qCell 1 7 (pY c))
    ∗ cellInv ER (sched m) (K (pX c, some (3, 0))) (qCell 3 0 (pX c))
    ∗ cellInv ER (sched m) (K (pX c, some (3, 1))) (qCell 3 1 (pX c))
    ∗ cellInv ER (sched m) (K (pX c, some (3, 2))) (qCell 3 2 (pX c))
    ∗ cellInv ER (sched m) (K (pX c, some (3, 3))) (qCell 3 3 (pX c))
    ∗ cellInv ER (sched m) (K (pX c, some (3, 4))) (qCell 3 4 (pX c))
    ∗ cellInv ER (sched m) (K (pX c, some (3, 5))) (qCell 3 5 (pX c))
    ∗ cellInv ER (sched m) (K (pX c, some (3, 6))) (qCell 3 6 (pX c))
    ∗ cellInv ER (sched m) (K (pX c, some (3, 7))) (qCell 3 7 (pX c))
    ∗ reached ER (barCell (pX c)) 0
    ∗ reached ER (barCell (pY c)) 0
    ∗ reached ER (qCell 0 0 c) 0
    ∗ reached ER (qCell 0 1 c) 0
    ∗ reached ER (qCell 0 2 c) 0
    ∗ reached ER (qCell 0 3 c) 0
    ∗ reached ER (qCell 0 4 c) 0
    ∗ reached ER (qCell 0 5 c) 0
    ∗ reached ER (qCell 0 6 c) 0
    ∗ reached ER (qCell 0 7 c) 0
    ∗ reached ER (qCell 2 0 c) 0
    ∗ reached ER (qCell 2 1 c) 0
    ∗ reached ER (qCell 2 2 c) 0
    ∗ reached ER (qCell 2 3 c) 0
    ∗ reached ER (qCell 2 4 c) 0
    ∗ reached ER (qCell 2 5 c) 0
    ∗ reached ER (qCell 2 6 c) 0
    ∗ reached ER (qCell 2 7 c) 0
    ∗ reached ER (qCell 1 0 (pY c)) 0
    ∗ reached ER (qCell 1 1 (pY c)) 0
    ∗ reached ER (qCell 1 2 (pY c)) 0
    ∗ reached ER (qCell 1 3 (pY c)) 0
    ∗ reached ER (qCell 1 4 (pY c)) 0
    ∗ reached ER (qCell 1 5 (pY c)) 0
    ∗ reached ER (qCell 1 6 (pY c)) 0
    ∗ reached ER (qCell 1 7 (pY c)) 0
    ∗ reached ER (qCell 3 0 (pX c)) 0
    ∗ reached ER (qCell 3 1 (pX c)) 0
    ∗ reached ER (qCell 3 2 (pX c)) 0
    ∗ reached ER (qCell 3 3 (pX c)) 0
    ∗ reached ER (qCell 3 4 (pX c)) 0
    ∗ reached ER (qCell 3 5 (pX c)) 0
    ∗ reached ER (qCell 3 6 (pX c)) 0
    ∗ reached ER (qCell 3 7 (pX c)) 0
    ∗ levAts L lv
    ∗ atPos ER (barCell c) 0 ∅ 0
    ∗ atPos ER (qCell 0 0 c) 0 ∅ 0
    ∗ atPos ER (qCell 0 1 c) 0 ∅ 0
    ∗ atPos ER (qCell 0 2 c) 0 ∅ 0
    ∗ atPos ER (qCell 0 3 c) 0 ∅ 0
    ∗ atPos ER (qCell 0 4 c) 0 ∅ 0
    ∗ atPos ER (qCell 0 5 c) 0 ∅ 0
    ∗ atPos ER (qCell 0 6 c) 0 ∅ 0
    ∗ atPos ER (qCell 0 7 c) 0 ∅ 0
    ∗ atPos ER (qCell 1 0 c) 0 ∅ 0
    ∗ atPos ER (qCell 1 1 c) 0 ∅ 0
    ∗ atPos ER (qCell 1 2 c) 0 ∅ 0
    ∗ atPos ER (qCell 1 3 c) 0 ∅ 0
    ∗ atPos ER (qCell 1 4 c) 0 ∅ 0
    ∗ atPos ER (qCell 1 5 c) 0 ∅ 0
    ∗ atPos ER (qCell 1 6 c) 0 ∅ 0
    ∗ atPos ER (qCell 1 7 c) 0 ∅ 0
    ∗ atPos ER (qCell 2 0 c) 0 ∅ 0
    ∗ atPos ER (qCell 2 1 c) 0 ∅ 0
    ∗ atPos ER (qCell 2 2 c) 0 ∅ 0
    ∗ atPos ER (qCell 2 3 c) 0 ∅ 0
    ∗ atPos ER (qCell 2 4 c) 0 ∅ 0
    ∗ atPos ER (qCell 2 5 c) 0 ∅ 0
    ∗ atPos ER (qCell 2 6 c) 0 ∅ 0
    ∗ atPos ER (qCell 2 7 c) 0 ∅ 0
    ∗ atPos ER (qCell 3 0 c) 0 ∅ 0
    ∗ atPos ER (qCell 3 1 c) 0 ∅ 0
    ∗ atPos ER (qCell 3 2 c) 0 ∅ 0
    ∗ atPos ER (qCell 3 3 c) 0 ∅ 0
    ∗ atPos ER (qCell 3 4 c) 0 ∅ 0
    ∗ atPos ER (qCell 3 5 c) 0 ∅ 0
    ∗ atPos ER (qCell 3 6 c) 0 ∅ 0
    ∗ atPos ER (qCell 3 7 c) 0 ∅ 0
    ∗ dutyTok ER (barCell (pX c)) 0 false
    ∗ dutyTok ER (barCell (pY c)) 0 true
    ∗ dutyTok ER (qCell 0 0 c) 0 false
    ∗ dutyTok ER (qCell 0 1 c) 0 false
    ∗ dutyTok ER (qCell 0 2 c) 0 false
    ∗ dutyTok ER (qCell 0 3 c) 0 false
    ∗ dutyTok ER (qCell 0 4 c) 0 false
    ∗ dutyTok ER (qCell 0 5 c) 0 false
    ∗ dutyTok ER (qCell 0 6 c) 0 false
    ∗ dutyTok ER (qCell 0 7 c) 0 false
    ∗ dutyTok ER (qCell 1 0 (pY c)) 0 false
    ∗ dutyTok ER (qCell 1 1 (pY c)) 0 false
    ∗ dutyTok ER (qCell 1 2 (pY c)) 0 false
    ∗ dutyTok ER (qCell 1 3 (pY c)) 0 false
    ∗ dutyTok ER (qCell 1 4 (pY c)) 0 false
    ∗ dutyTok ER (qCell 1 5 (pY c)) 0 false
    ∗ dutyTok ER (qCell 1 6 (pY c)) 0 false
    ∗ dutyTok ER (qCell 1 7 (pY c)) 0 false
    ∗ dutyTok ER (qCell 2 0 c) 0 false
    ∗ dutyTok ER (qCell 2 1 c) 0 false
    ∗ dutyTok ER (qCell 2 2 c) 0 false
    ∗ dutyTok ER (qCell 2 3 c) 0 false
    ∗ dutyTok ER (qCell 2 4 c) 0 false
    ∗ dutyTok ER (qCell 2 5 c) 0 false
    ∗ dutyTok ER (qCell 2 6 c) 0 false
    ∗ dutyTok ER (qCell 2 7 c) 0 false
    ∗ dutyTok ER (qCell 3 0 (pX c)) 0 false
    ∗ dutyTok ER (qCell 3 1 (pX c)) 0 false
    ∗ dutyTok ER (qCell 3 2 (pX c)) 0 false
    ∗ dutyTok ER (qCell 3 3 (pX c)) 0 false
    ∗ dutyTok ER (qCell 3 4 (pX c)) 0 false
    ∗ dutyTok ER (qCell 3 5 (pX c)) 0 false
    ∗ dutyTok ER (qCell 3 6 (pX c)) 0 false
    ∗ dutyTok ER (qCell 3 7 (pX c)) 0 false
    ∗ cred (tallyAt (barCell c) () 2)
    ∗ cred (tallyAt (qCell 1 0 c) () Ncr)
    ∗ cred (tallyAt (qCell 1 1 c) () Ncr)
    ∗ cred (tallyAt (qCell 1 2 c) () Ncr)
    ∗ cred (tallyAt (qCell 1 3 c) () Ncr)
    ∗ cred (tallyAt (qCell 1 4 c) () Ncr)
    ∗ cred (tallyAt (qCell 1 5 c) () Ncr)
    ∗ cred (tallyAt (qCell 1 6 c) () Ncr)
    ∗ cred (tallyAt (qCell 1 7 c) () Ncr)
    ∗ cred (tallyAt (qCell 3 0 c) () Ncr)
    ∗ cred (tallyAt (qCell 3 1 c) () Ncr)
    ∗ cred (tallyAt (qCell 3 2 c) () Ncr)
    ∗ cred (tallyAt (qCell 3 3 c) () Ncr)
    ∗ cred (tallyAt (qCell 3 4 c) () Ncr)
    ∗ cred (tallyAt (qCell 3 5 c) () Ncr)
    ∗ cred (tallyAt (qCell 3 6 c) () Ncr)
    ∗ cred (tallyAt (qCell 3 7 c) () Ncr)
    ∗ owes (c : Thread nD τ) (O₀ c) W
    ∗ ((Memref.whole cc0_stg0_0 : Memref sig .tc .vmem S1024x1024 .f32).view.loc (c : Thread nD τ) ↦{fullShare} stgA m c)
    ∗ ((Memref.whole cc0_stg1_0 : Memref sig .tc .vmem S1024x4096 .f32).view.loc (c : Thread nD τ) ↦{fullShare} stgB m c)
    ∗ ((Memref.whole cc0_stg2_0 : Memref sig .tc .vmem S512x4096 .f32).view.loc (c : Thread nD τ) ↦{fullShare} g0)
    ∗ ((slotOf ysM 0).view.loc ((c : Dev nD) : Thread nD τ) ↦[(slotOf ysM 0).view.set]{fullShare} f0)
    ∗ ((slotOf ysM 1).view.loc ((c : Dev nD) : Thread nD τ) ↦[(slotOf ysM 1).view.set]{fullShare} f0)
    ∗ ((slotOf ysM 2).view.loc ((c : Dev nD) : Thread nD τ) ↦[(slotOf ysM 2).view.set]{fullShare} f0)
    ∗ ((slotOf ysM 3).view.loc ((c : Dev nD) : Thread nD τ) ↦[(slotOf ysM 3).view.set]{fullShare} f0)
    ∗ ((slotOf ysM 4).view.loc ((c : Dev nD) : Thread nD τ) ↦[(slotOf ysM 4).view.set]{fullShare} f0)
    ∗ ((slotOf ysM 5).view.loc ((c : Dev nD) : Thread nD τ) ↦[(slotOf ysM 5).view.set]{fullShare} f0)
    ∗ ((slotOf ysM 6).view.loc ((c : Dev nD) : Thread nD τ) ↦[(slotOf ysM 6).view.set]{fullShare} f0)
    ∗ ((slotOf ysM 7).view.loc ((c : Dev nD) : Thread nD τ) ↦[(slotOf ysM 7).view.set]{fullShare} f0)
    ∗ ((slotOf yrM 0).view.loc ((c : Dev nD) : Thread nD τ) ↦[(slotOf yrM 0).view.set]{fullShare} f1)
    ∗ ((slotOf yrM 1).view.loc ((c : Dev nD) : Thread nD τ) ↦[(slotOf yrM 1).view.set]{fullShare} f1)
    ∗ ((slotOf yrM 2).view.loc ((c : Dev nD) : Thread nD τ) ↦[(slotOf yrM 2).view.set]{fullShare} f1)
    ∗ ((slotOf yrM 3).view.loc ((c : Dev nD) : Thread nD τ) ↦[(slotOf yrM 3).view.set]{fullShare} f1)
    ∗ ((slotOf yrM 4).view.loc ((c : Dev nD) : Thread nD τ) ↦[(slotOf yrM 4).view.set]{fullShare} f1)
    ∗ ((slotOf yrM 5).view.loc ((c : Dev nD) : Thread nD τ) ↦[(slotOf yrM 5).view.set]{fullShare} f1)
    ∗ ((slotOf yrM 6).view.loc ((c : Dev nD) : Thread nD τ) ↦[(slotOf yrM 6).view.set]{fullShare} f1)
    ∗ ((slotOf yrM 7).view.loc ((c : Dev nD) : Thread nD τ) ↦[(slotOf yrM 7).view.set]{fullShare} f1)
    ∗ ((slotOf xsM 0).view.loc ((c : Dev nD) : Thread nD τ) ↦[(slotOf xsM 0).view.set]{fullShare} f2)
    ∗ ((slotOf xsM 1).view.loc ((c : Dev nD) : Thread nD τ) ↦[(slotOf xsM 1).view.set]{fullShare} f2)
    ∗ ((slotOf xsM 2).view.loc ((c : Dev nD) : Thread nD τ) ↦[(slotOf xsM 2).view.set]{fullShare} f2)
    ∗ ((slotOf xsM 3).view.loc ((c : Dev nD) : Thread nD τ) ↦[(slotOf xsM 3).view.set]{fullShare} f2)
    ∗ ((slotOf xsM 4).view.loc ((c : Dev nD) : Thread nD τ) ↦[(slotOf xsM 4).view.set]{fullShare} f2)
    ∗ ((slotOf xsM 5).view.loc ((c : Dev nD) : Thread nD τ) ↦[(slotOf xsM 5).view.set]{fullShare} f2)
    ∗ ((slotOf xsM 6).view.loc ((c : Dev nD) : Thread nD τ) ↦[(slotOf xsM 6).view.set]{fullShare} f2)
    ∗ ((slotOf xsM 7).view.loc ((c : Dev nD) : Thread nD τ) ↦[(slotOf xsM 7).view.set]{fullShare} f2)
    ∗ ((slotOf xrM 0).view.loc ((c : Dev nD) : Thread nD τ) ↦[(slotOf xrM 0).view.set]{fullShare} f3)
    ∗ ((slotOf xrM 1).view.loc ((c : Dev nD) : Thread nD τ) ↦[(slotOf xrM 1).view.set]{fullShare} f3)
    ∗ ((slotOf xrM 2).view.loc ((c : Dev nD) : Thread nD τ) ↦[(slotOf xrM 2).view.set]{fullShare} f3)
    ∗ ((slotOf xrM 3).view.loc ((c : Dev nD) : Thread nD τ) ↦[(slotOf xrM 3).view.set]{fullShare} f3)
    ∗ ((slotOf xrM 4).view.loc ((c : Dev nD) : Thread nD τ) ↦[(slotOf xrM 4).view.set]{fullShare} f3)
    ∗ ((slotOf xrM 5).view.loc ((c : Dev nD) : Thread nD τ) ↦[(slotOf xrM 5).view.set]{fullShare} f3)
    ∗ ((slotOf xrM 6).view.loc ((c : Dev nD) : Thread nD τ) ↦[(slotOf xrM 6).view.set]{fullShare} f3)
    ∗ ((slotOf xrM 7).view.loc ((c : Dev nD) : Thread nD τ) ↦[(slotOf xrM 7).view.set]{fullShare} f3))

def CorePost (c : Dev nD) : sProp 𝕄 :=
  iprop(atPos ER (qCell 0 0 c) (0 + 1) ∅ 0
    ∗ atPos ER (qCell 0 1 c) (0 + 1) ∅ 0
    ∗ atPos ER (qCell 0 2 c) (0 + 1) ∅ 0
    ∗ atPos ER (qCell 0 3 c) (0 + 1) ∅ 0
    ∗ atPos ER (qCell 0 4 c) (0 + 1) ∅ 0
    ∗ atPos ER (qCell 0 5 c) (0 + 1) ∅ 0
    ∗ atPos ER (qCell 0 6 c) (0 + 1) ∅ 0
    ∗ atPos ER (qCell 0 7 c) (0 + 1) ∅ 0
    ∗ atPos ER (qCell 1 0 c) (0 + 1) ∅ 0
    ∗ atPos ER (qCell 1 1 c) (0 + 1) ∅ 0
    ∗ atPos ER (qCell 1 2 c) (0 + 1) ∅ 0
    ∗ atPos ER (qCell 1 3 c) (0 + 1) ∅ 0
    ∗ atPos ER (qCell 1 4 c) (0 + 1) ∅ 0
    ∗ atPos ER (qCell 1 5 c) (0 + 1) ∅ 0
    ∗ atPos ER (qCell 1 6 c) (0 + 1) ∅ 0
    ∗ atPos ER (qCell 1 7 c) (0 + 1) ∅ 0
    ∗ atPos ER (qCell 2 0 c) (0 + 1) ∅ 0
    ∗ atPos ER (qCell 2 1 c) (0 + 1) ∅ 0
    ∗ atPos ER (qCell 2 2 c) (0 + 1) ∅ 0
    ∗ atPos ER (qCell 2 3 c) (0 + 1) ∅ 0
    ∗ atPos ER (qCell 2 4 c) (0 + 1) ∅ 0
    ∗ atPos ER (qCell 2 5 c) (0 + 1) ∅ 0
    ∗ atPos ER (qCell 2 6 c) (0 + 1) ∅ 0
    ∗ atPos ER (qCell 2 7 c) (0 + 1) ∅ 0
    ∗ atPos ER (qCell 3 0 c) (0 + 1) ∅ 0
    ∗ atPos ER (qCell 3 1 c) (0 + 1) ∅ 0
    ∗ atPos ER (qCell 3 2 c) (0 + 1) ∅ 0
    ∗ atPos ER (qCell 3 3 c) (0 + 1) ∅ 0
    ∗ atPos ER (qCell 3 4 c) (0 + 1) ∅ 0
    ∗ atPos ER (qCell 3 5 c) (0 + 1) ∅ 0
    ∗ atPos ER (qCell 3 6 c) (0 + 1) ∅ 0
    ∗ atPos ER (qCell 3 7 c) (0 + 1) ∅ 0
    ∗ (∃ W' : Waits sig Unit, owes (c : Thread nD τ) (Oxy c 8 8) W')
    ∗ ((Memref.whole cc0_stg0_0 : Memref sig .tc .vmem S1024x1024 .f32).view.loc (c : Thread nD τ) ↦{fullShare} stgA m c)
    ∗ ((Memref.whole cc0_stg1_0 : Memref sig .tc .vmem S1024x4096 .f32).view.loc (c : Thread nD τ) ↦{fullShare} stgB m c)
    ∗ ((Memref.whole cc0_stg2_0 : Memref sig .tc .vmem S512x4096 .f32).view.loc (c : Thread nD τ) ↦{fullShare} outAt m c)
    ∗ (∃ f, ((slotOf ysM 0).view.loc ((c : Dev nD) : Thread nD τ) ↦[(slotOf ysM 0).view.set]{fullShare} f))
    ∗ (∃ f, ((slotOf ysM 1).view.loc ((c : Dev nD) : Thread nD τ) ↦[(slotOf ysM 1).view.set]{fullShare} f))
    ∗ (∃ f, ((slotOf ysM 2).view.loc ((c : Dev nD) : Thread nD τ) ↦[(slotOf ysM 2).view.set]{fullShare} f))
    ∗ (∃ f, ((slotOf ysM 3).view.loc ((c : Dev nD) : Thread nD τ) ↦[(slotOf ysM 3).view.set]{fullShare} f))
    ∗ (∃ f, ((slotOf ysM 4).view.loc ((c : Dev nD) : Thread nD τ) ↦[(slotOf ysM 4).view.set]{fullShare} f))
    ∗ (∃ f, ((slotOf ysM 5).view.loc ((c : Dev nD) : Thread nD τ) ↦[(slotOf ysM 5).view.set]{fullShare} f))
    ∗ (∃ f, ((slotOf ysM 6).view.loc ((c : Dev nD) : Thread nD τ) ↦[(slotOf ysM 6).view.set]{fullShare} f))
    ∗ (∃ f, ((slotOf ysM 7).view.loc ((c : Dev nD) : Thread nD τ) ↦[(slotOf ysM 7).view.set]{fullShare} f))
    ∗ (∃ f, ((slotOf yrM 0).view.loc ((c : Dev nD) : Thread nD τ) ↦[(slotOf yrM 0).view.set]{fullShare} f))
    ∗ (∃ f, ((slotOf yrM 1).view.loc ((c : Dev nD) : Thread nD τ) ↦[(slotOf yrM 1).view.set]{fullShare} f))
    ∗ (∃ f, ((slotOf yrM 2).view.loc ((c : Dev nD) : Thread nD τ) ↦[(slotOf yrM 2).view.set]{fullShare} f))
    ∗ (∃ f, ((slotOf yrM 3).view.loc ((c : Dev nD) : Thread nD τ) ↦[(slotOf yrM 3).view.set]{fullShare} f))
    ∗ (∃ f, ((slotOf yrM 4).view.loc ((c : Dev nD) : Thread nD τ) ↦[(slotOf yrM 4).view.set]{fullShare} f))
    ∗ (∃ f, ((slotOf yrM 5).view.loc ((c : Dev nD) : Thread nD τ) ↦[(slotOf yrM 5).view.set]{fullShare} f))
    ∗ (∃ f, ((slotOf yrM 6).view.loc ((c : Dev nD) : Thread nD τ) ↦[(slotOf yrM 6).view.set]{fullShare} f))
    ∗ (∃ f, ((slotOf yrM 7).view.loc ((c : Dev nD) : Thread nD τ) ↦[(slotOf yrM 7).view.set]{fullShare} f))
    ∗ (∃ f, ((slotOf xsM 0).view.loc ((c : Dev nD) : Thread nD τ) ↦[(slotOf xsM 0).view.set]{fullShare} f))
    ∗ (∃ f, ((slotOf xsM 1).view.loc ((c : Dev nD) : Thread nD τ) ↦[(slotOf xsM 1).view.set]{fullShare} f))
    ∗ (∃ f, ((slotOf xsM 2).view.loc ((c : Dev nD) : Thread nD τ) ↦[(slotOf xsM 2).view.set]{fullShare} f))
    ∗ (∃ f, ((slotOf xsM 3).view.loc ((c : Dev nD) : Thread nD τ) ↦[(slotOf xsM 3).view.set]{fullShare} f))
    ∗ (∃ f, ((slotOf xsM 4).view.loc ((c : Dev nD) : Thread nD τ) ↦[(slotOf xsM 4).view.set]{fullShare} f))
    ∗ (∃ f, ((slotOf xsM 5).view.loc ((c : Dev nD) : Thread nD τ) ↦[(slotOf xsM 5).view.set]{fullShare} f))
    ∗ (∃ f, ((slotOf xsM 6).view.loc ((c : Dev nD) : Thread nD τ) ↦[(slotOf xsM 6).view.set]{fullShare} f))
    ∗ (∃ f, ((slotOf xsM 7).view.loc ((c : Dev nD) : Thread nD τ) ↦[(slotOf xsM 7).view.set]{fullShare} f))
    ∗ (∃ f, ((slotOf xrM 0).view.loc ((c : Dev nD) : Thread nD τ) ↦[(slotOf xrM 0).view.set]{fullShare} f))
    ∗ (∃ f, ((slotOf xrM 1).view.loc ((c : Dev nD) : Thread nD τ) ↦[(slotOf xrM 1).view.set]{fullShare} f))
    ∗ (∃ f, ((slotOf xrM 2).view.loc ((c : Dev nD) : Thread nD τ) ↦[(slotOf xrM 2).view.set]{fullShare} f))
    ∗ (∃ f, ((slotOf xrM 3).view.loc ((c : Dev nD) : Thread nD τ) ↦[(slotOf xrM 3).view.set]{fullShare} f))
    ∗ (∃ f, ((slotOf xrM 4).view.loc ((c : Dev nD) : Thread nD τ) ↦[(slotOf xrM 4).view.set]{fullShare} f))
    ∗ (∃ f, ((slotOf xrM 5).view.loc ((c : Dev nD) : Thread nD τ) ↦[(slotOf xrM 5).view.set]{fullShare} f))
    ∗ (∃ f, ((slotOf xrM 6).view.loc ((c : Dev nD) : Thread nD τ) ↦[(slotOf xrM 6).view.set]{fullShare} f))
    ∗ (∃ f, ((slotOf xrM 7).view.loc ((c : Dev nD) : Thread nD τ) ↦[(slotOf xrM 7).view.set]{fullShare} f)))

/-- The run of the body from `CorePre` to `CorePost`. -/
def CoreBody : Prop :=
  ∀ (K : Dev nD × CIx → ℕ) (c : Dev nD) (W : Waits sig Unit) (g0 : Buf (Elt F) ((c : Thread nD τ).loc cc0_stg2_0))
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (Kt : PUnit → sProp 𝕄),
    iprop(CorePre m K c W g0 f0 f1 f2 f3 ∗ (CorePost m c -∗ Kt ⟨⟩))
      ⊢ wp frame (wpE (defs₀ (F := F)) 𝒱₀ c none) Set.univ (theBody (F := F)) Kt

end Cert.KernelIdealProof

end
-- ==== Proof.KernelIdeal.OutTiles.lean ====
/-
  The result staging buffer after the body's sixteen tile stores: eight tiles of the device's own column half, then eight
  of the other half, each 256 columns wide at its chunk's offset. No two tiles share a column, so every entry of the
  buffer is the entry of the one tile that holds its column.
-/
import proofs.«900475_g7700000000000476_dist_rsdw_v7x_xy2x2_y_m1024_d1024_f4096_bf16_1_alg».proof.Proof.KernelIdeal.OutAt
import Idealize.ShloMosaic.Lib.WritesUnit
import Idealize.ShloMosaic.Lib.Pipeline.Value

noncomputable section

namespace Cert.KernelIdeal.Vals

open Cert.KernelIdeal Cert.KernelIdeal.Gen
open Idealize.ShloMosaic Idealize.ShloMosaic.TcCoe Idealize.SL.Sem

variable {F : FTy → Type} [FloatOps F]

/-- The result staging buffer, as the body names it. -/
abbrev oM : Memref sig .tc .vmem S512x4096 .f32 := Memref.whole cc0_stg2_0

/-- The store of tile `k` of the device's own column half, -/
def W4 (c : Dev nD) (r : Fin 8 → FVec F S512x256 .f32) (k : Fin 8) (g : (cc0_stg2_0 : Ref sig .tc).ty.Contents (Elt F)) :
    (cc0_stg2_0 : Ref sig .tc).ty.Contents (Elt F) :=
  View.write (Elt F) (oM.access (Rect.unit (s := S512x4096) (k0_off4 c (BitVec.ofNat 32 (256 * k.val))) S512x256.size (k0_off4_inb c k))) g (r k) Finset.univ

/-- and of the other half. -/
def W5 (c : Dev nD) (x : Fin 8 → FVec F S512x256 .f32) (k : Fin 8) (g : (cc0_stg2_0 : Ref sig .tc).ty.Contents (Elt F)) :
    (cc0_stg2_0 : Ref sig .tc).ty.Contents (Elt F) :=
  View.write (Elt F) (oM.access (Rect.unit (s := S512x4096) (k0_off5 c (BitVec.ofNat 32 (256 * k.val))) S512x256.size (k0_off5_inb c k))) g (x k) Finset.univ

/-- The sixteen stores in program order, as one family: stores 0 to 7 the own half's, 8 to 15 the other's. -/
def off16 (c : Dev nD) (i : Fin 16) : Fin S512x4096.rank → ℕ :=
  if h : i.val < 8 then k0_off4 c (BitVec.ofNat 32 (256 * i.val)) else k0_off5 c (BitVec.ofNat 32 (256 * (i.val - 8)))

theorem inb16 (c : Dev nD) (i : Fin 16) (a : Fin S512x4096.rank) : off16 c i a + S512x256.size a ≤ S512x4096.size a := by
  unfold off16
  by_cases h : i.val < 8
  · rw [dif_pos h]; exact k0_off4_inb c ⟨i.val, h⟩ a
  · rw [dif_neg h]; exact k0_off5_inb c ⟨i.val - 8, by have := i.isLt; omega⟩ a

def P16 (r x : Fin 8 → FVec F S512x256 .f32) (i : Fin 16) : (⟨S512x4096.rank, S512x256.size⟩ : Shape).Idx → Elt F .f32 :=
  if h : i.val < 8 then r ⟨i.val, h⟩ else x ⟨i.val - 8, by have := i.isLt; omega⟩

theorem off16_lo (c : Dev nD) (i : Fin 16) (h : i.val < 8) : off16 c i = ![0, 2048 * (c.val / 2) + 256 * i.val] := by
  unfold off16; rw [dif_pos h]; exact k0_off4_eq c ⟨i.val, h⟩
theorem off16_hi (c : Dev nD) (i : Fin 16) (h : ¬ i.val < 8) : off16 c i = ![0, (256 * (i.val - 8) + 2048) - 2048 * (c.val / 2)] := by
  unfold off16; rw [dif_neg h]; exact k0_off5_eq c ⟨i.val - 8, by have := i.isLt; omega⟩

/-- The sixteen nested stores are the list of the sixteen tile stores, newest first. -/
theorem stores_eq (c : Dev nD) (r x : Fin 8 → FVec F S512x256 .f32) (g0 : (cc0_stg2_0 : Ref sig .tc).ty.Contents (Elt F)) :
    W5 c x 7 (W5 c x 6 (W5 c x 5 (W5 c x 4 (W5 c x 3 (W5 c x 2 (W5 c x 1 (W5 c x 0
      (W4 c r 7 (W4 c r 6 (W4 c r 5 (W4 c r 4 (W4 c r 3 (W4 c r 2 (W4 c r 1 (W4 c r 0 g0)))))))))))))))
      = (oM : Memref sig .tc .vmem S512x4096 .f32).view.writes (Elt F) g0 (View.tilePieces S512x256.size (off16 c) (inb16 c) (P16 r x) 16 (Nat.le_refl 16)) := rfl

/-- Every entry of the buffer after the sixteen stores. -/
theorem stores_apply (c : Dev nD) (r x : Fin 8 → FVec F S512x256 .f32) (g0 : (cc0_stg2_0 : Ref sig .tc).ty.Contents (Elt F)) (i : S512x4096.Idx) :
    W5 c x 7 (W5 c x 6 (W5 c x 5 (W5 c x 4 (W5 c x 3 (W5 c x 2 (W5 c x 1 (W5 c x 0
      (W4 c r 7 (W4 c r 6 (W4 c r 5 (W4 c r 4 (W4 c r 3 (W4 c r 2 (W4 c r 1 (W4 c r 0 g0))))))))))))))) i
      = if (i 1).val / 2048 = c.val / 2
        then r (chunkOf ⟨(i 1).val, (i 1).isLt⟩) (tileIx ⟨(i 0).val, (i 0).isLt⟩ (posOf ⟨(i 1).val, (i 1).isLt⟩))
        else x (chunkOf ⟨(i 1).val, (i 1).isLt⟩) (tileIx ⟨(i 0).val, (i 0).isLt⟩ (posOf ⟨(i 1).val, (i 1).isLt⟩)) := by
  rw [stores_eq]
  have hc : c.val < 4 := c.isLt
  have hq : (i 1).val < 4096 := (i 1).isLt
  have hcol := col_eq ⟨(i 1).val, (i 1).isLt⟩
  have hk : (chunkOf ⟨(i 1).val, (i 1).isLt⟩).val < 8 := (chunkOf _).isLt
  have hp : (posOf ⟨(i 1).val, (i 1).isLt⟩).val < 256 := (posOf _).isLt
  simp only at hcol
  refine (congrFun (View.read_whole (Val := Elt F) cc0_stg2_0 _).symm i).trans ?_
  by_cases h : (i 1).val / 2048 = c.val / 2
  · rw [if_pos h]
    refine (View.read_tilePieces (oM : Memref sig .tc .vmem S512x4096 .f32).view g0 S512x256.size (off16 c) (inb16 c) (P16 r x) 16 (Nat.le_refl 16) i
      ⟨(chunkOf ⟨(i 1).val, (i 1).isLt⟩).val, by omega⟩ (by simp only; omega) (tileIx ⟨(i 0).val, (i 0).isLt⟩ (posOf ⟨(i 1).val, (i 1).isLt⟩)) ?_ (1 : Fin 2) ?_).trans ?_
    · intro a
      rw [off16_lo c _ (by simp only; omega)]
      match a with
      | ⟨0, _⟩ => show (i 0).val = 0 + (i 0).val; omega
      | ⟨1, _⟩ => show (i 1).val = 2048 * (c.val / 2) + 256 * (chunkOf ⟨(i 1).val, (i 1).isLt⟩).val + (posOf ⟨(i 1).val, (i 1).isLt⟩).val; omega
    · intro i' hi'
      have hne : i'.val ≠ (chunkOf ⟨(i 1).val, (i 1).isLt⟩).val := fun e => hi' (Fin.ext e)
      have hi16 : i'.val < 16 := i'.isLt
      by_cases h8 : i'.val < 8
      · rw [off16_lo c i' h8]
        show (i 1).val < 2048 * (c.val / 2) + 256 * i'.val ∨ 2048 * (c.val / 2) + 256 * i'.val + 256 ≤ (i 1).val
        omega
      · rw [off16_hi c i' h8]
        show (i 1).val < (256 * (i'.val - 8) + 2048) - 2048 * (c.val / 2) ∨ (256 * (i'.val - 8) + 2048) - 2048 * (c.val / 2) + 256 ≤ (i 1).val
        omega
    · unfold P16; rw [dif_pos (by simp only; omega)]
  · rw [if_neg h]
    refine (View.read_tilePieces (oM : Memref sig .tc .vmem S512x4096 .f32).view g0 S512x256.size (off16 c) (inb16 c) (P16 r x) 16 (Nat.le_refl 16) i
      ⟨8 + (chunkOf ⟨(i 1).val, (i 1).isLt⟩).val, by omega⟩ (by simp only; omega) (tileIx ⟨(i 0).val, (i 0).isLt⟩ (posOf ⟨(i 1).val, (i 1).isLt⟩)) ?_ (1 : Fin 2) ?_).trans ?_
    · intro a
      rw [off16_hi c _ (by simp only; omega)]
      match a with
      | ⟨0, _⟩ => show (i 0).val = 0 + (i 0).val; omega
      | ⟨1, _⟩ =>
        show (i 1).val = (256 * (8 + (chunkOf ⟨(i 1).val, (i 1).isLt⟩).val - 8) + 2048) - 2048 * (c.val / 2) + (posOf ⟨(i 1).val, (i 1).isLt⟩).val
        omega
    · intro i' hi'
      have hne : i'.val ≠ 8 + (chunkOf ⟨(i 1).val, (i 1).isLt⟩).val := fun e => hi' (Fin.ext e)
      have hi16 : i'.val < 16 := i'.isLt
      by_cases h8 : i'.val < 8
      · rw [off16_lo c i' h8]
        show (i 1).val < 2048 * (c.val / 2) + 256 * i'.val ∨ 2048 * (c.val / 2) + 256 * i'.val + 256 ≤ (i 1).val
        omega
      · rw [off16_hi c i' h8]
        show (i 1).val < (256 * (i'.val - 8) + 2048) - 2048 * (c.val / 2) ∨ (256 * (i'.val - 8) + 2048) - 2048 * (c.val / 2) + 256 ≤ (i 1).val
        omega
    · unfold P16; rw [dif_neg (by simp only; omega)]
      exact congrFun (congrArg x (Fin.ext (by simp only; omega))) _

variable (m : (ℓ : Loc nD τ sig) → Buf (Elt F) ℓ)

/-- With the row sums in the own half and the received tiles in the other, the buffer is the device's result block. -/
theorem out_tiles (c : Dev nD) (g0 : (cc0_stg2_0 : Ref sig .tc).ty.Contents (Elt F)) :
    W5 c (fromX m c) 7 (W5 c (fromX m c) 6 (W5 c (fromX m c) 5 (W5 c (fromX m c) 4 (W5 c (fromX m c) 3 (W5 c (fromX m c) 2 (W5 c (fromX m c) 1 (W5 c (fromX m c) 0
      (W4 c (rowSum m c) 7 (W4 c (rowSum m c) 6 (W4 c (rowSum m c) 5 (W4 c (rowSum m c) 4 (W4 c (rowSum m c) 3 (W4 c (rowSum m c) 2 (W4 c (rowSum m c) 1
        (W4 c (rowSum m c) 0 g0)))))))))))))))
      = outAt m c :=
  funext fun i => (stores_apply c (rowSum m c) (fromX m c) g0 i).trans (outAt_apply m c i).symm

/-! ## The tiles as rectangles of the result block -/

/-- The rectangle tile `k` of the own column half is stored through, and of the other half. -/
abbrev R4 (c : Dev nD) (k : Fin 8) : Rect S512x4096 :=
  Rect.unit (s := S512x4096) (k0_off4 c (BitVec.ofNat 32 (256 * k.val))) S512x256.size (k0_off4_inb c k)
abbrev R5 (c : Dev nD) (k : Fin 8) : Rect S512x4096 :=
  Rect.unit (s := S512x4096) (k0_off5 c (BitVec.ofNat 32 (256 * k.val))) S512x256.size (k0_off5_inb c k)

theorem R4_emb0 (c : Dev nD) (k : Fin 8) (x : (R4 c k).shape.Idx) : ((R4 c k).emb x 0).val = (x 0).val := by
  show (k0_off4 c (BitVec.ofNat 32 (256 * k.val))) 0 + 1 * (x 0).val = (x 0).val
  rw [k0_off4_eq c k]; show 0 + 1 * (x 0).val = (x 0).val; omega
theorem R4_emb1 (c : Dev nD) (k : Fin 8) (x : (R4 c k).shape.Idx) : ((R4 c k).emb x 1).val = 2048 * (c.val / 2) + 256 * k.val + (x 1).val := by
  show (k0_off4 c (BitVec.ofNat 32 (256 * k.val))) 1 + 1 * (x 1).val = _
  rw [k0_off4_eq c k]; show 2048 * (c.val / 2) + 256 * k.val + 1 * (x 1).val = _; omega
theorem R5_emb0 (c : Dev nD) (k : Fin 8) (x : (R5 c k).shape.Idx) : ((R5 c k).emb x 0).val = (x 0).val := by
  show (k0_off5 c (BitVec.ofNat 32 (256 * k.val))) 0 + 1 * (x 0).val = (x 0).val
  rw [k0_off5_eq c k]; show 0 + 1 * (x 0).val = (x 0).val; omega
theorem R5_emb1 (c : Dev nD) (k : Fin 8) (x : (R5 c k).shape.Idx) : ((R5 c k).emb x 1).val = (256 * k.val + 2048) - 2048 * (c.val / 2) + (x 1).val := by
  show (k0_off5 c (BitVec.ofNat 32 (256 * k.val))) 1 + 1 * (x 1).val = _
  rw [k0_off5_eq c k]; show (256 * k.val + 2048) - 2048 * (c.val / 2) + 1 * (x 1).val = _; omega

/-- A row sum's entry is the result block's entry at the tile's place; -/
theorem rowSum_tile (c : Dev nD) (k : Fin 8) (x : (R4 c k).shape.Idx) : rowSum m c k x = outAt m c ((R4 c k).emb x) := by
  have hc : c.val < 4 := c.isLt
  have hk : k.val < 8 := k.isLt
  have h0 := R4_emb0 c k x
  have h1 := R4_emb1 c k x
  have hx0 : (x 0).val < 512 := (x 0).isLt
  have hx1 : (x 1).val < 256 := (x 1).isLt
  rw [outAt_own m c _ (by rw [h1]; omega)]
  have ek : chunkOf ⟨((R4 c k).emb x 1).val, ((R4 c k).emb x 1).isLt⟩ = k := Fin.ext (by show (((R4 c k).emb x 1).val % 2048) / 256 = k.val; rw [h1]; omega)
  have ex : tileIx ⟨((R4 c k).emb x 0).val, ((R4 c k).emb x 0).isLt⟩ (posOf ⟨((R4 c k).emb x 1).val, ((R4 c k).emb x 1).isLt⟩) = x := by
    funext a
    match a with
    | ⟨0, _⟩ => exact Fin.ext h0
    | ⟨1, _⟩ => exact Fin.ext (by show ((R4 c k).emb x 1).val % 256 = (x 1).val; rw [h1]; omega)
  rw [ek, ex]

/-- a received tile's likewise. -/
theorem fromX_tile (c : Dev nD) (k : Fin 8) (x : (R5 c k).shape.Idx) : fromX m c k x = outAt m c ((R5 c k).emb x) := by
  have hc : c.val < 4 := c.isLt
  have hk : k.val < 8 := k.isLt
  have h0 := R5_emb0 c k x
  have h1 := R5_emb1 c k x
  have hx0 : (x 0).val < 512 := (x 0).isLt
  have hx1 : (x 1).val < 256 := (x 1).isLt
  rw [outAt_other m c _ (by rw [h1]; omega)]
  have ek : chunkOf ⟨((R5 c k).emb x 1).val, ((R5 c k).emb x 1).isLt⟩ = k := Fin.ext (by show (((R5 c k).emb x 1).val % 2048) / 256 = k.val; rw [h1]; omega)
  have ex : tileIx ⟨((R5 c k).emb x 0).val, ((R5 c k).emb x 0).isLt⟩ (posOf ⟨((R5 c k).emb x 1).val, ((R5 c k).emb x 1).isLt⟩) = x := by
    funext a
    match a with
    | ⟨0, _⟩ => exact Fin.ext h0
    | ⟨1, _⟩ => exact Fin.ext (by show ((R5 c k).emb x 1).val % 256 = (x 1).val; rw [h1]; omega)
  rw [ek, ex]

omit m in
/-- Every entry of the result block lies under a tile. -/
theorem tiles_cover (c : Dev nD) (y : S512x4096.Idx) : (∃ k, y ∈ (R4 c k).set) ∨ (∃ k, y ∈ (R5 c k).set) := by
  have hc : c.val < 4 := c.isLt
  have hy0 : (y 0).val < 512 := (y 0).isLt
  have hy1 : (y 1).val < 4096 := (y 1).isLt
  have hcol := col_eq ⟨(y 1).val, (y 1).isLt⟩
  have hk : (chunkOf ⟨(y 1).val, (y 1).isLt⟩).val < 8 := (chunkOf _).isLt
  have hp : (posOf ⟨(y 1).val, (y 1).isLt⟩).val < 256 := (posOf _).isLt
  simp only at hcol
  by_cases h : (y 1).val / 2048 = c.val / 2
  · refine Or.inl ⟨chunkOf ⟨(y 1).val, (y 1).isLt⟩, ?_⟩
    rw [Rect.mem_set_unit, k0_off4_eq c]
    intro a
    match a with
    | ⟨0, _⟩ => exact ⟨Nat.zero_le _, by show (y 0).val < 0 + 512; omega⟩
    | ⟨1, _⟩ =>
      exact ⟨by show 2048 * (c.val / 2) + 256 * (chunkOf ⟨(y 1).val, (y 1).isLt⟩).val ≤ (y 1).val; omega,
        by show (y 1).val < 2048 * (c.val / 2) + 256 * (chunkOf ⟨(y 1).val, (y 1).isLt⟩).val + 256; omega⟩
  · refine Or.inr ⟨chunkOf ⟨(y 1).val, (y 1).isLt⟩, ?_⟩
    rw [Rect.mem_set_unit, k0_off5_eq c]
    intro a
    match a with
    | ⟨0, _⟩ => exact ⟨Nat.zero_le _, by show (y 0).val < 0 + 512; omega⟩
    | ⟨1, _⟩ =>
      exact ⟨by show (256 * (chunkOf ⟨(y 1).val, (y 1).isLt⟩).val + 2048) - 2048 * (c.val / 2) ≤ (y 1).val; omega,
        by show (y 1).val < (256 * (chunkOf ⟨(y 1).val, (y 1).isLt⟩).val + 2048) - 2048 * (c.val / 2) + 256; omega⟩

end Cert.KernelIdeal.Vals

end
-- ==== Proof.KernelIdeal.Body.lean ====
/-
  One device's run, from its first signal to its last store.

  The two barrier signals hand this device's receive slots to its neighbours; the barrier wait brings theirs. Chunk by chunk
  the product for the y-neighbour's rows is stored and sent (first loop); the own product is added to what the y-neighbour
  sent, stored into the result and sent to the x-neighbour (second loop); what the x-neighbour sent is stored into the
  other column half of the result (third loop). Every wait is for the whole of a cell's one round. A transfer's arrival
  payload states what the neighbour's slot then holds, because the sent slot reads back as the tile just stored
  (`slot_read_write`); a received tile enters a sum or the result only through its recast (`sumY_congr`, `recvX_congr`).
  At the end the result buffer is sixteen tile stores over what it held: entry by entry that is `outAt` (`out_tiles`).
-/
import proofs.«900475_g7700000000000476_dist_rsdw_v7x_xy2x2_y_m1024_d1024_f4096_bf16_1_alg».proof.Proof.KernelIdeal.BodyStmt
import proofs.«900475_g7700000000000476_dist_rsdw_v7x_xy2x2_y_m1024_d1024_f4096_bf16_1_alg».proof.Proof.KernelIdeal.OutTiles

noncomputable section

set_option maxRecDepth 16384
namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_canon] dev1_eq dev2_eq dev3_eq dev4_eq dev5_eq dev6_eq dev7_eq dev8_eq dev9_eq dev10_eq dev11_eq dev12_eq dev13_eq dev14_eq dev15_eq dev16_eq dev17_eq dev18_eq sem_0_0 sem_0_1 sem_0_2 sem_0_3 sem_0_4 sem_0_5 sem_0_6 sem_0_7 sem_1_0 sem_1_1 sem_1_2 sem_1_3 sem_1_4 sem_1_5 sem_1_6 sem_1_7 sem_2_0 sem_2_1 sem_2_2 sem_2_3 sem_2_4 sem_2_5 sem_2_6 sem_2_7 sem_3_0 sem_3_1 sem_3_2 sem_3_3 sem_3_4 sem_3_5 sem_3_6 sem_3_7

set_option maxHeartbeats 8000000 in
theorem body_core : CoreBody (F := F) m := by
  intro K c W g0 f0 f1 f2 f3 Kt
  unfold CorePre theBody
  iintro ⟨⟨#HIbar, #HIbx, #HIby, #HI0_0, #HI0_1, #HI0_2, #HI0_3, #HI0_4, #HI0_5, #HI0_6, #HI0_7, #HI1_0, #HI1_1, #HI1_2, #HI1_3, #HI1_4, #HI1_5, #HI1_6, #HI1_7, #HI2_0, #HI2_1, #HI2_2, #HI2_3, #HI2_4, #HI2_5, #HI2_6, #HI2_7, #HI3_0, #HI3_1, #HI3_2, #HI3_3, #HI3_4, #HI3_5, #HI3_6, #HI3_7, #HIyp0, #HIyp1, #HIyp2, #HIyp3, #HIyp4, #HIyp5, #HIyp6, #HIyp7, #HIxp0, #HIxp1, #HIxp2, #HIxp3, #HIxp4, #HIxp5, #HIxp6, #HIxp7, #HrBx, #HrBy, #Hr0_0, #Hr0_1, #Hr0_2, #Hr0_3, #Hr0_4, #Hr0_5, #Hr0_6, #Hr0_7, #Hr2_0, #Hr2_1, #Hr2_2, #Hr2_3, #Hr2_4, #Hr2_5, #Hr2_6, #Hr2_7, #Hryp0, #Hryp1, #Hryp2, #Hryp3, #Hryp4, #Hryp5, #Hryp6, #Hryp7, #Hrxp0, #Hrxp1, #Hrxp2, #Hrxp3, #Hrxp4, #Hrxp5, #Hrxp6, #Hrxp7, #Hlev, HatB, Hat0_0, Hat0_1, Hat0_2, Hat0_3, Hat0_4, Hat0_5, Hat0_6, Hat0_7, Hat1_0, Hat1_1, Hat1_2, Hat1_3, Hat1_4, Hat1_5, Hat1_6, Hat1_7, Hat2_0, Hat2_1, Hat2_2, Hat2_3, Hat2_4, Hat2_5, Hat2_6, Hat2_7, Hat3_0, Hat3_1, Hat3_2, Hat3_3, Hat3_4, Hat3_5, Hat3_6, Hat3_7, HtBx, HtBy, Ht0_0, Ht0_1, Ht0_2, Ht0_3, Ht0_4, Ht0_5, Ht0_6, Ht0_7, Ht1_0, Ht1_1, Ht1_2, Ht1_3, Ht1_4, Ht1_5, Ht1_6, Ht1_7, Ht2_0, Ht2_1, Ht2_2, Ht2_3, Ht2_4, Ht2_5, Ht2_6, Ht2_7, Ht3_0, Ht3_1, Ht3_2, Ht3_3, Ht3_4, Ht3_5, Ht3_6, Ht3_7, HcB, Hc1_0, Hc1_1, Hc1_2, Hc1_3, Hc1_4, Hc1_5, Hc1_6, Hc1_7, Hc3_0, Hc3_1, Hc3_2, Hc3_3, Hc3_4, Hc3_5, Hc3_6, Hc3_7, HO, Hx, Hd, Hout, Hs0_0, Hs0_1, Hs0_2, Hs0_3, Hs0_4, Hs0_5, Hs0_6, Hs0_7, Hs1_0, Hs1_1, Hs1_2, Hs1_3, Hs1_4, Hs1_5, Hs1_6, Hs1_7, Hs2_0, Hs2_1, Hs2_2, Hs2_3, Hs2_4, Hs2_5, Hs2_6, Hs2_7, Hs3_0, Hs3_1, Hs3_2, Hs3_3, Hs3_4, Hs3_5, Hs3_6, Hs3_7⟩, Hk⟩
  sl_unfold [cc0_body]
  sl_exec_parts
  -- the first signal: to the x-neighbour's barrier cell, its duty `false`, handing over this device's eight x receive slots
  iapply (Rounds.wp_signal 𝒱₀ ER (sched m) (c : Thread nD τ) none (dst := (pX c : Thread nD τ)) (κ := K (pX c, none))
      (d := false) (by rw [duties_bar]; exact Finset.mem_univ _) ((amount_bar m (pX c) false).trans (by decide)) () (O₁ c) rfl)
    $$ [HO HtBx Hs3_0 Hs3_1 Hs3_2 Hs3_3 Hs3_4 Hs3_5 Hs3_6 Hs3_7]
  · isplitr; · iexact HIbx
    isplitl [HO]; · iexact HO
    isplitl [HtBx]; · iexact HtBx
    isplitr [HrBx]
    · rw [tb_pay_bar_false_px]
      isplitl [Hs3_0]; · (iexists _; iexact Hs3_0)
      isplitl [Hs3_1]; · (iexists _; iexact Hs3_1)
      isplitl [Hs3_2]; · (iexists _; iexact Hs3_2)
      isplitl [Hs3_3]; · (iexists _; iexact Hs3_3)
      isplitl [Hs3_4]; · (iexists _; iexact Hs3_4)
      isplitl [Hs3_5]; · (iexists _; iexact Hs3_5)
      isplitl [Hs3_6]; · (iexists _; iexact Hs3_6)
      iexists _; iexact Hs3_7
    · iexact HrBx
  iintro HO
  sl_exec_parts
  -- the second: to the y-neighbour's barrier cell, its duty `true`, with this device's eight y receive slots
  iapply (Rounds.wp_signal 𝒱₀ ER (sched m) (c : Thread nD τ) none (dst := (pY c : Thread nD τ)) (κ := K (pY c, none))
      (d := true) (by rw [duties_bar]; exact Finset.mem_univ _) ((amount_bar m (pY c) true).trans (by decide)) () (Oxy c 0 0) rfl)
    $$ [HO HtBy Hs1_0 Hs1_1 Hs1_2 Hs1_3 Hs1_4 Hs1_5 Hs1_6 Hs1_7]
  · isplitr; · iexact HIby
    isplitl [HO]; · iexact HO
    isplitl [HtBy]; · iexact HtBy
    isplitr [HrBy]
    · rw [tb_pay_bar_true_py]
      isplitl [Hs1_0]; · (iexists _; iexact Hs1_0)
      isplitl [Hs1_1]; · (iexists _; iexact Hs1_1)
      isplitl [Hs1_2]; · (iexists _; iexact Hs1_2)
      isplitl [Hs1_3]; · (iexists _; iexact Hs1_3)
      isplitl [Hs1_4]; · (iexists _; iexact Hs1_4)
      isplitl [Hs1_5]; · (iexists _; iexact Hs1_5)
      isplitl [Hs1_6]; · (iexists _; iexact Hs1_6)
      iexists _; iexact Hs1_7
    · iexact HrBy
  iintro HO
  sl_exec_parts
  -- the wait for both units on its own barrier cell, still owing all sixteen arrivals (receive cells, above the barrier):
  -- both neighbours' receive slots come with it
  iapply (Rounds.wp_wait_rest_token 𝒱₀ ER (sched m) (c : Thread nD τ) none (κ := K (c, none))
      (wpE_semWait_eq 𝒱₀ (c : Thread nD τ) none Set.univ) (Set.mem_univ _) () (O := Oxy c 0 0) (W := W) (R := 0) (m := 0) (T := ∅)
      (by rw [expect_bar]; decide)) $$ [HcB HO HatB]
  · isplitr; · iexact HIbar
    isplitl [HcB]; · iexact HcB
    isplitl [HO]; · iexact HO
    isplitr
    · iapply (mayWait_cut c (.reg barS) 1 (Oxy c 0 0) (le_of_eq (lv_bar c ())) (Oxy_above 1 (Or.inl (by decide)))); iexact Hlev
    iexact HatB
  iintro ⟨HO, HatB, -, Hpay⟩
  ihave Hp := (Entails.of_eq (rest_bar16 m c)) $$ Hpay
  icases Hp with ⟨⟨⟨%fx0, Hxp0⟩, ⟨%fx1, Hxp1⟩, ⟨%fx2, Hxp2⟩, ⟨%fx3, Hxp3⟩, ⟨%fx4, Hxp4⟩, ⟨%fx5, Hxp5⟩, ⟨%fx6, Hxp6⟩, ⟨%fx7, Hxp7⟩⟩, ⟨%fy0, Hyp0⟩, ⟨%fy1, Hyp1⟩, ⟨%fy2, Hyp2⟩, ⟨%fy3, Hyp3⟩, ⟨%fy4, Hyp4⟩, ⟨%fy5, Hyp5⟩, ⟨%fy6, Hyp6⟩, ⟨%fy7, Hyp7⟩⟩
  sl_exec_parts
  -- chunk 0 goes to the y-neighbour
  have hfs0 : (slotOf ysM 0).view.read (Elt F) (body_core.sl.Hs0_0_w1 m c f0) = shapeCast S512x256 (partY m c 0) shapeCasts_S1x512x256_S512x256 := by
    unfold body_core.sl.Hs0_0_w1
    exact (slot_read_write ysM 0 rfl _ f0 _).trans (congrArg (fun v => shapeCast S512x256 v shapeCasts_S1x512x256_S512x256) rfl)
  iapply (send_y m (K (c, some (0, 0))) (K (pY c, some (1, 0))) c _ (dev3_eq c) 0 _ fy0 hfs0 0 0 rfl _) $$ [HO Hs0_0 Hyp0 Ht0_0 Ht1_0]
  · isplitr; · iexact HI0_0
    isplitr; · iexact HIyp0
    isplitl [Hs0_0]; · iexact Hs0_0
    isplitl [Hyp0]; · iexact Hyp0
    isplitl [HO]; · iexact HO
    isplitl [Ht0_0]; · iexact Ht0_0
    isplitr; · iexact Hr0_0
    isplitl [Ht1_0]; · iexact Ht1_0
    iexact Hryp0
  iintro ⟨Hc0_0, HO⟩
  sl_exec_parts
  -- chunk 1 goes to the y-neighbour
  have hfs1 : (slotOf ysM 1).view.read (Elt F) (body_core.sl.Hs0_1_w1 m c f0) = shapeCast S512x256 (partY m c 1) shapeCasts_S1x512x256_S512x256 := by
    unfold body_core.sl.Hs0_1_w1
    exact (slot_read_write ysM 1 rfl _ f0 _).trans (congrArg (fun v => shapeCast S512x256 v shapeCasts_S1x512x256_S512x256) rfl)
  iapply (send_y m (K (c, some (0, 1))) (K (pY c, some (1, 1))) c _ (dev4_eq c) 1 _ fy1 hfs1 0 1 rfl _) $$ [HO Hs0_1 Hyp1 Ht0_1 Ht1_1]
  · isplitr; · iexact HI0_1
    isplitr; · iexact HIyp1
    isplitl [Hs0_1]; · iexact Hs0_1
    isplitl [Hyp1]; · iexact Hyp1
    isplitl [HO]; · iexact HO
    isplitl [Ht0_1]; · iexact Ht0_1
    isplitr; · iexact Hr0_1
    isplitl [Ht1_1]; · iexact Ht1_1
    iexact Hryp1
  iintro ⟨Hc0_1, HO⟩
  sl_exec_parts
  -- chunk 2 goes to the y-neighbour
  have hfs2 : (slotOf ysM 2).view.read (Elt F) (body_core.sl.Hs0_2_w1 m c f0) = shapeCast S512x256 (partY m c 2) shapeCasts_S1x512x256_S512x256 := by
    unfold body_core.sl.Hs0_2_w1
    exact (slot_read_write ysM 2 rfl _ f0 _).trans (congrArg (fun v => shapeCast S512x256 v shapeCasts_S1x512x256_S512x256) rfl)
  iapply (send_y m (K (c, some (0, 2))) (K (pY c, some (1, 2))) c _ (dev5_eq c) 2 _ fy2 hfs2 0 2 rfl _) $$ [HO Hs0_2 Hyp2 Ht0_2 Ht1_2]
  · isplitr; · iexact HI0_2
    isplitr; · iexact HIyp2
    isplitl [Hs0_2]; · iexact Hs0_2
    isplitl [Hyp2]; · iexact Hyp2
    isplitl [HO]; · iexact HO
    isplitl [Ht0_2]; · iexact Ht0_2
    isplitr; · iexact Hr0_2
    isplitl [Ht1_2]; · iexact Ht1_2
    iexact Hryp2
  iintro ⟨Hc0_2, HO⟩
  sl_exec_parts
  -- chunk 3 goes to the y-neighbour
  have hfs3 : (slotOf ysM 3).view.read (Elt F) (body_core.sl.Hs0_3_w1 m c f0) = shapeCast S512x256 (partY m c 3) shapeCasts_S1x512x256_S512x256 := by
    unfold body_core.sl.Hs0_3_w1
    exact (slot_read_write ysM 3 rfl _ f0 _).trans (congrArg (fun v => shapeCast S512x256 v shapeCasts_S1x512x256_S512x256) rfl)
  iapply (send_y m (K (c, some (0, 3))) (K (pY c, some (1, 3))) c _ (dev6_eq c) 3 _ fy3 hfs3 0 3 rfl _) $$ [HO Hs0_3 Hyp3 Ht0_3 Ht1_3]
  · isplitr; · iexact HI0_3
    isplitr; · iexact HIyp3
    isplitl [Hs0_3]; · iexact Hs0_3
    isplitl [Hyp3]; · iexact Hyp3
    isplitl [HO]; · iexact HO
    isplitl [Ht0_3]; · iexact Ht0_3
    isplitr; · iexact Hr0_3
    isplitl [Ht1_3]; · iexact Ht1_3
    iexact Hryp3
  iintro ⟨Hc0_3, HO⟩
  sl_exec_parts
  -- chunk 4 goes to the y-neighbour
  have hfs4 : (slotOf ysM 4).view.read (Elt F) (body_core.sl.Hs0_4_w1 m c f0) = shapeCast S512x256 (partY m c 4) shapeCasts_S1x512x256_S512x256 := by
    unfold body_core.sl.Hs0_4_w1
    exact (slot_read_write ysM 4 rfl _ f0 _).trans (congrArg (fun v => shapeCast S512x256 v shapeCasts_S1x512x256_S512x256) rfl)
  iapply (send_y m (K (c, some (0, 4))) (K (pY c, some (1, 4))) c _ (dev7_eq c) 4 _ fy4 hfs4 0 4 rfl _) $$ [HO Hs0_4 Hyp4 Ht0_4 Ht1_4]
  · isplitr; · iexact HI0_4
    isplitr; · iexact HIyp4
    isplitl [Hs0_4]; · iexact Hs0_4
    isplitl [Hyp4]; · iexact Hyp4
    isplitl [HO]; · iexact HO
    isplitl [Ht0_4]; · iexact Ht0_4
    isplitr; · iexact Hr0_4
    isplitl [Ht1_4]; · iexact Ht1_4
    iexact Hryp4
  iintro ⟨Hc0_4, HO⟩
  sl_exec_parts
  -- chunk 5 goes to the y-neighbour
  have hfs5 : (slotOf ysM 5).view.read (Elt F) (body_core.sl.Hs0_5_w1 m c f0) = shapeCast S512x256 (partY m c 5) shapeCasts_S1x512x256_S512x256 := by
    unfold body_core.sl.Hs0_5_w1
    exact (slot_read_write ysM 5 rfl _ f0 _).trans (congrArg (fun v => shapeCast S512x256 v shapeCasts_S1x512x256_S512x256) rfl)
  iapply (send_y m (K (c, some (0, 5))) (K (pY c, some (1, 5))) c _ (dev8_eq c) 5 _ fy5 hfs5 0 5 rfl _) $$ [HO Hs0_5 Hyp5 Ht0_5 Ht1_5]
  · isplitr; · iexact HI0_5
    isplitr; · iexact HIyp5
    isplitl [Hs0_5]; · iexact Hs0_5
    isplitl [Hyp5]; · iexact Hyp5
    isplitl [HO]; · iexact HO
    isplitl [Ht0_5]; · iexact Ht0_5
    isplitr; · iexact Hr0_5
    isplitl [Ht1_5]; · iexact Ht1_5
    iexact Hryp5
  iintro ⟨Hc0_5, HO⟩
  sl_exec_parts
  -- chunk 6 goes to the y-neighbour
  have hfs6 : (slotOf ysM 6).view.read (Elt F) (body_core.sl.Hs0_6_w1 m c f0) = shapeCast S512x256 (partY m c 6) shapeCasts_S1x512x256_S512x256 := by
    unfold body_core.sl.Hs0_6_w1
    exact (slot_read_write ysM 6 rfl _ f0 _).trans (congrArg (fun v => shapeCast S512x256 v shapeCasts_S1x512x256_S512x256) rfl)
  iapply (send_y m (K (c, some (0, 6))) (K (pY c, some (1, 6))) c _ (dev9_eq c) 6 _ fy6 hfs6 0 6 rfl _) $$ [HO Hs0_6 Hyp6 Ht0_6 Ht1_6]
  · isplitr; · iexact HI0_6
    isplitr; · iexact HIyp6
    isplitl [Hs0_6]; · iexact Hs0_6
    isplitl [Hyp6]; · iexact Hyp6
    isplitl [HO]; · iexact HO
    isplitl [Ht0_6]; · iexact Ht0_6
    isplitr; · iexact Hr0_6
    isplitl [Ht1_6]; · iexact Ht1_6
    iexact Hryp6
  iintro ⟨Hc0_6, HO⟩
  sl_exec_parts
  -- chunk 7 goes to the y-neighbour
  have hfs7 : (slotOf ysM 7).view.read (Elt F) (body_core.sl.Hs0_7_w1 m c f0) = shapeCast S512x256 (partY m c 7) shapeCasts_S1x512x256_S512x256 := by
    unfold body_core.sl.Hs0_7_w1
    exact (slot_read_write ysM 7 rfl _ f0 _).trans (congrArg (fun v => shapeCast S512x256 v shapeCasts_S1x512x256_S512x256) rfl)
  iapply (send_y m (K (c, some (0, 7))) (K (pY c, some (1, 7))) c _ (dev10_eq c) 7 _ fy7 hfs7 0 7 rfl _) $$ [HO Hs0_7 Hyp7 Ht0_7 Ht1_7]
  · isplitr; · iexact HI0_7
    isplitr; · iexact HIyp7
    isplitl [Hs0_7]; · iexact Hs0_7
    isplitl [Hyp7]; · iexact Hyp7
    isplitl [HO]; · iexact HO
    isplitl [Ht0_7]; · iexact Ht0_7
    isplitr; · iexact Hr0_7
    isplitl [Ht1_7]; · iexact Ht1_7
    iexact Hryp7
  iintro ⟨Hc0_7, HO⟩
  sl_exec_parts
  -- chunk 0: the send slot back, the y-neighbour's slot in; their sum stored and sent to the x-neighbour
  iapply (wait_q m (K (c, some (0, 0))) c 0 0 (Oxy c 0 8) _ (fun g u h => by rw [lv_q0]; exact Oxy_above 0 (Or.inl (by decide)) g u h)) $$ [Hc0_0 HO Hat0_0]
  · isplitr; · iexact HI0_0
    isplitl [Hc0_0]; · iexact Hc0_0
    isplitl [HO]; · iexact HO
    isplitr; · iexact Hlev
    iexact Hat0_0
  iintro ⟨HO, Hat0_0, Hp⟩
  unfold payQ slotAny
  icases Hp with ⟨%fs0_0, Hs0_0⟩
  sl_exec_parts
  iapply (wait_q m (K (c, some (1, 0))) c 1 0 (Oxy c 0 8) _ (fun g u h => by rw [lv_q1]; exact Oxy_above 2 (Or.inr ⟨by decide, le_refl 8⟩) g u h)) $$ [Hc1_0 HO Hat1_0]
  · isplitr; · iexact HI1_0
    isplitl [Hc1_0]; · iexact Hc1_0
    isplitl [HO]; · iexact HO
    isplitr; · iexact Hlev
    iexact Hat1_0
  iintro ⟨HO, Hat1_0, Hp⟩
  unfold payQ slotIs
  icases Hp with ⟨%gy0, Hs1_0, %hgy0⟩
  sl_exec_parts
  have hxs0 : (slotOf xsM 0).view.read (Elt F) (body_core.sl.Hs2_0_w1 m c f2 gy0) = shapeCast S512x256 (partX m c 0) shapeCasts_S1x512x256_S512x256 := by
    unfold body_core.sl.Hs2_0_w1
    exact (slot_read_write xsM 0 rfl _ f2 _).trans (congrArg (fun v => shapeCast S512x256 v shapeCasts_S1x512x256_S512x256)
      (congrArg sendX (sumY_congr (loadK m c) (loadD m c 0) (yrM.view.readAt (Elt F) (slotR 0).toLoadRect gy0) (partY m (pY c) 0)
        ((slot_read yrM 0 gy0).symm.trans hgy0))))
  iapply (send_x m (K (c, some (2, 0))) (K (pX c, some (3, 0))) c _ (dev11_eq c) 0 _ fx0 hxs0 0 8 rfl _) $$ [HO Hs2_0 Hxp0 Ht2_0 Ht3_0]
  · isplitr; · iexact HI2_0
    isplitr; · iexact HIxp0
    isplitl [Hs2_0]; · iexact Hs2_0
    isplitl [Hxp0]; · iexact Hxp0
    isplitl [HO]; · iexact HO
    isplitl [Ht2_0]; · iexact Ht2_0
    isplitr; · iexact Hr2_0
    isplitl [Ht3_0]; · iexact Ht3_0
    iexact Hrxp0
  iintro ⟨Hc2_0, HO⟩
  sl_exec_parts
  -- chunk 1: the send slot back, the y-neighbour's slot in; their sum stored and sent to the x-neighbour
  iapply (wait_q m (K (c, some (0, 1))) c 0 1 (Oxy c 1 8) _ (fun g u h => by rw [lv_q0]; exact Oxy_above 0 (Or.inl (by decide)) g u h)) $$ [Hc0_1 HO Hat0_1]
  · isplitr; · iexact HI0_1
    isplitl [Hc0_1]; · iexact Hc0_1
    isplitl [HO]; · iexact HO
    isplitr; · iexact Hlev
    iexact Hat0_1
  iintro ⟨HO, Hat0_1, Hp⟩
  unfold payQ slotAny
  icases Hp with ⟨%fs0_1, Hs0_1⟩
  sl_exec_parts
  iapply (wait_q m (K (c, some (1, 1))) c 1 1 (Oxy c 1 8) _ (fun g u h => by rw [lv_q1]; exact Oxy_above 2 (Or.inr ⟨by decide, le_refl 8⟩) g u h)) $$ [Hc1_1 HO Hat1_1]
  · isplitr; · iexact HI1_1
    isplitl [Hc1_1]; · iexact Hc1_1
    isplitl [HO]; · iexact HO
    isplitr; · iexact Hlev
    iexact Hat1_1
  iintro ⟨HO, Hat1_1, Hp⟩
  unfold payQ slotIs
  icases Hp with ⟨%gy1, Hs1_1, %hgy1⟩
  sl_exec_parts
  have hxs1 : (slotOf xsM 1).view.read (Elt F) (body_core.sl.Hs2_1_w1 m c f2 gy1) = shapeCast S512x256 (partX m c 1) shapeCasts_S1x512x256_S512x256 := by
    unfold body_core.sl.Hs2_1_w1
    exact (slot_read_write xsM 1 rfl _ f2 _).trans (congrArg (fun v => shapeCast S512x256 v shapeCasts_S1x512x256_S512x256)
      (congrArg sendX (sumY_congr (loadK m c) (loadD m c 1) (yrM.view.readAt (Elt F) (slotR 1).toLoadRect gy1) (partY m (pY c) 1)
        ((slot_read yrM 1 gy1).symm.trans hgy1))))
  iapply (send_x m (K (c, some (2, 1))) (K (pX c, some (3, 1))) c _ (dev12_eq c) 1 _ fx1 hxs1 1 8 rfl _) $$ [HO Hs2_1 Hxp1 Ht2_1 Ht3_1]
  · isplitr; · iexact HI2_1
    isplitr; · iexact HIxp1
    isplitl [Hs2_1]; · iexact Hs2_1
    isplitl [Hxp1]; · iexact Hxp1
    isplitl [HO]; · iexact HO
    isplitl [Ht2_1]; · iexact Ht2_1
    isplitr; · iexact Hr2_1
    isplitl [Ht3_1]; · iexact Ht3_1
    iexact Hrxp1
  iintro ⟨Hc2_1, HO⟩
  sl_exec_parts
  -- chunk 2: the send slot back, the y-neighbour's slot in; their sum stored and sent to the x-neighbour
  iapply (wait_q m (K (c, some (0, 2))) c 0 2 (Oxy c 2 8) _ (fun g u h => by rw [lv_q0]; exact Oxy_above 0 (Or.inl (by decide)) g u h)) $$ [Hc0_2 HO Hat0_2]
  · isplitr; · iexact HI0_2
    isplitl [Hc0_2]; · iexact Hc0_2
    isplitl [HO]; · iexact HO
    isplitr; · iexact Hlev
    iexact Hat0_2
  iintro ⟨HO, Hat0_2, Hp⟩
  unfold payQ slotAny
  icases Hp with ⟨%fs0_2, Hs0_2⟩
  sl_exec_parts
  iapply (wait_q m (K (c, some (1, 2))) c 1 2 (Oxy c 2 8) _ (fun g u h => by rw [lv_q1]; exact Oxy_above 2 (Or.inr ⟨by decide, le_refl 8⟩) g u h)) $$ [Hc1_2 HO Hat1_2]
  · isplitr; · iexact HI1_2
    isplitl [Hc1_2]; · iexact Hc1_2
    isplitl [HO]; · iexact HO
    isplitr; · iexact Hlev
    iexact Hat1_2
  iintro ⟨HO, Hat1_2, Hp⟩
  unfold payQ slotIs
  icases Hp with ⟨%gy2, Hs1_2, %hgy2⟩
  sl_exec_parts
  have hxs2 : (slotOf xsM 2).view.read (Elt F) (body_core.sl.Hs2_2_w1 m c f2 gy2) = shapeCast S512x256 (partX m c 2) shapeCasts_S1x512x256_S512x256 := by
    unfold body_core.sl.Hs2_2_w1
    exact (slot_read_write xsM 2 rfl _ f2 _).trans (congrArg (fun v => shapeCast S512x256 v shapeCasts_S1x512x256_S512x256)
      (congrArg sendX (sumY_congr (loadK m c) (loadD m c 2) (yrM.view.readAt (Elt F) (slotR 2).toLoadRect gy2) (partY m (pY c) 2)
        ((slot_read yrM 2 gy2).symm.trans hgy2))))
  iapply (send_x m (K (c, some (2, 2))) (K (pX c, some (3, 2))) c _ (dev13_eq c) 2 _ fx2 hxs2 2 8 rfl _) $$ [HO Hs2_2 Hxp2 Ht2_2 Ht3_2]
  · isplitr; · iexact HI2_2
    isplitr; · iexact HIxp2
    isplitl [Hs2_2]; · iexact Hs2_2
    isplitl [Hxp2]; · iexact Hxp2
    isplitl [HO]; · iexact HO
    isplitl [Ht2_2]; · iexact Ht2_2
    isplitr; · iexact Hr2_2
    isplitl [Ht3_2]; · iexact Ht3_2
    iexact Hrxp2
  iintro ⟨Hc2_2, HO⟩
  sl_exec_parts
  -- chunk 3: the send slot back, the y-neighbour's slot in; their sum stored and sent to the x-neighbour
  iapply (wait_q m (K (c, some (0, 3))) c 0 3 (Oxy c 3 8) _ (fun g u h => by rw [lv_q0]; exact Oxy_above 0 (Or.inl (by decide)) g u h)) $$ [Hc0_3 HO Hat0_3]
  · isplitr; · iexact HI0_3
    isplitl [Hc0_3]; · iexact Hc0_3
    isplitl [HO]; · iexact HO
    isplitr; · iexact Hlev
    iexact Hat0_3
  iintro ⟨HO, Hat0_3, Hp⟩
  unfold payQ slotAny
  icases Hp with ⟨%fs0_3, Hs0_3⟩
  sl_exec_parts
  iapply (wait_q m (K (c, some (1, 3))) c 1 3 (Oxy c 3 8) _ (fun g u h => by rw [lv_q1]; exact Oxy_above 2 (Or.inr ⟨by decide, le_refl 8⟩) g u h)) $$ [Hc1_3 HO Hat1_3]
  · isplitr; · iexact HI1_3
    isplitl [Hc1_3]; · iexact Hc1_3
    isplitl [HO]; · iexact HO
    isplitr; · iexact Hlev
    iexact Hat1_3
  iintro ⟨HO, Hat1_3, Hp⟩
  unfold payQ slotIs
  icases Hp with ⟨%gy3, Hs1_3, %hgy3⟩
  sl_exec_parts
  have hxs3 : (slotOf xsM 3).view.read (Elt F) (body_core.sl.Hs2_3_w1 m c f2 gy3) = shapeCast S512x256 (partX m c 3) shapeCasts_S1x512x256_S512x256 := by
    unfold body_core.sl.Hs2_3_w1
    exact (slot_read_write xsM 3 rfl _ f2 _).trans (congrArg (fun v => shapeCast S512x256 v shapeCasts_S1x512x256_S512x256)
      (congrArg sendX (sumY_congr (loadK m c) (loadD m c 3) (yrM.view.readAt (Elt F) (slotR 3).toLoadRect gy3) (partY m (pY c) 3)
        ((slot_read yrM 3 gy3).symm.trans hgy3))))
  iapply (send_x m (K (c, some (2, 3))) (K (pX c, some (3, 3))) c _ (dev14_eq c) 3 _ fx3 hxs3 3 8 rfl _) $$ [HO Hs2_3 Hxp3 Ht2_3 Ht3_3]
  · isplitr; · iexact HI2_3
    isplitr; · iexact HIxp3
    isplitl [Hs2_3]; · iexact Hs2_3
    isplitl [Hxp3]; · iexact Hxp3
    isplitl [HO]; · iexact HO
    isplitl [Ht2_3]; · iexact Ht2_3
    isplitr; · iexact Hr2_3
    isplitl [Ht3_3]; · iexact Ht3_3
    iexact Hrxp3
  iintro ⟨Hc2_3, HO⟩
  sl_exec_parts
  -- chunk 4: the send slot back, the y-neighbour's slot in; their sum stored and sent to the x-neighbour
  iapply (wait_q m (K (c, some (0, 4))) c 0 4 (Oxy c 4 8) _ (fun g u h => by rw [lv_q0]; exact Oxy_above 0 (Or.inl (by decide)) g u h)) $$ [Hc0_4 HO Hat0_4]
  · isplitr; · iexact HI0_4
    isplitl [Hc0_4]; · iexact Hc0_4
    isplitl [HO]; · iexact HO
    isplitr; · iexact Hlev
    iexact Hat0_4
  iintro ⟨HO, Hat0_4, Hp⟩
  unfold payQ slotAny
  icases Hp with ⟨%fs0_4, Hs0_4⟩
  sl_exec_parts
  iapply (wait_q m (K (c, some (1, 4))) c 1 4 (Oxy c 4 8) _ (fun g u h => by rw [lv_q1]; exact Oxy_above 2 (Or.inr ⟨by decide, le_refl 8⟩) g u h)) $$ [Hc1_4 HO Hat1_4]
  · isplitr; · iexact HI1_4
    isplitl [Hc1_4]; · iexact Hc1_4
    isplitl [HO]; · iexact HO
    isplitr; · iexact Hlev
    iexact Hat1_4
  iintro ⟨HO, Hat1_4, Hp⟩
  unfold payQ slotIs
  icases Hp with ⟨%gy4, Hs1_4, %hgy4⟩
  sl_exec_parts
  have hxs4 : (slotOf xsM 4).view.read (Elt F) (body_core.sl.Hs2_4_w1 m c f2 gy4) = shapeCast S512x256 (partX m c 4) shapeCasts_S1x512x256_S512x256 := by
    unfold body_core.sl.Hs2_4_w1
    exact (slot_read_write xsM 4 rfl _ f2 _).trans (congrArg (fun v => shapeCast S512x256 v shapeCasts_S1x512x256_S512x256)
      (congrArg sendX (sumY_congr (loadK m c) (loadD m c 4) (yrM.view.readAt (Elt F) (slotR 4).toLoadRect gy4) (partY m (pY c) 4)
        ((slot_read yrM 4 gy4).symm.trans hgy4))))
  iapply (send_x m (K (c, some (2, 4))) (K (pX c, some (3, 4))) c _ (dev15_eq c) 4 _ fx4 hxs4 4 8 rfl _) $$ [HO Hs2_4 Hxp4 Ht2_4 Ht3_4]
  · isplitr; · iexact HI2_4
    isplitr; · iexact HIxp4
    isplitl [Hs2_4]; · iexact Hs2_4
    isplitl [Hxp4]; · iexact Hxp4
    isplitl [HO]; · iexact HO
    isplitl [Ht2_4]; · iexact Ht2_4
    isplitr; · iexact Hr2_4
    isplitl [Ht3_4]; · iexact Ht3_4
    iexact Hrxp4
  iintro ⟨Hc2_4, HO⟩
  sl_exec_parts
  -- chunk 5: the send slot back, the y-neighbour's slot in; their sum stored and sent to the x-neighbour
  iapply (wait_q m (K (c, some (0, 5))) c 0 5 (Oxy c 5 8) _ (fun g u h => by rw [lv_q0]; exact Oxy_above 0 (Or.inl (by decide)) g u h)) $$ [Hc0_5 HO Hat0_5]
  · isplitr; · iexact HI0_5
    isplitl [Hc0_5]; · iexact Hc0_5
    isplitl [HO]; · iexact HO
    isplitr; · iexact Hlev
    iexact Hat0_5
  iintro ⟨HO, Hat0_5, Hp⟩
  unfold payQ slotAny
  icases Hp with ⟨%fs0_5, Hs0_5⟩
  sl_exec_parts
  iapply (wait_q m (K (c, some (1, 5))) c 1 5 (Oxy c 5 8) _ (fun g u h => by rw [lv_q1]; exact Oxy_above 2 (Or.inr ⟨by decide, le_refl 8⟩) g u h)) $$ [Hc1_5 HO Hat1_5]
  · isplitr; · iexact HI1_5
    isplitl [Hc1_5]; · iexact Hc1_5
    isplitl [HO]; · iexact HO
    isplitr; · iexact Hlev
    iexact Hat1_5
  iintro ⟨HO, Hat1_5, Hp⟩
  unfold payQ slotIs
  icases Hp with ⟨%gy5, Hs1_5, %hgy5⟩
  sl_exec_parts
  have hxs5 : (slotOf xsM 5).view.read (Elt F) (body_core.sl.Hs2_5_w1 m c f2 gy5) = shapeCast S512x256 (partX m c 5) shapeCasts_S1x512x256_S512x256 := by
    unfold body_core.sl.Hs2_5_w1
    exact (slot_read_write xsM 5 rfl _ f2 _).trans (congrArg (fun v => shapeCast S512x256 v shapeCasts_S1x512x256_S512x256)
      (congrArg sendX (sumY_congr (loadK m c) (loadD m c 5) (yrM.view.readAt (Elt F) (slotR 5).toLoadRect gy5) (partY m (pY c) 5)
        ((slot_read yrM 5 gy5).symm.trans hgy5))))
  iapply (send_x m (K (c, some (2, 5))) (K (pX c, some (3, 5))) c _ (dev16_eq c) 5 _ fx5 hxs5 5 8 rfl _) $$ [HO Hs2_5 Hxp5 Ht2_5 Ht3_5]
  · isplitr; · iexact HI2_5
    isplitr; · iexact HIxp5
    isplitl [Hs2_5]; · iexact Hs2_5
    isplitl [Hxp5]; · iexact Hxp5
    isplitl [HO]; · iexact HO
    isplitl [Ht2_5]; · iexact Ht2_5
    isplitr; · iexact Hr2_5
    isplitl [Ht3_5]; · iexact Ht3_5
    iexact Hrxp5
  iintro ⟨Hc2_5, HO⟩
  sl_exec_parts
  -- chunk 6: the send slot back, the y-neighbour's slot in; their sum stored and sent to the x-neighbour
  iapply (wait_q m (K (c, some (0, 6))) c 0 6 (Oxy c 6 8) _ (fun g u h => by rw [lv_q0]; exact Oxy_above 0 (Or.inl (by decide)) g u h)) $$ [Hc0_6 HO Hat0_6]
  · isplitr; · iexact HI0_6
    isplitl [Hc0_6]; · iexact Hc0_6
    isplitl [HO]; · iexact HO
    isplitr; · iexact Hlev
    iexact Hat0_6
  iintro ⟨HO, Hat0_6, Hp⟩
  unfold payQ slotAny
  icases Hp with ⟨%fs0_6, Hs0_6⟩
  sl_exec_parts
  iapply (wait_q m (K (c, some (1, 6))) c 1 6 (Oxy c 6 8) _ (fun g u h => by rw [lv_q1]; exact Oxy_above 2 (Or.inr ⟨by decide, le_refl 8⟩) g u h)) $$ [Hc1_6 HO Hat1_6]
  · isplitr; · iexact HI1_6
    isplitl [Hc1_6]; · iexact Hc1_6
    isplitl [HO]; · iexact HO
    isplitr; · iexact Hlev
    iexact Hat1_6
  iintro ⟨HO, Hat1_6, Hp⟩
  unfold payQ slotIs
  icases Hp with ⟨%gy6, Hs1_6, %hgy6⟩
  sl_exec_parts
  have hxs6 : (slotOf xsM 6).view.read (Elt F) (body_core.sl.Hs2_6_w1 m c f2 gy6) = shapeCast S512x256 (partX m c 6) shapeCasts_S1x512x256_S512x256 := by
    unfold body_core.sl.Hs2_6_w1
    exact (slot_read_write xsM 6 rfl _ f2 _).trans (congrArg (fun v => shapeCast S512x256 v shapeCasts_S1x512x256_S512x256)
      (congrArg sendX (sumY_congr (loadK m c) (loadD m c 6) (yrM.view.readAt (Elt F) (slotR 6).toLoadRect gy6) (partY m (pY c) 6)
        ((slot_read yrM 6 gy6).symm.trans hgy6))))
  iapply (send_x m (K (c, some (2, 6))) (K (pX c, some (3, 6))) c _ (dev17_eq c) 6 _ fx6 hxs6 6 8 rfl _) $$ [HO Hs2_6 Hxp6 Ht2_6 Ht3_6]
  · isplitr; · iexact HI2_6
    isplitr; · iexact HIxp6
    isplitl [Hs2_6]; · iexact Hs2_6
    isplitl [Hxp6]; · iexact Hxp6
    isplitl [HO]; · iexact HO
    isplitl [Ht2_6]; · iexact Ht2_6
    isplitr; · iexact Hr2_6
    isplitl [Ht3_6]; · iexact Ht3_6
    iexact Hrxp6
  iintro ⟨Hc2_6, HO⟩
  sl_exec_parts
  -- chunk 7: the send slot back, the y-neighbour's slot in; their sum stored and sent to the x-neighbour
  iapply (wait_q m (K (c, some (0, 7))) c 0 7 (Oxy c 7 8) _ (fun g u h => by rw [lv_q0]; exact Oxy_above 0 (Or.inl (by decide)) g u h)) $$ [Hc0_7 HO Hat0_7]
  · isplitr; · iexact HI0_7
    isplitl [Hc0_7]; · iexact Hc0_7
    isplitl [HO]; · iexact HO
    isplitr; · iexact Hlev
    iexact Hat0_7
  iintro ⟨HO, Hat0_7, Hp⟩
  unfold payQ slotAny
  icases Hp with ⟨%fs0_7, Hs0_7⟩
  sl_exec_parts
  iapply (wait_q m (K (c, some (1, 7))) c 1 7 (Oxy c 7 8) _ (fun g u h => by rw [lv_q1]; exact Oxy_above 2 (Or.inr ⟨by decide, le_refl 8⟩) g u h)) $$ [Hc1_7 HO Hat1_7]
  · isplitr; · iexact HI1_7
    isplitl [Hc1_7]; · iexact Hc1_7
    isplitl [HO]; · iexact HO
    isplitr; · iexact Hlev
    iexact Hat1_7
  iintro ⟨HO, Hat1_7, Hp⟩
  unfold payQ slotIs
  icases Hp with ⟨%gy7, Hs1_7, %hgy7⟩
  sl_exec_parts
  have hxs7 : (slotOf xsM 7).view.read (Elt F) (body_core.sl.Hs2_7_w1 m c f2 gy7) = shapeCast S512x256 (partX m c 7) shapeCasts_S1x512x256_S512x256 := by
    unfold body_core.sl.Hs2_7_w1
    exact (slot_read_write xsM 7 rfl _ f2 _).trans (congrArg (fun v => shapeCast S512x256 v shapeCasts_S1x512x256_S512x256)
      (congrArg sendX (sumY_congr (loadK m c) (loadD m c 7) (yrM.view.readAt (Elt F) (slotR 7).toLoadRect gy7) (partY m (pY c) 7)
        ((slot_read yrM 7 gy7).symm.trans hgy7))))
  iapply (send_x m (K (c, some (2, 7))) (K (pX c, some (3, 7))) c _ (dev18_eq c) 7 _ fx7 hxs7 7 8 rfl _) $$ [HO Hs2_7 Hxp7 Ht2_7 Ht3_7]
  · isplitr; · iexact HI2_7
    isplitr; · iexact HIxp7
    isplitl [Hs2_7]; · iexact Hs2_7
    isplitl [Hxp7]; · iexact Hxp7
    isplitl [HO]; · iexact HO
    isplitl [Ht2_7]; · iexact Ht2_7
    isplitr; · iexact Hr2_7
    isplitl [Ht3_7]; · iexact Ht3_7
    iexact Hrxp7
  iintro ⟨Hc2_7, HO⟩
  sl_exec_parts
  -- chunk 0 of the x-neighbour's half: the send slot back, the x-neighbour's slot in, stored into the result
  iapply (wait_q m (K (c, some (2, 0))) c 2 0 (Oxy c 8 8) _ (fun g u h => by rw [lv_q2]; exact Oxy_above 0 (Or.inl (by decide)) g u h)) $$ [Hc2_0 HO Hat2_0]
  · isplitr; · iexact HI2_0
    isplitl [Hc2_0]; · iexact Hc2_0
    isplitl [HO]; · iexact HO
    isplitr; · iexact Hlev
    iexact Hat2_0
  iintro ⟨HO, Hat2_0, Hp⟩
  unfold payQ slotAny
  icases Hp with ⟨%fs2_0, Hs2_0⟩
  sl_exec_parts
  iapply (wait_q m (K (c, some (3, 0))) c 3 0 (Oxy c 8 8) _ (fun g u h => by rw [Oxy_done] at h; exact absurd h (Nat.lt_irrefl 0))) $$ [Hc3_0 HO Hat3_0]
  · isplitr; · iexact HI3_0
    isplitl [Hc3_0]; · iexact Hc3_0
    isplitl [HO]; · iexact HO
    isplitr; · iexact Hlev
    iexact Hat3_0
  iintro ⟨HO, Hat3_0, Hp⟩
  unfold payQ slotIs
  icases Hp with ⟨%gx0, Hs3_0, %hgx0⟩
  sl_exec_parts
  -- chunk 1 of the x-neighbour's half: the send slot back, the x-neighbour's slot in, stored into the result
  iapply (wait_q m (K (c, some (2, 1))) c 2 1 (Oxy c 8 8) _ (fun g u h => by rw [lv_q2]; exact Oxy_above 0 (Or.inl (by decide)) g u h)) $$ [Hc2_1 HO Hat2_1]
  · isplitr; · iexact HI2_1
    isplitl [Hc2_1]; · iexact Hc2_1
    isplitl [HO]; · iexact HO
    isplitr; · iexact Hlev
    iexact Hat2_1
  iintro ⟨HO, Hat2_1, Hp⟩
  unfold payQ slotAny
  icases Hp with ⟨%fs2_1, Hs2_1⟩
  sl_exec_parts
  iapply (wait_q m (K (c, some (3, 1))) c 3 1 (Oxy c 8 8) _ (fun g u h => by rw [Oxy_done] at h; exact absurd h (Nat.lt_irrefl 0))) $$ [Hc3_1 HO Hat3_1]
  · isplitr; · iexact HI3_1
    isplitl [Hc3_1]; · iexact Hc3_1
    isplitl [HO]; · iexact HO
    isplitr; · iexact Hlev
    iexact Hat3_1
  iintro ⟨HO, Hat3_1, Hp⟩
  unfold payQ slotIs
  icases Hp with ⟨%gx1, Hs3_1, %hgx1⟩
  sl_exec_parts
  -- chunk 2 of the x-neighbour's half: the send slot back, the x-neighbour's slot in, stored into the result
  iapply (wait_q m (K (c, some (2, 2))) c 2 2 (Oxy c 8 8) _ (fun g u h => by rw [lv_q2]; exact Oxy_above 0 (Or.inl (by decide)) g u h)) $$ [Hc2_2 HO Hat2_2]
  · isplitr; · iexact HI2_2
    isplitl [Hc2_2]; · iexact Hc2_2
    isplitl [HO]; · iexact HO
    isplitr; · iexact Hlev
    iexact Hat2_2
  iintro ⟨HO, Hat2_2, Hp⟩
  unfold payQ slotAny
  icases Hp with ⟨%fs2_2, Hs2_2⟩
  sl_exec_parts
  iapply (wait_q m (K (c, some (3, 2))) c 3 2 (Oxy c 8 8) _ (fun g u h => by rw [Oxy_done] at h; exact absurd h (Nat.lt_irrefl 0))) $$ [Hc3_2 HO Hat3_2]
  · isplitr; · iexact HI3_2
    isplitl [Hc3_2]; · iexact Hc3_2
    isplitl [HO]; · iexact HO
    isplitr; · iexact Hlev
    iexact Hat3_2
  iintro ⟨HO, Hat3_2, Hp⟩
  unfold payQ slotIs
  icases Hp with ⟨%gx2, Hs3_2, %hgx2⟩
  sl_exec_parts
  -- chunk 3 of the x-neighbour's half: the send slot back, the x-neighbour's slot in, stored into the result
  iapply (wait_q m (K (c, some (2, 3))) c 2 3 (Oxy c 8 8) _ (fun g u h => by rw [lv_q2]; exact Oxy_above 0 (Or.inl (by decide)) g u h)) $$ [Hc2_3 HO Hat2_3]
  · isplitr; · iexact HI2_3
    isplitl [Hc2_3]; · iexact Hc2_3
    isplitl [HO]; · iexact HO
    isplitr; · iexact Hlev
    iexact Hat2_3
  iintro ⟨HO, Hat2_3, Hp⟩
  unfold payQ slotAny
  icases Hp with ⟨%fs2_3, Hs2_3⟩
  sl_exec_parts
  iapply (wait_q m (K (c, some (3, 3))) c 3 3 (Oxy c 8 8) _ (fun g u h => by rw [Oxy_done] at h; exact absurd h (Nat.lt_irrefl 0))) $$ [Hc3_3 HO Hat3_3]
  · isplitr; · iexact HI3_3
    isplitl [Hc3_3]; · iexact Hc3_3
    isplitl [HO]; · iexact HO
    isplitr; · iexact Hlev
    iexact Hat3_3
  iintro ⟨HO, Hat3_3, Hp⟩
  unfold payQ slotIs
  icases Hp with ⟨%gx3, Hs3_3, %hgx3⟩
  sl_exec_parts
  -- chunk 4 of the x-neighbour's half: the send slot back, the x-neighbour's slot in, stored into the result
  iapply (wait_q m (K (c, some (2, 4))) c 2 4 (Oxy c 8 8) _ (fun g u h => by rw [lv_q2]; exact Oxy_above 0 (Or.inl (by decide)) g u h)) $$ [Hc2_4 HO Hat2_4]
  · isplitr; · iexact HI2_4
    isplitl [Hc2_4]; · iexact Hc2_4
    isplitl [HO]; · iexact HO
    isplitr; · iexact Hlev
    iexact Hat2_4
  iintro ⟨HO, Hat2_4, Hp⟩
  unfold payQ slotAny
  icases Hp with ⟨%fs2_4, Hs2_4⟩
  sl_exec_parts
  iapply (wait_q m (K (c, some (3, 4))) c 3 4 (Oxy c 8 8) _ (fun g u h => by rw [Oxy_done] at h; exact absurd h (Nat.lt_irrefl 0))) $$ [Hc3_4 HO Hat3_4]
  · isplitr; · iexact HI3_4
    isplitl [Hc3_4]; · iexact Hc3_4
    isplitl [HO]; · iexact HO
    isplitr; · iexact Hlev
    iexact Hat3_4
  iintro ⟨HO, Hat3_4, Hp⟩
  unfold payQ slotIs
  icases Hp with ⟨%gx4, Hs3_4, %hgx4⟩
  sl_exec_parts
  -- chunk 5 of the x-neighbour's half: the send slot back, the x-neighbour's slot in, stored into the result
  iapply (wait_q m (K (c, some (2, 5))) c 2 5 (Oxy c 8 8) _ (fun g u h => by rw [lv_q2]; exact Oxy_above 0 (Or.inl (by decide)) g u h)) $$ [Hc2_5 HO Hat2_5]
  · isplitr; · iexact HI2_5
    isplitl [Hc2_5]; · iexact Hc2_5
    isplitl [HO]; · iexact HO
    isplitr; · iexact Hlev
    iexact Hat2_5
  iintro ⟨HO, Hat2_5, Hp⟩
  unfold payQ slotAny
  icases Hp with ⟨%fs2_5, Hs2_5⟩
  sl_exec_parts
  iapply (wait_q m (K (c, some (3, 5))) c 3 5 (Oxy c 8 8) _ (fun g u h => by rw [Oxy_done] at h; exact absurd h (Nat.lt_irrefl 0))) $$ [Hc3_5 HO Hat3_5]
  · isplitr; · iexact HI3_5
    isplitl [Hc3_5]; · iexact Hc3_5
    isplitl [HO]; · iexact HO
    isplitr; · iexact Hlev
    iexact Hat3_5
  iintro ⟨HO, Hat3_5, Hp⟩
  unfold payQ slotIs
  icases Hp with ⟨%gx5, Hs3_5, %hgx5⟩
  sl_exec_parts
  -- chunk 6 of the x-neighbour's half: the send slot back, the x-neighbour's slot in, stored into the result
  iapply (wait_q m (K (c, some (2, 6))) c 2 6 (Oxy c 8 8) _ (fun g u h => by rw [lv_q2]; exact Oxy_above 0 (Or.inl (by decide)) g u h)) $$ [Hc2_6 HO Hat2_6]
  · isplitr; · iexact HI2_6
    isplitl [Hc2_6]; · iexact Hc2_6
    isplitl [HO]; · iexact HO
    isplitr; · iexact Hlev
    iexact Hat2_6
  iintro ⟨HO, Hat2_6, Hp⟩
  unfold payQ slotAny
  icases Hp with ⟨%fs2_6, Hs2_6⟩
  sl_exec_parts
  iapply (wait_q m (K (c, some (3, 6))) c 3 6 (Oxy c 8 8) _ (fun g u h => by rw [Oxy_done] at h; exact absurd h (Nat.lt_irrefl 0))) $$ [Hc3_6 HO Hat3_6]
  · isplitr; · iexact HI3_6
    isplitl [Hc3_6]; · iexact Hc3_6
    isplitl [HO]; · iexact HO
    isplitr; · iexact Hlev
    iexact Hat3_6
  iintro ⟨HO, Hat3_6, Hp⟩
  unfold payQ slotIs
  icases Hp with ⟨%gx6, Hs3_6, %hgx6⟩
  sl_exec_parts
  -- chunk 7 of the x-neighbour's half: the send slot back, the x-neighbour's slot in, stored into the result
  iapply (wait_q m (K (c, some (2, 7))) c 2 7 (Oxy c 8 8) _ (fun g u h => by rw [lv_q2]; exact Oxy_above 0 (Or.inl (by decide)) g u h)) $$ [Hc2_7 HO Hat2_7]
  · isplitr; · iexact HI2_7
    isplitl [Hc2_7]; · iexact Hc2_7
    isplitl [HO]; · iexact HO
    isplitr; · iexact Hlev
    iexact Hat2_7
  iintro ⟨HO, Hat2_7, Hp⟩
  unfold payQ slotAny
  icases Hp with ⟨%fs2_7, Hs2_7⟩
  sl_exec_parts
  iapply (wait_q m (K (c, some (3, 7))) c 3 7 (Oxy c 8 8) _ (fun g u h => by rw [Oxy_done] at h; exact absurd h (Nat.lt_irrefl 0))) $$ [Hc3_7 HO Hat3_7]
  · isplitr; · iexact HI3_7
    isplitl [Hc3_7]; · iexact Hc3_7
    isplitl [HO]; · iexact HO
    isplitr; · iexact Hlev
    iexact Hat3_7
  iintro ⟨HO, Hat3_7, Hp⟩
  unfold payQ slotIs
  icases Hp with ⟨%gx7, Hs3_7, %hgx7⟩
  sl_exec_parts
  -- the body returns
  rw [wp_ret]; imodintro
  iapply Hk
  -- what was stored and what was received, as families over the chunk
  let gyF : Fin 8 → Buf (Elt F) ((c : Thread nD τ).loc cc0_scratch1) := fun k => match k with | 0 => gy0 | 1 => gy1 | 2 => gy2 | 3 => gy3 | 4 => gy4 | 5 => gy5 | 6 => gy6 | 7 => gy7
  let gxF : Fin 8 → Buf (Elt F) ((c : Thread nD τ).loc cc0_scratch3) := fun k => match k with | 0 => gx0 | 1 => gx1 | 2 => gx2 | 3 => gx3 | 4 => gx4 | 5 => gx5 | 6 => gx6 | 7 => gx7
  have hgyF : ∀ k : Fin 8, (slotOf yrM k).view.read (Elt F) (gyF k) = shapeCast S512x256 (partY m (pY c) k) shapeCasts_S1x512x256_S512x256 :=
    fun k => match k with | 0 => hgy0 | 1 => hgy1 | 2 => hgy2 | 3 => hgy3 | 4 => hgy4 | 5 => hgy5 | 6 => hgy6 | 7 => hgy7
  have hgxF : ∀ k : Fin 8, (slotOf xrM k).view.read (Elt F) (gxF k) = shapeCast S512x256 (partX m (pX c) k) shapeCasts_S1x512x256_S512x256 :=
    fun k => match k with | 0 => hgx0 | 1 => hgx1 | 2 => hgx2 | 3 => hgx3 | 4 => hgx4 | 5 => hgx5 | 6 => hgx6 | 7 => hgx7
  have hr : (fun k : Fin 8 => sumY (loadK m c) (loadD m c k) (yrM.view.readAt (Elt F) (slotR k).toLoadRect (gyF k))) = rowSum m c :=
    funext fun k => sumY_congr _ _ _ _ ((slot_read yrM k (gyF k)).symm.trans (hgyF k))
  have hx : (fun k : Fin 8 => recvX (xrM.view.readAt (Elt F) (slotR k).toLoadRect (gxF k))) = fromX m c :=
    funext fun k => recvX_congr _ _ ((slot_read xrM k (gxF k)).symm.trans (hgxF k))
  unfold CorePost
  rw [← out_tiles m c g0, ← hx, ← hr]
  isplitl [Hat0_0]; · iexact Hat0_0
  isplitl [Hat0_1]; · iexact Hat0_1
  isplitl [Hat0_2]; · iexact Hat0_2
  isplitl [Hat0_3]; · iexact Hat0_3
  isplitl [Hat0_4]; · iexact Hat0_4
  isplitl [Hat0_5]; · iexact Hat0_5
  isplitl [Hat0_6]; · iexact Hat0_6
  isplitl [Hat0_7]; · iexact Hat0_7
  isplitl [Hat1_0]; · iexact Hat1_0
  isplitl [Hat1_1]; · iexact Hat1_1
  isplitl [Hat1_2]; · iexact Hat1_2
  isplitl [Hat1_3]; · iexact Hat1_3
  isplitl [Hat1_4]; · iexact Hat1_4
  isplitl [Hat1_5]; · iexact Hat1_5
  isplitl [Hat1_6]; · iexact Hat1_6
  isplitl [Hat1_7]; · iexact Hat1_7
  isplitl [Hat2_0]; · iexact Hat2_0
  isplitl [Hat2_1]; · iexact Hat2_1
  isplitl [Hat2_2]; · iexact Hat2_2
  isplitl [Hat2_3]; · iexact Hat2_3
  isplitl [Hat2_4]; · iexact Hat2_4
  isplitl [Hat2_5]; · iexact Hat2_5
  isplitl [Hat2_6]; · iexact Hat2_6
  isplitl [Hat2_7]; · iexact Hat2_7
  isplitl [Hat3_0]; · iexact Hat3_0
  isplitl [Hat3_1]; · iexact Hat3_1
  isplitl [Hat3_2]; · iexact Hat3_2
  isplitl [Hat3_3]; · iexact Hat3_3
  isplitl [Hat3_4]; · iexact Hat3_4
  isplitl [Hat3_5]; · iexact Hat3_5
  isplitl [Hat3_6]; · iexact Hat3_6
  isplitl [Hat3_7]; · iexact Hat3_7
  isplitl [HO]; · (iexists _; iexact HO)
  isplitl [Hx]; · iexact Hx
  isplitl [Hd]; · iexact Hd
  isplitl [Hout]; · iexact Hout
  isplitl [Hs0_0]; · (iexists _; iexact Hs0_0)
  isplitl [Hs0_1]; · (iexists _; iexact Hs0_1)
  isplitl [Hs0_2]; · (iexists _; iexact Hs0_2)
  isplitl [Hs0_3]; · (iexists _; iexact Hs0_3)
  isplitl [Hs0_4]; · (iexists _; iexact Hs0_4)
  isplitl [Hs0_5]; · (iexists _; iexact Hs0_5)
  isplitl [Hs0_6]; · (iexists _; iexact Hs0_6)
  isplitl [Hs0_7]; · (iexists _; iexact Hs0_7)
  isplitl [Hs1_0]; · (iexists _; iexact Hs1_0)
  isplitl [Hs1_1]; · (iexists _; iexact Hs1_1)
  isplitl [Hs1_2]; · (iexists _; iexact Hs1_2)
  isplitl [Hs1_3]; · (iexists _; iexact Hs1_3)
  isplitl [Hs1_4]; · (iexists _; iexact Hs1_4)
  isplitl [Hs1_5]; · (iexists _; iexact Hs1_5)
  isplitl [Hs1_6]; · (iexists _; iexact Hs1_6)
  isplitl [Hs1_7]; · (iexists _; iexact Hs1_7)
  isplitl [Hs2_0]; · (iexists _; iexact Hs2_0)
  isplitl [Hs2_1]; · (iexists _; iexact Hs2_1)
  isplitl [Hs2_2]; · (iexists _; iexact Hs2_2)
  isplitl [Hs2_3]; · (iexists _; iexact Hs2_3)
  isplitl [Hs2_4]; · (iexists _; iexact Hs2_4)
  isplitl [Hs2_5]; · (iexists _; iexact Hs2_5)
  isplitl [Hs2_6]; · (iexists _; iexact Hs2_6)
  isplitl [Hs2_7]; · (iexists _; iexact Hs2_7)
  isplitl [Hs3_0]; · (iexists _; iexact Hs3_0)
  isplitl [Hs3_1]; · (iexists _; iexact Hs3_1)
  isplitl [Hs3_2]; · (iexists _; iexact Hs3_2)
  isplitl [Hs3_3]; · (iexists _; iexact Hs3_3)
  isplitl [Hs3_4]; · (iexists _; iexact Hs3_4)
  isplitl [Hs3_5]; · (iexists _; iexact Hs3_5)
  isplitl [Hs3_6]; · (iexists _; iexact Hs3_6)
  iexists _; iexact Hs3_7

/-- info: 'Cert.KernelIdealProof.body_core' depends on axioms: [propext, Classical.choice, Quot.sound] -/
#guard_msgs in #print axioms body_core

end Cert.KernelIdealProof

end
-- ==== Proof.KernelIdeal.Sound.lean ====
/-
  The body lemma from the run of the body spelt out hypothesis by hypothesis: the device's ghost state, credits and
  buffers are regrouped into the run's hypotheses, and what the run leaves is regrouped into what the pipeline takes back
  — the 32 own cells closed at zero, each scratch buffer rejoined from its eight slots.
-/
import proofs.«900475_g7700000000000476_dist_rsdw_v7x_xy2x2_y_m1024_d1024_f4096_bf16_1_alg».proof.Proof.KernelIdeal.BodyStmt
import proofs.«900475_g7700000000000476_dist_rsdw_v7x_xy2x2_y_m1024_d1024_f4096_bf16_1_alg».proof.Proof.KernelIdeal.Obligation

noncomputable section

set_option maxRecDepth 16384
namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A scratch buffer and its eight slots -/

theorem slots_disjoint : ∀ t ∈ (Finset.univ : Finset (Fin 8)), ∀ t' ∈ (Finset.univ : Finset (Fin 8)), t ≠ t' → Disjoint (slotR t).set (slotR t').set :=
  fun t _ t' _ h => slot_disjoint t t' h

/-- A slot's elements are its rectangle's. -/
theorem slot_set_ys (k : Fin 8) : (slotOf ysM k).view.set = (slotR k).set := by
  show (((ysM : Memref sig .tc .vmem S8x512x256 .bf16).view.slice (slotR k)).reshape S512x256 _).set = _
  rw [View.set_reshape]; exact View.set_slice_whole _ _

/-- The buffer held whole is its eight slots held over the same contents. -/
theorem split_ys (c : Dev nD) (f : Buf (Elt F) ((c : Thread nD τ).loc cc0_scratch0)) :
    ((((c : Thread nD τ).loc cc0_scratch0) ↦{fullShare} f) : sProp 𝕄)
      = bigSep Finset.univ fun k : Fin 8 => ((slotOf ysM k).view.loc ((c : Dev nD) : Thread nD τ) ↦[(slotOf ysM k).view.set]{fullShare} f) := by
  have h : ((((c : Thread nD τ).loc cc0_scratch0) ↦[(Finset.univ : Finset (Fin 8)).biUnion fun k => (slotR k).set]{fullShare} f) : sProp 𝕄)
      = bigSep Finset.univ fun k : Fin 8 => (((c : Thread nD τ).loc cc0_scratch0) ↦[(slotR k).set]{fullShare} f) :=
    pointsTo_biUnion Finset.univ _ slots_disjoint
  rw [slot_cover] at h
  refine h.trans (bigSep_congr fun k _ => ?_)
  rw [slot_set_ys]

/-- The eight slots, each over some contents, are the buffer whole over some contents. -/
theorem join_ys (c : Dev nD) :
    (bigSep Finset.univ fun k : Fin 8 => iprop(∃ f, ((slotOf ysM k).view.loc ((c : Dev nD) : Thread nD τ) ↦[(slotOf ysM k).view.set]{fullShare} f)) : sProp 𝕄)
      ⊢ iprop(∃ g : Buf (Elt F) ((c : Thread nD τ).loc cc0_scratch0), ((c : Thread nD τ).loc cc0_scratch0) ↦{fullShare} g) := by
  iintro H
  ihave H' := (BI.bigSep_exists_pi Finset.univ (fun (k : Fin 8) (f : Buf (Elt F) ((c : Thread nD τ).loc cc0_scratch0)) =>
    (((c : Thread nD τ).loc cc0_scratch0) ↦[(slotR k).set]{fullShare} f : sProp 𝕄))) $$ [H]
  · iapply (Entails.of_eq (bigSep_congr fun k _ => by rw [slot_set_ys])) $$ H
  icases H' with ⟨%fs, H⟩
  ihave Hj := (pointsTo_biUnion_join Finset.univ (fun k : Fin 8 => (slotR k).set) fs (fs 0) slots_disjoint) $$ H
  icases Hj with ⟨%g, -, Hg⟩
  iexists g
  rw [slot_cover]
  iexact Hg

/-- A slot's elements are its rectangle's. -/
theorem slot_set_yr (k : Fin 8) : (slotOf yrM k).view.set = (slotR k).set := by
  show (((yrM : Memref sig .tc .vmem S8x512x256 .bf16).view.slice (slotR k)).reshape S512x256 _).set = _
  rw [View.set_reshape]; exact View.set_slice_whole _ _

/-- The buffer held whole is its eight slots held over the same contents. -/
theorem split_yr (c : Dev nD) (f : Buf (Elt F) ((c : Thread nD τ).loc cc0_scratch1)) :
    ((((c : Thread nD τ).loc cc0_scratch1) ↦{fullShare} f) : sProp 𝕄)
      = bigSep Finset.univ fun k : Fin 8 => ((slotOf yrM k).view.loc ((c : Dev nD) : Thread nD τ) ↦[(slotOf yrM k).view.set]{fullShare} f) := by
  have h : ((((c : Thread nD τ).loc cc0_scratch1) ↦[(Finset.univ : Finset (Fin 8)).biUnion fun k => (slotR k).set]{fullShare} f) : sProp 𝕄)
      = bigSep Finset.univ fun k : Fin 8 => (((c : Thread nD τ).loc cc0_scratch1) ↦[(slotR k).set]{fullShare} f) :=
    pointsTo_biUnion Finset.univ _ slots_disjoint
  rw [slot_cover] at h
  refine h.trans (bigSep_congr fun k _ => ?_)
  rw [slot_set_yr]

/-- The eight slots, each over some contents, are the buffer whole over some contents. -/
theorem join_yr (c : Dev nD) :
    (bigSep Finset.univ fun k : Fin 8 => iprop(∃ f, ((slotOf yrM k).view.loc ((c : Dev nD) : Thread nD τ) ↦[(slotOf yrM k).view.set]{fullShare} f)) : sProp 𝕄)
      ⊢ iprop(∃ g : Buf (Elt F) ((c : Thread nD τ).loc cc0_scratch1), ((c : Thread nD τ).loc cc0_scratch1) ↦{fullShare} g) := by
  iintro H
  ihave H' := (BI.bigSep_exists_pi Finset.univ (fun (k : Fin 8) (f : Buf (Elt F) ((c : Thread nD τ).loc cc0_scratch1)) =>
    (((c : Thread nD τ).loc cc0_scratch1) ↦[(slotR k).set]{fullShare} f : sProp 𝕄))) $$ [H]
  · iapply (Entails.of_eq (bigSep_congr fun k _ => by rw [slot_set_yr])) $$ H
  icases H' with ⟨%fs, H⟩
  ihave Hj := (pointsTo_biUnion_join Finset.univ (fun k : Fin 8 => (slotR k).set) fs (fs 0) slots_disjoint) $$ H
  icases Hj with ⟨%g, -, Hg⟩
  iexists g
  rw [slot_cover]
  iexact Hg

/-- A slot's elements are its rectangle's. -/
theorem slot_set_xs (k : Fin 8) : (slotOf xsM k).view.set = (slotR k).set := by
  show (((xsM : Memref sig .tc .vmem S8x512x256 .bf16).view.slice (slotR k)).reshape S512x256 _).set = _
  rw [View.set_reshape]; exact View.set_slice_whole _ _

/-- The buffer held whole is its eight slots held over the same contents. -/
theorem split_xs (c : Dev nD) (f : Buf (Elt F) ((c : Thread nD τ).loc cc0_scratch2)) :
    ((((c : Thread nD τ).loc cc0_scratch2) ↦{fullShare} f) : sProp 𝕄)
      = bigSep Finset.univ fun k : Fin 8 => ((slotOf xsM k).view.loc ((c : Dev nD) : Thread nD τ) ↦[(slotOf xsM k).view.set]{fullShare} f) := by
  have h : ((((c : Thread nD τ).loc cc0_scratch2) ↦[(Finset.univ : Finset (Fin 8)).biUnion fun k => (slotR k).set]{fullShare} f) : sProp 𝕄)
      = bigSep Finset.univ fun k : Fin 8 => (((c : Thread nD τ).loc cc0_scratch2) ↦[(slotR k).set]{fullShare} f) :=
    pointsTo_biUnion Finset.univ _ slots_disjoint
  rw [slot_cover] at h
  refine h.trans (bigSep_congr fun k _ => ?_)
  rw [slot_set_xs]

/-- The eight slots, each over some contents, are the buffer whole over some contents. -/
theorem join_xs (c : Dev nD) :
    (bigSep Finset.univ fun k : Fin 8 => iprop(∃ f, ((slotOf xsM k).view.loc ((c : Dev nD) : Thread nD τ) ↦[(slotOf xsM k).view.set]{fullShare} f)) : sProp 𝕄)
      ⊢ iprop(∃ g : Buf (Elt F) ((c : Thread nD τ).loc cc0_scratch2), ((c : Thread nD τ).loc cc0_scratch2) ↦{fullShare} g) := by
  iintro H
  ihave H' := (BI.bigSep_exists_pi Finset.univ (fun (k : Fin 8) (f : Buf (Elt F) ((c : Thread nD τ).loc cc0_scratch2)) =>
    (((c : Thread nD τ).loc cc0_scratch2) ↦[(slotR k).set]{fullShare} f : sProp 𝕄))) $$ [H]
  · iapply (Entails.of_eq (bigSep_congr fun k _ => by rw [slot_set_xs])) $$ H
  icases H' with ⟨%fs, H⟩
  ihave Hj := (pointsTo_biUnion_join Finset.univ (fun k : Fin 8 => (slotR k).set) fs (fs 0) slots_disjoint) $$ H
  icases Hj with ⟨%g, -, Hg⟩
  iexists g
  rw [slot_cover]
  iexact Hg

/-- A slot's elements are its rectangle's. -/
theorem slot_set_xr (k : Fin 8) : (slotOf xrM k).view.set = (slotR k).set := by
  show (((xrM : Memref sig .tc .vmem S8x512x256 .bf16).view.slice (slotR k)).reshape S512x256 _).set = _
  rw [View.set_reshape]; exact View.set_slice_whole _ _

/-- The buffer held whole is its eight slots held over the same contents. -/
theorem split_xr (c : Dev nD) (f : Buf (Elt F) ((c : Thread nD τ).loc cc0_scratch3)) :
    ((((c : Thread nD τ).loc cc0_scratch3) ↦{fullShare} f) : sProp 𝕄)
      = bigSep Finset.univ fun k : Fin 8 => ((slotOf xrM k).view.loc ((c : Dev nD) : Thread nD τ) ↦[(slotOf xrM k).view.set]{fullShare} f) := by
  have h : ((((c : Thread nD τ).loc cc0_scratch3) ↦[(Finset.univ : Finset (Fin 8)).biUnion fun k => (slotR k).set]{fullShare} f) : sProp 𝕄)
      = bigSep Finset.univ fun k : Fin 8 => (((c : Thread nD τ).loc cc0_scratch3) ↦[(slotR k).set]{fullShare} f) :=
    pointsTo_biUnion Finset.univ _ slots_disjoint
  rw [slot_cover] at h
  refine h.trans (bigSep_congr fun k _ => ?_)
  rw [slot_set_xr]

/-- The eight slots, each over some contents, are the buffer whole over some contents. -/
theorem join_xr (c : Dev nD) :
    (bigSep Finset.univ fun k : Fin 8 => iprop(∃ f, ((slotOf xrM k).view.loc ((c : Dev nD) : Thread nD τ) ↦[(slotOf xrM k).view.set]{fullShare} f)) : sProp 𝕄)
      ⊢ iprop(∃ g : Buf (Elt F) ((c : Thread nD τ).loc cc0_scratch3), ((c : Thread nD τ).loc cc0_scratch3) ↦{fullShare} g) := by
  iintro H
  ihave H' := (BI.bigSep_exists_pi Finset.univ (fun (k : Fin 8) (f : Buf (Elt F) ((c : Thread nD τ).loc cc0_scratch3)) =>
    (((c : Thread nD τ).loc cc0_scratch3) ↦[(slotR k).set]{fullShare} f : sProp 𝕄))) $$ [H]
  · iapply (Entails.of_eq (bigSep_congr fun k _ => by rw [slot_set_xr])) $$ H
  icases H' with ⟨%fs, H⟩
  ihave Hj := (pointsTo_biUnion_join Finset.univ (fun k : Fin 8 => (slotR k).set) fs (fs 0) slots_disjoint) $$ H
  icases Hj with ⟨%g, -, Hg⟩
  iexists g
  rw [slot_cover]
  iexact Hg

/-! ## Closing a transfer cell after its one round -/

theorem close_q (κ : ℕ) (c : Dev nD) (a : Fin 4) (k : Fin 8) :
    iprop(cellInv ER (sched m) κ (qCell a k c) ∗ atPos ER (qCell a k c) (0 + 1) ∅ 0) ⊢ (|={Set.univ}=> semVal (qCell a k c) 0 : sProp 𝕄) :=
  Rounds.cell_close ER (sched m) (Set.mem_univ κ) (fun h => h) (R := 0 + 1) (duties_later m (qCell a k c))

/-- A family over the 32 transfer cells, family by family, chunk by chunk. -/
theorem bigSep_q32 (Φ : Fin 4 × Fin 8 → sProp 𝕄) :
    bigSep Finset.univ Φ = iprop((Φ (0, 0) ∗ Φ (0, 1) ∗ Φ (0, 2) ∗ Φ (0, 3) ∗ Φ (0, 4) ∗ Φ (0, 5) ∗ Φ (0, 6) ∗ Φ (0, 7))
      ∗ (Φ (1, 0) ∗ Φ (1, 1) ∗ Φ (1, 2) ∗ Φ (1, 3) ∗ Φ (1, 4) ∗ Φ (1, 5) ∗ Φ (1, 6) ∗ Φ (1, 7))
      ∗ (Φ (2, 0) ∗ Φ (2, 1) ∗ Φ (2, 2) ∗ Φ (2, 3) ∗ Φ (2, 4) ∗ Φ (2, 5) ∗ Φ (2, 6) ∗ Φ (2, 7))
      ∗ (Φ (3, 0) ∗ Φ (3, 1) ∗ Φ (3, 2) ∗ Φ (3, 3) ∗ Φ (3, 4) ∗ Φ (3, 5) ∗ Φ (3, 6) ∗ Φ (3, 7))) := by
  rw [bigSep_univ_prod, bigSep_fin4, bigSep_fin8, bigSep_fin8, bigSep_fin8, bigSep_fin8]

/-! ## The records, one cell at a time -/

theorem inv_at (K : Dev nD × CIx → ℕ) (ck : Dev nD × CIx) :
    (bigSep Finset.univ fun ck : Dev nD × CIx => (cellInv ER (sched m) (K ck) (kcell ck) : sProp 𝕄)) ⊢ cellInv ER (sched m) (K ck) (kcell ck) :=
  bigSep_elim (Finset.mem_univ ck)
theorem reached_at (ck : Dev nD × CIx) :
    (bigSep Finset.univ fun ck : Dev nD × CIx => (reached ER (kcell ck) 0 : sProp 𝕄)) ⊢ reached ER (kcell ck) 0 :=
  bigSep_elim (Finset.mem_univ ck)

theorem rec_inv_bar (K : Dev nD × CIx → ℕ) (d : Dev nD) : records m K ⊢ (cellInv ER (sched m) (K (d, none)) (barCell d) : sProp 𝕄) := by
  unfold records
  iintro ⟨#HI, -⟩
  iapply (inv_at m K (d, none)); iexact HI
theorem rec_inv_q (K : Dev nD × CIx → ℕ) (d : Dev nD) (a : Fin 4) (k : Fin 8) :
    records m K ⊢ (cellInv ER (sched m) (K (d, some (a, k))) (qCell a k d) : sProp 𝕄) := by
  unfold records
  iintro ⟨#HI, -⟩
  iapply (inv_at m K (d, some (a, k))); iexact HI
theorem rec_reached_bar (K : Dev nD × CIx → ℕ) (d : Dev nD) : records m K ⊢ (reached ER (barCell d) 0 : sProp 𝕄) := by
  unfold records
  iintro ⟨-, #HR⟩
  iapply (reached_at (F := F) (d, none)); iexact HR
theorem rec_reached_q (K : Dev nD × CIx → ℕ) (d : Dev nD) (a : Fin 4) (k : Fin 8) : records m K ⊢ (reached ER (qCell a k d) 0 : sProp 𝕄) := by
  unfold records
  iintro ⟨-, #HR⟩
  iapply (reached_at (F := F) (d, some (a, k))); iexact HR

/-! ## From what the pipeline hands over to the run's hypotheses -/

theorem pre_to_core (K : Dev nD × CIx → ℕ) (c : Dev nD) :
    bodyPre m ρ K c ⊢ iprop(∃ W g0 f0 f1 f2 f3, records m K ∗ CorePre m K c W g0 f0 f1 f2 f3) := by
  unfold bodyPre ghost positions payToks creds scratch
  simp only [bigSep_q32, bigSep_fin8]
  iintro ⟨⟨⟨#Hrec, ⟨HaB, ⟨Ha0_0, Ha0_1, Ha0_2, Ha0_3, Ha0_4, Ha0_5, Ha0_6, Ha0_7⟩, ⟨Ha1_0, Ha1_1, Ha1_2, Ha1_3, Ha1_4, Ha1_5, Ha1_6, Ha1_7⟩, ⟨Ha2_0, Ha2_1, Ha2_2, Ha2_3, Ha2_4, Ha2_5, Ha2_6, Ha2_7⟩, ⟨Ha3_0, Ha3_1, Ha3_2, Ha3_3, Ha3_4, Ha3_5, Ha3_6, Ha3_7⟩⟩, HtX, HtY, ⟨Ht0_0, Ht0_1, Ht0_2, Ht0_3, Ht0_4, Ht0_5, Ht0_6, Ht0_7⟩, ⟨Ht1_0, Ht1_1, Ht1_2, Ht1_3, Ht1_4, Ht1_5, Ht1_6, Ht1_7⟩, ⟨Ht2_0, Ht2_1, Ht2_2, Ht2_3, Ht2_4, Ht2_5, Ht2_6, Ht2_7⟩, ⟨Ht3_0, Ht3_1, Ht3_2, Ht3_3, Ht3_4, Ht3_5, Ht3_6, Ht3_7⟩⟩,
      ⟨HcB, ⟨Hc1_0, Hc1_1, Hc1_2, Hc1_3, Hc1_4, Hc1_5, Hc1_6, Hc1_7⟩, ⟨Hc3_0, Hc3_1, Hc3_2, Hc3_3, Hc3_4, Hc3_5, Hc3_6, Hc3_7⟩⟩, #Hlev, ⟨%f0, Hs0⟩, ⟨%f1, Hs1⟩, ⟨%f2, Hs2⟩, ⟨%f3, Hs3⟩⟩,
    Ho, ⟨%d0, %g0, %hg0, Hx⟩, ⟨%d1, %g1, %hg1, Hy⟩, ⟨%d2, %g2, %hg2, Hout⟩⟩
  have hx : g0 = stgA m c := by rw [hg0]; unfold Dat.before; rw [if_pos (fetch0_0 t0_0)]; rfl
  have hy : g1 = stgB m c := by rw [hg1]; unfold Dat.before; rw [if_pos (fetch0_1 t0_0)]; rfl
  subst hx; subst hy
  unfold Dat.owesAt Pipeline.owesWithin
  icases Ho with ⟨%W, %hW, HO⟩
  rw [show (dats m ρ 0 c).owed t0_0.castSucc = O₀ c from rfl]
  ihave Hs0' := (Entails.of_eq ((split_ys (F := F) c f0).trans (bigSep_fin8 _))) $$ Hs0
  icases Hs0' with ⟨Hs0_0, Hs0_1, Hs0_2, Hs0_3, Hs0_4, Hs0_5, Hs0_6, Hs0_7⟩
  ihave Hs1' := (Entails.of_eq ((split_yr (F := F) c f1).trans (bigSep_fin8 _))) $$ Hs1
  icases Hs1' with ⟨Hs1_0, Hs1_1, Hs1_2, Hs1_3, Hs1_4, Hs1_5, Hs1_6, Hs1_7⟩
  ihave Hs2' := (Entails.of_eq ((split_xs (F := F) c f2).trans (bigSep_fin8 _))) $$ Hs2
  icases Hs2' with ⟨Hs2_0, Hs2_1, Hs2_2, Hs2_3, Hs2_4, Hs2_5, Hs2_6, Hs2_7⟩
  ihave Hs3' := (Entails.of_eq ((split_xr (F := F) c f3).trans (bigSep_fin8 _))) $$ Hs3
  icases Hs3' with ⟨Hs3_0, Hs3_1, Hs3_2, Hs3_3, Hs3_4, Hs3_5, Hs3_6, Hs3_7⟩
  iexists W, g2, f0, f1, f2, f3
  isplitr; · iexact Hrec
  unfold CorePre
  isplitr; · iapply (rec_inv_bar m K c); iexact Hrec
  isplitr; · iapply (rec_inv_bar m K (pX c)); iexact Hrec
  isplitr; · iapply (rec_inv_bar m K (pY c)); iexact Hrec
  isplitr; · iapply (rec_inv_q m K c 0 0); iexact Hrec
  isplitr; · iapply (rec_inv_q m K c 0 1); iexact Hrec
  isplitr; · iapply (rec_inv_q m K c 0 2); iexact Hrec
  isplitr; · iapply (rec_inv_q m K c 0 3); iexact Hrec
  isplitr; · iapply (rec_inv_q m K c 0 4); iexact Hrec
  isplitr; · iapply (rec_inv_q m K c 0 5); iexact Hrec
  isplitr; · iapply (rec_inv_q m K c 0 6); iexact Hrec
  isplitr; · iapply (rec_inv_q m K c 0 7); iexact Hrec
  isplitr; · iapply (rec_inv_q m K c 1 0); iexact Hrec
  isplitr; · iapply (rec_inv_q m K c 1 1); iexact Hrec
  isplitr; · iapply (rec_inv_q m K c 1 2); iexact Hrec
  isplitr; · iapply (rec_inv_q m K c 1 3); iexact Hrec
  isplitr; · iapply (rec_inv_q m K c 1 4); iexact Hrec
  isplitr; · iapply (rec_inv_q m K c 1 5); iexact Hrec
  isplitr; · iapply (rec_inv_q m K c 1 6); iexact Hrec
  isplitr; · iapply (rec_inv_q m K c 1 7); iexact Hrec
  isplitr; · iapply (rec_inv_q m K c 2 0); iexact Hrec
  isplitr; · iapply (rec_inv_q m K c 2 1); iexact Hrec
  isplitr; · iapply (rec_inv_q m K c 2 2); iexact Hrec
  isplitr; · iapply (rec_inv_q m K c 2 3); iexact Hrec
  isplitr; · iapply (rec_inv_q m K c 2 4); iexact Hrec
  isplitr; · iapply (rec_inv_q m K c 2 5); iexact Hrec
  isplitr; · iapply (rec_inv_q m K c 2 6); iexact Hrec
  isplitr; · iapply (rec_inv_q m K c 2 7); iexact Hrec
  isplitr; · iapply (rec_inv_q m K c 3 0); iexact Hrec
  isplitr; · iapply (rec_inv_q m K c 3 1); iexact Hrec
  isplitr; · iapply (rec_inv_q m K c 3 2); iexact Hrec
  isplitr; · iapply (rec_inv_q m K c 3 3); iexact Hrec
  isplitr; · iapply (rec_inv_q m K c 3 4); iexact Hrec
  isplitr; · iapply (rec_inv_q m K c 3 5); iexact Hrec
  isplitr; · iapply (rec_inv_q m K c 3 6); iexact Hrec
  isplitr; · iapply (rec_inv_q m K c 3 7); iexact Hrec
  isplitr; · iapply (rec_inv_q m K (pY c) 1 0); iexact Hrec
  isplitr; · iapply (rec_inv_q m K (pY c) 1 1); iexact Hrec
  isplitr; · iapply (rec_inv_q m K (pY c) 1 2); iexact Hrec
  isplitr; · iapply (rec_inv_q m K (pY c) 1 3); iexact Hrec
  isplitr; · iapply (rec_inv_q m K (pY c) 1 4); iexact Hrec
  isplitr; · iapply (rec_inv_q m K (pY c) 1 5); iexact Hrec
  isplitr; · iapply (rec_inv_q m K (pY c) 1 6); iexact Hrec
  isplitr; · iapply (rec_inv_q m K (pY c) 1 7); iexact Hrec
  isplitr; · iapply (rec_inv_q m K (pX c) 3 0); iexact Hrec
  isplitr; · iapply (rec_inv_q m K (pX c) 3 1); iexact Hrec
  isplitr; · iapply (rec_inv_q m K (pX c) 3 2); iexact Hrec
  isplitr; · iapply (rec_inv_q m K (pX c) 3 3); iexact Hrec
  isplitr; · iapply (rec_inv_q m K (pX c) 3 4); iexact Hrec
  isplitr; · iapply (rec_inv_q m K (pX c) 3 5); iexact Hrec
  isplitr; · iapply (rec_inv_q m K (pX c) 3 6); iexact Hrec
  isplitr; · iapply (rec_inv_q m K (pX c) 3 7); iexact Hrec
  isplitr; · iapply (rec_reached_bar m K (pX c)); iexact Hrec
  isplitr; · iapply (rec_reached_bar m K (pY c)); iexact Hrec
  isplitr; · iapply (rec_reached_q m K c 0 0); iexact Hrec
  isplitr; · iapply (rec_reached_q m K c 0 1); iexact Hrec
  isplitr; · iapply (rec_reached_q m K c 0 2); iexact Hrec
  isplitr; · iapply (rec_reached_q m K c 0 3); iexact Hrec
  isplitr; · iapply (rec_reached_q m K c 0 4); iexact Hrec
  isplitr; · iapply (rec_reached_q m K c 0 5); iexact Hrec
  isplitr; · iapply (rec_reached_q m K c 0 6); iexact Hrec
  isplitr; · iapply (rec_reached_q m K c 0 7); iexact Hrec
  isplitr; · iapply (rec_reached_q m K c 2 0); iexact Hrec
  isplitr; · iapply (rec_reached_q m K c 2 1); iexact Hrec
  isplitr; · iapply (rec_reached_q m K c 2 2); iexact Hrec
  isplitr; · iapply (rec_reached_q m K c 2 3); iexact Hrec
  isplitr; · iapply (rec_reached_q m K c 2 4); iexact Hrec
  isplitr; · iapply (rec_reached_q m K c 2 5); iexact Hrec
  isplitr; · iapply (rec_reached_q m K c 2 6); iexact Hrec
  isplitr; · iapply (rec_reached_q m K c 2 7); iexact Hrec
  isplitr; · iapply (rec_reached_q m K (pY c) 1 0); iexact Hrec
  isplitr; · iapply (rec_reached_q m K (pY c) 1 1); iexact Hrec
  isplitr; · iapply (rec_reached_q m K (pY c) 1 2); iexact Hrec
  isplitr; · iapply (rec_reached_q m K (pY c) 1 3); iexact Hrec
  isplitr; · iapply (rec_reached_q m K (pY c) 1 4); iexact Hrec
  isplitr; · iapply (rec_reached_q m K (pY c) 1 5); iexact Hrec
  isplitr; · iapply (rec_reached_q m K (pY c) 1 6); iexact Hrec
  isplitr; · iapply (rec_reached_q m K (pY c) 1 7); iexact Hrec
  isplitr; · iapply (rec_reached_q m K (pX c) 3 0); iexact Hrec
  isplitr; · iapply (rec_reached_q m K (pX c) 3 1); iexact Hrec
  isplitr; · iapply (rec_reached_q m K (pX c) 3 2); iexact Hrec
  isplitr; · iapply (rec_reached_q m K (pX c) 3 3); iexact Hrec
  isplitr; · iapply (rec_reached_q m K (pX c) 3 4); iexact Hrec
  isplitr; · iapply (rec_reached_q m K (pX c) 3 5); iexact Hrec
  isplitr; · iapply (rec_reached_q m K (pX c) 3 6); iexact Hrec
  isplitr; · iapply (rec_reached_q m K (pX c) 3 7); iexact Hrec
  isplitr; · iexact Hlev
  isplitl [HaB]; · iexact HaB
  isplitl [Ha0_0]; · iexact Ha0_0
  isplitl [Ha0_1]; · iexact Ha0_1
  isplitl [Ha0_2]; · iexact Ha0_2
  isplitl [Ha0_3]; · iexact Ha0_3
  isplitl [Ha0_4]; · iexact Ha0_4
  isplitl [Ha0_5]; · iexact Ha0_5
  isplitl [Ha0_6]; · iexact Ha0_6
  isplitl [Ha0_7]; · iexact Ha0_7
  isplitl [Ha1_0]; · iexact Ha1_0
  isplitl [Ha1_1]; · iexact Ha1_1
  isplitl [Ha1_2]; · iexact Ha1_2
  isplitl [Ha1_3]; · iexact Ha1_3
  isplitl [Ha1_4]; · iexact Ha1_4
  isplitl [Ha1_5]; · iexact Ha1_5
  isplitl [Ha1_6]; · iexact Ha1_6
  isplitl [Ha1_7]; · iexact Ha1_7
  isplitl [Ha2_0]; · iexact Ha2_0
  isplitl [Ha2_1]; · iexact Ha2_1
  isplitl [Ha2_2]; · iexact Ha2_2
  isplitl [Ha2_3]; · iexact Ha2_3
  isplitl [Ha2_4]; · iexact Ha2_4
  isplitl [Ha2_5]; · iexact Ha2_5
  isplitl [Ha2_6]; · iexact Ha2_6
  isplitl [Ha2_7]; · iexact Ha2_7
  isplitl [Ha3_0]; · iexact Ha3_0
  isplitl [Ha3_1]; · iexact Ha3_1
  isplitl [Ha3_2]; · iexact Ha3_2
  isplitl [Ha3_3]; · iexact Ha3_3
  isplitl [Ha3_4]; · iexact Ha3_4
  isplitl [Ha3_5]; · iexact Ha3_5
  isplitl [Ha3_6]; · iexact Ha3_6
  isplitl [Ha3_7]; · iexact Ha3_7
  isplitl [HtX]; · iexact HtX
  isplitl [HtY]; · iexact HtY
  isplitl [Ht0_0]; · iexact Ht0_0
  isplitl [Ht0_1]; · iexact Ht0_1
  isplitl [Ht0_2]; · iexact Ht0_2
  isplitl [Ht0_3]; · iexact Ht0_3
  isplitl [Ht0_4]; · iexact Ht0_4
  isplitl [Ht0_5]; · iexact Ht0_5
  isplitl [Ht0_6]; · iexact Ht0_6
  isplitl [Ht0_7]; · iexact Ht0_7
  isplitl [Ht1_0]; · iexact Ht1_0
  isplitl [Ht1_1]; · iexact Ht1_1
  isplitl [Ht1_2]; · iexact Ht1_2
  isplitl [Ht1_3]; · iexact Ht1_3
  isplitl [Ht1_4]; · iexact Ht1_4
  isplitl [Ht1_5]; · iexact Ht1_5
  isplitl [Ht1_6]; · iexact Ht1_6
  isplitl [Ht1_7]; · iexact Ht1_7
  isplitl [Ht2_0]; · iexact Ht2_0
  isplitl [Ht2_1]; · iexact Ht2_1
  isplitl [Ht2_2]; · iexact Ht2_2
  isplitl [Ht2_3]; · iexact Ht2_3
  isplitl [Ht2_4]; · iexact Ht2_4
  isplitl [Ht2_5]; · iexact Ht2_5
  isplitl [Ht2_6]; · iexact Ht2_6
  isplitl [Ht2_7]; · iexact Ht2_7
  isplitl [Ht3_0]; · iexact Ht3_0
  isplitl [Ht3_1]; · iexact Ht3_1
  isplitl [Ht3_2]; · iexact Ht3_2
  isplitl [Ht3_3]; · iexact Ht3_3
  isplitl [Ht3_4]; · iexact Ht3_4
  isplitl [Ht3_5]; · iexact Ht3_5
  isplitl [Ht3_6]; · iexact Ht3_6
  isplitl [Ht3_7]; · iexact Ht3_7
  isplitl [HcB]; · iexact HcB
  isplitl [Hc1_0]; · iexact Hc1_0
  isplitl [Hc1_1]; · iexact Hc1_1
  isplitl [Hc1_2]; · iexact Hc1_2
  isplitl [Hc1_3]; · iexact Hc1_3
  isplitl [Hc1_4]; · iexact Hc1_4
  isplitl [Hc1_5]; · iexact Hc1_5
  isplitl [Hc1_6]; · iexact Hc1_6
  isplitl [Hc1_7]; · iexact Hc1_7
  isplitl [Hc3_0]; · iexact Hc3_0
  isplitl [Hc3_1]; · iexact Hc3_1
  isplitl [Hc3_2]; · iexact Hc3_2
  isplitl [Hc3_3]; · iexact Hc3_3
  isplitl [Hc3_4]; · iexact Hc3_4
  isplitl [Hc3_5]; · iexact Hc3_5
  isplitl [Hc3_6]; · iexact Hc3_6
  isplitl [Hc3_7]; · iexact Hc3_7
  isplitl [HO]; · iexact HO
  isplitl [Hx]; · iexact Hx
  isplitl [Hy]; · iexact Hy
  isplitl [Hout]; · iexact Hout
  isplitl [Hs0_0]; · iexact Hs0_0
  isplitl [Hs0_1]; · iexact Hs0_1
  isplitl [Hs0_2]; · iexact Hs0_2
  isplitl [Hs0_3]; · iexact Hs0_3
  isplitl [Hs0_4]; · iexact Hs0_4
  isplitl [Hs0_5]; · iexact Hs0_5
  isplitl [Hs0_6]; · iexact Hs0_6
  isplitl [Hs0_7]; · iexact Hs0_7
  isplitl [Hs1_0]; · iexact Hs1_0
  isplitl [Hs1_1]; · iexact Hs1_1
  isplitl [Hs1_2]; · iexact Hs1_2
  isplitl [Hs1_3]; · iexact Hs1_3
  isplitl [Hs1_4]; · iexact Hs1_4
  isplitl [Hs1_5]; · iexact Hs1_5
  isplitl [Hs1_6]; · iexact Hs1_6
  isplitl [Hs1_7]; · iexact Hs1_7
  isplitl [Hs2_0]; · iexact Hs2_0
  isplitl [Hs2_1]; · iexact Hs2_1
  isplitl [Hs2_2]; · iexact Hs2_2
  isplitl [Hs2_3]; · iexact Hs2_3
  isplitl [Hs2_4]; · iexact Hs2_4
  isplitl [Hs2_5]; · iexact Hs2_5
  isplitl [Hs2_6]; · iexact Hs2_6
  isplitl [Hs2_7]; · iexact Hs2_7
  isplitl [Hs3_0]; · iexact Hs3_0
  isplitl [Hs3_1]; · iexact Hs3_1
  isplitl [Hs3_2]; · iexact Hs3_2
  isplitl [Hs3_3]; · iexact Hs3_3
  isplitl [Hs3_4]; · iexact Hs3_4
  isplitl [Hs3_5]; · iexact Hs3_5
  isplitl [Hs3_6]; · iexact Hs3_6
  iexact Hs3_7

/-! ## From what the run leaves to what the pipeline takes back -/

theorem post_of_core (K : Dev nD × CIx → ℕ) (c : Dev nD) :
    iprop(records m K ∗ CorePost m c) ⊢ (|={Set.univ}=> bodyPost m ρ c : sProp 𝕄) := by
  unfold CorePost
  rw [Oxy_done c]
  iintro ⟨#Hrec, Ha0_0, Ha0_1, Ha0_2, Ha0_3, Ha0_4, Ha0_5, Ha0_6, Ha0_7, Ha1_0, Ha1_1, Ha1_2, Ha1_3, Ha1_4, Ha1_5, Ha1_6, Ha1_7, Ha2_0, Ha2_1, Ha2_2, Ha2_3, Ha2_4, Ha2_5, Ha2_6, Ha2_7, Ha3_0, Ha3_1, Ha3_2, Ha3_3, Ha3_4, Ha3_5, Ha3_6, Ha3_7, ⟨%W', HO⟩, Hx, Hy, Hout,
    Hs0_0, Hs0_1, Hs0_2, Hs0_3, Hs0_4, Hs0_5, Hs0_6, Hs0_7, Hs1_0, Hs1_1, Hs1_2, Hs1_3, Hs1_4, Hs1_5, Hs1_6, Hs1_7, Hs2_0, Hs2_1, Hs2_2, Hs2_3, Hs2_4, Hs2_5, Hs2_6, Hs2_7, Hs3_0, Hs3_1, Hs3_2, Hs3_3, Hs3_4, Hs3_5, Hs3_6, Hs3_7⟩
  imod (close_q m (K (c, some (0, 0))) c 0 0) $$ [Ha0_0] with Hz0_0
  · isplitr; · iapply (rec_inv_q m K c 0 0); iexact Hrec
    iexact Ha0_0
  imod (close_q m (K (c, some (0, 1))) c 0 1) $$ [Ha0_1] with Hz0_1
  · isplitr; · iapply (rec_inv_q m K c 0 1); iexact Hrec
    iexact Ha0_1
  imod (close_q m (K (c, some (0, 2))) c 0 2) $$ [Ha0_2] with Hz0_2
  · isplitr; · iapply (rec_inv_q m K c 0 2); iexact Hrec
    iexact Ha0_2
  imod (close_q m (K (c, some (0, 3))) c 0 3) $$ [Ha0_3] with Hz0_3
  · isplitr; · iapply (rec_inv_q m K c 0 3); iexact Hrec
    iexact Ha0_3
  imod (close_q m (K (c, some (0, 4))) c 0 4) $$ [Ha0_4] with Hz0_4
  · isplitr; · iapply (rec_inv_q m K c 0 4); iexact Hrec
    iexact Ha0_4
  imod (close_q m (K (c, some (0, 5))) c 0 5) $$ [Ha0_5] with Hz0_5
  · isplitr; · iapply (rec_inv_q m K c 0 5); iexact Hrec
    iexact Ha0_5
  imod (close_q m (K (c, some (0, 6))) c 0 6) $$ [Ha0_6] with Hz0_6
  · isplitr; · iapply (rec_inv_q m K c 0 6); iexact Hrec
    iexact Ha0_6
  imod (close_q m (K (c, some (0, 7))) c 0 7) $$ [Ha0_7] with Hz0_7
  · isplitr; · iapply (rec_inv_q m K c 0 7); iexact Hrec
    iexact Ha0_7
  imod (close_q m (K (c, some (1, 0))) c 1 0) $$ [Ha1_0] with Hz1_0
  · isplitr; · iapply (rec_inv_q m K c 1 0); iexact Hrec
    iexact Ha1_0
  imod (close_q m (K (c, some (1, 1))) c 1 1) $$ [Ha1_1] with Hz1_1
  · isplitr; · iapply (rec_inv_q m K c 1 1); iexact Hrec
    iexact Ha1_1
  imod (close_q m (K (c, some (1, 2))) c 1 2) $$ [Ha1_2] with Hz1_2
  · isplitr; · iapply (rec_inv_q m K c 1 2); iexact Hrec
    iexact Ha1_2
  imod (close_q m (K (c, some (1, 3))) c 1 3) $$ [Ha1_3] with Hz1_3
  · isplitr; · iapply (rec_inv_q m K c 1 3); iexact Hrec
    iexact Ha1_3
  imod (close_q m (K (c, some (1, 4))) c 1 4) $$ [Ha1_4] with Hz1_4
  · isplitr; · iapply (rec_inv_q m K c 1 4); iexact Hrec
    iexact Ha1_4
  imod (close_q m (K (c, some (1, 5))) c 1 5) $$ [Ha1_5] with Hz1_5
  · isplitr; · iapply (rec_inv_q m K c 1 5); iexact Hrec
    iexact Ha1_5
  imod (close_q m (K (c, some (1, 6))) c 1 6) $$ [Ha1_6] with Hz1_6
  · isplitr; · iapply (rec_inv_q m K c 1 6); iexact Hrec
    iexact Ha1_6
  imod (close_q m (K (c, some (1, 7))) c 1 7) $$ [Ha1_7] with Hz1_7
  · isplitr; · iapply (rec_inv_q m K c 1 7); iexact Hrec
    iexact Ha1_7
  imod (close_q m (K (c, some (2, 0))) c 2 0) $$ [Ha2_0] with Hz2_0
  · isplitr; · iapply (rec_inv_q m K c 2 0); iexact Hrec
    iexact Ha2_0
  imod (close_q m (K (c, some (2, 1))) c 2 1) $$ [Ha2_1] with Hz2_1
  · isplitr; · iapply (rec_inv_q m K c 2 1); iexact Hrec
    iexact Ha2_1
  imod (close_q m (K (c, some (2, 2))) c 2 2) $$ [Ha2_2] with Hz2_2
  · isplitr; · iapply (rec_inv_q m K c 2 2); iexact Hrec
    iexact Ha2_2
  imod (close_q m (K (c, some (2, 3))) c 2 3) $$ [Ha2_3] with Hz2_3
  · isplitr; · iapply (rec_inv_q m K c 2 3); iexact Hrec
    iexact Ha2_3
  imod (close_q m (K (c, some (2, 4))) c 2 4) $$ [Ha2_4] with Hz2_4
  · isplitr; · iapply (rec_inv_q m K c 2 4); iexact Hrec
    iexact Ha2_4
  imod (close_q m (K (c, some (2, 5))) c 2 5) $$ [Ha2_5] with Hz2_5
  · isplitr; · iapply (rec_inv_q m K c 2 5); iexact Hrec
    iexact Ha2_5
  imod (close_q m (K (c, some (2, 6))) c 2 6) $$ [Ha2_6] with Hz2_6
  · isplitr; · iapply (rec_inv_q m K c 2 6); iexact Hrec
    iexact Ha2_6
  imod (close_q m (K (c, some (2, 7))) c 2 7) $$ [Ha2_7] with Hz2_7
  · isplitr; · iapply (rec_inv_q m K c 2 7); iexact Hrec
    iexact Ha2_7
  imod (close_q m (K (c, some (3, 0))) c 3 0) $$ [Ha3_0] with Hz3_0
  · isplitr; · iapply (rec_inv_q m K c 3 0); iexact Hrec
    iexact Ha3_0
  imod (close_q m (K (c, some (3, 1))) c 3 1) $$ [Ha3_1] with Hz3_1
  · isplitr; · iapply (rec_inv_q m K c 3 1); iexact Hrec
    iexact Ha3_1
  imod (close_q m (K (c, some (3, 2))) c 3 2) $$ [Ha3_2] with Hz3_2
  · isplitr; · iapply (rec_inv_q m K c 3 2); iexact Hrec
    iexact Ha3_2
  imod (close_q m (K (c, some (3, 3))) c 3 3) $$ [Ha3_3] with Hz3_3
  · isplitr; · iapply (rec_inv_q m K c 3 3); iexact Hrec
    iexact Ha3_3
  imod (close_q m (K (c, some (3, 4))) c 3 4) $$ [Ha3_4] with Hz3_4
  · isplitr; · iapply (rec_inv_q m K c 3 4); iexact Hrec
    iexact Ha3_4
  imod (close_q m (K (c, some (3, 5))) c 3 5) $$ [Ha3_5] with Hz3_5
  · isplitr; · iapply (rec_inv_q m K c 3 5); iexact Hrec
    iexact Ha3_5
  imod (close_q m (K (c, some (3, 6))) c 3 6) $$ [Ha3_6] with Hz3_6
  · isplitr; · iapply (rec_inv_q m K c 3 6); iexact Hrec
    iexact Ha3_6
  imod (close_q m (K (c, some (3, 7))) c 3 7) $$ [Ha3_7] with Hz3_7
  · isplitr; · iapply (rec_inv_q m K c 3 7); iexact Hrec
    iexact Ha3_7
  imodintro
  unfold bodyPost Φ₁ scratch Dat.owesAt Pipeline.owesWithin
  rw [show (dats m ρ 0 c).owed t0_0.succ = 0 from rfl, bigSep_q32]
  isplitl [Hs0_0 Hs0_1 Hs0_2 Hs0_3 Hs0_4 Hs0_5 Hs0_6 Hs0_7 Hs1_0 Hs1_1 Hs1_2 Hs1_3 Hs1_4 Hs1_5 Hs1_6 Hs1_7 Hs2_0 Hs2_1 Hs2_2 Hs2_3 Hs2_4 Hs2_5 Hs2_6 Hs2_7 Hs3_0 Hs3_1 Hs3_2 Hs3_3 Hs3_4 Hs3_5 Hs3_6 Hs3_7 Hz0_0 Hz0_1 Hz0_2 Hz0_3 Hz0_4 Hz0_5 Hz0_6 Hz0_7 Hz1_0 Hz1_1 Hz1_2 Hz1_3 Hz1_4 Hz1_5 Hz1_6 Hz1_7 Hz2_0 Hz2_1 Hz2_2 Hz2_3 Hz2_4 Hz2_5 Hz2_6 Hz2_7 Hz3_0 Hz3_1 Hz3_2 Hz3_3 Hz3_4 Hz3_5 Hz3_6 Hz3_7]
  · isplitl [Hs0_0 Hs0_1 Hs0_2 Hs0_3 Hs0_4 Hs0_5 Hs0_6 Hs0_7 Hs1_0 Hs1_1 Hs1_2 Hs1_3 Hs1_4 Hs1_5 Hs1_6 Hs1_7 Hs2_0 Hs2_1 Hs2_2 Hs2_3 Hs2_4 Hs2_5 Hs2_6 Hs2_7 Hs3_0 Hs3_1 Hs3_2 Hs3_3 Hs3_4 Hs3_5 Hs3_6 Hs3_7]
    · isplitl [Hs0_0 Hs0_1 Hs0_2 Hs0_3 Hs0_4 Hs0_5 Hs0_6 Hs0_7]
      ·
        iapply (join_ys (F := F) c); rw [bigSep_fin8]
        isplitl [Hs0_0]; · iexact Hs0_0
        isplitl [Hs0_1]; · iexact Hs0_1
        isplitl [Hs0_2]; · iexact Hs0_2
        isplitl [Hs0_3]; · iexact Hs0_3
        isplitl [Hs0_4]; · iexact Hs0_4
        isplitl [Hs0_5]; · iexact Hs0_5
        isplitl [Hs0_6]; · iexact Hs0_6
        iexact Hs0_7
      isplitl [Hs1_0 Hs1_1 Hs1_2 Hs1_3 Hs1_4 Hs1_5 Hs1_6 Hs1_7]
      ·
        iapply (join_yr (F := F) c); rw [bigSep_fin8]
        isplitl [Hs1_0]; · iexact Hs1_0
        isplitl [Hs1_1]; · iexact Hs1_1
        isplitl [Hs1_2]; · iexact Hs1_2
        isplitl [Hs1_3]; · iexact Hs1_3
        isplitl [Hs1_4]; · iexact Hs1_4
        isplitl [Hs1_5]; · iexact Hs1_5
        isplitl [Hs1_6]; · iexact Hs1_6
        iexact Hs1_7
      isplitl [Hs2_0 Hs2_1 Hs2_2 Hs2_3 Hs2_4 Hs2_5 Hs2_6 Hs2_7]
      ·
        iapply (join_xs (F := F) c); rw [bigSep_fin8]
        isplitl [Hs2_0]; · iexact Hs2_0
        isplitl [Hs2_1]; · iexact Hs2_1
        isplitl [Hs2_2]; · iexact Hs2_2
        isplitl [Hs2_3]; · iexact Hs2_3
        isplitl [Hs2_4]; · iexact Hs2_4
        isplitl [Hs2_5]; · iexact Hs2_5
        isplitl [Hs2_6]; · iexact Hs2_6
        iexact Hs2_7
      iapply (join_xr (F := F) c); rw [bigSep_fin8]
      isplitl [Hs3_0]; · iexact Hs3_0
      isplitl [Hs3_1]; · iexact Hs3_1
      isplitl [Hs3_2]; · iexact Hs3_2
      isplitl [Hs3_3]; · iexact Hs3_3
      isplitl [Hs3_4]; · iexact Hs3_4
      isplitl [Hs3_5]; · iexact Hs3_5
      isplitl [Hs3_6]; · iexact Hs3_6
      iexact Hs3_7
    · isplitl [Hz0_0 Hz0_1 Hz0_2 Hz0_3 Hz0_4 Hz0_5 Hz0_6 Hz0_7]
      ·
        isplitl [Hz0_0]; · iexact Hz0_0
        isplitl [Hz0_1]; · iexact Hz0_1
        isplitl [Hz0_2]; · iexact Hz0_2
        isplitl [Hz0_3]; · iexact Hz0_3
        isplitl [Hz0_4]; · iexact Hz0_4
        isplitl [Hz0_5]; · iexact Hz0_5
        isplitl [Hz0_6]; · iexact Hz0_6
        iexact Hz0_7
      isplitl [Hz1_0 Hz1_1 Hz1_2 Hz1_3 Hz1_4 Hz1_5 Hz1_6 Hz1_7]
      ·
        isplitl [Hz1_0]; · iexact Hz1_0
        isplitl [Hz1_1]; · iexact Hz1_1
        isplitl [Hz1_2]; · iexact Hz1_2
        isplitl [Hz1_3]; · iexact Hz1_3
        isplitl [Hz1_4]; · iexact Hz1_4
        isplitl [Hz1_5]; · iexact Hz1_5
        isplitl [Hz1_6]; · iexact Hz1_6
        iexact Hz1_7
      isplitl [Hz2_0 Hz2_1 Hz2_2 Hz2_3 Hz2_4 Hz2_5 Hz2_6 Hz2_7]
      ·
        isplitl [Hz2_0]; · iexact Hz2_0
        isplitl [Hz2_1]; · iexact Hz2_1
        isplitl [Hz2_2]; · iexact Hz2_2
        isplitl [Hz2_3]; · iexact Hz2_3
        isplitl [Hz2_4]; · iexact Hz2_4
        isplitl [Hz2_5]; · iexact Hz2_5
        isplitl [Hz2_6]; · iexact Hz2_6
        iexact Hz2_7
      isplitl [Hz3_0]; · iexact Hz3_0
      isplitl [Hz3_1]; · iexact Hz3_1
      isplitl [Hz3_2]; · iexact Hz3_2
      isplitl [Hz3_3]; · iexact Hz3_3
      isplitl [Hz3_4]; · iexact Hz3_4
      isplitl [Hz3_5]; · iexact Hz3_5
      isplitl [Hz3_6]; · iexact Hz3_6
      iexact Hz3_7
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

/-! ## The body lemma -/

theorem sound_of_core (h : CoreBody (F := F) m) : SoundBody m ρ := fun K c Kt => by
  refine BIBase.Entails.trans ?_ (wp_fupd frame (wpE (defs₀ (F := F)) 𝒱₀ c none) Set.univ (theBody (F := F)) Kt)
  iintro ⟨Hpre, Hk⟩
  ihave Hc := (pre_to_core m ρ K c) $$ Hpre
  icases Hc with ⟨%W, %g0, %f0, %f1, %f2, %f3, #Hrec, Hcore⟩
  iapply (h K c W g0 f0 f1 f2 f3 (fun a => iprop(|={Set.univ}=> Kt a)))
  isplitl [Hcore]; · iexact Hcore
  iintro Hpost
  imod (post_of_core m ρ K c) $$ [Hpost] with Hb
  · isplitr; · iexact Hrec
    iexact Hpost
  imodintro
  iapply Hk; iexact Hb

/-- info: 'Cert.KernelIdealProof.sound_of_core' depends on axioms: [propext, Classical.choice, Quot.sound] -/
#guard_msgs in #print axioms sound_of_core

end Cert.KernelIdealProof

end
-- ==== Proof.KernelIdeal.SoundBody.lean ====
/-
  The body lemma: the run of the body, regrouped into the form the pipeline's obligation asks for.
-/
import proofs.«900475_g7700000000000476_dist_rsdw_v7x_xy2x2_y_m1024_d1024_f4096_bf16_1_alg».proof.Proof.KernelIdeal.Body
import proofs.«900475_g7700000000000476_dist_rsdw_v7x_xy2x2_y_m1024_d1024_f4096_bf16_1_alg».proof.Proof.KernelIdeal.Sound

noncomputable section

namespace Cert.KernelIdealProof

open Cert.KernelIdeal Cert.KernelIdeal.Gen Cert.KernelIdeal.Vals
open Idealize.ShloMosaic Idealize.ShloMosaic.TcCoe Idealize.SL.Sem

variable {F : FTy → Type} [FloatOps F]

variable (m : (ℓ : Loc nD τ sig) → Buf (Elt F) ℓ) (ρ : Dev nD → PrngReg)

theorem sound_body : SoundBody (F := F) m ρ := sound_of_core m ρ (body_core m)

/-- info: 'Cert.KernelIdealProof.sound_body' depends on axioms: [propext, Classical.choice, Quot.sound] -/
#guard_msgs in #print axioms sound_body

end Cert.KernelIdealProof

end
-- ==== Proof.Kernel.Steps.lean ====
/-
  The steps of one device's run that talk to its neighbours, each stated once over the device and the chunk:
  the transfer of chunk `k` to the y-neighbour and to the x-neighbour, and the wait on one of the device's own DMA cells.
  What the neighbours are owed is kept as `Oxy c i j`: the arrivals of chunks `i … 7` at the x-neighbour and of chunks
  `j … 7` at the y-neighbour; a transfer takes its own arrival off it.
-/
import proofs.«900475_g7700000000000476_dist_rsdw_v7x_xy2x2_y_m1024_d1024_f4096_bf16_1_alg».proof.Proof.Kernel.Ghost

noncomputable section

set_option maxRecDepth 16384
namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program's names for the 32 DMA semaphores -/

theorem sem_0_0 : ((cc0_scratch4.slice (Rect.unit (s := S8) ![0] S1.size inb_S8_S1_0)).squeeze S_ squeezes_S1_S_).sem = qS 0 0 := by decide
theorem sem_0_1 : ((cc0_scratch4.slice (Rect.unit (s := S8) ![1] S1.size inb_S8_S1_1)).squeeze S_ squeezes_S1_S_).sem = qS 0 1 := by decide
theorem sem_0_2 : ((cc0_scratch4.slice (Rect.unit (s := S8) ![2] S1.size inb_S8_S1_2)).squeeze S_ squeezes_S1_S_).sem = qS 0 2 := by decide
theorem sem_0_3 : ((cc0_scratch4.slice (Rect.unit (s := S8) ![3] S1.size inb_S8_S1_3)).squeeze S_ squeezes_S1_S_).sem = qS 0 3 := by decide
theorem sem_0_4 : ((cc0_scratch4.slice (Rect.unit (s := S8) ![4] S1.size inb_S8_S1_4)).squeeze S_ squeezes_S1_S_).sem = qS 0 4 := by decide
theorem sem_0_5 : ((cc0_scratch4.slice (Rect.unit (s := S8) ![5] S1.size inb_S8_S1_5)).squeeze S_ squeezes_S1_S_).sem = qS 0 5 := by decide
theorem sem_0_6 : ((cc0_scratch4.slice (Rect.unit (s := S8) ![6] S1.size inb_S8_S1_6)).squeeze S_ squeezes_S1_S_).sem = qS 0 6 := by decide
theorem sem_0_7 : ((cc0_scratch4.slice (Rect.unit (s := S8) ![7] S1.size inb_S8_S1_7)).squeeze S_ squeezes_S1_S_).sem = qS 0 7 := by decide
theorem sem_1_0 : ((cc0_scratch5.slice (Rect.unit (s := S8) ![0] S1.size inb_S8_S1_0)).squeeze S_ squeezes_S1_S_).sem = qS 1 0 := by decide
theorem sem_1_1 : ((cc0_scratch5.slice (Rect.unit (s := S8) ![1] S1.size inb_S8_S1_1)).squeeze S_ squeezes_S1_S_).sem = qS 1 1 := by decide
theorem sem_1_2 : ((cc0_scratch5.slice (Rect.unit (s := S8) ![2] S1.size inb_S8_S1_2)).squeeze S_ squeezes_S1_S_).sem = qS 1 2 := by decide
theorem sem_1_3 : ((cc0_scratch5.slice (Rect.unit (s := S8) ![3] S1.size inb_S8_S1_3)).squeeze S_ squeezes_S1_S_).sem = qS 1 3 := by decide
theorem sem_1_4 : ((cc0_scratch5.slice (Rect.unit (s := S8) ![4] S1.size inb_S8_S1_4)).squeeze S_ squeezes_S1_S_).sem = qS 1 4 := by decide
theorem sem_1_5 : ((cc0_scratch5.slice (Rect.unit (s := S8) ![5] S1.size inb_S8_S1_5)).squeeze S_ squeezes_S1_S_).sem = qS 1 5 := by decide
theorem sem_1_6 : ((cc0_scratch5.slice (Rect.unit (s := S8) ![6] S1.size inb_S8_S1_6)).squeeze S_ squeezes_S1_S_).sem = qS 1 6 := by decide
theorem sem_1_7 : ((cc0_scratch5.slice (Rect.unit (s := S8) ![7] S1.size inb_S8_S1_7)).squeeze S_ squeezes_S1_S_).sem = qS 1 7 := by decide
theorem sem_2_0 : ((cc0_scratch6.slice (Rect.unit (s := S8) ![0] S1.size inb_S8_S1_0)).squeeze S_ squeezes_S1_S_).sem = qS 2 0 := by decide
theorem sem_2_1 : ((cc0_scratch6.slice (Rect.unit (s := S8) ![1] S1.size inb_S8_S1_1)).squeeze S_ squeezes_S1_S_).sem = qS 2 1 := by decide
theorem sem_2_2 : ((cc0_scratch6.slice (Rect.unit (s := S8) ![2] S1.size inb_S8_S1_2)).squeeze S_ squeezes_S1_S_).sem = qS 2 2 := by decide
theorem sem_2_3 : ((cc0_scratch6.slice (Rect.unit (s := S8) ![3] S1.size inb_S8_S1_3)).squeeze S_ squeezes_S1_S_).sem = qS 2 3 := by decide
theorem sem_2_4 : ((cc0_scratch6.slice (Rect.unit (s := S8) ![4] S1.size inb_S8_S1_4)).squeeze S_ squeezes_S1_S_).sem = qS 2 4 := by decide
theorem sem_2_5 : ((cc0_scratch6.slice (Rect.unit (s := S8) ![5] S1.size inb_S8_S1_5)).squeeze S_ squeezes_S1_S_).sem = qS 2 5 := by decide
theorem sem_2_6 : ((cc0_scratch6.slice (Rect.unit (s := S8) ![6] S1.size inb_S8_S1_6)).squeeze S_ squeezes_S1_S_).sem = qS 2 6 := by decide
theorem sem_2_7 : ((cc0_scratch6.slice (Rect.unit (s := S8) ![7] S1.size inb_S8_S1_7)).squeeze S_ squeezes_S1_S_).sem = qS 2 7 := by decide
theorem sem_3_0 : ((cc0_scratch7.slice (Rect.unit (s := S8) ![0] S1.size inb_S8_S1_0)).squeeze S_ squeezes_S1_S_).sem = qS 3 0 := by decide
theorem sem_3_1 : ((cc0_scratch7.slice (Rect.unit (s := S8) ![1] S1.size inb_S8_S1_1)).squeeze S_ squeezes_S1_S_).sem = qS 3 1 := by decide
theorem sem_3_2 : ((cc0_scratch7.slice (Rect.unit (s := S8) ![2] S1.size inb_S8_S1_2)).squeeze S_ squeezes_S1_S_).sem = qS 3 2 := by decide
theorem sem_3_3 : ((cc0_scratch7.slice (Rect.unit (s := S8) ![3] S1.size inb_S8_S1_3)).squeeze S_ squeezes_S1_S_).sem = qS 3 3 := by decide
theorem sem_3_4 : ((cc0_scratch7.slice (Rect.unit (s := S8) ![4] S1.size inb_S8_S1_4)).squeeze S_ squeezes_S1_S_).sem = qS 3 4 := by decide
theorem sem_3_5 : ((cc0_scratch7.slice (Rect.unit (s := S8) ![5] S1.size inb_S8_S1_5)).squeeze S_ squeezes_S1_S_).sem = qS 3 5 := by decide
theorem sem_3_6 : ((cc0_scratch7.slice (Rect.unit (s := S8) ![6] S1.size inb_S8_S1_6)).squeeze S_ squeezes_S1_S_).sem = qS 3 6 := by decide
theorem sem_3_7 : ((cc0_scratch7.slice (Rect.unit (s := S8) ![7] S1.size inb_S8_S1_7)).squeeze S_ squeezes_S1_S_).sem = qS 3 7 := by decide

/-! ## The schedule's tables with the payloads spelt out -/

/-! The schedule's tables with the entry on the left and the payloads spelt out. -/
theorem tb_duties_bar (c : Dev nD) : (sched (F := F) m).duties (barCell c) 0 = Finset.univ := duties_bar m c
theorem tb_duties_q (c : Dev nD) (a : Fin 4) (k : Fin 8) : (sched (F := F) m).duties (qCell a k c) 0 = {false} := duties_q m c a k
theorem tb_amount_bar (c : Dev nD) (d : Bool) : (sched (F := F) m).amount (barCell c) 0 d = 1 := amount_bar m c d
theorem tb_amount_q (c : Dev nD) (a : Fin 4) (k : Fin 8) (d : Bool) : (sched (F := F) m).amount (qCell a k c) 0 d = Ncr := amount_q m c a k d
theorem tb_expect_bar (c : Dev nD) : (sched (F := F) m).expect (barCell c) 0 = 2 := expect_bar m c
theorem tb_expect_q (c : Dev nD) (a : Fin 4) (k : Fin 8) : (sched (F := F) m).expect (qCell a k c) 0 = Ncr := expect_q m c a k
theorem tb_pay_bar_false_px (c : Dev nD) : (sched (F := F) m).payload (barCell (pX c)) 0 false = iprop((∃ f, ((slotOf xrM 0).view.loc ((c : Dev nD) : Thread nD τ) ↦[(slotOf xrM 0).view.set]{fullShare} f)) ∗ (∃ f, ((slotOf xrM 1).view.loc ((c : Dev nD) : Thread nD τ) ↦[(slotOf xrM 1).view.set]{fullShare} f)) ∗ (∃ f, ((slotOf xrM 2).view.loc ((c : Dev nD) : Thread nD τ) ↦[(slotOf xrM 2).view.set]{fullShare} f)) ∗ (∃ f, ((slotOf xrM 3).view.loc ((c : Dev nD) : Thread nD τ) ↦[(slotOf xrM 3).view.set]{fullShare} f)) ∗ (∃ f, ((slotOf xrM 4).view.loc ((c : Dev nD) : Thread nD τ) ↦[(slotOf xrM 4).view.set]{fullShare} f)) ∗ (∃ f, ((slotOf xrM 5).view.loc ((c : Dev nD) : Thread nD τ) ↦[(slotOf xrM 5).view.set]{fullShare} f)) ∗ (∃ f, ((slotOf xrM 6).view.loc ((c : Dev nD) : Thread nD τ) ↦[(slotOf xrM 6).view.set]{fullShare} f)) ∗ (∃ f, ((slotOf xrM 7).view.loc ((c : Dev nD) : Thread nD τ) ↦[(slotOf xrM 7).view.set]{fullShare} f))) := by
  rw [payload_bar_false, pX_pX]; unfold slotsAny slotAny
  rw [bigSep_univ_eq_bigSepL [0, 1, 2, 3, 4, 5, 6, 7] (by decide) (by decide)]; rfl
theorem tb_pay_bar_true_py (c : Dev nD) : (sched (F := F) m).payload (barCell (pY c)) 0 true = iprop((∃ f, ((slotOf yrM 0).view.loc ((c : Dev nD) : Thread nD τ) ↦[(slotOf yrM 0).view.set]{fullShare} f)) ∗ (∃ f, ((slotOf yrM 1).view.loc ((c : Dev nD) : Thread nD τ) ↦[(slotOf yrM 1).view.set]{fullShare} f)) ∗ (∃ f, ((slotOf yrM 2).view.loc ((c : Dev nD) : Thread nD τ) ↦[(slotOf yrM 2).view.set]{fullShare} f)) ∗ (∃ f, ((slotOf yrM 3).view.loc ((c : Dev nD) : Thread nD τ) ↦[(slotOf yrM 3).view.set]{fullShare} f)) ∗ (∃ f, ((slotOf yrM 4).view.loc ((c : Dev nD) : Thread nD τ) ↦[(slotOf yrM 4).view.set]{fullShare} f)) ∗ (∃ f, ((slotOf yrM 5).view.loc ((c : Dev nD) : Thread nD τ) ↦[(slotOf yrM 5).view.set]{fullShare} f)) ∗ (∃ f, ((slotOf yrM 6).view.loc ((c : Dev nD) : Thread nD τ) ↦[(slotOf yrM 6).view.set]{fullShare} f)) ∗ (∃ f, ((slotOf yrM 7).view.loc ((c : Dev nD) : Thread nD τ) ↦[(slotOf yrM 7).view.set]{fullShare} f))) := by
  rw [payload_bar_true, pY_pY]; unfold slotsAny slotAny
  rw [bigSep_univ_eq_bigSepL [0, 1, 2, 3, 4, 5, 6, 7] (by decide) (by decide)]; rfl
theorem tb_pay_bar_false (c : Dev nD) : (sched (F := F) m).payload (barCell c) 0 false = iprop((∃ f, ((slotOf xrM 0).view.loc ((pX c : Dev nD) : Thread nD τ) ↦[(slotOf xrM 0).view.set]{fullShare} f)) ∗ (∃ f, ((slotOf xrM 1).view.loc ((pX c : Dev nD) : Thread nD τ) ↦[(slotOf xrM 1).view.set]{fullShare} f)) ∗ (∃ f, ((slotOf xrM 2).view.loc ((pX c : Dev nD) : Thread nD τ) ↦[(slotOf xrM 2).view.set]{fullShare} f)) ∗ (∃ f, ((slotOf xrM 3).view.loc ((pX c : Dev nD) : Thread nD τ) ↦[(slotOf xrM 3).view.set]{fullShare} f)) ∗ (∃ f, ((slotOf xrM 4).view.loc ((pX c : Dev nD) : Thread nD τ) ↦[(slotOf xrM 4).view.set]{fullShare} f)) ∗ (∃ f, ((slotOf xrM 5).view.loc ((pX c : Dev nD) : Thread nD τ) ↦[(slotOf xrM 5).view.set]{fullShare} f)) ∗ (∃ f, ((slotOf xrM 6).view.loc ((pX c : Dev nD) : Thread nD τ) ↦[(slotOf xrM 6).view.set]{fullShare} f)) ∗ (∃ f, ((slotOf xrM 7).view.loc ((pX c : Dev nD) : Thread nD τ) ↦[(slotOf xrM 7).view.set]{fullShare} f))) := by
  rw [payload_bar_false]; unfold slotsAny slotAny
  rw [bigSep_univ_eq_bigSepL [0, 1, 2, 3, 4, 5, 6, 7] (by decide) (by decide)]; rfl
theorem tb_pay_bar_true (c : Dev nD) : (sched (F := F) m).payload (barCell c) 0 true = iprop((∃ f, ((slotOf yrM 0).view.loc ((pY c : Dev nD) : Thread nD τ) ↦[(slotOf yrM 0).view.set]{fullShare} f)) ∗ (∃ f, ((slotOf yrM 1).view.loc ((pY c : Dev nD) : Thread nD τ) ↦[(slotOf yrM 1).view.set]{fullShare} f)) ∗ (∃ f, ((slotOf yrM 2).view.loc ((pY c : Dev nD) : Thread nD τ) ↦[(slotOf yrM 2).view.set]{fullShare} f)) ∗ (∃ f, ((slotOf yrM 3).view.loc ((pY c : Dev nD) : Thread nD τ) ↦[(slotOf yrM 3).view.set]{fullShare} f)) ∗ (∃ f, ((slotOf yrM 4).view.loc ((pY c : Dev nD) : Thread nD τ) ↦[(slotOf yrM 4).view.set]{fullShare} f)) ∗ (∃ f, ((slotOf yrM 5).view.loc ((pY c : Dev nD) : Thread nD τ) ↦[(slotOf yrM 5).view.set]{fullShare} f)) ∗ (∃ f, ((slotOf yrM 6).view.loc ((pY c : Dev nD) : Thread nD τ) ↦[(slotOf yrM 6).view.set]{fullShare} f)) ∗ (∃ f, ((slotOf yrM 7).view.loc ((pY c : Dev nD) : Thread nD τ) ↦[(slotOf yrM 7).view.set]{fullShare} f))) := by
  rw [payload_bar_true]; unfold slotsAny slotAny
  rw [bigSep_univ_eq_bigSepL [0, 1, 2, 3, 4, 5, 6, 7] (by decide) (by decide)]; rfl
theorem tb_pay_q0 (c : Dev nD) (k : Fin 8) (d : Bool) : (sched (F := F) m).payload (qCell 0 k c) 0 d = iprop(∃ f, ((slotOf ysM k).view.loc ((c : Dev nD) : Thread nD τ) ↦[(slotOf ysM k).view.set]{fullShare} f)) := by
  rw [payload_q]; rfl
theorem tb_pay_q2 (c : Dev nD) (k : Fin 8) (d : Bool) : (sched (F := F) m).payload (qCell 2 k c) 0 d = iprop(∃ f, ((slotOf xsM k).view.loc ((c : Dev nD) : Thread nD τ) ↦[(slotOf xsM k).view.set]{fullShare} f)) := by
  rw [payload_q]; rfl
theorem tb_pay_q1 (c : Dev nD) (k : Fin 8) (d : Bool) : (sched (F := F) m).payload (qCell 1 k c) 0 d = iprop(∃ f, ((slotOf yrM k).view.loc ((c : Dev nD) : Thread nD τ) ↦[(slotOf yrM k).view.set]{fullShare} f) ∗ ⌜(slotOf yrM k).view.read (Elt F) f = shapeCast S512x256 (partY m (pY c) k) shapeCasts_S1x512x256_S512x256⌝) := by
  rw [payload_q]; rfl
theorem tb_pay_q3 (c : Dev nD) (k : Fin 8) (d : Bool) : (sched (F := F) m).payload (qCell 3 k c) 0 d = iprop(∃ f, ((slotOf xrM k).view.loc ((c : Dev nD) : Thread nD τ) ↦[(slotOf xrM k).view.set]{fullShare} f) ∗ ⌜(slotOf xrM k).view.read (Elt F) f = shapeCast S512x256 (partX m (pX c) k) shapeCasts_S1x512x256_S512x256⌝) := by
  rw [payload_q]; rfl
theorem tb_pay_q1_py (c : Dev nD) (k : Fin 8) (d : Bool) : (sched (F := F) m).payload (qCell 1 k (pY c)) 0 d = iprop(∃ f, ((slotOf yrM k).view.loc ((pY c : Dev nD) : Thread nD τ) ↦[(slotOf yrM k).view.set]{fullShare} f) ∗ ⌜(slotOf yrM k).view.read (Elt F) f = shapeCast S512x256 (partY m c k) shapeCasts_S1x512x256_S512x256⌝) := by
  rw [payload_q]; unfold payQ slotIs; rw [pY_pY]
theorem tb_pay_q3_px (c : Dev nD) (k : Fin 8) (d : Bool) : (sched (F := F) m).payload (qCell 3 k (pX c)) 0 d = iprop(∃ f, ((slotOf xrM k).view.loc ((pX c : Dev nD) : Thread nD τ) ↦[(slotOf xrM k).view.set]{fullShare} f) ∗ ⌜(slotOf xrM k).view.read (Elt F) f = shapeCast S512x256 (partX m c k) shapeCasts_S1x512x256_S512x256⌝) := by
  rw [payload_q]; unfold payQ slotIs; rw [pX_pX]

/-! ## Peeling what is owed; the barrier round's rest spelt out -/

theorem Oxy_stepY (c : Dev nD) (i j : ℕ) (h : j < 8) : Oxy c i j = Oxy c i (j + 1) + tallyAt (qCell 1 ⟨j, h⟩ (pY c)) () Ncr := by
  unfold Oxy; rw [owedFrom_step (tY c) j h, ← add_assoc]; rfl
theorem Oxy_stepX (c : Dev nD) (i j : ℕ) (h : i < 8) : Oxy c i j = Oxy c (i + 1) j + tallyAt (qCell 3 ⟨i, h⟩ (pX c)) () Ncr := by
  unfold Oxy; rw [owedFrom_step (tX c) i h, add_right_comm]; rfl
theorem Oxy_done (c : Dev nD) : Oxy c 8 8 = 0 := by
  unfold Oxy; rw [owedFrom_end _ 8 (le_refl _), owedFrom_end _ 8 (le_refl _), add_zero]

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The rest of the barrier cell's round, spelt out: the x-neighbour's eight receive slots, then the y-neighbour's. -/
theorem rest_bar16 (c : Dev nD) : bigSep ((sched (F := F) m).duties (barCell c) 0 \ ∅) (fun d => (sched (F := F) m).payload (barCell c) 0 d)
    = iprop(((∃ f, ((slotOf xrM 0).view.loc ((pX c : Dev nD) : Thread nD τ) ↦[(slotOf xrM 0).view.set]{fullShare} f)) ∗ (∃ f, ((slotOf xrM 1).view.loc ((pX c : Dev nD) : Thread nD τ) ↦[(slotOf xrM 1).view.set]{fullShare} f)) ∗ (∃ f, ((slotOf xrM 2).view.loc ((pX c : Dev nD) : Thread nD τ) ↦[(slotOf xrM 2).view.set]{fullShare} f)) ∗ (∃ f, ((slotOf xrM 3).view.loc ((pX c : Dev nD) : Thread nD τ) ↦[(slotOf xrM 3).view.set]{fullShare} f)) ∗ (∃ f, ((slotOf xrM 4).view.loc ((pX c : Dev nD) : Thread nD τ) ↦[(slotOf xrM 4).view.set]{fullShare} f)) ∗ (∃ f, ((slotOf xrM 5).view.loc ((pX c : Dev nD) : Thread nD τ) ↦[(slotOf xrM 5).view.set]{fullShare} f)) ∗ (∃ f, ((slotOf xrM 6).view.loc ((pX c : Dev nD) : Thread nD τ) ↦[(slotOf xrM 6).view.set]{fullShare} f)) ∗ (∃ f, ((slotOf xrM 7).view.loc ((pX c : Dev nD) : Thread nD τ) ↦[(slotOf xrM 7).view.set]{fullShare} f))) ∗ ((∃ f, ((slotOf yrM 0).view.loc ((pY c : Dev nD) : Thread nD τ) ↦[(slotOf yrM 0).view.set]{fullShare} f)) ∗ (∃ f, ((slotOf yrM 1).view.loc ((pY c : Dev nD) : Thread nD τ) ↦[(slotOf yrM 1).view.set]{fullShare} f)) ∗ (∃ f, ((slotOf yrM 2).view.loc ((pY c : Dev nD) : Thread nD τ) ↦[(slotOf yrM 2).view.set]{fullShare} f)) ∗ (∃ f, ((slotOf yrM 3).view.loc ((pY c : Dev nD) : Thread nD τ) ↦[(slotOf yrM 3).view.set]{fullShare} f)) ∗ (∃ f, ((slotOf yrM 4).view.loc ((pY c : Dev nD) : Thread nD τ) ↦[(slotOf yrM 4).view.set]{fullShare} f)) ∗ (∃ f, ((slotOf yrM 5).view.loc ((pY c : Dev nD) : Thread nD τ) ↦[(slotOf yrM 5).view.set]{fullShare} f)) ∗ (∃ f, ((slotOf yrM 6).view.loc ((pY c : Dev nD) : Thread nD τ) ↦[(slotOf yrM 6).view.set]{fullShare} f)) ∗ (∃ f, ((slotOf yrM 7).view.loc ((pY c : Dev nD) : Thread nD τ) ↦[(slotOf yrM 7).view.set]{fullShare} f)))) := by
  rw [rest_bar]; unfold slotsAny slotAny; rw [bigSep_fin8, bigSep_fin8]

/-! ## Reading a slot -/

/-- A slot read through the transfers' view is the [1, 512, 256] tile the body's loads read there, without its unit axis. -/
theorem slot_read (M : Memref sig .tc .vmem S8x512x256 .bf16) (k : Fin 8) (f : M.view.ty.Contents (Elt F)) :
    (slotOf M k).view.read (Elt F) f
      = shapeCast S512x256 (M.view.readAt (Elt F) (slotR k).toLoadRect f) shapeCasts_S1x512x256_S512x256 := rfl

/-- A slot stored whole through the buffer's access at its rectangle reads back, through the transfers' view, as the tile stored. -/
theorem slot_read_write (M : Memref sig .tc .vmem S8x512x256 .bf16) (k : Fin 8) {off : Fin 3 → Nat} (hoff : off = slotOff k)
    (inb : ∀ a, off a + S1x512x256.size a ≤ S8x512x256.size a) (f : M.view.ty.Contents (Elt F)) (w : Vec F S1x512x256 .bf16) :
    (slotOf M k).view.read (Elt F) (View.write (Elt F) (M.access (Rect.unit (s := S8x512x256) off S1x512x256.size inb)) f w Finset.univ)
      = shapeCast S512x256 w shapeCasts_S1x512x256_S512x256 := by
  subst hoff
  rw [slot_read]
  exact congrArg (fun v => shapeCast S512x256 v shapeCasts_S1x512x256_S512x256) (View.read_write_univ _ _)

/-- The sum with a received tile depends on the tile only through its recast without the unit axis. -/
theorem sumY_congr (xk : Vec F S1024x512 .f32) (dy : Vec F S1024x256 .f32) (yr yr' : Vec F S1x512x256 .bf16)
    (h : shapeCast S512x256 yr shapeCasts_S1x512x256_S512x256 = shapeCast S512x256 yr' shapeCasts_S1x512x256_S512x256) :
    sumY xk dy yr = sumY xk dy yr' := by
  unfold sumY; rw [h]
theorem recvX_congr (xr xr' : Vec F S1x512x256 .bf16)
    (h : shapeCast S512x256 xr shapeCasts_S1x512x256_S512x256 = shapeCast S512x256 xr' shapeCasts_S1x512x256_S512x256) :
    recvX xr = recvX xr' := by
  unfold recvX; rw [h]
theorem zero_above (b : ℕ) : ∀ (g : GSem nD τ sig) (u : Unit), 0 < (0 : CellTallies nD τ sig Unit) g u → g.1.2 = .tc ∧ b < lv g u :=
  fun g u h => absurd h (Nat.lt_irrefl 0)

/-! ## The transfers -/

/-- The chunk-`k` transfer to the y-neighbour: it pays the departure duty of this device's send cell (handing the send slot
    back) and the arrival duty of the neighbour's receive cell (handing the receive slot over, holding what the send slot held). -/
theorem send_y (κ₁ κ₂ : ℕ) (c n : Dev nD) (hn : n = pY c) (k : Fin 8)
    {hsc : (slotOf yrM k : Memref sig (Dev.tc n : Thread nD τ).2.kind .vmem S512x256 .bf16).view.ref.isScScratch = false}
    {hsrc : (slotOf ysM k).view.WordExact} {hdst : (slotOf yrM k).view.WordExact}
    {hsem : DmaTarget.Typed .vmem (.dma (qS 1 k)) (.remote (Dev.tc n : Thread nD τ) (slotOf yrM k) (.dma (qS 0 k)) hsc)}
    {α : Type} {Q : α → sProp 𝕄} {kk : PUnit → Prog (TpuEff nD τ sig (Elt F) Λ₀ .tc) α}
    (fs : Buf (Elt F) ((slotOf ysM k).view.loc (c : Thread nD τ))) (fd : Buf (Elt F) ((slotOf yrM k).view.loc (pY c : Thread nD τ)))
    (hfs : (slotOf ysM k).view.read (Elt F) fs = shapeCast S512x256 (partY m c k) shapeCasts_S1x512x256_S512x256)
    (i j : ℕ) (hk : j = k.val) (W : Waits sig Unit) :
    iprop(cellInv ER (sched m) κ₁ (qCell 0 k c) ∗ cellInv ER (sched m) κ₂ (qCell 1 k (pY c))
        ∗ ((slotOf ysM k).view.loc (c : Thread nD τ) ↦[(slotOf ysM k).view.set]{fullShare} fs)
        ∗ ((slotOf yrM k).view.loc (pY c : Thread nD τ) ↦[(slotOf yrM k).view.set]{fullShare} fd)
        ∗ owes (c : Thread nD τ) (Oxy c i j) W
        ∗ dutyTok ER (qCell 0 k c) 0 false ∗ reached ER (qCell 0 k c) 0
        ∗ dutyTok ER (qCell 1 k (pY c)) 0 false ∗ reached ER (qCell 1 k (pY c)) 0)
      ⊢ iprop(((cred (tallyAt (qCell 0 k c) () Ncr) ∗ owes (c : Thread nD τ) (Oxy c i (j + 1)) W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotOf ysM k) (.remote (Dev.tc n : Thread nD τ) (slotOf yrM k) (.dma (qS 0 k)) hsc) (.dma (qS 1 k)) hsrc hdst hsem) kk) Q) := by
  subst hn; subst hk
  exact Rounds.wp_send_pointsTo 𝒱₀ ER (sched m) (c : Thread nD τ) none (κ₁ := κ₁) (κ₂ := κ₂)
    (r₁ := 0) (r₂ := 0) (d₁ := false) (d₂ := false) (fs := fs) (fd := fd)
    (by rw [duties_q]; exact Finset.mem_singleton_self _) (by rw [duties_q]; exact Finset.mem_singleton_self _)
    () () Ncr rfl (amount_q m c 0 k false) (amount_q m (pY c) 1 k false) (Oxy c i (k.val + 1)) (Oxy_stepY c i k.val k.isLt) (W := W)
    (by rw [tb_pay_q0]; iintro H; iexists _; iexact H)
    (by
      rw [tb_pay_q1_py]; iintro H; iexists _
      isplitl
      · iexact H
      · ipureintro; rw [View.read_write_univ]; exact hfs)

/-- The chunk-`k` transfer to the x-neighbour: it pays the departure duty of this device's send cell (handing the send slot
    back) and the arrival duty of the neighbour's receive cell (handing the receive slot over, holding what the send slot held). -/
theorem send_x (κ₁ κ₂ : ℕ) (c n : Dev nD) (hn : n = pX c) (k : Fin 8)
    {hsc : (slotOf xrM k : Memref sig (Dev.tc n : Thread nD τ).2.kind .vmem S512x256 .bf16).view.ref.isScScratch = false}
    {hsrc : (slotOf xsM k).view.WordExact} {hdst : (slotOf xrM k).view.WordExact}
    {hsem : DmaTarget.Typed .vmem (.dma (qS 3 k)) (.remote (Dev.tc n : Thread nD τ) (slotOf xrM k) (.dma (qS 2 k)) hsc)}
    {α : Type} {Q : α → sProp 𝕄} {kk : PUnit → Prog (TpuEff nD τ sig (Elt F) Λ₀ .tc) α}
    (fs : Buf (Elt F) ((slotOf xsM k).view.loc (c : Thread nD τ))) (fd : Buf (Elt F) ((slotOf xrM k).view.loc (pX c : Thread nD τ)))
    (hfs : (slotOf xsM k).view.read (Elt F) fs = shapeCast S512x256 (partX m c k) shapeCasts_S1x512x256_S512x256)
    (i j : ℕ) (hk : i = k.val) (W : Waits sig Unit) :
    iprop(cellInv ER (sched m) κ₁ (qCell 2 k c) ∗ cellInv ER (sched m) κ₂ (qCell 3 k (pX c))
        ∗ ((slotOf xsM k).view.loc (c : Thread nD τ) ↦[(slotOf xsM k).view.set]{fullShare} fs)
        ∗ ((slotOf xrM k).view.loc (pX c : Thread nD τ) ↦[(slotOf xrM k).view.set]{fullShare} fd)
        ∗ owes (c : Thread nD τ) (Oxy c i j) W
        ∗ dutyTok ER (qCell 2 k c) 0 false ∗ reached ER (qCell 2 k c) 0
        ∗ dutyTok ER (qCell 3 k (pX c)) 0 false ∗ reached ER (qCell 3 k (pX c)) 0)
      ⊢ iprop(((cred (tallyAt (qCell 2 k c) () Ncr) ∗ owes (c : Thread nD τ) (Oxy c (i + 1) j) W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotOf xsM k) (.remote (Dev.tc n : Thread nD τ) (slotOf xrM k) (.dma (qS 2 k)) hsc) (.dma (qS 3 k)) hsrc hdst hsem) kk) Q) := by
  subst hn; subst hk
  exact Rounds.wp_send_pointsTo 𝒱₀ ER (sched m) (c : Thread nD τ) none (κ₁ := κ₁) (κ₂ := κ₂)
    (r₁ := 0) (r₂ := 0) (d₁ := false) (d₂ := false) (fs := fs) (fd := fd)
    (by rw [duties_q]; exact Finset.mem_singleton_self _) (by rw [duties_q]; exact Finset.mem_singleton_self _)
    () () Ncr rfl (amount_q m c 2 k false) (amount_q m (pX c) 3 k false) (Oxy c (k.val + 1) j) (Oxy_stepX c k.val j k.isLt) (W := W)
    (by rw [tb_pay_q2]; iintro H; iexists _; iexact H)
    (by
      rw [tb_pay_q3_px]; iintro H; iexists _
      isplitl
      · iexact H
      · ipureintro; rw [View.read_write_univ]; exact hfs)

/-! ## The waits on the device's own DMA cells -/

/-- The wait for the whole of the one round of DMA cell (family `a`, chunk `k`): allowed while everything still owed sits
    on cells strictly above the cell's level; it hands the round's payload over. -/
theorem wait_q (κ : ℕ) (c : Dev nD) (a : Fin 4) (k : Fin 8) (O : CellTallies nD τ sig Unit) (W : Waits sig Unit)
    (hO : ∀ g u, 0 < O g u → g.1.2 = .tc ∧ lv (qCell a k c) () < lv g u)
    {α : Type} {Q : α → sProp 𝕄} {kk : PUnit → Prog (TpuEff nD τ sig (Elt F) Λ₀ .tc) α}
    {src dst : Memref sig .tc .vmem S512x256 .bf16} {hs : src.view.WordExact} {hd : dst.view.WordExact} :
    iprop(cellInv ER (sched m) κ (qCell a k c) ∗ cred (tallyAt (qCell a k c) () Ncr) ∗ owes (c : Thread nD τ) O W ∗ levAts L lv
        ∗ atPos ER (qCell a k c) 0 ∅ 0)
      ⊢ iprop(((owes (c : Thread nD τ) O (insert (SemLoc.dma (qS a k), ()) W) ∗ atPos ER (qCell a k c) (0 + 1) ∅ 0 ∗ payQ m c a k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (qS a k) src dst hs hd) kk) Q) := by
  iintro ⟨#HI, Hc, HO, #Hlev, Hat⟩ Hk
  iapply (Rounds.wp_wait_rest_token 𝒱₀ ER (sched m) (c : Thread nD τ) none (κ := κ)
      (wpE_waitDma2_eq 𝒱₀ (c : Thread nD τ) none Set.univ) (Set.mem_univ _) () (O := O) (W := W) (R := 0) (m := 0) (T := ∅)
      (by rw [Nat.zero_add, expect_q])) $$ [Hc HO Hat]
  · isplitr; · iexact HI
    isplitl [Hc]; · iexact Hc
    isplitl [HO]; · iexact HO
    isplitr
    · iapply (mayWait_cut c (.dma (qS a k)) (lv (qCell a k c) ()) O (le_refl _) hO); iexact Hlev
    iexact Hat
  iintro ⟨HO, Hat, -, Hpay⟩
  ihave Hp := (Entails.of_eq (rest_q m c a k)) $$ Hpay
  iapply Hk
  isplitl [HO]; · iexact HO
  isplitl [Hat]; · iexact Hat
  iexact Hp

end Cert.KernelProof

end
-- ==== Proof.Kernel.BodyStmt.lean ====
/-
  The statement of one device's run, spelt out hypothesis by hypothesis.

  `CorePre`: the invariants and reached-marks the steps use (its own 33 cells, both neighbours' barrier cells, the
  y-neighbour's eight y receive cells, the x-neighbour's eight x receive cells), its positions, the 34 tokens it pays, its
  17 credits, what it owes, the three staging buffers and the 32 slots of its four scratch buffers.
  `CorePost`: every own DMA cell's position after its one round, nothing owed, the input blocks as they were, the result
  block entry by entry, the 32 slots back over some contents.
-/
import proofs.«900475_g7700000000000476_dist_rsdw_v7x_xy2x2_y_m1024_d1024_f4096_bf16_1_alg».proof.Proof.Kernel.Steps
import proofs.«900475_g7700000000000476_dist_rsdw_v7x_xy2x2_y_m1024_d1024_f4096_bf16_1_alg».proof.Proof.Kernel.BodyDefs

noncomputable section

set_option maxRecDepth 16384
namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def CorePre (K : Dev nD × CIx → ℕ) (c : Dev nD) (W : Waits sig Unit) (g0 : Buf (Elt F) ((c : Thread nD τ).loc cc0_stg2_0))
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3)) : sProp 𝕄 :=
  iprop(cellInv ER (sched m) (K (c, none)) (barCell c)
    ∗ cellInv ER (sched m) (K (pX c, none)) (barCell (pX c))
    ∗ cellInv ER (sched m) (K (pY c, none)) (barCell (pY c))
    ∗ cellInv ER (sched m) (K (c, some (0, 0))) (qCell 0 0 c)
    ∗ cellInv ER (sched m) (K (c, some (0, 1))) (qCell 0 1 c)
    ∗ cellInv ER (sched m) (K (c, some (0, 2))) (qCell 0 2 c)
    ∗ cellInv ER (sched m) (K (c, some (0, 3))) (qCell 0 3 c)
    ∗ cellInv ER (sched m) (K (c, some (0, 4))) (qCell 0 4 c)
    ∗ cellInv ER (sched m) (K (c, some (0, 5))) (qCell 0 5 c)
    ∗ cellInv ER (sched m) (K (c, some (0, 6))) (qCell 0 6 c)
    ∗ cellInv ER (sched m) (K (c, some (0, 7))) (qCell 0 7 c)
    ∗ cellInv ER (sched m) (K (c, some (1, 0))) (qCell 1 0 c)
    ∗ cellInv ER (sched m) (K (c, some (1, 1))) (qCell 1 1 c)
    ∗ cellInv ER (sched m) (K (c, some (1, 2))) (qCell 1 2 c)
    ∗ cellInv ER (sched m) (K (c, some (1, 3))) (qCell 1 3 c)
    ∗ cellInv ER (sched m) (K (c, some (1, 4))) (qCell 1 4 c)
    ∗ cellInv ER (sched m) (K (c, some (1, 5))) (qCell 1 5 c)
    ∗ cellInv ER (sched m) (K (c, some (1, 6))) (qCell 1 6 c)
    ∗ cellInv ER (sched m) (K (c, some (1, 7))) (qCell 1 7 c)
    ∗ cellInv ER (sched m) (K (c, some (2, 0))) (qCell 2 0 c)
    ∗ cellInv ER (sched m) (K (c, some (2, 1))) (qCell 2 1 c)
    ∗ cellInv ER (sched m) (K (c, some (2, 2))) (qCell 2 2 c)
    ∗ cellInv ER (sched m) (K (c, some (2, 3))) (qCell 2 3 c)
    ∗ cellInv ER (sched m) (K (c, some (2, 4))) (qCell 2 4 c)
    ∗ cellInv ER (sched m) (K (c, some (2, 5))) (qCell 2 5 c)
    ∗ cellInv ER (sched m) (K (c, some (2, 6))) (qCell 2 6 c)
    ∗ cellInv ER (sched m) (K (c, some (2, 7))) (qCell 2 7 c)
    ∗ cellInv ER (sched m) (K (c, some (3, 0))) (qCell 3 0 c)
    ∗ cellInv ER (sched m) (K (c, some (3, 1))) (qCell 3 1 c)
    ∗ cellInv ER (sched m) (K (c, some (3, 2))) (qCell 3 2 c)
    ∗ cellInv ER (sched m) (K (c, some (3, 3))) (qCell 3 3 c)
    ∗ cellInv ER (sched m) (K (c, some (3, 4))) (qCell 3 4 c)
    ∗ cellInv ER (sched m) (K (c, some (3, 5))) (qCell 3 5 c)
    ∗ cellInv ER (sched m) (K (c, some (3, 6))) (qCell 3 6 c)
    ∗ cellInv ER (sched m) (K (c, some (3, 7))) (qCell 3 7 c)
    ∗ cellInv ER (sched m) (K (pY c, some (1, 0))) (qCell 1 0 (pY c))
    ∗ cellInv ER (sched m) (K (pY c, some (1, 1))) (qCell 1 1 (pY c))
    ∗ cellInv ER (sched m) (K (pY c, some (1, 2))) (qCell 1 2 (pY c))
    ∗ cellInv ER (sched m) (K (pY c, some (1, 3))) (qCell 1 3 (pY c))
    ∗ cellInv ER (sched m) (K (pY c, some (1, 4))) (qCell 1 4 (pY c))
    ∗ cellInv ER (sched m) (K (pY c, some (1, 5))) (qCell 1 5 (pY c))
    ∗ cellInv ER (sched m) (K (pY c, some (1, 6))) (qCell 1 6 (pY c))
    ∗ cellInv ER (sched m) (K (pY c, some (1, 7))) (qCell 1 7 (pY c))
    ∗ cellInv ER (sched m) (K (pX c, some (3, 0))) (qCell 3 0 (pX c))
    ∗ cellInv ER (sched m) (K (pX c, some (3, 1))) (qCell 3 1 (pX c))
    ∗ cellInv ER (sched m) (K (pX c, some (3, 2))) (qCell 3 2 (pX c))
    ∗ cellInv ER (sched m) (K (pX c, some (3, 3))) (qCell 3 3 (pX c))
    ∗ cellInv ER (sched m) (K (pX c, some (3, 4))) (qCell 3 4 (pX c))
    ∗ cellInv ER (sched m) (K (pX c, some (3, 5))) (qCell 3 5 (pX c))
    ∗ cellInv ER (sched m) (K (pX c, some (3, 6))) (qCell 3 6 (pX c))
    ∗ cellInv ER (sched m) (K (pX c, some (3, 7))) (qCell 3 7 (pX c))
    ∗ reached ER (barCell (pX c)) 0
    ∗ reached ER (barCell (pY c)) 0
    ∗ reached ER (qCell 0 0 c) 0
    ∗ reached ER (qCell 0 1 c) 0
    ∗ reached ER (qCell 0 2 c) 0
    ∗ reached ER (qCell 0 3 c) 0
    ∗ reached ER (qCell 0 4 c) 0
    ∗ reached ER (qCell 0 5 c) 0
    ∗ reached ER (qCell 0 6 c) 0
    ∗ reached ER (qCell 0 7 c) 0
    ∗ reached ER (qCell 2 0 c) 0
    ∗ reached ER (qCell 2 1 c) 0
    ∗ reached ER (qCell 2 2 c) 0
    ∗ reached ER (qCell 2 3 c) 0
    ∗ reached ER (qCell 2 4 c) 0
    ∗ reached ER (qCell 2 5 c) 0
    ∗ reached ER (qCell 2 6 c) 0
    ∗ reached ER (qCell 2 7 c) 0
    ∗ reached ER (qCell 1 0 (pY c)) 0
    ∗ reached ER (qCell 1 1 (pY c)) 0
    ∗ reached ER (qCell 1 2 (pY c)) 0
    ∗ reached ER (qCell 1 3 (pY c)) 0
    ∗ reached ER (qCell 1 4 (pY c)) 0
    ∗ reached ER (qCell 1 5 (pY c)) 0
    ∗ reached ER (qCell 1 6 (pY c)) 0
    ∗ reached ER (qCell 1 7 (pY c)) 0
    ∗ reached ER (qCell 3 0 (pX c)) 0
    ∗ reached ER (qCell 3 1 (pX c)) 0
    ∗ reached ER (qCell 3 2 (pX c)) 0
    ∗ reached ER (qCell 3 3 (pX c)) 0
    ∗ reached ER (qCell 3 4 (pX c)) 0
    ∗ reached ER (qCell 3 5 (pX c)) 0
    ∗ reached ER (qCell 3 6 (pX c)) 0
    ∗ reached ER (qCell 3 7 (pX c)) 0
    ∗ levAts L lv
    ∗ atPos ER (barCell c) 0 ∅ 0
    ∗ atPos ER (qCell 0 0 c) 0 ∅ 0
    ∗ atPos ER (qCell 0 1 c) 0 ∅ 0
    ∗ atPos ER (qCell 0 2 c) 0 ∅ 0
    ∗ atPos ER (qCell 0 3 c) 0 ∅ 0
    ∗ atPos ER (qCell 0 4 c) 0 ∅ 0
    ∗ atPos ER (qCell 0 5 c) 0 ∅ 0
    ∗ atPos ER (qCell 0 6 c) 0 ∅ 0
    ∗ atPos ER (qCell 0 7 c) 0 ∅ 0
    ∗ atPos ER (qCell 1 0 c) 0 ∅ 0
    ∗ atPos ER (qCell 1 1 c) 0 ∅ 0
    ∗ atPos ER (qCell 1 2 c) 0 ∅ 0
    ∗ atPos ER (qCell 1 3 c) 0 ∅ 0
    ∗ atPos ER (qCell 1 4 c) 0 ∅ 0
    ∗ atPos ER (qCell 1 5 c) 0 ∅ 0
    ∗ atPos ER (qCell 1 6 c) 0 ∅ 0
    ∗ atPos ER (qCell 1 7 c) 0 ∅ 0
    ∗ atPos ER (qCell 2 0 c) 0 ∅ 0
    ∗ atPos ER (qCell 2 1 c) 0 ∅ 0
    ∗ atPos ER (qCell 2 2 c) 0 ∅ 0
    ∗ atPos ER (qCell 2 3 c) 0 ∅ 0
    ∗ atPos ER (qCell 2 4 c) 0 ∅ 0
    ∗ atPos ER (qCell 2 5 c) 0 ∅ 0
    ∗ atPos ER (qCell 2 6 c) 0 ∅ 0
    ∗ atPos ER (qCell 2 7 c) 0 ∅ 0
    ∗ atPos ER (qCell 3 0 c) 0 ∅ 0
    ∗ atPos ER (qCell 3 1 c) 0 ∅ 0
    ∗ atPos ER (qCell 3 2 c) 0 ∅ 0
    ∗ atPos ER (qCell 3 3 c) 0 ∅ 0
    ∗ atPos ER (qCell 3 4 c) 0 ∅ 0
    ∗ atPos ER (qCell 3 5 c) 0 ∅ 0
    ∗ atPos ER (qCell 3 6 c) 0 ∅ 0
    ∗ atPos ER (qCell 3 7 c) 0 ∅ 0
    ∗ dutyTok ER (barCell (pX c)) 0 false
    ∗ dutyTok ER (barCell (pY c)) 0 true
    ∗ dutyTok ER (qCell 0 0 c) 0 false
    ∗ dutyTok ER (qCell 0 1 c) 0 false
    ∗ dutyTok ER (qCell 0 2 c) 0 false
    ∗ dutyTok ER (qCell 0 3 c) 0 false
    ∗ dutyTok ER (qCell 0 4 c) 0 false
    ∗ dutyTok ER (qCell 0 5 c) 0 false
    ∗ dutyTok ER (qCell 0 6 c) 0 false
    ∗ dutyTok ER (qCell 0 7 c) 0 false
    ∗ dutyTok ER (qCell 1 0 (pY c)) 0 false
    ∗ dutyTok ER (qCell 1 1 (pY c)) 0 false
    ∗ dutyTok ER (qCell 1 2 (pY c)) 0 false
    ∗ dutyTok ER (qCell 1 3 (pY c)) 0 false
    ∗ dutyTok ER (qCell 1 4 (pY c)) 0 false
    ∗ dutyTok ER (qCell 1 5 (pY c)) 0 false
    ∗ dutyTok ER (qCell 1 6 (pY c)) 0 false
    ∗ dutyTok ER (qCell 1 7 (pY c)) 0 false
    ∗ dutyTok ER (qCell 2 0 c) 0 false
    ∗ dutyTok ER (qCell 2 1 c) 0 false
    ∗ dutyTok ER (qCell 2 2 c) 0 false
    ∗ dutyTok ER (qCell 2 3 c) 0 false
    ∗ dutyTok ER (qCell 2 4 c) 0 false
    ∗ dutyTok ER (qCell 2 5 c) 0 false
    ∗ dutyTok ER (qCell 2 6 c) 0 false
    ∗ dutyTok ER (qCell 2 7 c) 0 false
    ∗ dutyTok ER (qCell 3 0 (pX c)) 0 false
    ∗ dutyTok ER (qCell 3 1 (pX c)) 0 false
    ∗ dutyTok ER (qCell 3 2 (pX c)) 0 false
    ∗ dutyTok ER (qCell 3 3 (pX c)) 0 false
    ∗ dutyTok ER (qCell 3 4 (pX c)) 0 false
    ∗ dutyTok ER (qCell 3 5 (pX c)) 0 false
    ∗ dutyTok ER (qCell 3 6 (pX c)) 0 false
    ∗ dutyTok ER (qCell 3 7 (pX c)) 0 false
    ∗ cred (tallyAt (barCell c) () 2)
    ∗ cred (tallyAt (qCell 1 0 c) () Ncr)
    ∗ cred (tallyAt (qCell 1 1 c) () Ncr)
    ∗ cred (tallyAt (qCell 1 2 c) () Ncr)
    ∗ cred (tallyAt (qCell 1 3 c) () Ncr)
    ∗ cred (tallyAt (qCell 1 4 c) () Ncr)
    ∗ cred (tallyAt (qCell 1 5 c) () Ncr)
    ∗ cred (tallyAt (qCell 1 6 c) () Ncr)
    ∗ cred (tallyAt (qCell 1 7 c) () Ncr)
    ∗ cred (tallyAt (qCell 3 0 c) () Ncr)
    ∗ cred (tallyAt (qCell 3 1 c) () Ncr)
    ∗ cred (tallyAt (qCell 3 2 c) () Ncr)
    ∗ cred (tallyAt (qCell 3 3 c) () Ncr)
    ∗ cred (tallyAt (qCell 3 4 c) () Ncr)
    ∗ cred (tallyAt (qCell 3 5 c) () Ncr)
    ∗ cred (tallyAt (qCell 3 6 c) () Ncr)
    ∗ cred (tallyAt (qCell 3 7 c) () Ncr)
    ∗ owes (c : Thread nD τ) (O₀ c) W
    ∗ ((Memref.whole cc0_stg0_0 : Memref sig .tc .vmem S1024x1024 .f32).view.loc (c : Thread nD τ) ↦{fullShare} stgA m c)
    ∗ ((Memref.whole cc0_stg1_0 : Memref sig .tc .vmem S1024x4096 .f32).view.loc (c : Thread nD τ) ↦{fullShare} stgB m c)
    ∗ ((Memref.whole cc0_stg2_0 : Memref sig .tc .vmem S512x4096 .f32).view.loc (c : Thread nD τ) ↦{fullShare} g0)
    ∗ ((slotOf ysM 0).view.loc ((c : Dev nD) : Thread nD τ) ↦[(slotOf ysM 0).view.set]{fullShare} f0)
    ∗ ((slotOf ysM 1).view.loc ((c : Dev nD) : Thread nD τ) ↦[(slotOf ysM 1).view.set]{fullShare} f0)
    ∗ ((slotOf ysM 2).view.loc ((c : Dev nD) : Thread nD τ) ↦[(slotOf ysM 2).view.set]{fullShare} f0)
    ∗ ((slotOf ysM 3).view.loc ((c : Dev nD) : Thread nD τ) ↦[(slotOf ysM 3).view.set]{fullShare} f0)
    ∗ ((slotOf ysM 4).view.loc ((c : Dev nD) : Thread nD τ) ↦[(slotOf ysM 4).view.set]{fullShare} f0)
    ∗ ((slotOf ysM 5).view.loc ((c : Dev nD) : Thread nD τ) ↦[(slotOf ysM 5).view.set]{fullShare} f0)
    ∗ ((slotOf ysM 6).view.loc ((c : Dev nD) : Thread nD τ) ↦[(slotOf ysM 6).view.set]{fullShare} f0)
    ∗ ((slotOf ysM 7).view.loc ((c : Dev nD) : Thread nD τ) ↦[(slotOf ysM 7).view.set]{fullShare} f0)
    ∗ ((slotOf yrM 0).view.loc ((c : Dev nD) : Thread nD τ) ↦[(slotOf yrM 0).view.set]{fullShare} f1)
    ∗ ((slotOf yrM 1).view.loc ((c : Dev nD) : Thread nD τ) ↦[(slotOf yrM 1).view.set]{fullShare} f1)
    ∗ ((slotOf yrM 2).view.loc ((c : Dev nD) : Thread nD τ) ↦[(slotOf yrM 2).view.set]{fullShare} f1)
    ∗ ((slotOf yrM 3).view.loc ((c : Dev nD) : Thread nD τ) ↦[(slotOf yrM 3).view.set]{fullShare} f1)
    ∗ ((slotOf yrM 4).view.loc ((c : Dev nD) : Thread nD τ) ↦[(slotOf yrM 4).view.set]{fullShare} f1)
    ∗ ((slotOf yrM 5).view.loc ((c : Dev nD) : Thread nD τ) ↦[(slotOf yrM 5).view.set]{fullShare} f1)
    ∗ ((slotOf yrM 6).view.loc ((c : Dev nD) : Thread nD τ) ↦[(slotOf yrM 6).view.set]{fullShare} f1)
    ∗ ((slotOf yrM 7).view.loc ((c : Dev nD) : Thread nD τ) ↦[(slotOf yrM 7).view.set]{fullShare} f1)
    ∗ ((slotOf xsM 0).view.loc ((c : Dev nD) : Thread nD τ) ↦[(slotOf xsM 0).view.set]{fullShare} f2)
    ∗ ((slotOf xsM 1).view.loc ((c : Dev nD) : Thread nD τ) ↦[(slotOf xsM 1).view.set]{fullShare} f2)
    ∗ ((slotOf xsM 2).view.loc ((c : Dev nD) : Thread nD τ) ↦[(slotOf xsM 2).view.set]{fullShare} f2)
    ∗ ((slotOf xsM 3).view.loc ((c : Dev nD) : Thread nD τ) ↦[(slotOf xsM 3).view.set]{fullShare} f2)
    ∗ ((slotOf xsM 4).view.loc ((c : Dev nD) : Thread nD τ) ↦[(slotOf xsM 4).view.set]{fullShare} f2)
    ∗ ((slotOf xsM 5).view.loc ((c : Dev nD) : Thread nD τ) ↦[(slotOf xsM 5).view.set]{fullShare} f2)
    ∗ ((slotOf xsM 6).view.loc ((c : Dev nD) : Thread nD τ) ↦[(slotOf xsM 6).view.set]{fullShare} f2)
    ∗ ((slotOf xsM 7).view.loc ((c : Dev nD) : Thread nD τ) ↦[(slotOf xsM 7).view.set]{fullShare} f2)
    ∗ ((slotOf xrM 0).view.loc ((c : Dev nD) : Thread nD τ) ↦[(slotOf xrM 0).view.set]{fullShare} f3)
    ∗ ((slotOf xrM 1).view.loc ((c : Dev nD) : Thread nD τ) ↦[(slotOf xrM 1).view.set]{fullShare} f3)
    ∗ ((slotOf xrM 2).view.loc ((c : Dev nD) : Thread nD τ) ↦[(slotOf xrM 2).view.set]{fullShare} f3)
    ∗ ((slotOf xrM 3).view.loc ((c : Dev nD) : Thread nD τ) ↦[(slotOf xrM 3).view.set]{fullShare} f3)
    ∗ ((slotOf xrM 4).view.loc ((c : Dev nD) : Thread nD τ) ↦[(slotOf xrM 4).view.set]{fullShare} f3)
    ∗ ((slotOf xrM 5).view.loc ((c : Dev nD) : Thread nD τ) ↦[(slotOf xrM 5).view.set]{fullShare} f3)
    ∗ ((slotOf xrM 6).view.loc ((c : Dev nD) : Thread nD τ) ↦[(slotOf xrM 6).view.set]{fullShare} f3)
    ∗ ((slotOf xrM 7).view.loc ((c : Dev nD) : Thread nD τ) ↦[(slotOf xrM 7).view.set]{fullShare} f3))

def CorePost (c : Dev nD) : sProp 𝕄 :=
  iprop(atPos ER (qCell 0 0 c) (0 + 1) ∅ 0
    ∗ atPos ER (qCell 0 1 c) (0 + 1) ∅ 0
    ∗ atPos ER (qCell 0 2 c) (0 + 1) ∅ 0
    ∗ atPos ER (qCell 0 3 c) (0 + 1) ∅ 0
    ∗ atPos ER (qCell 0 4 c) (0 + 1) ∅ 0
    ∗ atPos ER (qCell 0 5 c) (0 + 1) ∅ 0
    ∗ atPos ER (qCell 0 6 c) (0 + 1) ∅ 0
    ∗ atPos ER (qCell 0 7 c) (0 + 1) ∅ 0
    ∗ atPos ER (qCell 1 0 c) (0 + 1) ∅ 0
    ∗ atPos ER (qCell 1 1 c) (0 + 1) ∅ 0
    ∗ atPos ER (qCell 1 2 c) (0 + 1) ∅ 0
    ∗ atPos ER (qCell 1 3 c) (0 + 1) ∅ 0
    ∗ atPos ER (qCell 1 4 c) (0 + 1) ∅ 0
    ∗ atPos ER (qCell 1 5 c) (0 + 1) ∅ 0
    ∗ atPos ER (qCell 1 6 c) (0 + 1) ∅ 0
    ∗ atPos ER (qCell 1 7 c) (0 + 1) ∅ 0
    ∗ atPos ER (qCell 2 0 c) (0 + 1) ∅ 0
    ∗ atPos ER (qCell 2 1 c) (0 + 1) ∅ 0
    ∗ atPos ER (qCell 2 2 c) (0 + 1) ∅ 0
    ∗ atPos ER (qCell 2 3 c) (0 + 1) ∅ 0
    ∗ atPos ER (qCell 2 4 c) (0 + 1) ∅ 0
    ∗ atPos ER (qCell 2 5 c) (0 + 1) ∅ 0
    ∗ atPos ER (qCell 2 6 c) (0 + 1) ∅ 0
    ∗ atPos ER (qCell 2 7 c) (0 + 1) ∅ 0
    ∗ atPos ER (qCell 3 0 c) (0 + 1) ∅ 0
    ∗ atPos ER (qCell 3 1 c) (0 + 1) ∅ 0
    ∗ atPos ER (qCell 3 2 c) (0 + 1) ∅ 0
    ∗ atPos ER (qCell 3 3 c) (0 + 1) ∅ 0
    ∗ atPos ER (qCell 3 4 c) (0 + 1) ∅ 0
    ∗ atPos ER (qCell 3 5 c) (0 + 1) ∅ 0
    ∗ atPos ER (qCell 3 6 c) (0 + 1) ∅ 0
    ∗ atPos ER (qCell 3 7 c) (0 + 1) ∅ 0
    ∗ (∃ W' : Waits sig Unit, owes (c : Thread nD τ) (Oxy c 8 8) W')
    ∗ ((Memref.whole cc0_stg0_0 : Memref sig .tc .vmem S1024x1024 .f32).view.loc (c : Thread nD τ) ↦{fullShare} stgA m c)
    ∗ ((Memref.whole cc0_stg1_0 : Memref sig .tc .vmem S1024x4096 .f32).view.loc (c : Thread nD τ) ↦{fullShare} stgB m c)
    ∗ ((Memref.whole cc0_stg2_0 : Memref sig .tc .vmem S512x4096 .f32).view.loc (c : Thread nD τ) ↦{fullShare} outAt m c)
    ∗ (∃ f, ((slotOf ysM 0).view.loc ((c : Dev nD) : Thread nD τ) ↦[(slotOf ysM 0).view.set]{fullShare} f))
    ∗ (∃ f, ((slotOf ysM 1).view.loc ((c : Dev nD) : Thread nD τ) ↦[(slotOf ysM 1).view.set]{fullShare} f))
    ∗ (∃ f, ((slotOf ysM 2).view.loc ((c : Dev nD) : Thread nD τ) ↦[(slotOf ysM 2).view.set]{fullShare} f))
    ∗ (∃ f, ((slotOf ysM 3).view.loc ((c : Dev nD) : Thread nD τ) ↦[(slotOf ysM 3).view.set]{fullShare} f))
    ∗ (∃ f, ((slotOf ysM 4).view.loc ((c : Dev nD) : Thread nD τ) ↦[(slotOf ysM 4).view.set]{fullShare} f))
    ∗ (∃ f, ((slotOf ysM 5).view.loc ((c : Dev nD) : Thread nD τ) ↦[(slotOf ysM 5).view.set]{fullShare} f))
    ∗ (∃ f, ((slotOf ysM 6).view.loc ((c : Dev nD) : Thread nD τ) ↦[(slotOf ysM 6).view.set]{fullShare} f))
    ∗ (∃ f, ((slotOf ysM 7).view.loc ((c : Dev nD) : Thread nD τ) ↦[(slotOf ysM 7).view.set]{fullShare} f))
    ∗ (∃ f, ((slotOf yrM 0).view.loc ((c : Dev nD) : Thread nD τ) ↦[(slotOf yrM 0).view.set]{fullShare} f))
    ∗ (∃ f, ((slotOf yrM 1).view.loc ((c : Dev nD) : Thread nD τ) ↦[(slotOf yrM 1).view.set]{fullShare} f))
    ∗ (∃ f, ((slotOf yrM 2).view.loc ((c : Dev nD) : Thread nD τ) ↦[(slotOf yrM 2).view.set]{fullShare} f))
    ∗ (∃ f, ((slotOf yrM 3).view.loc ((c : Dev nD) : Thread nD τ) ↦[(slotOf yrM 3).view.set]{fullShare} f))
    ∗ (∃ f, ((slotOf yrM 4).view.loc ((c : Dev nD) : Thread nD τ) ↦[(slotOf yrM 4).view.set]{fullShare} f))
    ∗ (∃ f, ((slotOf yrM 5).view.loc ((c : Dev nD) : Thread nD τ) ↦[(slotOf yrM 5).view.set]{fullShare} f))
    ∗ (∃ f, ((slotOf yrM 6).view.loc ((c : Dev nD) : Thread nD τ) ↦[(slotOf yrM 6).view.set]{fullShare} f))
    ∗ (∃ f, ((slotOf yrM 7).view.loc ((c : Dev nD) : Thread nD τ) ↦[(slotOf yrM 7).view.set]{fullShare} f))
    ∗ (∃ f, ((slotOf xsM 0).view.loc ((c : Dev nD) : Thread nD τ) ↦[(slotOf xsM 0).view.set]{fullShare} f))
    ∗ (∃ f, ((slotOf xsM 1).view.loc ((c : Dev nD) : Thread nD τ) ↦[(slotOf xsM 1).view.set]{fullShare} f))
    ∗ (∃ f, ((slotOf xsM 2).view.loc ((c : Dev nD) : Thread nD τ) ↦[(slotOf xsM 2).view.set]{fullShare} f))
    ∗ (∃ f, ((slotOf xsM 3).view.loc ((c : Dev nD) : Thread nD τ) ↦[(slotOf xsM 3).view.set]{fullShare} f))
    ∗ (∃ f, ((slotOf xsM 4).view.loc ((c : Dev nD) : Thread nD τ) ↦[(slotOf xsM 4).view.set]{fullShare} f))
    ∗ (∃ f, ((slotOf xsM 5).view.loc ((c : Dev nD) : Thread nD τ) ↦[(slotOf xsM 5).view.set]{fullShare} f))
    ∗ (∃ f, ((slotOf xsM 6).view.loc ((c : Dev nD) : Thread nD τ) ↦[(slotOf xsM 6).view.set]{fullShare} f))
    ∗ (∃ f, ((slotOf xsM 7).view.loc ((c : Dev nD) : Thread nD τ) ↦[(slotOf xsM 7).view.set]{fullShare} f))
    ∗ (∃ f, ((slotOf xrM 0).view.loc ((c : Dev nD) : Thread nD τ) ↦[(slotOf xrM 0).view.set]{fullShare} f))
    ∗ (∃ f, ((slotOf xrM 1).view.loc ((c : Dev nD) : Thread nD τ) ↦[(slotOf xrM 1).view.set]{fullShare} f))
    ∗ (∃ f, ((slotOf xrM 2).view.loc ((c : Dev nD) : Thread nD τ) ↦[(slotOf xrM 2).view.set]{fullShare} f))
    ∗ (∃ f, ((slotOf xrM 3).view.loc ((c : Dev nD) : Thread nD τ) ↦[(slotOf xrM 3).view.set]{fullShare} f))
    ∗ (∃ f, ((slotOf xrM 4).view.loc ((c : Dev nD) : Thread nD τ) ↦[(slotOf xrM 4).view.set]{fullShare} f))
    ∗ (∃ f, ((slotOf xrM 5).view.loc ((c : Dev nD) : Thread nD τ) ↦[(slotOf xrM 5).view.set]{fullShare} f))
    ∗ (∃ f, ((slotOf xrM 6).view.loc ((c : Dev nD) : Thread nD τ) ↦[(slotOf xrM 6).view.set]{fullShare} f))
    ∗ (∃ f, ((slotOf xrM 7).view.loc ((c : Dev nD) : Thread nD τ) ↦[(slotOf xrM 7).view.set]{fullShare} f)))

/-- The run of the body from `CorePre` to `CorePost`. -/
def CoreBody : Prop :=
  ∀ (K : Dev nD × CIx → ℕ) (c : Dev nD) (W : Waits sig Unit) (g0 : Buf (Elt F) ((c : Thread nD τ).loc cc0_stg2_0))
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (Kt : PUnit → sProp 𝕄),
    iprop(CorePre m K c W g0 f0 f1 f2 f3 ∗ (CorePost m c -∗ Kt ⟨⟩))
      ⊢ wp frame (wpE (defs₀ (F := F)) 𝒱₀ c none) Set.univ (theBody (F := F)) Kt

end Cert.KernelProof

end
-- ==== Proof.Kernel.OutTiles.lean ====
/-
  The result staging buffer after the body's sixteen tile stores: eight tiles of the device's own column half, then eight
  of the other half, each 256 columns wide at its chunk's offset. No two tiles share a column, so every entry of the
  buffer is the entry of the one tile that holds its column.
-/
import proofs.«900475_g7700000000000476_dist_rsdw_v7x_xy2x2_y_m1024_d1024_f4096_bf16_1_alg».proof.Proof.Kernel.OutAt
import Idealize.ShloMosaic.Lib.WritesUnit
import Idealize.ShloMosaic.Lib.Pipeline.Value

noncomputable section

namespace Cert.Kernel.Vals

open Cert.Kernel Cert.Kernel.Gen
open Idealize.ShloMosaic Idealize.ShloMosaic.TcCoe Idealize.SL.Sem

variable {F : FTy → Type} [FloatOps F]

/-- The result staging buffer, as the body names it. -/
abbrev oM : Memref sig .tc .vmem S512x4096 .f32 := Memref.whole cc0_stg2_0

/-- The store of tile `k` of the device's own column half, -/
def W4 (c : Dev nD) (r : Fin 8 → FVec F S512x256 .f32) (k : Fin 8) (g : (cc0_stg2_0 : Ref sig .tc).ty.Contents (Elt F)) :
    (cc0_stg2_0 : Ref sig .tc).ty.Contents (Elt F) :=
  View.write (Elt F) (oM.access (Rect.unit (s := S512x4096) (k0_off4 c (BitVec.ofNat 32 (256 * k.val))) S512x256.size (k0_off4_inb c k))) g (r k) Finset.univ

/-- and of the other half. -/
def W5 (c : Dev nD) (x : Fin 8 → FVec F S512x256 .f32) (k : Fin 8) (g : (cc0_stg2_0 : Ref sig .tc).ty.Contents (Elt F)) :
    (cc0_stg2_0 : Ref sig .tc).ty.Contents (Elt F) :=
  View.write (Elt F) (oM.access (Rect.unit (s := S512x4096) (k0_off5 c (BitVec.ofNat 32 (256 * k.val))) S512x256.size (k0_off5_inb c k))) g (x k) Finset.univ

/-- The sixteen stores in program order, as one family: stores 0 to 7 the own half's, 8 to 15 the other's. -/
def off16 (c : Dev nD) (i : Fin 16) : Fin S512x4096.rank → ℕ :=
  if h : i.val < 8 then k0_off4 c (BitVec.ofNat 32 (256 * i.val)) else k0_off5 c (BitVec.ofNat 32 (256 * (i.val - 8)))

theorem inb16 (c : Dev nD) (i : Fin 16) (a : Fin S512x4096.rank) : off16 c i a + S512x256.size a ≤ S512x4096.size a := by
  unfold off16
  by_cases h : i.val < 8
  · rw [dif_pos h]; exact k0_off4_inb c ⟨i.val, h⟩ a
  · rw [dif_neg h]; exact k0_off5_inb c ⟨i.val - 8, by have := i.isLt; omega⟩ a

def P16 (r x : Fin 8 → FVec F S512x256 .f32) (i : Fin 16) : (⟨S512x4096.rank, S512x256.size⟩ : Shape).Idx → Elt F .f32 :=
  if h : i.val < 8 then r ⟨i.val, h⟩ else x ⟨i.val - 8, by have := i.isLt; omega⟩

theorem off16_lo (c : Dev nD) (i : Fin 16) (h : i.val < 8) : off16 c i = ![0, 2048 * (c.val / 2) + 256 * i.val] := by
  unfold off16; rw [dif_pos h]; exact k0_off4_eq c ⟨i.val, h⟩
theorem off16_hi (c : Dev nD) (i : Fin 16) (h : ¬ i.val < 8) : off16 c i = ![0, (256 * (i.val - 8) + 2048) - 2048 * (c.val / 2)] := by
  unfold off16; rw [dif_neg h]; exact k0_off5_eq c ⟨i.val - 8, by have := i.isLt; omega⟩

/-- The sixteen nested stores are the list of the sixteen tile stores, newest first. -/
theorem stores_eq (c : Dev nD) (r x : Fin 8 → FVec F S512x256 .f32) (g0 : (cc0_stg2_0 : Ref sig .tc).ty.Contents (Elt F)) :
    W5 c x 7 (W5 c x 6 (W5 c x 5 (W5 c x 4 (W5 c x 3 (W5 c x 2 (W5 c x 1 (W5 c x 0
      (W4 c r 7 (W4 c r 6 (W4 c r 5 (W4 c r 4 (W4 c r 3 (W4 c r 2 (W4 c r 1 (W4 c r 0 g0)))))))))))))))
      = (oM : Memref sig .tc .vmem S512x4096 .f32).view.writes (Elt F) g0 (View.tilePieces S512x256.size (off16 c) (inb16 c) (P16 r x) 16 (Nat.le_refl 16)) := rfl

/-- Every entry of the buffer after the sixteen stores. -/
theorem stores_apply (c : Dev nD) (r x : Fin 8 → FVec F S512x256 .f32) (g0 : (cc0_stg2_0 : Ref sig .tc).ty.Contents (Elt F)) (i : S512x4096.Idx) :
    W5 c x 7 (W5 c x 6 (W5 c x 5 (W5 c x 4 (W5 c x 3 (W5 c x 2 (W5 c x 1 (W5 c x 0
      (W4 c r 7 (W4 c r 6 (W4 c r 5 (W4 c r 4 (W4 c r 3 (W4 c r 2 (W4 c r 1 (W4 c r 0 g0))))))))))))))) i
      = if (i 1).val / 2048 = c.val / 2
        then r (chunkOf ⟨(i 1).val, (i 1).isLt⟩) (tileIx ⟨(i 0).val, (i 0).isLt⟩ (posOf ⟨(i 1).val, (i 1).isLt⟩))
        else x (chunkOf ⟨(i 1).val, (i 1).isLt⟩) (tileIx ⟨(i 0).val, (i 0).isLt⟩ (posOf ⟨(i 1).val, (i 1).isLt⟩)) := by
  rw [stores_eq]
  have hc : c.val < 4 := c.isLt
  have hq : (i 1).val < 4096 := (i 1).isLt
  have hcol := col_eq ⟨(i 1).val, (i 1).isLt⟩
  have hk : (chunkOf ⟨(i 1).val, (i 1).isLt⟩).val < 8 := (chunkOf _).isLt
  have hp : (posOf ⟨(i 1).val, (i 1).isLt⟩).val < 256 := (posOf _).isLt
  simp only at hcol
  refine (congrFun (View.read_whole (Val := Elt F) cc0_stg2_0 _).symm i).trans ?_
  by_cases h : (i 1).val / 2048 = c.val / 2
  · rw [if_pos h]
    refine (View.read_tilePieces (oM : Memref sig .tc .vmem S512x4096 .f32).view g0 S512x256.size (off16 c) (inb16 c) (P16 r x) 16 (Nat.le_refl 16) i
      ⟨(chunkOf ⟨(i 1).val, (i 1).isLt⟩).val, by omega⟩ (by simp only; omega) (tileIx ⟨(i 0).val, (i 0).isLt⟩ (posOf ⟨(i 1).val, (i 1).isLt⟩)) ?_ (1 : Fin 2) ?_).trans ?_
    · intro a
      rw [off16_lo c _ (by simp only; omega)]
      match a with
      | ⟨0, _⟩ => show (i 0).val = 0 + (i 0).val; omega
      | ⟨1, _⟩ => show (i 1).val = 2048 * (c.val / 2) + 256 * (chunkOf ⟨(i 1).val, (i 1).isLt⟩).val + (posOf ⟨(i 1).val, (i 1).isLt⟩).val; omega
    · intro i' hi'
      have hne : i'.val ≠ (chunkOf ⟨(i 1).val, (i 1).isLt⟩).val := fun e => hi' (Fin.ext e)
      have hi16 : i'.val < 16 := i'.isLt
      by_cases h8 : i'.val < 8
      · rw [off16_lo c i' h8]
        show (i 1).val < 2048 * (c.val / 2) + 256 * i'.val ∨ 2048 * (c.val / 2) + 256 * i'.val + 256 ≤ (i 1).val
        omega
      · rw [off16_hi c i' h8]
        show (i 1).val < (256 * (i'.val - 8) + 2048) - 2048 * (c.val / 2) ∨ (256 * (i'.val - 8) + 2048) - 2048 * (c.val / 2) + 256 ≤ (i 1).val
        omega
    · unfold P16; rw [dif_pos (by simp only; omega)]
  · rw [if_neg h]
    refine (View.read_tilePieces (oM : Memref sig .tc .vmem S512x4096 .f32).view g0 S512x256.size (off16 c) (inb16 c) (P16 r x) 16 (Nat.le_refl 16) i
      ⟨8 + (chunkOf ⟨(i 1).val, (i 1).isLt⟩).val, by omega⟩ (by simp only; omega) (tileIx ⟨(i 0).val, (i 0).isLt⟩ (posOf ⟨(i 1).val, (i 1).isLt⟩)) ?_ (1 : Fin 2) ?_).trans ?_
    · intro a
      rw [off16_hi c _ (by simp only; omega)]
      match a with
      | ⟨0, _⟩ => show (i 0).val = 0 + (i 0).val; omega
      | ⟨1, _⟩ =>
        show (i 1).val = (256 * (8 + (chunkOf ⟨(i 1).val, (i 1).isLt⟩).val - 8) + 2048) - 2048 * (c.val / 2) + (posOf ⟨(i 1).val, (i 1).isLt⟩).val
        omega
    · intro i' hi'
      have hne : i'.val ≠ 8 + (chunkOf ⟨(i 1).val, (i 1).isLt⟩).val := fun e => hi' (Fin.ext e)
      have hi16 : i'.val < 16 := i'.isLt
      by_cases h8 : i'.val < 8
      · rw [off16_lo c i' h8]
        show (i 1).val < 2048 * (c.val / 2) + 256 * i'.val ∨ 2048 * (c.val / 2) + 256 * i'.val + 256 ≤ (i 1).val
        omega
      · rw [off16_hi c i' h8]
        show (i 1).val < (256 * (i'.val - 8) + 2048) - 2048 * (c.val / 2) ∨ (256 * (i'.val - 8) + 2048) - 2048 * (c.val / 2) + 256 ≤ (i 1).val
        omega
    · unfold P16; rw [dif_neg (by simp only; omega)]
      exact congrFun (congrArg x (Fin.ext (by simp only; omega))) _

variable (m : (ℓ : Loc nD τ sig) → Buf (Elt F) ℓ)

/-- With the row sums in the own half and the received tiles in the other, the buffer is the device's result block. -/
theorem out_tiles (c : Dev nD) (g0 : (cc0_stg2_0 : Ref sig .tc).ty.Contents (Elt F)) :
    W5 c (fromX m c) 7 (W5 c (fromX m c) 6 (W5 c (fromX m c) 5 (W5 c (fromX m c) 4 (W5 c (fromX m c) 3 (W5 c (fromX m c) 2 (W5 c (fromX m c) 1 (W5 c (fromX m c) 0
      (W4 c (rowSum m c) 7 (W4 c (rowSum m c) 6 (W4 c (rowSum m c) 5 (W4 c (rowSum m c) 4 (W4 c (rowSum m c) 3 (W4 c (rowSum m c) 2 (W4 c (rowSum m c) 1
        (W4 c (rowSum m c) 0 g0)))))))))))))))
      = outAt m c :=
  funext fun i => (stores_apply c (rowSum m c) (fromX m c) g0 i).trans (outAt_apply m c i).symm

/-! ## The tiles as rectangles of the result block -/

/-- The rectangle tile `k` of the own column half is stored through, and of the other half. -/
abbrev R4 (c : Dev nD) (k : Fin 8) : Rect S512x4096 :=
  Rect.unit (s := S512x4096) (k0_off4 c (BitVec.ofNat 32 (256 * k.val))) S512x256.size (k0_off4_inb c k)
abbrev R5 (c : Dev nD) (k : Fin 8) : Rect S512x4096 :=
  Rect.unit (s := S512x4096) (k0_off5 c (BitVec.ofNat 32 (256 * k.val))) S512x256.size (k0_off5_inb c k)

theorem R4_emb0 (c : Dev nD) (k : Fin 8) (x : (R4 c k).shape.Idx) : ((R4 c k).emb x 0).val = (x 0).val := by
  show (k0_off4 c (BitVec.ofNat 32 (256 * k.val))) 0 + 1 * (x 0).val = (x 0).val
  rw [k0_off4_eq c k]; show 0 + 1 * (x 0).val = (x 0).val; omega
theorem R4_emb1 (c : Dev nD) (k : Fin 8) (x : (R4 c k).shape.Idx) : ((R4 c k).emb x 1).val = 2048 * (c.val / 2) + 256 * k.val + (x 1).val := by
  show (k0_off4 c (BitVec.ofNat 32 (256 * k.val))) 1 + 1 * (x 1).val = _
  rw [k0_off4_eq c k]; show 2048 * (c.val / 2) + 256 * k.val + 1 * (x 1).val = _; omega
theorem R5_emb0 (c : Dev nD) (k : Fin 8) (x : (R5 c k).shape.Idx) : ((R5 c k).emb x 0).val = (x 0).val := by
  show (k0_off5 c (BitVec.ofNat 32 (256 * k.val))) 0 + 1 * (x 0).val = (x 0).val
  rw [k0_off5_eq c k]; show 0 + 1 * (x 0).val = (x 0).val; omega
theorem R5_emb1 (c : Dev nD) (k : Fin 8) (x : (R5 c k).shape.Idx) : ((R5 c k).emb x 1).val = (256 * k.val + 2048) - 2048 * (c.val / 2) + (x 1).val := by
  show (k0_off5 c (BitVec.ofNat 32 (256 * k.val))) 1 + 1 * (x 1).val = _
  rw [k0_off5_eq c k]; show (256 * k.val + 2048) - 2048 * (c.val / 2) + 1 * (x 1).val = _; omega

/-- A row sum's entry is the result block's entry at the tile's place; -/
theorem rowSum_tile (c : Dev nD) (k : Fin 8) (x : (R4 c k).shape.Idx) : rowSum m c k x = outAt m c ((R4 c k).emb x) := by
  have hc : c.val < 4 := c.isLt
  have hk : k.val < 8 := k.isLt
  have h0 := R4_emb0 c k x
  have h1 := R4_emb1 c k x
  have hx0 : (x 0).val < 512 := (x 0).isLt
  have hx1 : (x 1).val < 256 := (x 1).isLt
  rw [outAt_own m c _ (by rw [h1]; omega)]
  have ek : chunkOf ⟨((R4 c k).emb x 1).val, ((R4 c k).emb x 1).isLt⟩ = k := Fin.ext (by show (((R4 c k).emb x 1).val % 2048) / 256 = k.val; rw [h1]; omega)
  have ex : tileIx ⟨((R4 c k).emb x 0).val, ((R4 c k).emb x 0).isLt⟩ (posOf ⟨((R4 c k).emb x 1).val, ((R4 c k).emb x 1).isLt⟩) = x := by
    funext a
    match a with
    | ⟨0, _⟩ => exact Fin.ext h0
    | ⟨1, _⟩ => exact Fin.ext (by show ((R4 c k).emb x 1).val % 256 = (x 1).val; rw [h1]; omega)
  rw [ek, ex]

/-- a received tile's likewise. -/
theorem fromX_tile (c : Dev nD) (k : Fin 8) (x : (R5 c k).shape.Idx) : fromX m c k x = outAt m c ((R5 c k).emb x) := by
  have hc : c.val < 4 := c.isLt
  have hk : k.val < 8 := k.isLt
  have h0 := R5_emb0 c k x
  have h1 := R5_emb1 c k x
  have hx0 : (x 0).val < 512 := (x 0).isLt
  have hx1 : (x 1).val < 256 := (x 1).isLt
  rw [outAt_other m c _ (by rw [h1]; omega)]
  have ek : chunkOf ⟨((R5 c k).emb x 1).val, ((R5 c k).emb x 1).isLt⟩ = k := Fin.ext (by show (((R5 c k).emb x 1).val % 2048) / 256 = k.val; rw [h1]; omega)
  have ex : tileIx ⟨((R5 c k).emb x 0).val, ((R5 c k).emb x 0).isLt⟩ (posOf ⟨((R5 c k).emb x 1).val, ((R5 c k).emb x 1).isLt⟩) = x := by
    funext a
    match a with
    | ⟨0, _⟩ => exact Fin.ext h0
    | ⟨1, _⟩ => exact Fin.ext (by show ((R5 c k).emb x 1).val % 256 = (x 1).val; rw [h1]; omega)
  rw [ek, ex]

omit m in
/-- Every entry of the result block lies under a tile. -/
theorem tiles_cover (c : Dev nD) (y : S512x4096.Idx) : (∃ k, y ∈ (R4 c k).set) ∨ (∃ k, y ∈ (R5 c k).set) := by
  have hc : c.val < 4 := c.isLt
  have hy0 : (y 0).val < 512 := (y 0).isLt
  have hy1 : (y 1).val < 4096 := (y 1).isLt
  have hcol := col_eq ⟨(y 1).val, (y 1).isLt⟩
  have hk : (chunkOf ⟨(y 1).val, (y 1).isLt⟩).val < 8 := (chunkOf _).isLt
  have hp : (posOf ⟨(y 1).val, (y 1).isLt⟩).val < 256 := (posOf _).isLt
  simp only at hcol
  by_cases h : (y 1).val / 2048 = c.val / 2
  · refine Or.inl ⟨chunkOf ⟨(y 1).val, (y 1).isLt⟩, ?_⟩
    rw [Rect.mem_set_unit, k0_off4_eq c]
    intro a
    match a with
    | ⟨0, _⟩ => exact ⟨Nat.zero_le _, by show (y 0).val < 0 + 512; omega⟩
    | ⟨1, _⟩ =>
      exact ⟨by show 2048 * (c.val / 2) + 256 * (chunkOf ⟨(y 1).val, (y 1).isLt⟩).val ≤ (y 1).val; omega,
        by show (y 1).val < 2048 * (c.val / 2) + 256 * (chunkOf ⟨(y 1).val, (y 1).isLt⟩).val + 256; omega⟩
  · refine Or.inr ⟨chunkOf ⟨(y 1).val, (y 1).isLt⟩, ?_⟩
    rw [Rect.mem_set_unit, k0_off5_eq c]
    intro a
    match a with
    | ⟨0, _⟩ => exact ⟨Nat.zero_le _, by show (y 0).val < 0 + 512; omega⟩
    | ⟨1, _⟩ =>
      exact ⟨by show (256 * (chunkOf ⟨(y 1).val, (y 1).isLt⟩).val + 2048) - 2048 * (c.val / 2) ≤ (y 1).val; omega,
        by show (y 1).val < (256 * (chunkOf ⟨(y 1).val, (y 1).isLt⟩).val + 2048) - 2048 * (c.val / 2) + 256; omega⟩

end Cert.Kernel.Vals

end
-- ==== Proof.Kernel.Body.lean ====
/-
  One device's run, from its first signal to its last store.

  The two barrier signals hand this device's receive slots to its neighbours; the barrier wait brings theirs. Chunk by chunk
  the product for the y-neighbour's rows is stored and sent (first loop); the own product is added to what the y-neighbour
  sent, stored into the result and sent to the x-neighbour (second loop); what the x-neighbour sent is stored into the
  other column half of the result (third loop). Every wait is for the whole of a cell's one round. A transfer's arrival
  payload states what the neighbour's slot then holds, because the sent slot reads back as the tile just stored
  (`slot_read_write`); a received tile enters a sum or the result only through its recast (`sumY_congr`, `recvX_congr`).
  At the end the result buffer is sixteen tile stores over what it held: entry by entry that is `outAt` (`out_tiles`).
-/
import proofs.«900475_g7700000000000476_dist_rsdw_v7x_xy2x2_y_m1024_d1024_f4096_bf16_1_alg».proof.Proof.Kernel.BodyStmt
import proofs.«900475_g7700000000000476_dist_rsdw_v7x_xy2x2_y_m1024_d1024_f4096_bf16_1_alg».proof.Proof.Kernel.OutTiles

noncomputable section

set_option maxRecDepth 16384
namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_canon] dev1_eq dev2_eq dev3_eq dev4_eq dev5_eq dev6_eq dev7_eq dev8_eq dev9_eq dev10_eq dev11_eq dev12_eq dev13_eq dev14_eq dev15_eq dev16_eq dev17_eq dev18_eq sem_0_0 sem_0_1 sem_0_2 sem_0_3 sem_0_4 sem_0_5 sem_0_6 sem_0_7 sem_1_0 sem_1_1 sem_1_2 sem_1_3 sem_1_4 sem_1_5 sem_1_6 sem_1_7 sem_2_0 sem_2_1 sem_2_2 sem_2_3 sem_2_4 sem_2_5 sem_2_6 sem_2_7 sem_3_0 sem_3_1 sem_3_2 sem_3_3 sem_3_4 sem_3_5 sem_3_6 sem_3_7

set_option maxHeartbeats 8000000 in
theorem body_core : CoreBody (F := F) m := by
  intro K c W g0 f0 f1 f2 f3 Kt
  unfold CorePre theBody
  iintro ⟨⟨#HIbar, #HIbx, #HIby, #HI0_0, #HI0_1, #HI0_2, #HI0_3, #HI0_4, #HI0_5, #HI0_6, #HI0_7, #HI1_0, #HI1_1, #HI1_2, #HI1_3, #HI1_4, #HI1_5, #HI1_6, #HI1_7, #HI2_0, #HI2_1, #HI2_2, #HI2_3, #HI2_4, #HI2_5, #HI2_6, #HI2_7, #HI3_0, #HI3_1, #HI3_2, #HI3_3, #HI3_4, #HI3_5, #HI3_6, #HI3_7, #HIyp0, #HIyp1, #HIyp2, #HIyp3, #HIyp4, #HIyp5, #HIyp6, #HIyp7, #HIxp0, #HIxp1, #HIxp2, #HIxp3, #HIxp4, #HIxp5, #HIxp6, #HIxp7, #HrBx, #HrBy, #Hr0_0, #Hr0_1, #Hr0_2, #Hr0_3, #Hr0_4, #Hr0_5, #Hr0_6, #Hr0_7, #Hr2_0, #Hr2_1, #Hr2_2, #Hr2_3, #Hr2_4, #Hr2_5, #Hr2_6, #Hr2_7, #Hryp0, #Hryp1, #Hryp2, #Hryp3, #Hryp4, #Hryp5, #Hryp6, #Hryp7, #Hrxp0, #Hrxp1, #Hrxp2, #Hrxp3, #Hrxp4, #Hrxp5, #Hrxp6, #Hrxp7, #Hlev, HatB, Hat0_0, Hat0_1, Hat0_2, Hat0_3, Hat0_4, Hat0_5, Hat0_6, Hat0_7, Hat1_0, Hat1_1, Hat1_2, Hat1_3, Hat1_4, Hat1_5, Hat1_6, Hat1_7, Hat2_0, Hat2_1, Hat2_2, Hat2_3, Hat2_4, Hat2_5, Hat2_6, Hat2_7, Hat3_0, Hat3_1, Hat3_2, Hat3_3, Hat3_4, Hat3_5, Hat3_6, Hat3_7, HtBx, HtBy, Ht0_0, Ht0_1, Ht0_2, Ht0_3, Ht0_4, Ht0_5, Ht0_6, Ht0_7, Ht1_0, Ht1_1, Ht1_2, Ht1_3, Ht1_4, Ht1_5, Ht1_6, Ht1_7, Ht2_0, Ht2_1, Ht2_2, Ht2_3, Ht2_4, Ht2_5, Ht2_6, Ht2_7, Ht3_0, Ht3_1, Ht3_2, Ht3_3, Ht3_4, Ht3_5, Ht3_6, Ht3_7, HcB, Hc1_0, Hc1_1, Hc1_2, Hc1_3, Hc1_4, Hc1_5, Hc1_6, Hc1_7, Hc3_0, Hc3_1, Hc3_2, Hc3_3, Hc3_4, Hc3_5, Hc3_6, Hc3_7, HO, Hx, Hd, Hout, Hs0_0, Hs0_1, Hs0_2, Hs0_3, Hs0_4, Hs0_5, Hs0_6, Hs0_7, Hs1_0, Hs1_1, Hs1_2, Hs1_3, Hs1_4, Hs1_5, Hs1_6, Hs1_7, Hs2_0, Hs2_1, Hs2_2, Hs2_3, Hs2_4, Hs2_5, Hs2_6, Hs2_7, Hs3_0, Hs3_1, Hs3_2, Hs3_3, Hs3_4, Hs3_5, Hs3_6, Hs3_7⟩, Hk⟩
  sl_unfold [cc0_body]
  sl_exec_parts
  -- the first signal: to the x-neighbour's barrier cell, its duty `false`, handing over this device's eight x receive slots
  iapply (Rounds.wp_signal 𝒱₀ ER (sched m) (c : Thread nD τ) none (dst := (pX c : Thread nD τ)) (κ := K (pX c, none))
      (d := false) (by rw [duties_bar]; exact Finset.mem_univ _) ((amount_bar m (pX c) false).trans (by decide)) () (O₁ c) rfl)
    $$ [HO HtBx Hs3_0 Hs3_1 Hs3_2 Hs3_3 Hs3_4 Hs3_5 Hs3_6 Hs3_7]
  · isplitr; · iexact HIbx
    isplitl [HO]; · iexact HO
    isplitl [HtBx]; · iexact HtBx
    isplitr [HrBx]
    · rw [tb_pay_bar_false_px]
      isplitl [Hs3_0]; · (iexists _; iexact Hs3_0)
      isplitl [Hs3_1]; · (iexists _; iexact Hs3_1)
      isplitl [Hs3_2]; · (iexists _; iexact Hs3_2)
      isplitl [Hs3_3]; · (iexists _; iexact Hs3_3)
      isplitl [Hs3_4]; · (iexists _; iexact Hs3_4)
      isplitl [Hs3_5]; · (iexists _; iexact Hs3_5)
      isplitl [Hs3_6]; · (iexists _; iexact Hs3_6)
      iexists _; iexact Hs3_7
    · iexact HrBx
  iintro HO
  sl_exec_parts
  -- the second: to the y-neighbour's barrier cell, its duty `true`, with this device's eight y receive slots
  iapply (Rounds.wp_signal 𝒱₀ ER (sched m) (c : Thread nD τ) none (dst := (pY c : Thread nD τ)) (κ := K (pY c, none))
      (d := true) (by rw [duties_bar]; exact Finset.mem_univ _) ((amount_bar m (pY c) true).trans (by decide)) () (Oxy c 0 0) rfl)
    $$ [HO HtBy Hs1_0 Hs1_1 Hs1_2 Hs1_3 Hs1_4 Hs1_5 Hs1_6 Hs1_7]
  · isplitr; · iexact HIby
    isplitl [HO]; · iexact HO
    isplitl [HtBy]; · iexact HtBy
    isplitr [HrBy]
    · rw [tb_pay_bar_true_py]
      isplitl [Hs1_0]; · (iexists _; iexact Hs1_0)
      isplitl [Hs1_1]; · (iexists _; iexact Hs1_1)
      isplitl [Hs1_2]; · (iexists _; iexact Hs1_2)
      isplitl [Hs1_3]; · (iexists _; iexact Hs1_3)
      isplitl [Hs1_4]; · (iexists _; iexact Hs1_4)
      isplitl [Hs1_5]; · (iexists _; iexact Hs1_5)
      isplitl [Hs1_6]; · (iexists _; iexact Hs1_6)
      iexists _; iexact Hs1_7
    · iexact HrBy
  iintro HO
  sl_exec_parts
  -- the wait for both units on its own barrier cell, still owing all sixteen arrivals (receive cells, above the barrier):
  -- both neighbours' receive slots come with it
  iapply (Rounds.wp_wait_rest_token 𝒱₀ ER (sched m) (c : Thread nD τ) none (κ := K (c, none))
      (wpE_semWait_eq 𝒱₀ (c : Thread nD τ) none Set.univ) (Set.mem_univ _) () (O := Oxy c 0 0) (W := W) (R := 0) (m := 0) (T := ∅)
      (by rw [expect_bar]; decide)) $$ [HcB HO HatB]
  · isplitr; · iexact HIbar
    isplitl [HcB]; · iexact HcB
    isplitl [HO]; · iexact HO
    isplitr
    · iapply (mayWait_cut c (.reg barS) 1 (Oxy c 0 0) (le_of_eq (lv_bar c ())) (Oxy_above 1 (Or.inl (by decide)))); iexact Hlev
    iexact HatB
  iintro ⟨HO, HatB, -, Hpay⟩
  ihave Hp := (Entails.of_eq (rest_bar16 m c)) $$ Hpay
  icases Hp with ⟨⟨⟨%fx0, Hxp0⟩, ⟨%fx1, Hxp1⟩, ⟨%fx2, Hxp2⟩, ⟨%fx3, Hxp3⟩, ⟨%fx4, Hxp4⟩, ⟨%fx5, Hxp5⟩, ⟨%fx6, Hxp6⟩, ⟨%fx7, Hxp7⟩⟩, ⟨%fy0, Hyp0⟩, ⟨%fy1, Hyp1⟩, ⟨%fy2, Hyp2⟩, ⟨%fy3, Hyp3⟩, ⟨%fy4, Hyp4⟩, ⟨%fy5, Hyp5⟩, ⟨%fy6, Hyp6⟩, ⟨%fy7, Hyp7⟩⟩
  sl_exec_parts
  -- chunk 0 goes to the y-neighbour
  have hfs0 : (slotOf ysM 0).view.read (Elt F) (body_core.sl.Hs0_0_w1 m c f0) = shapeCast S512x256 (partY m c 0) shapeCasts_S1x512x256_S512x256 := by
    unfold body_core.sl.Hs0_0_w1
    exact (slot_read_write ysM 0 rfl _ f0 _).trans (congrArg (fun v => shapeCast S512x256 v shapeCasts_S1x512x256_S512x256) rfl)
  iapply (send_y m (K (c, some (0, 0))) (K (pY c, some (1, 0))) c _ (dev3_eq c) 0 _ fy0 hfs0 0 0 rfl _) $$ [HO Hs0_0 Hyp0 Ht0_0 Ht1_0]
  · isplitr; · iexact HI0_0
    isplitr; · iexact HIyp0
    isplitl [Hs0_0]; · iexact Hs0_0
    isplitl [Hyp0]; · iexact Hyp0
    isplitl [HO]; · iexact HO
    isplitl [Ht0_0]; · iexact Ht0_0
    isplitr; · iexact Hr0_0
    isplitl [Ht1_0]; · iexact Ht1_0
    iexact Hryp0
  iintro ⟨Hc0_0, HO⟩
  sl_exec_parts
  -- chunk 1 goes to the y-neighbour
  have hfs1 : (slotOf ysM 1).view.read (Elt F) (body_core.sl.Hs0_1_w1 m c f0) = shapeCast S512x256 (partY m c 1) shapeCasts_S1x512x256_S512x256 := by
    unfold body_core.sl.Hs0_1_w1
    exact (slot_read_write ysM 1 rfl _ f0 _).trans (congrArg (fun v => shapeCast S512x256 v shapeCasts_S1x512x256_S512x256) rfl)
  iapply (send_y m (K (c, some (0, 1))) (K (pY c, some (1, 1))) c _ (dev4_eq c) 1 _ fy1 hfs1 0 1 rfl _) $$ [HO Hs0_1 Hyp1 Ht0_1 Ht1_1]
  · isplitr; · iexact HI0_1
    isplitr; · iexact HIyp1
    isplitl [Hs0_1]; · iexact Hs0_1
    isplitl [Hyp1]; · iexact Hyp1
    isplitl [HO]; · iexact HO
    isplitl [Ht0_1]; · iexact Ht0_1
    isplitr; · iexact Hr0_1
    isplitl [Ht1_1]; · iexact Ht1_1
    iexact Hryp1
  iintro ⟨Hc0_1, HO⟩
  sl_exec_parts
  -- chunk 2 goes to the y-neighbour
  have hfs2 : (slotOf ysM 2).view.read (Elt F) (body_core.sl.Hs0_2_w1 m c f0) = shapeCast S512x256 (partY m c 2) shapeCasts_S1x512x256_S512x256 := by
    unfold body_core.sl.Hs0_2_w1
    exact (slot_read_write ysM 2 rfl _ f0 _).trans (congrArg (fun v => shapeCast S512x256 v shapeCasts_S1x512x256_S512x256) rfl)
  iapply (send_y m (K (c, some (0, 2))) (K (pY c, some (1, 2))) c _ (dev5_eq c) 2 _ fy2 hfs2 0 2 rfl _) $$ [HO Hs0_2 Hyp2 Ht0_2 Ht1_2]
  · isplitr; · iexact HI0_2
    isplitr; · iexact HIyp2
    isplitl [Hs0_2]; · iexact Hs0_2
    isplitl [Hyp2]; · iexact Hyp2
    isplitl [HO]; · iexact HO
    isplitl [Ht0_2]; · iexact Ht0_2
    isplitr; · iexact Hr0_2
    isplitl [Ht1_2]; · iexact Ht1_2
    iexact Hryp2
  iintro ⟨Hc0_2, HO⟩
  sl_exec_parts
  -- chunk 3 goes to the y-neighbour
  have hfs3 : (slotOf ysM 3).view.read (Elt F) (body_core.sl.Hs0_3_w1 m c f0) = shapeCast S512x256 (partY m c 3) shapeCasts_S1x512x256_S512x256 := by
    unfold body_core.sl.Hs0_3_w1
    exact (slot_read_write ysM 3 rfl _ f0 _).trans (congrArg (fun v => shapeCast S512x256 v shapeCasts_S1x512x256_S512x256) rfl)
  iapply (send_y m (K (c, some (0, 3))) (K (pY c, some (1, 3))) c _ (dev6_eq c) 3 _ fy3 hfs3 0 3 rfl _) $$ [HO Hs0_3 Hyp3 Ht0_3 Ht1_3]
  · isplitr; · iexact HI0_3
    isplitr; · iexact HIyp3
    isplitl [Hs0_3]; · iexact Hs0_3
    isplitl [Hyp3]; · iexact Hyp3
    isplitl [HO]; · iexact HO
    isplitl [Ht0_3]; · iexact Ht0_3
    isplitr; · iexact Hr0_3
    isplitl [Ht1_3]; · iexact Ht1_3
    iexact Hryp3
  iintro ⟨Hc0_3, HO⟩
  sl_exec_parts
  -- chunk 4 goes to the y-neighbour
  have hfs4 : (slotOf ysM 4).view.read (Elt F) (body_core.sl.Hs0_4_w1 m c f0) = shapeCast S512x256 (partY m c 4) shapeCasts_S1x512x256_S512x256 := by
    unfold body_core.sl.Hs0_4_w1
    exact (slot_read_write ysM 4 rfl _ f0 _).trans (congrArg (fun v => shapeCast S512x256 v shapeCasts_S1x512x256_S512x256) rfl)
  iapply (send_y m (K (c, some (0, 4))) (K (pY c, some (1, 4))) c _ (dev7_eq c) 4 _ fy4 hfs4 0 4 rfl _) $$ [HO Hs0_4 Hyp4 Ht0_4 Ht1_4]
  · isplitr; · iexact HI0_4
    isplitr; · iexact HIyp4
    isplitl [Hs0_4]; · iexact Hs0_4
    isplitl [Hyp4]; · iexact Hyp4
    isplitl [HO]; · iexact HO
    isplitl [Ht0_4]; · iexact Ht0_4
    isplitr; · iexact Hr0_4
    isplitl [Ht1_4]; · iexact Ht1_4
    iexact Hryp4
  iintro ⟨Hc0_4, HO⟩
  sl_exec_parts
  -- chunk 5 goes to the y-neighbour
  have hfs5 : (slotOf ysM 5).view.read (Elt F) (body_core.sl.Hs0_5_w1 m c f0) = shapeCast S512x256 (partY m c 5) shapeCasts_S1x512x256_S512x256 := by
    unfold body_core.sl.Hs0_5_w1
    exact (slot_read_write ysM 5 rfl _ f0 _).trans (congrArg (fun v => shapeCast S512x256 v shapeCasts_S1x512x256_S512x256) rfl)
  iapply (send_y m (K (c, some (0, 5))) (K (pY c, some (1, 5))) c _ (dev8_eq c) 5 _ fy5 hfs5 0 5 rfl _) $$ [HO Hs0_5 Hyp5 Ht0_5 Ht1_5]
  · isplitr; · iexact HI0_5
    isplitr; · iexact HIyp5
    isplitl [Hs0_5]; · iexact Hs0_5
    isplitl [Hyp5]; · iexact Hyp5
    isplitl [HO]; · iexact HO
    isplitl [Ht0_5]; · iexact Ht0_5
    isplitr; · iexact Hr0_5
    isplitl [Ht1_5]; · iexact Ht1_5
    iexact Hryp5
  iintro ⟨Hc0_5, HO⟩
  sl_exec_parts
  -- chunk 6 goes to the y-neighbour
  have hfs6 : (slotOf ysM 6).view.read (Elt F) (body_core.sl.Hs0_6_w1 m c f0) = shapeCast S512x256 (partY m c 6) shapeCasts_S1x512x256_S512x256 := by
    unfold body_core.sl.Hs0_6_w1
    exact (slot_read_write ysM 6 rfl _ f0 _).trans (congrArg (fun v => shapeCast S512x256 v shapeCasts_S1x512x256_S512x256) rfl)
  iapply (send_y m (K (c, some (0, 6))) (K (pY c, some (1, 6))) c _ (dev9_eq c) 6 _ fy6 hfs6 0 6 rfl _) $$ [HO Hs0_6 Hyp6 Ht0_6 Ht1_6]
  · isplitr; · iexact HI0_6
    isplitr; · iexact HIyp6
    isplitl [Hs0_6]; · iexact Hs0_6
    isplitl [Hyp6]; · iexact Hyp6
    isplitl [HO]; · iexact HO
    isplitl [Ht0_6]; · iexact Ht0_6
    isplitr; · iexact Hr0_6
    isplitl [Ht1_6]; · iexact Ht1_6
    iexact Hryp6
  iintro ⟨Hc0_6, HO⟩
  sl_exec_parts
  -- chunk 7 goes to the y-neighbour
  have hfs7 : (slotOf ysM 7).view.read (Elt F) (body_core.sl.Hs0_7_w1 m c f0) = shapeCast S512x256 (partY m c 7) shapeCasts_S1x512x256_S512x256 := by
    unfold body_core.sl.Hs0_7_w1
    exact (slot_read_write ysM 7 rfl _ f0 _).trans (congrArg (fun v => shapeCast S512x256 v shapeCasts_S1x512x256_S512x256) rfl)
  iapply (send_y m (K (c, some (0, 7))) (K (pY c, some (1, 7))) c _ (dev10_eq c) 7 _ fy7 hfs7 0 7 rfl _) $$ [HO Hs0_7 Hyp7 Ht0_7 Ht1_7]
  · isplitr; · iexact HI0_7
    isplitr; · iexact HIyp7
    isplitl [Hs0_7]; · iexact Hs0_7
    isplitl [Hyp7]; · iexact Hyp7
    isplitl [HO]; · iexact HO
    isplitl [Ht0_7]; · iexact Ht0_7
    isplitr; · iexact Hr0_7
    isplitl [Ht1_7]; · iexact Ht1_7
    iexact Hryp7
  iintro ⟨Hc0_7, HO⟩
  sl_exec_parts
  -- chunk 0: the send slot back, the y-neighbour's slot in; their sum stored and sent to the x-neighbour
  iapply (wait_q m (K (c, some (0, 0))) c 0 0 (Oxy c 0 8) _ (fun g u h => by rw [lv_q0]; exact Oxy_above 0 (Or.inl (by decide)) g u h)) $$ [Hc0_0 HO Hat0_0]
  · isplitr; · iexact HI0_0
    isplitl [Hc0_0]; · iexact Hc0_0
    isplitl [HO]; · iexact HO
    isplitr; · iexact Hlev
    iexact Hat0_0
  iintro ⟨HO, Hat0_0, Hp⟩
  unfold payQ slotAny
  icases Hp with ⟨%fs0_0, Hs0_0⟩
  sl_exec_parts
  iapply (wait_q m (K (c, some (1, 0))) c 1 0 (Oxy c 0 8) _ (fun g u h => by rw [lv_q1]; exact Oxy_above 2 (Or.inr ⟨by decide, le_refl 8⟩) g u h)) $$ [Hc1_0 HO Hat1_0]
  · isplitr; · iexact HI1_0
    isplitl [Hc1_0]; · iexact Hc1_0
    isplitl [HO]; · iexact HO
    isplitr; · iexact Hlev
    iexact Hat1_0
  iintro ⟨HO, Hat1_0, Hp⟩
  unfold payQ slotIs
  icases Hp with ⟨%gy0, Hs1_0, %hgy0⟩
  sl_exec_parts
  have hxs0 : (slotOf xsM 0).view.read (Elt F) (body_core.sl.Hs2_0_w1 m c f2 gy0) = shapeCast S512x256 (partX m c 0) shapeCasts_S1x512x256_S512x256 := by
    unfold body_core.sl.Hs2_0_w1
    exact (slot_read_write xsM 0 rfl _ f2 _).trans (congrArg (fun v => shapeCast S512x256 v shapeCasts_S1x512x256_S512x256)
      (congrArg sendX (sumY_congr (loadK m c) (loadD m c 0) (yrM.view.readAt (Elt F) (slotR 0).toLoadRect gy0) (partY m (pY c) 0)
        ((slot_read yrM 0 gy0).symm.trans hgy0))))
  iapply (send_x m (K (c, some (2, 0))) (K (pX c, some (3, 0))) c _ (dev11_eq c) 0 _ fx0 hxs0 0 8 rfl _) $$ [HO Hs2_0 Hxp0 Ht2_0 Ht3_0]
  · isplitr; · iexact HI2_0
    isplitr; · iexact HIxp0
    isplitl [Hs2_0]; · iexact Hs2_0
    isplitl [Hxp0]; · iexact Hxp0
    isplitl [HO]; · iexact HO
    isplitl [Ht2_0]; · iexact Ht2_0
    isplitr; · iexact Hr2_0
    isplitl [Ht3_0]; · iexact Ht3_0
    iexact Hrxp0
  iintro ⟨Hc2_0, HO⟩
  sl_exec_parts
  -- chunk 1: the send slot back, the y-neighbour's slot in; their sum stored and sent to the x-neighbour
  iapply (wait_q m (K (c, some (0, 1))) c 0 1 (Oxy c 1 8) _ (fun g u h => by rw [lv_q0]; exact Oxy_above 0 (Or.inl (by decide)) g u h)) $$ [Hc0_1 HO Hat0_1]
  · isplitr; · iexact HI0_1
    isplitl [Hc0_1]; · iexact Hc0_1
    isplitl [HO]; · iexact HO
    isplitr; · iexact Hlev
    iexact Hat0_1
  iintro ⟨HO, Hat0_1, Hp⟩
  unfold payQ slotAny
  icases Hp with ⟨%fs0_1, Hs0_1⟩
  sl_exec_parts
  iapply (wait_q m (K (c, some (1, 1))) c 1 1 (Oxy c 1 8) _ (fun g u h => by rw [lv_q1]; exact Oxy_above 2 (Or.inr ⟨by decide, le_refl 8⟩) g u h)) $$ [Hc1_1 HO Hat1_1]
  · isplitr; · iexact HI1_1
    isplitl [Hc1_1]; · iexact Hc1_1
    isplitl [HO]; · iexact HO
    isplitr; · iexact Hlev
    iexact Hat1_1
  iintro ⟨HO, Hat1_1, Hp⟩
  unfold payQ slotIs
  icases Hp with ⟨%gy1, Hs1_1, %hgy1⟩
  sl_exec_parts
  have hxs1 : (slotOf xsM 1).view.read (Elt F) (body_core.sl.Hs2_1_w1 m c f2 gy1) = shapeCast S512x256 (partX m c 1) shapeCasts_S1x512x256_S512x256 := by
    unfold body_core.sl.Hs2_1_w1
    exact (slot_read_write xsM 1 rfl _ f2 _).trans (congrArg (fun v => shapeCast S512x256 v shapeCasts_S1x512x256_S512x256)
      (congrArg sendX (sumY_congr (loadK m c) (loadD m c 1) (yrM.view.readAt (Elt F) (slotR 1).toLoadRect gy1) (partY m (pY c) 1)
        ((slot_read yrM 1 gy1).symm.trans hgy1))))
  iapply (send_x m (K (c, some (2, 1))) (K (pX c, some (3, 1))) c _ (dev12_eq c) 1 _ fx1 hxs1 1 8 rfl _) $$ [HO Hs2_1 Hxp1 Ht2_1 Ht3_1]
  · isplitr; · iexact HI2_1
    isplitr; · iexact HIxp1
    isplitl [Hs2_1]; · iexact Hs2_1
    isplitl [Hxp1]; · iexact Hxp1
    isplitl [HO]; · iexact HO
    isplitl [Ht2_1]; · iexact Ht2_1
    isplitr; · iexact Hr2_1
    isplitl [Ht3_1]; · iexact Ht3_1
    iexact Hrxp1
  iintro ⟨Hc2_1, HO⟩
  sl_exec_parts
  -- chunk 2: the send slot back, the y-neighbour's slot in; their sum stored and sent to the x-neighbour
  iapply (wait_q m (K (c, some (0, 2))) c 0 2 (Oxy c 2 8) _ (fun g u h => by rw [lv_q0]; exact Oxy_above 0 (Or.inl (by decide)) g u h)) $$ [Hc0_2 HO Hat0_2]
  · isplitr; · iexact HI0_2
    isplitl [Hc0_2]; · iexact Hc0_2
    isplitl [HO]; · iexact HO
    isplitr; · iexact Hlev
    iexact Hat0_2
  iintro ⟨HO, Hat0_2, Hp⟩
  unfold payQ slotAny
  icases Hp with ⟨%fs0_2, Hs0_2⟩
  sl_exec_parts
  iapply (wait_q m (K (c, some (1, 2))) c 1 2 (Oxy c 2 8) _ (fun g u h => by rw [lv_q1]; exact Oxy_above 2 (Or.inr ⟨by decide, le_refl 8⟩) g u h)) $$ [Hc1_2 HO Hat1_2]
  · isplitr; · iexact HI1_2
    isplitl [Hc1_2]; · iexact Hc1_2
    isplitl [HO]; · iexact HO
    isplitr; · iexact Hlev
    iexact Hat1_2
  iintro ⟨HO, Hat1_2, Hp⟩
  unfold payQ slotIs
  icases Hp with ⟨%gy2, Hs1_2, %hgy2⟩
  sl_exec_parts
  have hxs2 : (slotOf xsM 2).view.read (Elt F) (body_core.sl.Hs2_2_w1 m c f2 gy2) = shapeCast S512x256 (partX m c 2) shapeCasts_S1x512x256_S512x256 := by
    unfold body_core.sl.Hs2_2_w1
    exact (slot_read_write xsM 2 rfl _ f2 _).trans (congrArg (fun v => shapeCast S512x256 v shapeCasts_S1x512x256_S512x256)
      (congrArg sendX (sumY_congr (loadK m c) (loadD m c 2) (yrM.view.readAt (Elt F) (slotR 2).toLoadRect gy2) (partY m (pY c) 2)
        ((slot_read yrM 2 gy2).symm.trans hgy2))))
  iapply (send_x m (K (c, some (2, 2))) (K (pX c, some (3, 2))) c _ (dev13_eq c) 2 _ fx2 hxs2 2 8 rfl _) $$ [HO Hs2_2 Hxp2 Ht2_2 Ht3_2]
  · isplitr; · iexact HI2_2
    isplitr; · iexact HIxp2
    isplitl [Hs2_2]; · iexact Hs2_2
    isplitl [Hxp2]; · iexact Hxp2
    isplitl [HO]; · iexact HO
    isplitl [Ht2_2]; · iexact Ht2_2
    isplitr; · iexact Hr2_2
    isplitl [Ht3_2]; · iexact Ht3_2
    iexact Hrxp2
  iintro ⟨Hc2_2, HO⟩
  sl_exec_parts
  -- chunk 3: the send slot back, the y-neighbour's slot in; their sum stored and sent to the x-neighbour
  iapply (wait_q m (K (c, some (0, 3))) c 0 3 (Oxy c 3 8) _ (fun g u h => by rw [lv_q0]; exact Oxy_above 0 (Or.inl (by decide)) g u h)) $$ [Hc0_3 HO Hat0_3]
  · isplitr; · iexact HI0_3
    isplitl [Hc0_3]; · iexact Hc0_3
    isplitl [HO]; · iexact HO
    isplitr; · iexact Hlev
    iexact Hat0_3
  iintro ⟨HO, Hat0_3, Hp⟩
  unfold payQ slotAny
  icases Hp with ⟨%fs0_3, Hs0_3⟩
  sl_exec_parts
  iapply (wait_q m (K (c, some (1, 3))) c 1 3 (Oxy c 3 8) _ (fun g u h => by rw [lv_q1]; exact Oxy_above 2 (Or.inr ⟨by decide, le_refl 8⟩) g u h)) $$ [Hc1_3 HO Hat1_3]
  · isplitr; · iexact HI1_3
    isplitl [Hc1_3]; · iexact Hc1_3
    isplitl [HO]; · iexact HO
    isplitr; · iexact Hlev
    iexact Hat1_3
  iintro ⟨HO, Hat1_3, Hp⟩
  unfold payQ slotIs
  icases Hp with ⟨%gy3, Hs1_3, %hgy3⟩
  sl_exec_parts
  have hxs3 : (slotOf xsM 3).view.read (Elt F) (body_core.sl.Hs2_3_w1 m c f2 gy3) = shapeCast S512x256 (partX m c 3) shapeCasts_S1x512x256_S512x256 := by
    unfold body_core.sl.Hs2_3_w1
    exact (slot_read_write xsM 3 rfl _ f2 _).trans (congrArg (fun v => shapeCast S512x256 v shapeCasts_S1x512x256_S512x256)
      (congrArg sendX (sumY_congr (loadK m c) (loadD m c 3) (yrM.view.readAt (Elt F) (slotR 3).toLoadRect gy3) (partY m (pY c) 3)
        ((slot_read yrM 3 gy3).symm.trans hgy3))))
  iapply (send_x m (K (c, some (2, 3))) (K (pX c, some (3, 3))) c _ (dev14_eq c) 3 _ fx3 hxs3 3 8 rfl _) $$ [HO Hs2_3 Hxp3 Ht2_3 Ht3_3]
  · isplitr; · iexact HI2_3
    isplitr; · iexact HIxp3
    isplitl [Hs2_3]; · iexact Hs2_3
    isplitl [Hxp3]; · iexact Hxp3
    isplitl [HO]; · iexact HO
    isplitl [Ht2_3]; · iexact Ht2_3
    isplitr; · iexact Hr2_3
    isplitl [Ht3_3]; · iexact Ht3_3
    iexact Hrxp3
  iintro ⟨Hc2_3, HO⟩
  sl_exec_parts
  -- chunk 4: the send slot back, the y-neighbour's slot in; their sum stored and sent to the x-neighbour
  iapply (wait_q m (K (c, some (0, 4))) c 0 4 (Oxy c 4 8) _ (fun g u h => by rw [lv_q0]; exact Oxy_above 0 (Or.inl (by decide)) g u h)) $$ [Hc0_4 HO Hat0_4]
  · isplitr; · iexact HI0_4
    isplitl [Hc0_4]; · iexact Hc0_4
    isplitl [HO]; · iexact HO
    isplitr; · iexact Hlev
    iexact Hat0_4
  iintro ⟨HO, Hat0_4, Hp⟩
  unfold payQ slotAny
  icases Hp with ⟨%fs0_4, Hs0_4⟩
  sl_exec_parts
  iapply (wait_q m (K (c, some (1, 4))) c 1 4 (Oxy c 4 8) _ (fun g u h => by rw [lv_q1]; exact Oxy_above 2 (Or.inr ⟨by decide, le_refl 8⟩) g u h)) $$ [Hc1_4 HO Hat1_4]
  · isplitr; · iexact HI1_4
    isplitl [Hc1_4]; · iexact Hc1_4
    isplitl [HO]; · iexact HO
    isplitr; · iexact Hlev
    iexact Hat1_4
  iintro ⟨HO, Hat1_4, Hp⟩
  unfold payQ slotIs
  icases Hp with ⟨%gy4, Hs1_4, %hgy4⟩
  sl_exec_parts
  have hxs4 : (slotOf xsM 4).view.read (Elt F) (body_core.sl.Hs2_4_w1 m c f2 gy4) = shapeCast S512x256 (partX m c 4) shapeCasts_S1x512x256_S512x256 := by
    unfold body_core.sl.Hs2_4_w1
    exact (slot_read_write xsM 4 rfl _ f2 _).trans (congrArg (fun v => shapeCast S512x256 v shapeCasts_S1x512x256_S512x256)
      (congrArg sendX (sumY_congr (loadK m c) (loadD m c 4) (yrM.view.readAt (Elt F) (slotR 4).toLoadRect gy4) (partY m (pY c) 4)
        ((slot_read yrM 4 gy4).symm.trans hgy4))))
  iapply (send_x m (K (c, some (2, 4))) (K (pX c, some (3, 4))) c _ (dev15_eq c) 4 _ fx4 hxs4 4 8 rfl _) $$ [HO Hs2_4 Hxp4 Ht2_4 Ht3_4]
  · isplitr; · iexact HI2_4
    isplitr; · iexact HIxp4
    isplitl [Hs2_4]; · iexact Hs2_4
    isplitl [Hxp4]; · iexact Hxp4
    isplitl [HO]; · iexact HO
    isplitl [Ht2_4]; · iexact Ht2_4
    isplitr; · iexact Hr2_4
    isplitl [Ht3_4]; · iexact Ht3_4
    iexact Hrxp4
  iintro ⟨Hc2_4, HO⟩
  sl_exec_parts
  -- chunk 5: the send slot back, the y-neighbour's slot in; their sum stored and sent to the x-neighbour
  iapply (wait_q m (K (c, some (0, 5))) c 0 5 (Oxy c 5 8) _ (fun g u h => by rw [lv_q0]; exact Oxy_above 0 (Or.inl (by decide)) g u h)) $$ [Hc0_5 HO Hat0_5]
  · isplitr; · iexact HI0_5
    isplitl [Hc0_5]; · iexact Hc0_5
    isplitl [HO]; · iexact HO
    isplitr; · iexact Hlev
    iexact Hat0_5
  iintro ⟨HO, Hat0_5, Hp⟩
  unfold payQ slotAny
  icases Hp with ⟨%fs0_5, Hs0_5⟩
  sl_exec_parts
  iapply (wait_q m (K (c, some (1, 5))) c 1 5 (Oxy c 5 8) _ (fun g u h => by rw [lv_q1]; exact Oxy_above 2 (Or.inr ⟨by decide, le_refl 8⟩) g u h)) $$ [Hc1_5 HO Hat1_5]
  · isplitr; · iexact HI1_5
    isplitl [Hc1_5]; · iexact Hc1_5
    isplitl [HO]; · iexact HO
    isplitr; · iexact Hlev
    iexact Hat1_5
  iintro ⟨HO, Hat1_5, Hp⟩
  unfold payQ slotIs
  icases Hp with ⟨%gy5, Hs1_5, %hgy5⟩
  sl_exec_parts
  have hxs5 : (slotOf xsM 5).view.read (Elt F) (body_core.sl.Hs2_5_w1 m c f2 gy5) = shapeCast S512x256 (partX m c 5) shapeCasts_S1x512x256_S512x256 := by
    unfold body_core.sl.Hs2_5_w1
    exact (slot_read_write xsM 5 rfl _ f2 _).trans (congrArg (fun v => shapeCast S512x256 v shapeCasts_S1x512x256_S512x256)
      (congrArg sendX (sumY_congr (loadK m c) (loadD m c 5) (yrM.view.readAt (Elt F) (slotR 5).toLoadRect gy5) (partY m (pY c) 5)
        ((slot_read yrM 5 gy5).symm.trans hgy5))))
  iapply (send_x m (K (c, some (2, 5))) (K (pX c, some (3, 5))) c _ (dev16_eq c) 5 _ fx5 hxs5 5 8 rfl _) $$ [HO Hs2_5 Hxp5 Ht2_5 Ht3_5]
  · isplitr; · iexact HI2_5
    isplitr; · iexact HIxp5
    isplitl [Hs2_5]; · iexact Hs2_5
    isplitl [Hxp5]; · iexact Hxp5
    isplitl [HO]; · iexact HO
    isplitl [Ht2_5]; · iexact Ht2_5
    isplitr; · iexact Hr2_5
    isplitl [Ht3_5]; · iexact Ht3_5
    iexact Hrxp5
  iintro ⟨Hc2_5, HO⟩
  sl_exec_parts
  -- chunk 6: the send slot back, the y-neighbour's slot in; their sum stored and sent to the x-neighbour
  iapply (wait_q m (K (c, some (0, 6))) c 0 6 (Oxy c 6 8) _ (fun g u h => by rw [lv_q0]; exact Oxy_above 0 (Or.inl (by decide)) g u h)) $$ [Hc0_6 HO Hat0_6]
  · isplitr; · iexact HI0_6
    isplitl [Hc0_6]; · iexact Hc0_6
    isplitl [HO]; · iexact HO
    isplitr; · iexact Hlev
    iexact Hat0_6
  iintro ⟨HO, Hat0_6, Hp⟩
  unfold payQ slotAny
  icases Hp with ⟨%fs0_6, Hs0_6⟩
  sl_exec_parts
  iapply (wait_q m (K (c, some (1, 6))) c 1 6 (Oxy c 6 8) _ (fun g u h => by rw [lv_q1]; exact Oxy_above 2 (Or.inr ⟨by decide, le_refl 8⟩) g u h)) $$ [Hc1_6 HO Hat1_6]
  · isplitr; · iexact HI1_6
    isplitl [Hc1_6]; · iexact Hc1_6
    isplitl [HO]; · iexact HO
    isplitr; · iexact Hlev
    iexact Hat1_6
  iintro ⟨HO, Hat1_6, Hp⟩
  unfold payQ slotIs
  icases Hp with ⟨%gy6, Hs1_6, %hgy6⟩
  sl_exec_parts
  have hxs6 : (slotOf xsM 6).view.read (Elt F) (body_core.sl.Hs2_6_w1 m c f2 gy6) = shapeCast S512x256 (partX m c 6) shapeCasts_S1x512x256_S512x256 := by
    unfold body_core.sl.Hs2_6_w1
    exact (slot_read_write xsM 6 rfl _ f2 _).trans (congrArg (fun v => shapeCast S512x256 v shapeCasts_S1x512x256_S512x256)
      (congrArg sendX (sumY_congr (loadK m c) (loadD m c 6) (yrM.view.readAt (Elt F) (slotR 6).toLoadRect gy6) (partY m (pY c) 6)
        ((slot_read yrM 6 gy6).symm.trans hgy6))))
  iapply (send_x m (K (c, some (2, 6))) (K (pX c, some (3, 6))) c _ (dev17_eq c) 6 _ fx6 hxs6 6 8 rfl _) $$ [HO Hs2_6 Hxp6 Ht2_6 Ht3_6]
  · isplitr; · iexact HI2_6
    isplitr; · iexact HIxp6
    isplitl [Hs2_6]; · iexact Hs2_6
    isplitl [Hxp6]; · iexact Hxp6
    isplitl [HO]; · iexact HO
    isplitl [Ht2_6]; · iexact Ht2_6
    isplitr; · iexact Hr2_6
    isplitl [Ht3_6]; · iexact Ht3_6
    iexact Hrxp6
  iintro ⟨Hc2_6, HO⟩
  sl_exec_parts
  -- chunk 7: the send slot back, the y-neighbour's slot in; their sum stored and sent to the x-neighbour
  iapply (wait_q m (K (c, some (0, 7))) c 0 7 (Oxy c 7 8) _ (fun g u h => by rw [lv_q0]; exact Oxy_above 0 (Or.inl (by decide)) g u h)) $$ [Hc0_7 HO Hat0_7]
  · isplitr; · iexact HI0_7
    isplitl [Hc0_7]; · iexact Hc0_7
    isplitl [HO]; · iexact HO
    isplitr; · iexact Hlev
    iexact Hat0_7
  iintro ⟨HO, Hat0_7, Hp⟩
  unfold payQ slotAny
  icases Hp with ⟨%fs0_7, Hs0_7⟩
  sl_exec_parts
  iapply (wait_q m (K (c, some (1, 7))) c 1 7 (Oxy c 7 8) _ (fun g u h => by rw [lv_q1]; exact Oxy_above 2 (Or.inr ⟨by decide, le_refl 8⟩) g u h)) $$ [Hc1_7 HO Hat1_7]
  · isplitr; · iexact HI1_7
    isplitl [Hc1_7]; · iexact Hc1_7
    isplitl [HO]; · iexact HO
    isplitr; · iexact Hlev
    iexact Hat1_7
  iintro ⟨HO, Hat1_7, Hp⟩
  unfold payQ slotIs
  icases Hp with ⟨%gy7, Hs1_7, %hgy7⟩
  sl_exec_parts
  have hxs7 : (slotOf xsM 7).view.read (Elt F) (body_core.sl.Hs2_7_w1 m c f2 gy7) = shapeCast S512x256 (partX m c 7) shapeCasts_S1x512x256_S512x256 := by
    unfold body_core.sl.Hs2_7_w1
    exact (slot_read_write xsM 7 rfl _ f2 _).trans (congrArg (fun v => shapeCast S512x256 v shapeCasts_S1x512x256_S512x256)
      (congrArg sendX (sumY_congr (loadK m c) (loadD m c 7) (yrM.view.readAt (Elt F) (slotR 7).toLoadRect gy7) (partY m (pY c) 7)
        ((slot_read yrM 7 gy7).symm.trans hgy7))))
  iapply (send_x m (K (c, some (2, 7))) (K (pX c, some (3, 7))) c _ (dev18_eq c) 7 _ fx7 hxs7 7 8 rfl _) $$ [HO Hs2_7 Hxp7 Ht2_7 Ht3_7]
  · isplitr; · iexact HI2_7
    isplitr; · iexact HIxp7
    isplitl [Hs2_7]; · iexact Hs2_7
    isplitl [Hxp7]; · iexact Hxp7
    isplitl [HO]; · iexact HO
    isplitl [Ht2_7]; · iexact Ht2_7
    isplitr; · iexact Hr2_7
    isplitl [Ht3_7]; · iexact Ht3_7
    iexact Hrxp7
  iintro ⟨Hc2_7, HO⟩
  sl_exec_parts
  -- chunk 0 of the x-neighbour's half: the send slot back, the x-neighbour's slot in, stored into the result
  iapply (wait_q m (K (c, some (2, 0))) c 2 0 (Oxy c 8 8) _ (fun g u h => by rw [lv_q2]; exact Oxy_above 0 (Or.inl (by decide)) g u h)) $$ [Hc2_0 HO Hat2_0]
  · isplitr; · iexact HI2_0
    isplitl [Hc2_0]; · iexact Hc2_0
    isplitl [HO]; · iexact HO
    isplitr; · iexact Hlev
    iexact Hat2_0
  iintro ⟨HO, Hat2_0, Hp⟩
  unfold payQ slotAny
  icases Hp with ⟨%fs2_0, Hs2_0⟩
  sl_exec_parts
  iapply (wait_q m (K (c, some (3, 0))) c 3 0 (Oxy c 8 8) _ (fun g u h => by rw [Oxy_done] at h; exact absurd h (Nat.lt_irrefl 0))) $$ [Hc3_0 HO Hat3_0]
  · isplitr; · iexact HI3_0
    isplitl [Hc3_0]; · iexact Hc3_0
    isplitl [HO]; · iexact HO
    isplitr; · iexact Hlev
    iexact Hat3_0
  iintro ⟨HO, Hat3_0, Hp⟩
  unfold payQ slotIs
  icases Hp with ⟨%gx0, Hs3_0, %hgx0⟩
  sl_exec_parts
  -- chunk 1 of the x-neighbour's half: the send slot back, the x-neighbour's slot in, stored into the result
  iapply (wait_q m (K (c, some (2, 1))) c 2 1 (Oxy c 8 8) _ (fun g u h => by rw [lv_q2]; exact Oxy_above 0 (Or.inl (by decide)) g u h)) $$ [Hc2_1 HO Hat2_1]
  · isplitr; · iexact HI2_1
    isplitl [Hc2_1]; · iexact Hc2_1
    isplitl [HO]; · iexact HO
    isplitr; · iexact Hlev
    iexact Hat2_1
  iintro ⟨HO, Hat2_1, Hp⟩
  unfold payQ slotAny
  icases Hp with ⟨%fs2_1, Hs2_1⟩
  sl_exec_parts
  iapply (wait_q m (K (c, some (3, 1))) c 3 1 (Oxy c 8 8) _ (fun g u h => by rw [Oxy_done] at h; exact absurd h (Nat.lt_irrefl 0))) $$ [Hc3_1 HO Hat3_1]
  · isplitr; · iexact HI3_1
    isplitl [Hc3_1]; · iexact Hc3_1
    isplitl [HO]; · iexact HO
    isplitr; · iexact Hlev
    iexact Hat3_1
  iintro ⟨HO, Hat3_1, Hp⟩
  unfold payQ slotIs
  icases Hp with ⟨%gx1, Hs3_1, %hgx1⟩
  sl_exec_parts
  -- chunk 2 of the x-neighbour's half: the send slot back, the x-neighbour's slot in, stored into the result
  iapply (wait_q m (K (c, some (2, 2))) c 2 2 (Oxy c 8 8) _ (fun g u h => by rw [lv_q2]; exact Oxy_above 0 (Or.inl (by decide)) g u h)) $$ [Hc2_2 HO Hat2_2]
  · isplitr; · iexact HI2_2
    isplitl [Hc2_2]; · iexact Hc2_2
    isplitl [HO]; · iexact HO
    isplitr; · iexact Hlev
    iexact Hat2_2
  iintro ⟨HO, Hat2_2, Hp⟩
  unfold payQ slotAny
  icases Hp with ⟨%fs2_2, Hs2_2⟩
  sl_exec_parts
  iapply (wait_q m (K (c, some (3, 2))) c 3 2 (Oxy c 8 8) _ (fun g u h => by rw [Oxy_done] at h; exact absurd h (Nat.lt_irrefl 0))) $$ [Hc3_2 HO Hat3_2]
  · isplitr; · iexact HI3_2
    isplitl [Hc3_2]; · iexact Hc3_2
    isplitl [HO]; · iexact HO
    isplitr; · iexact Hlev
    iexact Hat3_2
  iintro ⟨HO, Hat3_2, Hp⟩
  unfold payQ slotIs
  icases Hp with ⟨%gx2, Hs3_2, %hgx2⟩
  sl_exec_parts
  -- chunk 3 of the x-neighbour's half: the send slot back, the x-neighbour's slot in, stored into the result
  iapply (wait_q m (K (c, some (2, 3))) c 2 3 (Oxy c 8 8) _ (fun g u h => by rw [lv_q2]; exact Oxy_above 0 (Or.inl (by decide)) g u h)) $$ [Hc2_3 HO Hat2_3]
  · isplitr; · iexact HI2_3
    isplitl [Hc2_3]; · iexact Hc2_3
    isplitl [HO]; · iexact HO
    isplitr; · iexact Hlev
    iexact Hat2_3
  iintro ⟨HO, Hat2_3, Hp⟩
  unfold payQ slotAny
  icases Hp with ⟨%fs2_3, Hs2_3⟩
  sl_exec_parts
  iapply (wait_q m (K (c, some (3, 3))) c 3 3 (Oxy c 8 8) _ (fun g u h => by rw [Oxy_done] at h; exact absurd h (Nat.lt_irrefl 0))) $$ [Hc3_3 HO Hat3_3]
  · isplitr; · iexact HI3_3
    isplitl [Hc3_3]; · iexact Hc3_3
    isplitl [HO]; · iexact HO
    isplitr; · iexact Hlev
    iexact Hat3_3
  iintro ⟨HO, Hat3_3, Hp⟩
  unfold payQ slotIs
  icases Hp with ⟨%gx3, Hs3_3, %hgx3⟩
  sl_exec_parts
  -- chunk 4 of the x-neighbour's half: the send slot back, the x-neighbour's slot in, stored into the result
  iapply (wait_q m (K (c, some (2, 4))) c 2 4 (Oxy c 8 8) _ (fun g u h => by rw [lv_q2]; exact Oxy_above 0 (Or.inl (by decide)) g u h)) $$ [Hc2_4 HO Hat2_4]
  · isplitr; · iexact HI2_4
    isplitl [Hc2_4]; · iexact Hc2_4
    isplitl [HO]; · iexact HO
    isplitr; · iexact Hlev
    iexact Hat2_4
  iintro ⟨HO, Hat2_4, Hp⟩
  unfold payQ slotAny
  icases Hp with ⟨%fs2_4, Hs2_4⟩
  sl_exec_parts
  iapply (wait_q m (K (c, some (3, 4))) c 3 4 (Oxy c 8 8) _ (fun g u h => by rw [Oxy_done] at h; exact absurd h (Nat.lt_irrefl 0))) $$ [Hc3_4 HO Hat3_4]
  · isplitr; · iexact HI3_4
    isplitl [Hc3_4]; · iexact Hc3_4
    isplitl [HO]; · iexact HO
    isplitr; · iexact Hlev
    iexact Hat3_4
  iintro ⟨HO, Hat3_4, Hp⟩
  unfold payQ slotIs
  icases Hp with ⟨%gx4, Hs3_4, %hgx4⟩
  sl_exec_parts
  -- chunk 5 of the x-neighbour's half: the send slot back, the x-neighbour's slot in, stored into the result
  iapply (wait_q m (K (c, some (2, 5))) c 2 5 (Oxy c 8 8) _ (fun g u h => by rw [lv_q2]; exact Oxy_above 0 (Or.inl (by decide)) g u h)) $$ [Hc2_5 HO Hat2_5]
  · isplitr; · iexact HI2_5
    isplitl [Hc2_5]; · iexact Hc2_5
    isplitl [HO]; · iexact HO
    isplitr; · iexact Hlev
    iexact Hat2_5
  iintro ⟨HO, Hat2_5, Hp⟩
  unfold payQ slotAny
  icases Hp with ⟨%fs2_5, Hs2_5⟩
  sl_exec_parts
  iapply (wait_q m (K (c, some (3, 5))) c 3 5 (Oxy c 8 8) _ (fun g u h => by rw [Oxy_done] at h; exact absurd h (Nat.lt_irrefl 0))) $$ [Hc3_5 HO Hat3_5]
  · isplitr; · iexact HI3_5
    isplitl [Hc3_5]; · iexact Hc3_5
    isplitl [HO]; · iexact HO
    isplitr; · iexact Hlev
    iexact Hat3_5
  iintro ⟨HO, Hat3_5, Hp⟩
  unfold payQ slotIs
  icases Hp with ⟨%gx5, Hs3_5, %hgx5⟩
  sl_exec_parts
  -- chunk 6 of the x-neighbour's half: the send slot back, the x-neighbour's slot in, stored into the result
  iapply (wait_q m (K (c, some (2, 6))) c 2 6 (Oxy c 8 8) _ (fun g u h => by rw [lv_q2]; exact Oxy_above 0 (Or.inl (by decide)) g u h)) $$ [Hc2_6 HO Hat2_6]
  · isplitr; · iexact HI2_6
    isplitl [Hc2_6]; · iexact Hc2_6
    isplitl [HO]; · iexact HO
    isplitr; · iexact Hlev
    iexact Hat2_6
  iintro ⟨HO, Hat2_6, Hp⟩
  unfold payQ slotAny
  icases Hp with ⟨%fs2_6, Hs2_6⟩
  sl_exec_parts
  iapply (wait_q m (K (c, some (3, 6))) c 3 6 (Oxy c 8 8) _ (fun g u h => by rw [Oxy_done] at h; exact absurd h (Nat.lt_irrefl 0))) $$ [Hc3_6 HO Hat3_6]
  · isplitr; · iexact HI3_6
    isplitl [Hc3_6]; · iexact Hc3_6
    isplitl [HO]; · iexact HO
    isplitr; · iexact Hlev
    iexact Hat3_6
  iintro ⟨HO, Hat3_6, Hp⟩
  unfold payQ slotIs
  icases Hp with ⟨%gx6, Hs3_6, %hgx6⟩
  sl_exec_parts
  -- chunk 7 of the x-neighbour's half: the send slot back, the x-neighbour's slot in, stored into the result
  iapply (wait_q m (K (c, some (2, 7))) c 2 7 (Oxy c 8 8) _ (fun g u h => by rw [lv_q2]; exact Oxy_above 0 (Or.inl (by decide)) g u h)) $$ [Hc2_7 HO Hat2_7]
  · isplitr; · iexact HI2_7
    isplitl [Hc2_7]; · iexact Hc2_7
    isplitl [HO]; · iexact HO
    isplitr; · iexact Hlev
    iexact Hat2_7
  iintro ⟨HO, Hat2_7, Hp⟩
  unfold payQ slotAny
  icases Hp with ⟨%fs2_7, Hs2_7⟩
  sl_exec_parts
  iapply (wait_q m (K (c, some (3, 7))) c 3 7 (Oxy c 8 8) _ (fun g u h => by rw [Oxy_done] at h; exact absurd h (Nat.lt_irrefl 0))) $$ [Hc3_7 HO Hat3_7]
  · isplitr; · iexact HI3_7
    isplitl [Hc3_7]; · iexact Hc3_7
    isplitl [HO]; · iexact HO
    isplitr; · iexact Hlev
    iexact Hat3_7
  iintro ⟨HO, Hat3_7, Hp⟩
  unfold payQ slotIs
  icases Hp with ⟨%gx7, Hs3_7, %hgx7⟩
  sl_exec_parts
  -- the body returns
  rw [wp_ret]; imodintro
  iapply Hk
  -- what was stored and what was received, as families over the chunk
  let gyF : Fin 8 → Buf (Elt F) ((c : Thread nD τ).loc cc0_scratch1) := fun k => match k with | 0 => gy0 | 1 => gy1 | 2 => gy2 | 3 => gy3 | 4 => gy4 | 5 => gy5 | 6 => gy6 | 7 => gy7
  let gxF : Fin 8 → Buf (Elt F) ((c : Thread nD τ).loc cc0_scratch3) := fun k => match k with | 0 => gx0 | 1 => gx1 | 2 => gx2 | 3 => gx3 | 4 => gx4 | 5 => gx5 | 6 => gx6 | 7 => gx7
  have hgyF : ∀ k : Fin 8, (slotOf yrM k).view.read (Elt F) (gyF k) = shapeCast S512x256 (partY m (pY c) k) shapeCasts_S1x512x256_S512x256 :=
    fun k => match k with | 0 => hgy0 | 1 => hgy1 | 2 => hgy2 | 3 => hgy3 | 4 => hgy4 | 5 => hgy5 | 6 => hgy6 | 7 => hgy7
  have hgxF : ∀ k : Fin 8, (slotOf xrM k).view.read (Elt F) (gxF k) = shapeCast S512x256 (partX m (pX c) k) shapeCasts_S1x512x256_S512x256 :=
    fun k => match k with | 0 => hgx0 | 1 => hgx1 | 2 => hgx2 | 3 => hgx3 | 4 => hgx4 | 5 => hgx5 | 6 => hgx6 | 7 => hgx7
  have hr : (fun k : Fin 8 => sumY (loadK m c) (loadD m c k) (yrM.view.readAt (Elt F) (slotR k).toLoadRect (gyF k))) = rowSum m c :=
    funext fun k => sumY_congr _ _ _ _ ((slot_read yrM k (gyF k)).symm.trans (hgyF k))
  have hx : (fun k : Fin 8 => recvX (xrM.view.readAt (Elt F) (slotR k).toLoadRect (gxF k))) = fromX m c :=
    funext fun k => recvX_congr _ _ ((slot_read xrM k (gxF k)).symm.trans (hgxF k))
  unfold CorePost
  rw [← out_tiles m c g0, ← hx, ← hr]
  isplitl [Hat0_0]; · iexact Hat0_0
  isplitl [Hat0_1]; · iexact Hat0_1
  isplitl [Hat0_2]; · iexact Hat0_2
  isplitl [Hat0_3]; · iexact Hat0_3
  isplitl [Hat0_4]; · iexact Hat0_4
  isplitl [Hat0_5]; · iexact Hat0_5
  isplitl [Hat0_6]; · iexact Hat0_6
  isplitl [Hat0_7]; · iexact Hat0_7
  isplitl [Hat1_0]; · iexact Hat1_0
  isplitl [Hat1_1]; · iexact Hat1_1
  isplitl [Hat1_2]; · iexact Hat1_2
  isplitl [Hat1_3]; · iexact Hat1_3
  isplitl [Hat1_4]; · iexact Hat1_4
  isplitl [Hat1_5]; · iexact Hat1_5
  isplitl [Hat1_6]; · iexact Hat1_6
  isplitl [Hat1_7]; · iexact Hat1_7
  isplitl [Hat2_0]; · iexact Hat2_0
  isplitl [Hat2_1]; · iexact Hat2_1
  isplitl [Hat2_2]; · iexact Hat2_2
  isplitl [Hat2_3]; · iexact Hat2_3
  isplitl [Hat2_4]; · iexact Hat2_4
  isplitl [Hat2_5]; · iexact Hat2_5
  isplitl [Hat2_6]; · iexact Hat2_6
  isplitl [Hat2_7]; · iexact Hat2_7
  isplitl [Hat3_0]; · iexact Hat3_0
  isplitl [Hat3_1]; · iexact Hat3_1
  isplitl [Hat3_2]; · iexact Hat3_2
  isplitl [Hat3_3]; · iexact Hat3_3
  isplitl [Hat3_4]; · iexact Hat3_4
  isplitl [Hat3_5]; · iexact Hat3_5
  isplitl [Hat3_6]; · iexact Hat3_6
  isplitl [Hat3_7]; · iexact Hat3_7
  isplitl [HO]; · (iexists _; iexact HO)
  isplitl [Hx]; · iexact Hx
  isplitl [Hd]; · iexact Hd
  isplitl [Hout]; · iexact Hout
  isplitl [Hs0_0]; · (iexists _; iexact Hs0_0)
  isplitl [Hs0_1]; · (iexists _; iexact Hs0_1)
  isplitl [Hs0_2]; · (iexists _; iexact Hs0_2)
  isplitl [Hs0_3]; · (iexists _; iexact Hs0_3)
  isplitl [Hs0_4]; · (iexists _; iexact Hs0_4)
  isplitl [Hs0_5]; · (iexists _; iexact Hs0_5)
  isplitl [Hs0_6]; · (iexists _; iexact Hs0_6)
  isplitl [Hs0_7]; · (iexists _; iexact Hs0_7)
  isplitl [Hs1_0]; · (iexists _; iexact Hs1_0)
  isplitl [Hs1_1]; · (iexists _; iexact Hs1_1)
  isplitl [Hs1_2]; · (iexists _; iexact Hs1_2)
  isplitl [Hs1_3]; · (iexists _; iexact Hs1_3)
  isplitl [Hs1_4]; · (iexists _; iexact Hs1_4)
  isplitl [Hs1_5]; · (iexists _; iexact Hs1_5)
  isplitl [Hs1_6]; · (iexists _; iexact Hs1_6)
  isplitl [Hs1_7]; · (iexists _; iexact Hs1_7)
  isplitl [Hs2_0]; · (iexists _; iexact Hs2_0)
  isplitl [Hs2_1]; · (iexists _; iexact Hs2_1)
  isplitl [Hs2_2]; · (iexists _; iexact Hs2_2)
  isplitl [Hs2_3]; · (iexists _; iexact Hs2_3)
  isplitl [Hs2_4]; · (iexists _; iexact Hs2_4)
  isplitl [Hs2_5]; · (iexists _; iexact Hs2_5)
  isplitl [Hs2_6]; · (iexists _; iexact Hs2_6)
  isplitl [Hs2_7]; · (iexists _; iexact Hs2_7)
  isplitl [Hs3_0]; · (iexists _; iexact Hs3_0)
  isplitl [Hs3_1]; · (iexists _; iexact Hs3_1)
  isplitl [Hs3_2]; · (iexists _; iexact Hs3_2)
  isplitl [Hs3_3]; · (iexists _; iexact Hs3_3)
  isplitl [Hs3_4]; · (iexists _; iexact Hs3_4)
  isplitl [Hs3_5]; · (iexists _; iexact Hs3_5)
  isplitl [Hs3_6]; · (iexists _; iexact Hs3_6)
  iexists _; iexact Hs3_7

/-- info: 'Cert.KernelProof.body_core' depends on axioms: [propext, Classical.choice, Quot.sound] -/
#guard_msgs in #print axioms body_core

end Cert.KernelProof

end
-- ==== Proof.Kernel.Sound.lean ====
/-
  The body lemma from the run of the body spelt out hypothesis by hypothesis: the device's ghost state, credits and
  buffers are regrouped into the run's hypotheses, and what the run leaves is regrouped into what the pipeline takes back
  — the 32 own cells closed at zero, each scratch buffer rejoined from its eight slots.
-/
import proofs.«900475_g7700000000000476_dist_rsdw_v7x_xy2x2_y_m1024_d1024_f4096_bf16_1_alg».proof.Proof.Kernel.BodyStmt
import proofs.«900475_g7700000000000476_dist_rsdw_v7x_xy2x2_y_m1024_d1024_f4096_bf16_1_alg».proof.Proof.Kernel.Obligation

noncomputable section

set_option maxRecDepth 16384
namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A scratch buffer and its eight slots -/

theorem slots_disjoint : ∀ t ∈ (Finset.univ : Finset (Fin 8)), ∀ t' ∈ (Finset.univ : Finset (Fin 8)), t ≠ t' → Disjoint (slotR t).set (slotR t').set :=
  fun t _ t' _ h => slot_disjoint t t' h

/-- A slot's elements are its rectangle's. -/
theorem slot_set_ys (k : Fin 8) : (slotOf ysM k).view.set = (slotR k).set := by
  show (((ysM : Memref sig .tc .vmem S8x512x256 .bf16).view.slice (slotR k)).reshape S512x256 _).set = _
  rw [View.set_reshape]; exact View.set_slice_whole _ _

/-- The buffer held whole is its eight slots held over the same contents. -/
theorem split_ys (c : Dev nD) (f : Buf (Elt F) ((c : Thread nD τ).loc cc0_scratch0)) :
    ((((c : Thread nD τ).loc cc0_scratch0) ↦{fullShare} f) : sProp 𝕄)
      = bigSep Finset.univ fun k : Fin 8 => ((slotOf ysM k).view.loc ((c : Dev nD) : Thread nD τ) ↦[(slotOf ysM k).view.set]{fullShare} f) := by
  have h : ((((c : Thread nD τ).loc cc0_scratch0) ↦[(Finset.univ : Finset (Fin 8)).biUnion fun k => (slotR k).set]{fullShare} f) : sProp 𝕄)
      = bigSep Finset.univ fun k : Fin 8 => (((c : Thread nD τ).loc cc0_scratch0) ↦[(slotR k).set]{fullShare} f) :=
    pointsTo_biUnion Finset.univ _ slots_disjoint
  rw [slot_cover] at h
  refine h.trans (bigSep_congr fun k _ => ?_)
  rw [slot_set_ys]

/-- The eight slots, each over some contents, are the buffer whole over some contents. -/
theorem join_ys (c : Dev nD) :
    (bigSep Finset.univ fun k : Fin 8 => iprop(∃ f, ((slotOf ysM k).view.loc ((c : Dev nD) : Thread nD τ) ↦[(slotOf ysM k).view.set]{fullShare} f)) : sProp 𝕄)
      ⊢ iprop(∃ g : Buf (Elt F) ((c : Thread nD τ).loc cc0_scratch0), ((c : Thread nD τ).loc cc0_scratch0) ↦{fullShare} g) := by
  iintro H
  ihave H' := (BI.bigSep_exists_pi Finset.univ (fun (k : Fin 8) (f : Buf (Elt F) ((c : Thread nD τ).loc cc0_scratch0)) =>
    (((c : Thread nD τ).loc cc0_scratch0) ↦[(slotR k).set]{fullShare} f : sProp 𝕄))) $$ [H]
  · iapply (Entails.of_eq (bigSep_congr fun k _ => by rw [slot_set_ys])) $$ H
  icases H' with ⟨%fs, H⟩
  ihave Hj := (pointsTo_biUnion_join Finset.univ (fun k : Fin 8 => (slotR k).set) fs (fs 0) slots_disjoint) $$ H
  icases Hj with ⟨%g, -, Hg⟩
  iexists g
  rw [slot_cover]
  iexact Hg

/-- A slot's elements are its rectangle's. -/
theorem slot_set_yr (k : Fin 8) : (slotOf yrM k).view.set = (slotR k).set := by
  show (((yrM : Memref sig .tc .vmem S8x512x256 .bf16).view.slice (slotR k)).reshape S512x256 _).set = _
  rw [View.set_reshape]; exact View.set_slice_whole _ _

/-- The buffer held whole is its eight slots held over the same contents. -/
theorem split_yr (c : Dev nD) (f : Buf (Elt F) ((c : Thread nD τ).loc cc0_scratch1)) :
    ((((c : Thread nD τ).loc cc0_scratch1) ↦{fullShare} f) : sProp 𝕄)
      = bigSep Finset.univ fun k : Fin 8 => ((slotOf yrM k).view.loc ((c : Dev nD) : Thread nD τ) ↦[(slotOf yrM k).view.set]{fullShare} f) := by
  have h : ((((c : Thread nD τ).loc cc0_scratch1) ↦[(Finset.univ : Finset (Fin 8)).biUnion fun k => (slotR k).set]{fullShare} f) : sProp 𝕄)
      = bigSep Finset.univ fun k : Fin 8 => (((c : Thread nD τ).loc cc0_scratch1) ↦[(slotR k).set]{fullShare} f) :=
    pointsTo_biUnion Finset.univ _ slots_disjoint
  rw [slot_cover] at h
  refine h.trans (bigSep_congr fun k _ => ?_)
  rw [slot_set_yr]

/-- The eight slots, each over some contents, are the buffer whole over some contents. -/
theorem join_yr (c : Dev nD) :
    (bigSep Finset.univ fun k : Fin 8 => iprop(∃ f, ((slotOf yrM k).view.loc ((c : Dev nD) : Thread nD τ) ↦[(slotOf yrM k).view.set]{fullShare} f)) : sProp 𝕄)
      ⊢ iprop(∃ g : Buf (Elt F) ((c : Thread nD τ).loc cc0_scratch1), ((c : Thread nD τ).loc cc0_scratch1) ↦{fullShare} g) := by
  iintro H
  ihave H' := (BI.bigSep_exists_pi Finset.univ (fun (k : Fin 8) (f : Buf (Elt F) ((c : Thread nD τ).loc cc0_scratch1)) =>
    (((c : Thread nD τ).loc cc0_scratch1) ↦[(slotR k).set]{fullShare} f : sProp 𝕄))) $$ [H]
  · iapply (Entails.of_eq (bigSep_congr fun k _ => by rw [slot_set_yr])) $$ H
  icases H' with ⟨%fs, H⟩
  ihave Hj := (pointsTo_biUnion_join Finset.univ (fun k : Fin 8 => (slotR k).set) fs (fs 0) slots_disjoint) $$ H
  icases Hj with ⟨%g, -, Hg⟩
  iexists g
  rw [slot_cover]
  iexact Hg

/-- A slot's elements are its rectangle's. -/
theorem slot_set_xs (k : Fin 8) : (slotOf xsM k).view.set = (slotR k).set := by
  show (((xsM : Memref sig .tc .vmem S8x512x256 .bf16).view.slice (slotR k)).reshape S512x256 _).set = _
  rw [View.set_reshape]; exact View.set_slice_whole _ _

/-- The buffer held whole is its eight slots held over the same contents. -/
theorem split_xs (c : Dev nD) (f : Buf (Elt F) ((c : Thread nD τ).loc cc0_scratch2)) :
    ((((c : Thread nD τ).loc cc0_scratch2) ↦{fullShare} f) : sProp 𝕄)
      = bigSep Finset.univ fun k : Fin 8 => ((slotOf xsM k).view.loc ((c : Dev nD) : Thread nD τ) ↦[(slotOf xsM k).view.set]{fullShare} f) := by
  have h : ((((c : Thread nD τ).loc cc0_scratch2) ↦[(Finset.univ : Finset (Fin 8)).biUnion fun k => (slotR k).set]{fullShare} f) : sProp 𝕄)
      = bigSep Finset.univ fun k : Fin 8 => (((c : Thread nD τ).loc cc0_scratch2) ↦[(slotR k).set]{fullShare} f) :=
    pointsTo_biUnion Finset.univ _ slots_disjoint
  rw [slot_cover] at h
  refine h.trans (bigSep_congr fun k _ => ?_)
  rw [slot_set_xs]

/-- The eight slots, each over some contents, are the buffer whole over some contents. -/
theorem join_xs (c : Dev nD) :
    (bigSep Finset.univ fun k : Fin 8 => iprop(∃ f, ((slotOf xsM k).view.loc ((c : Dev nD) : Thread nD τ) ↦[(slotOf xsM k).view.set]{fullShare} f)) : sProp 𝕄)
      ⊢ iprop(∃ g : Buf (Elt F) ((c : Thread nD τ).loc cc0_scratch2), ((c : Thread nD τ).loc cc0_scratch2) ↦{fullShare} g) := by
  iintro H
  ihave H' := (BI.bigSep_exists_pi Finset.univ (fun (k : Fin 8) (f : Buf (Elt F) ((c : Thread nD τ).loc cc0_scratch2)) =>
    (((c : Thread nD τ).loc cc0_scratch2) ↦[(slotR k).set]{fullShare} f : sProp 𝕄))) $$ [H]
  · iapply (Entails.of_eq (bigSep_congr fun k _ => by rw [slot_set_xs])) $$ H
  icases H' with ⟨%fs, H⟩
  ihave Hj := (pointsTo_biUnion_join Finset.univ (fun k : Fin 8 => (slotR k).set) fs (fs 0) slots_disjoint) $$ H
  icases Hj with ⟨%g, -, Hg⟩
  iexists g
  rw [slot_cover]
  iexact Hg

/-- A slot's elements are its rectangle's. -/
theorem slot_set_xr (k : Fin 8) : (slotOf xrM k).view.set = (slotR k).set := by
  show (((xrM : Memref sig .tc .vmem S8x512x256 .bf16).view.slice (slotR k)).reshape S512x256 _).set = _
  rw [View.set_reshape]; exact View.set_slice_whole _ _

/-- The buffer held whole is its eight slots held over the same contents. -/
theorem split_xr (c : Dev nD) (f : Buf (Elt F) ((c : Thread nD τ).loc cc0_scratch3)) :
    ((((c : Thread nD τ).loc cc0_scratch3) ↦{fullShare} f) : sProp 𝕄)
      = bigSep Finset.univ fun k : Fin 8 => ((slotOf xrM k).view.loc ((c : Dev nD) : Thread nD τ) ↦[(slotOf xrM k).view.set]{fullShare} f) := by
  have h : ((((c : Thread nD τ).loc cc0_scratch3) ↦[(Finset.univ : Finset (Fin 8)).biUnion fun k => (slotR k).set]{fullShare} f) : sProp 𝕄)
      = bigSep Finset.univ fun k : Fin 8 => (((c : Thread nD τ).loc cc0_scratch3) ↦[(slotR k).set]{fullShare} f) :=
    pointsTo_biUnion Finset.univ _ slots_disjoint
  rw [slot_cover] at h
  refine h.trans (bigSep_congr fun k _ => ?_)
  rw [slot_set_xr]

/-- The eight slots, each over some contents, are the buffer whole over some contents. -/
theorem join_xr (c : Dev nD) :
    (bigSep Finset.univ fun k : Fin 8 => iprop(∃ f, ((slotOf xrM k).view.loc ((c : Dev nD) : Thread nD τ) ↦[(slotOf xrM k).view.set]{fullShare} f)) : sProp 𝕄)
      ⊢ iprop(∃ g : Buf (Elt F) ((c : Thread nD τ).loc cc0_scratch3), ((c : Thread nD τ).loc cc0_scratch3) ↦{fullShare} g) := by
  iintro H
  ihave H' := (BI.bigSep_exists_pi Finset.univ (fun (k : Fin 8) (f : Buf (Elt F) ((c : Thread nD τ).loc cc0_scratch3)) =>
    (((c : Thread nD τ).loc cc0_scratch3) ↦[(slotR k).set]{fullShare} f : sProp 𝕄))) $$ [H]
  · iapply (Entails.of_eq (bigSep_congr fun k _ => by rw [slot_set_xr])) $$ H
  icases H' with ⟨%fs, H⟩
  ihave Hj := (pointsTo_biUnion_join Finset.univ (fun k : Fin 8 => (slotR k).set) fs (fs 0) slots_disjoint) $$ H
  icases Hj with ⟨%g, -, Hg⟩
  iexists g
  rw [slot_cover]
  iexact Hg

/-! ## Closing a transfer cell after its one round -/

theorem close_q (κ : ℕ) (c : Dev nD) (a : Fin 4) (k : Fin 8) :
    iprop(cellInv ER (sched m) κ (qCell a k c) ∗ atPos ER (qCell a k c) (0 + 1) ∅ 0) ⊢ (|={Set.univ}=> semVal (qCell a k c) 0 : sProp 𝕄) :=
  Rounds.cell_close ER (sched m) (Set.mem_univ κ) (fun h => h) (R := 0 + 1) (duties_later m (qCell a k c))

/-- A family over the 32 transfer cells, family by family, chunk by chunk. -/
theorem bigSep_q32 (Φ : Fin 4 × Fin 8 → sProp 𝕄) :
    bigSep Finset.univ Φ = iprop((Φ (0, 0) ∗ Φ (0, 1) ∗ Φ (0, 2) ∗ Φ (0, 3) ∗ Φ (0, 4) ∗ Φ (0, 5) ∗ Φ (0, 6) ∗ Φ (0, 7))
      ∗ (Φ (1, 0) ∗ Φ (1, 1) ∗ Φ (1, 2) ∗ Φ (1, 3) ∗ Φ (1, 4) ∗ Φ (1, 5) ∗ Φ (1, 6) ∗ Φ (1, 7))
      ∗ (Φ (2, 0) ∗ Φ (2, 1) ∗ Φ (2, 2) ∗ Φ (2, 3) ∗ Φ (2, 4) ∗ Φ (2, 5) ∗ Φ (2, 6) ∗ Φ (2, 7))
      ∗ (Φ (3, 0) ∗ Φ (3, 1) ∗ Φ (3, 2) ∗ Φ (3, 3) ∗ Φ (3, 4) ∗ Φ (3, 5) ∗ Φ (3, 6) ∗ Φ (3, 7))) := by
  rw [bigSep_univ_prod, bigSep_fin4, bigSep_fin8, bigSep_fin8, bigSep_fin8, bigSep_fin8]

/-! ## The records, one cell at a time -/

theorem inv_at (K : Dev nD × CIx → ℕ) (ck : Dev nD × CIx) :
    (bigSep Finset.univ fun ck : Dev nD × CIx => (cellInv ER (sched m) (K ck) (kcell ck) : sProp 𝕄)) ⊢ cellInv ER (sched m) (K ck) (kcell ck) :=
  bigSep_elim (Finset.mem_univ ck)
theorem reached_at (ck : Dev nD × CIx) :
    (bigSep Finset.univ fun ck : Dev nD × CIx => (reached ER (kcell ck) 0 : sProp 𝕄)) ⊢ reached ER (kcell ck) 0 :=
  bigSep_elim (Finset.mem_univ ck)

theorem rec_inv_bar (K : Dev nD × CIx → ℕ) (d : Dev nD) : records m K ⊢ (cellInv ER (sched m) (K (d, none)) (barCell d) : sProp 𝕄) := by
  unfold records
  iintro ⟨#HI, -⟩
  iapply (inv_at m K (d, none)); iexact HI
theorem rec_inv_q (K : Dev nD × CIx → ℕ) (d : Dev nD) (a : Fin 4) (k : Fin 8) :
    records m K ⊢ (cellInv ER (sched m) (K (d, some (a, k))) (qCell a k d) : sProp 𝕄) := by
  unfold records
  iintro ⟨#HI, -⟩
  iapply (inv_at m K (d, some (a, k))); iexact HI
theorem rec_reached_bar (K : Dev nD × CIx → ℕ) (d : Dev nD) : records m K ⊢ (reached ER (barCell d) 0 : sProp 𝕄) := by
  unfold records
  iintro ⟨-, #HR⟩
  iapply (reached_at (F := F) (d, none)); iexact HR
theorem rec_reached_q (K : Dev nD × CIx → ℕ) (d : Dev nD) (a : Fin 4) (k : Fin 8) : records m K ⊢ (reached ER (qCell a k d) 0 : sProp 𝕄) := by
  unfold records
  iintro ⟨-, #HR⟩
  iapply (reached_at (F := F) (d, some (a, k))); iexact HR

/-! ## From what the pipeline hands over to the run's hypotheses -/

theorem pre_to_core (K : Dev nD × CIx → ℕ) (c : Dev nD) :
    bodyPre m ρ K c ⊢ iprop(∃ W g0 f0 f1 f2 f3, records m K ∗ CorePre m K c W g0 f0 f1 f2 f3) := by
  unfold bodyPre ghost positions payToks creds scratch
  simp only [bigSep_q32, bigSep_fin8]
  iintro ⟨⟨⟨#Hrec, ⟨HaB, ⟨Ha0_0, Ha0_1, Ha0_2, Ha0_3, Ha0_4, Ha0_5, Ha0_6, Ha0_7⟩, ⟨Ha1_0, Ha1_1, Ha1_2, Ha1_3, Ha1_4, Ha1_5, Ha1_6, Ha1_7⟩, ⟨Ha2_0, Ha2_1, Ha2_2, Ha2_3, Ha2_4, Ha2_5, Ha2_6, Ha2_7⟩, ⟨Ha3_0, Ha3_1, Ha3_2, Ha3_3, Ha3_4, Ha3_5, Ha3_6, Ha3_7⟩⟩, HtX, HtY, ⟨Ht0_0, Ht0_1, Ht0_2, Ht0_3, Ht0_4, Ht0_5, Ht0_6, Ht0_7⟩, ⟨Ht1_0, Ht1_1, Ht1_2, Ht1_3, Ht1_4, Ht1_5, Ht1_6, Ht1_7⟩, ⟨Ht2_0, Ht2_1, Ht2_2, Ht2_3, Ht2_4, Ht2_5, Ht2_6, Ht2_7⟩, ⟨Ht3_0, Ht3_1, Ht3_2, Ht3_3, Ht3_4, Ht3_5, Ht3_6, Ht3_7⟩⟩,
      ⟨HcB, ⟨Hc1_0, Hc1_1, Hc1_2, Hc1_3, Hc1_4, Hc1_5, Hc1_6, Hc1_7⟩, ⟨Hc3_0, Hc3_1, Hc3_2, Hc3_3, Hc3_4, Hc3_5, Hc3_6, Hc3_7⟩⟩, #Hlev, ⟨%f0, Hs0⟩, ⟨%f1, Hs1⟩, ⟨%f2, Hs2⟩, ⟨%f3, Hs3⟩⟩,
    Ho, ⟨%d0, %g0, %hg0, Hx⟩, ⟨%d1, %g1, %hg1, Hy⟩, ⟨%d2, %g2, %hg2, Hout⟩⟩
  have hx : g0 = stgA m c := by rw [hg0]; unfold Dat.before; rw [if_pos (fetch0_0 t0_0)]; rfl
  have hy : g1 = stgB m c := by rw [hg1]; unfold Dat.before; rw [if_pos (fetch0_1 t0_0)]; rfl
  subst hx; subst hy
  unfold Dat.owesAt Pipeline.owesWithin
  icases Ho with ⟨%W, %hW, HO⟩
  rw [show (dats m ρ 0 c).owed t0_0.castSucc = O₀ c from rfl]
  ihave Hs0' := (Entails.of_eq ((split_ys (F := F) c f0).trans (bigSep_fin8 _))) $$ Hs0
  icases Hs0' with ⟨Hs0_0, Hs0_1, Hs0_2, Hs0_3, Hs0_4, Hs0_5, Hs0_6, Hs0_7⟩
  ihave Hs1' := (Entails.of_eq ((split_yr (F := F) c f1).trans (bigSep_fin8 _))) $$ Hs1
  icases Hs1' with ⟨Hs1_0, Hs1_1, Hs1_2, Hs1_3, Hs1_4, Hs1_5, Hs1_6, Hs1_7⟩
  ihave Hs2' := (Entails.of_eq ((split_xs (F := F) c f2).trans (bigSep_fin8 _))) $$ Hs2
  icases Hs2' with ⟨Hs2_0, Hs2_1, Hs2_2, Hs2_3, Hs2_4, Hs2_5, Hs2_6, Hs2_7⟩
  ihave Hs3' := (Entails.of_eq ((split_xr (F := F) c f3).trans (bigSep_fin8 _))) $$ Hs3
  icases Hs3' with ⟨Hs3_0, Hs3_1, Hs3_2, Hs3_3, Hs3_4, Hs3_5, Hs3_6, Hs3_7⟩
  iexists W, g2, f0, f1, f2, f3
  isplitr; · iexact Hrec
  unfold CorePre
  isplitr; · iapply (rec_inv_bar m K c); iexact Hrec
  isplitr; · iapply (rec_inv_bar m K (pX c)); iexact Hrec
  isplitr; · iapply (rec_inv_bar m K (pY c)); iexact Hrec
  isplitr; · iapply (rec_inv_q m K c 0 0); iexact Hrec
  isplitr; · iapply (rec_inv_q m K c 0 1); iexact Hrec
  isplitr; · iapply (rec_inv_q m K c 0 2); iexact Hrec
  isplitr; · iapply (rec_inv_q m K c 0 3); iexact Hrec
  isplitr; · iapply (rec_inv_q m K c 0 4); iexact Hrec
  isplitr; · iapply (rec_inv_q m K c 0 5); iexact Hrec
  isplitr; · iapply (rec_inv_q m K c 0 6); iexact Hrec
  isplitr; · iapply (rec_inv_q m K c 0 7); iexact Hrec
  isplitr; · iapply (rec_inv_q m K c 1 0); iexact Hrec
  isplitr; · iapply (rec_inv_q m K c 1 1); iexact Hrec
  isplitr; · iapply (rec_inv_q m K c 1 2); iexact Hrec
  isplitr; · iapply (rec_inv_q m K c 1 3); iexact Hrec
  isplitr; · iapply (rec_inv_q m K c 1 4); iexact Hrec
  isplitr; · iapply (rec_inv_q m K c 1 5); iexact Hrec
  isplitr; · iapply (rec_inv_q m K c 1 6); iexact Hrec
  isplitr; · iapply (rec_inv_q m K c 1 7); iexact Hrec
  isplitr; · iapply (rec_inv_q m K c 2 0); iexact Hrec
  isplitr; · iapply (rec_inv_q m K c 2 1); iexact Hrec
  isplitr; · iapply (rec_inv_q m K c 2 2); iexact Hrec
  isplitr; · iapply (rec_inv_q m K c 2 3); iexact Hrec
  isplitr; · iapply (rec_inv_q m K c 2 4); iexact Hrec
  isplitr; · iapply (rec_inv_q m K c 2 5); iexact Hrec
  isplitr; · iapply (rec_inv_q m K c 2 6); iexact Hrec
  isplitr; · iapply (rec_inv_q m K c 2 7); iexact Hrec
  isplitr; · iapply (rec_inv_q m K c 3 0); iexact Hrec
  isplitr; · iapply (rec_inv_q m K c 3 1); iexact Hrec
  isplitr; · iapply (rec_inv_q m K c 3 2); iexact Hrec
  isplitr; · iapply (rec_inv_q m K c 3 3); iexact Hrec
  isplitr; · iapply (rec_inv_q m K c 3 4); iexact Hrec
  isplitr; · iapply (rec_inv_q m K c 3 5); iexact Hrec
  isplitr; · iapply (rec_inv_q m K c 3 6); iexact Hrec
  isplitr; · iapply (rec_inv_q m K c 3 7); iexact Hrec
  isplitr; · iapply (rec_inv_q m K (pY c) 1 0); iexact Hrec
  isplitr; · iapply (rec_inv_q m K (pY c) 1 1); iexact Hrec
  isplitr; · iapply (rec_inv_q m K (pY c) 1 2); iexact Hrec
  isplitr; · iapply (rec_inv_q m K (pY c) 1 3); iexact Hrec
  isplitr; · iapply (rec_inv_q m K (pY c) 1 4); iexact Hrec
  isplitr; · iapply (rec_inv_q m K (pY c) 1 5); iexact Hrec
  isplitr; · iapply (rec_inv_q m K (pY c) 1 6); iexact Hrec
  isplitr; · iapply (rec_inv_q m K (pY c) 1 7); iexact Hrec
  isplitr; · iapply (rec_inv_q m K (pX c) 3 0); iexact Hrec
  isplitr; · iapply (rec_inv_q m K (pX c) 3 1); iexact Hrec
  isplitr; · iapply (rec_inv_q m K (pX c) 3 2); iexact Hrec
  isplitr; · iapply (rec_inv_q m K (pX c) 3 3); iexact Hrec
  isplitr; · iapply (rec_inv_q m K (pX c) 3 4); iexact Hrec
  isplitr; · iapply (rec_inv_q m K (pX c) 3 5); iexact Hrec
  isplitr; · iapply (rec_inv_q m K (pX c) 3 6); iexact Hrec
  isplitr; · iapply (rec_inv_q m K (pX c) 3 7); iexact Hrec
  isplitr; · iapply (rec_reached_bar m K (pX c)); iexact Hrec
  isplitr; · iapply (rec_reached_bar m K (pY c)); iexact Hrec
  isplitr; · iapply (rec_reached_q m K c 0 0); iexact Hrec
  isplitr; · iapply (rec_reached_q m K c 0 1); iexact Hrec
  isplitr; · iapply (rec_reached_q m K c 0 2); iexact Hrec
  isplitr; · iapply (rec_reached_q m K c 0 3); iexact Hrec
  isplitr; · iapply (rec_reached_q m K c 0 4); iexact Hrec
  isplitr; · iapply (rec_reached_q m K c 0 5); iexact Hrec
  isplitr; · iapply (rec_reached_q m K c 0 6); iexact Hrec
  isplitr; · iapply (rec_reached_q m K c 0 7); iexact Hrec
  isplitr; · iapply (rec_reached_q m K c 2 0); iexact Hrec
  isplitr; · iapply (rec_reached_q m K c 2 1); iexact Hrec
  isplitr; · iapply (rec_reached_q m K c 2 2); iexact Hrec
  isplitr; · iapply (rec_reached_q m K c 2 3); iexact Hrec
  isplitr; · iapply (rec_reached_q m K c 2 4); iexact Hrec
  isplitr; · iapply (rec_reached_q m K c 2 5); iexact Hrec
  isplitr; · iapply (rec_reached_q m K c 2 6); iexact Hrec
  isplitr; · iapply (rec_reached_q m K c 2 7); iexact Hrec
  isplitr; · iapply (rec_reached_q m K (pY c) 1 0); iexact Hrec
  isplitr; · iapply (rec_reached_q m K (pY c) 1 1); iexact Hrec
  isplitr; · iapply (rec_reached_q m K (pY c) 1 2); iexact Hrec
  isplitr; · iapply (rec_reached_q m K (pY c) 1 3); iexact Hrec
  isplitr; · iapply (rec_reached_q m K (pY c) 1 4); iexact Hrec
  isplitr; · iapply (rec_reached_q m K (pY c) 1 5); iexact Hrec
  isplitr; · iapply (rec_reached_q m K (pY c) 1 6); iexact Hrec
  isplitr; · iapply (rec_reached_q m K (pY c) 1 7); iexact Hrec
  isplitr; · iapply (rec_reached_q m K (pX c) 3 0); iexact Hrec
  isplitr; · iapply (rec_reached_q m K (pX c) 3 1); iexact Hrec
  isplitr; · iapply (rec_reached_q m K (pX c) 3 2); iexact Hrec
  isplitr; · iapply (rec_reached_q m K (pX c) 3 3); iexact Hrec
  isplitr; · iapply (rec_reached_q m K (pX c) 3 4); iexact Hrec
  isplitr; · iapply (rec_reached_q m K (pX c) 3 5); iexact Hrec
  isplitr; · iapply (rec_reached_q m K (pX c) 3 6); iexact Hrec
  isplitr; · iapply (rec_reached_q m K (pX c) 3 7); iexact Hrec
  isplitr; · iexact Hlev
  isplitl [HaB]; · iexact HaB
  isplitl [Ha0_0]; · iexact Ha0_0
  isplitl [Ha0_1]; · iexact Ha0_1
  isplitl [Ha0_2]; · iexact Ha0_2
  isplitl [Ha0_3]; · iexact Ha0_3
  isplitl [Ha0_4]; · iexact Ha0_4
  isplitl [Ha0_5]; · iexact Ha0_5
  isplitl [Ha0_6]; · iexact Ha0_6
  isplitl [Ha0_7]; · iexact Ha0_7
  isplitl [Ha1_0]; · iexact Ha1_0
  isplitl [Ha1_1]; · iexact Ha1_1
  isplitl [Ha1_2]; · iexact Ha1_2
  isplitl [Ha1_3]; · iexact Ha1_3
  isplitl [Ha1_4]; · iexact Ha1_4
  isplitl [Ha1_5]; · iexact Ha1_5
  isplitl [Ha1_6]; · iexact Ha1_6
  isplitl [Ha1_7]; · iexact Ha1_7
  isplitl [Ha2_0]; · iexact Ha2_0
  isplitl [Ha2_1]; · iexact Ha2_1
  isplitl [Ha2_2]; · iexact Ha2_2
  isplitl [Ha2_3]; · iexact Ha2_3
  isplitl [Ha2_4]; · iexact Ha2_4
  isplitl [Ha2_5]; · iexact Ha2_5
  isplitl [Ha2_6]; · iexact Ha2_6
  isplitl [Ha2_7]; · iexact Ha2_7
  isplitl [Ha3_0]; · iexact Ha3_0
  isplitl [Ha3_1]; · iexact Ha3_1
  isplitl [Ha3_2]; · iexact Ha3_2
  isplitl [Ha3_3]; · iexact Ha3_3
  isplitl [Ha3_4]; · iexact Ha3_4
  isplitl [Ha3_5]; · iexact Ha3_5
  isplitl [Ha3_6]; · iexact Ha3_6
  isplitl [Ha3_7]; · iexact Ha3_7
  isplitl [HtX]; · iexact HtX
  isplitl [HtY]; · iexact HtY
  isplitl [Ht0_0]; · iexact Ht0_0
  isplitl [Ht0_1]; · iexact Ht0_1
  isplitl [Ht0_2]; · iexact Ht0_2
  isplitl [Ht0_3]; · iexact Ht0_3
  isplitl [Ht0_4]; · iexact Ht0_4
  isplitl [Ht0_5]; · iexact Ht0_5
  isplitl [Ht0_6]; · iexact Ht0_6
  isplitl [Ht0_7]; · iexact Ht0_7
  isplitl [Ht1_0]; · iexact Ht1_0
  isplitl [Ht1_1]; · iexact Ht1_1
  isplitl [Ht1_2]; · iexact Ht1_2
  isplitl [Ht1_3]; · iexact Ht1_3
  isplitl [Ht1_4]; · iexact Ht1_4
  isplitl [Ht1_5]; · iexact Ht1_5
  isplitl [Ht1_6]; · iexact Ht1_6
  isplitl [Ht1_7]; · iexact Ht1_7
  isplitl [Ht2_0]; · iexact Ht2_0
  isplitl [Ht2_1]; · iexact Ht2_1
  isplitl [Ht2_2]; · iexact Ht2_2
  isplitl [Ht2_3]; · iexact Ht2_3
  isplitl [Ht2_4]; · iexact Ht2_4
  isplitl [Ht2_5]; · iexact Ht2_5
  isplitl [Ht2_6]; · iexact Ht2_6
  isplitl [Ht2_7]; · iexact Ht2_7
  isplitl [Ht3_0]; · iexact Ht3_0
  isplitl [Ht3_1]; · iexact Ht3_1
  isplitl [Ht3_2]; · iexact Ht3_2
  isplitl [Ht3_3]; · iexact Ht3_3
  isplitl [Ht3_4]; · iexact Ht3_4
  isplitl [Ht3_5]; · iexact Ht3_5
  isplitl [Ht3_6]; · iexact Ht3_6
  isplitl [Ht3_7]; · iexact Ht3_7
  isplitl [HcB]; · iexact HcB
  isplitl [Hc1_0]; · iexact Hc1_0
  isplitl [Hc1_1]; · iexact Hc1_1
  isplitl [Hc1_2]; · iexact Hc1_2
  isplitl [Hc1_3]; · iexact Hc1_3
  isplitl [Hc1_4]; · iexact Hc1_4
  isplitl [Hc1_5]; · iexact Hc1_5
  isplitl [Hc1_6]; · iexact Hc1_6
  isplitl [Hc1_7]; · iexact Hc1_7
  isplitl [Hc3_0]; · iexact Hc3_0
  isplitl [Hc3_1]; · iexact Hc3_1
  isplitl [Hc3_2]; · iexact Hc3_2
  isplitl [Hc3_3]; · iexact Hc3_3
  isplitl [Hc3_4]; · iexact Hc3_4
  isplitl [Hc3_5]; · iexact Hc3_5
  isplitl [Hc3_6]; · iexact Hc3_6
  isplitl [Hc3_7]; · iexact Hc3_7
  isplitl [HO]; · iexact HO
  isplitl [Hx]; · iexact Hx
  isplitl [Hy]; · iexact Hy
  isplitl [Hout]; · iexact Hout
  isplitl [Hs0_0]; · iexact Hs0_0
  isplitl [Hs0_1]; · iexact Hs0_1
  isplitl [Hs0_2]; · iexact Hs0_2
  isplitl [Hs0_3]; · iexact Hs0_3
  isplitl [Hs0_4]; · iexact Hs0_4
  isplitl [Hs0_5]; · iexact Hs0_5
  isplitl [Hs0_6]; · iexact Hs0_6
  isplitl [Hs0_7]; · iexact Hs0_7
  isplitl [Hs1_0]; · iexact Hs1_0
  isplitl [Hs1_1]; · iexact Hs1_1
  isplitl [Hs1_2]; · iexact Hs1_2
  isplitl [Hs1_3]; · iexact Hs1_3
  isplitl [Hs1_4]; · iexact Hs1_4
  isplitl [Hs1_5]; · iexact Hs1_5
  isplitl [Hs1_6]; · iexact Hs1_6
  isplitl [Hs1_7]; · iexact Hs1_7
  isplitl [Hs2_0]; · iexact Hs2_0
  isplitl [Hs2_1]; · iexact Hs2_1
  isplitl [Hs2_2]; · iexact Hs2_2
  isplitl [Hs2_3]; · iexact Hs2_3
  isplitl [Hs2_4]; · iexact Hs2_4
  isplitl [Hs2_5]; · iexact Hs2_5
  isplitl [Hs2_6]; · iexact Hs2_6
  isplitl [Hs2_7]; · iexact Hs2_7
  isplitl [Hs3_0]; · iexact Hs3_0
  isplitl [Hs3_1]; · iexact Hs3_1
  isplitl [Hs3_2]; · iexact Hs3_2
  isplitl [Hs3_3]; · iexact Hs3_3
  isplitl [Hs3_4]; · iexact Hs3_4
  isplitl [Hs3_5]; · iexact Hs3_5
  isplitl [Hs3_6]; · iexact Hs3_6
  iexact Hs3_7

/-! ## From what the run leaves to what the pipeline takes back -/

theorem post_of_core (K : Dev nD × CIx → ℕ) (c : Dev nD) :
    iprop(records m K ∗ CorePost m c) ⊢ (|={Set.univ}=> bodyPost m ρ c : sProp 𝕄) := by
  unfold CorePost
  rw [Oxy_done c]
  iintro ⟨#Hrec, Ha0_0, Ha0_1, Ha0_2, Ha0_3, Ha0_4, Ha0_5, Ha0_6, Ha0_7, Ha1_0, Ha1_1, Ha1_2, Ha1_3, Ha1_4, Ha1_5, Ha1_6, Ha1_7, Ha2_0, Ha2_1, Ha2_2, Ha2_3, Ha2_4, Ha2_5, Ha2_6, Ha2_7, Ha3_0, Ha3_1, Ha3_2, Ha3_3, Ha3_4, Ha3_5, Ha3_6, Ha3_7, ⟨%W', HO⟩, Hx, Hy, Hout,
    Hs0_0, Hs0_1, Hs0_2, Hs0_3, Hs0_4, Hs0_5, Hs0_6, Hs0_7, Hs1_0, Hs1_1, Hs1_2, Hs1_3, Hs1_4, Hs1_5, Hs1_6, Hs1_7, Hs2_0, Hs2_1, Hs2_2, Hs2_3, Hs2_4, Hs2_5, Hs2_6, Hs2_7, Hs3_0, Hs3_1, Hs3_2, Hs3_3, Hs3_4, Hs3_5, Hs3_6, Hs3_7⟩
  imod (close_q m (K (c, some (0, 0))) c 0 0) $$ [Ha0_0] with Hz0_0
  · isplitr; · iapply (rec_inv_q m K c 0 0); iexact Hrec
    iexact Ha0_0
  imod (close_q m (K (c, some (0, 1))) c 0 1) $$ [Ha0_1] with Hz0_1
  · isplitr; · iapply (rec_inv_q m K c 0 1); iexact Hrec
    iexact Ha0_1
  imod (close_q m (K (c, some (0, 2))) c 0 2) $$ [Ha0_2] with Hz0_2
  · isplitr; · iapply (rec_inv_q m K c 0 2); iexact Hrec
    iexact Ha0_2
  imod (close_q m (K (c, some (0, 3))) c 0 3) $$ [Ha0_3] with Hz0_3
  · isplitr; · iapply (rec_inv_q m K c 0 3); iexact Hrec
    iexact Ha0_3
  imod (close_q m (K (c, some (0, 4))) c 0 4) $$ [Ha0_4] with Hz0_4
  · isplitr; · iapply (rec_inv_q m K c 0 4); iexact Hrec
    iexact Ha0_4
  imod (close_q m (K (c, some (0, 5))) c 0 5) $$ [Ha0_5] with Hz0_5
  · isplitr; · iapply (rec_inv_q m K c 0 5); iexact Hrec
    iexact Ha0_5
  imod (close_q m (K (c, some (0, 6))) c 0 6) $$ [Ha0_6] with Hz0_6
  · isplitr; · iapply (rec_inv_q m K c 0 6); iexact Hrec
    iexact Ha0_6
  imod (close_q m (K (c, some (0, 7))) c 0 7) $$ [Ha0_7] with Hz0_7
  · isplitr; · iapply (rec_inv_q m K c 0 7); iexact Hrec
    iexact Ha0_7
  imod (close_q m (K (c, some (1, 0))) c 1 0) $$ [Ha1_0] with Hz1_0
  · isplitr; · iapply (rec_inv_q m K c 1 0); iexact Hrec
    iexact Ha1_0
  imod (close_q m (K (c, some (1, 1))) c 1 1) $$ [Ha1_1] with Hz1_1
  · isplitr; · iapply (rec_inv_q m K c 1 1); iexact Hrec
    iexact Ha1_1
  imod (close_q m (K (c, some (1, 2))) c 1 2) $$ [Ha1_2] with Hz1_2
  · isplitr; · iapply (rec_inv_q m K c 1 2); iexact Hrec
    iexact Ha1_2
  imod (close_q m (K (c, some (1, 3))) c 1 3) $$ [Ha1_3] with Hz1_3
  · isplitr; · iapply (rec_inv_q m K c 1 3); iexact Hrec
    iexact Ha1_3
  imod (close_q m (K (c, some (1, 4))) c 1 4) $$ [Ha1_4] with Hz1_4
  · isplitr; · iapply (rec_inv_q m K c 1 4); iexact Hrec
    iexact Ha1_4
  imod (close_q m (K (c, some (1, 5))) c 1 5) $$ [Ha1_5] with Hz1_5
  · isplitr; · iapply (rec_inv_q m K c 1 5); iexact Hrec
    iexact Ha1_5
  imod (close_q m (K (c, some (1, 6))) c 1 6) $$ [Ha1_6] with Hz1_6
  · isplitr; · iapply (rec_inv_q m K c 1 6); iexact Hrec
    iexact Ha1_6
  imod (close_q m (K (c, some (1, 7))) c 1 7) $$ [Ha1_7] with Hz1_7
  · isplitr; · iapply (rec_inv_q m K c 1 7); iexact Hrec
    iexact Ha1_7
  imod (close_q m (K (c, some (2, 0))) c 2 0) $$ [Ha2_0] with Hz2_0
  · isplitr; · iapply (rec_inv_q m K c 2 0); iexact Hrec
    iexact Ha2_0
  imod (close_q m (K (c, some (2, 1))) c 2 1) $$ [Ha2_1] with Hz2_1
  · isplitr; · iapply (rec_inv_q m K c 2 1); iexact Hrec
    iexact Ha2_1
  imod (close_q m (K (c, some (2, 2))) c 2 2) $$ [Ha2_2] with Hz2_2
  · isplitr; · iapply (rec_inv_q m K c 2 2); iexact Hrec
    iexact Ha2_2
  imod (close_q m (K (c, some (2, 3))) c 2 3) $$ [Ha2_3] with Hz2_3
  · isplitr; · iapply (rec_inv_q m K c 2 3); iexact Hrec
    iexact Ha2_3
  imod (close_q m (K (c, some (2, 4))) c 2 4) $$ [Ha2_4] with Hz2_4
  · isplitr; · iapply (rec_inv_q m K c 2 4); iexact Hrec
    iexact Ha2_4
  imod (close_q m (K (c, some (2, 5))) c 2 5) $$ [Ha2_5] with Hz2_5
  · isplitr; · iapply (rec_inv_q m K c 2 5); iexact Hrec
    iexact Ha2_5
  imod (close_q m (K (c, some (2, 6))) c 2 6) $$ [Ha2_6] with Hz2_6
  · isplitr; · iapply (rec_inv_q m K c 2 6); iexact Hrec
    iexact Ha2_6
  imod (close_q m (K (c, some (2, 7))) c 2 7) $$ [Ha2_7] with Hz2_7
  · isplitr; · iapply (rec_inv_q m K c 2 7); iexact Hrec
    iexact Ha2_7
  imod (close_q m (K (c, some (3, 0))) c 3 0) $$ [Ha3_0] with Hz3_0
  · isplitr; · iapply (rec_inv_q m K c 3 0); iexact Hrec
    iexact Ha3_0
  imod (close_q m (K (c, some (3, 1))) c 3 1) $$ [Ha3_1] with Hz3_1
  · isplitr; · iapply (rec_inv_q m K c 3 1); iexact Hrec
    iexact Ha3_1
  imod (close_q m (K (c, some (3, 2))) c 3 2) $$ [Ha3_2] with Hz3_2
  · isplitr; · iapply (rec_inv_q m K c 3 2); iexact Hrec
    iexact Ha3_2
  imod (close_q m (K (c, some (3, 3))) c 3 3) $$ [Ha3_3] with Hz3_3
  · isplitr; · iapply (rec_inv_q m K c 3 3); iexact Hrec
    iexact Ha3_3
  imod (close_q m (K (c, some (3, 4))) c 3 4) $$ [Ha3_4] with Hz3_4
  · isplitr; · iapply (rec_inv_q m K c 3 4); iexact Hrec
    iexact Ha3_4
  imod (close_q m (K (c, some (3, 5))) c 3 5) $$ [Ha3_5] with Hz3_5
  · isplitr; · iapply (rec_inv_q m K c 3 5); iexact Hrec
    iexact Ha3_5
  imod (close_q m (K (c, some (3, 6))) c 3 6) $$ [Ha3_6] with Hz3_6
  · isplitr; · iapply (rec_inv_q m K c 3 6); iexact Hrec
    iexact Ha3_6
  imod (close_q m (K (c, some (3, 7))) c 3 7) $$ [Ha3_7] with Hz3_7
  · isplitr; · iapply (rec_inv_q m K c 3 7); iexact Hrec
    iexact Ha3_7
  imodintro
  unfold bodyPost Φ₁ scratch Dat.owesAt Pipeline.owesWithin
  rw [show (dats m ρ 0 c).owed t0_0.succ = 0 from rfl, bigSep_q32]
  isplitl [Hs0_0 Hs0_1 Hs0_2 Hs0_3 Hs0_4 Hs0_5 Hs0_6 Hs0_7 Hs1_0 Hs1_1 Hs1_2 Hs1_3 Hs1_4 Hs1_5 Hs1_6 Hs1_7 Hs2_0 Hs2_1 Hs2_2 Hs2_3 Hs2_4 Hs2_5 Hs2_6 Hs2_7 Hs3_0 Hs3_1 Hs3_2 Hs3_3 Hs3_4 Hs3_5 Hs3_6 Hs3_7 Hz0_0 Hz0_1 Hz0_2 Hz0_3 Hz0_4 Hz0_5 Hz0_6 Hz0_7 Hz1_0 Hz1_1 Hz1_2 Hz1_3 Hz1_4 Hz1_5 Hz1_6 Hz1_7 Hz2_0 Hz2_1 Hz2_2 Hz2_3 Hz2_4 Hz2_5 Hz2_6 Hz2_7 Hz3_0 Hz3_1 Hz3_2 Hz3_3 Hz3_4 Hz3_5 Hz3_6 Hz3_7]
  · isplitl [Hs0_0 Hs0_1 Hs0_2 Hs0_3 Hs0_4 Hs0_5 Hs0_6 Hs0_7 Hs1_0 Hs1_1 Hs1_2 Hs1_3 Hs1_4 Hs1_5 Hs1_6 Hs1_7 Hs2_0 Hs2_1 Hs2_2 Hs2_3 Hs2_4 Hs2_5 Hs2_6 Hs2_7 Hs3_0 Hs3_1 Hs3_2 Hs3_3 Hs3_4 Hs3_5 Hs3_6 Hs3_7]
    · isplitl [Hs0_0 Hs0_1 Hs0_2 Hs0_3 Hs0_4 Hs0_5 Hs0_6 Hs0_7]
      ·
        iapply (join_ys (F := F) c); rw [bigSep_fin8]
        isplitl [Hs0_0]; · iexact Hs0_0
        isplitl [Hs0_1]; · iexact Hs0_1
        isplitl [Hs0_2]; · iexact Hs0_2
        isplitl [Hs0_3]; · iexact Hs0_3
        isplitl [Hs0_4]; · iexact Hs0_4
        isplitl [Hs0_5]; · iexact Hs0_5
        isplitl [Hs0_6]; · iexact Hs0_6
        iexact Hs0_7
      isplitl [Hs1_0 Hs1_1 Hs1_2 Hs1_3 Hs1_4 Hs1_5 Hs1_6 Hs1_7]
      ·
        iapply (join_yr (F := F) c); rw [bigSep_fin8]
        isplitl [Hs1_0]; · iexact Hs1_0
        isplitl [Hs1_1]; · iexact Hs1_1
        isplitl [Hs1_2]; · iexact Hs1_2
        isplitl [Hs1_3]; · iexact Hs1_3
        isplitl [Hs1_4]; · iexact Hs1_4
        isplitl [Hs1_5]; · iexact Hs1_5
        isplitl [Hs1_6]; · iexact Hs1_6
        iexact Hs1_7
      isplitl [Hs2_0 Hs2_1 Hs2_2 Hs2_3 Hs2_4 Hs2_5 Hs2_6 Hs2_7]
      ·
        iapply (join_xs (F := F) c); rw [bigSep_fin8]
        isplitl [Hs2_0]; · iexact Hs2_0
        isplitl [Hs2_1]; · iexact Hs2_1
        isplitl [Hs2_2]; · iexact Hs2_2
        isplitl [Hs2_3]; · iexact Hs2_3
        isplitl [Hs2_4]; · iexact Hs2_4
        isplitl [Hs2_5]; · iexact Hs2_5
        isplitl [Hs2_6]; · iexact Hs2_6
        iexact Hs2_7
      iapply (join_xr (F := F) c); rw [bigSep_fin8]
      isplitl [Hs3_0]; · iexact Hs3_0
      isplitl [Hs3_1]; · iexact Hs3_1
      isplitl [Hs3_2]; · iexact Hs3_2
      isplitl [Hs3_3]; · iexact Hs3_3
      isplitl [Hs3_4]; · iexact Hs3_4
      isplitl [Hs3_5]; · iexact Hs3_5
      isplitl [Hs3_6]; · iexact Hs3_6
      iexact Hs3_7
    · isplitl [Hz0_0 Hz0_1 Hz0_2 Hz0_3 Hz0_4 Hz0_5 Hz0_6 Hz0_7]
      ·
        isplitl [Hz0_0]; · iexact Hz0_0
        isplitl [Hz0_1]; · iexact Hz0_1
        isplitl [Hz0_2]; · iexact Hz0_2
        isplitl [Hz0_3]; · iexact Hz0_3
        isplitl [Hz0_4]; · iexact Hz0_4
        isplitl [Hz0_5]; · iexact Hz0_5
        isplitl [Hz0_6]; · iexact Hz0_6
        iexact Hz0_7
      isplitl [Hz1_0 Hz1_1 Hz1_2 Hz1_3 Hz1_4 Hz1_5 Hz1_6 Hz1_7]
      ·
        isplitl [Hz1_0]; · iexact Hz1_0
        isplitl [Hz1_1]; · iexact Hz1_1
        isplitl [Hz1_2]; · iexact Hz1_2
        isplitl [Hz1_3]; · iexact Hz1_3
        isplitl [Hz1_4]; · iexact Hz1_4
        isplitl [Hz1_5]; · iexact Hz1_5
        isplitl [Hz1_6]; · iexact Hz1_6
        iexact Hz1_7
      isplitl [Hz2_0 Hz2_1 Hz2_2 Hz2_3 Hz2_4 Hz2_5 Hz2_6 Hz2_7]
      ·
        isplitl [Hz2_0]; · iexact Hz2_0
        isplitl [Hz2_1]; · iexact Hz2_1
        isplitl [Hz2_2]; · iexact Hz2_2
        isplitl [Hz2_3]; · iexact Hz2_3
        isplitl [Hz2_4]; · iexact Hz2_4
        isplitl [Hz2_5]; · iexact Hz2_5
        isplitl [Hz2_6]; · iexact Hz2_6
        iexact Hz2_7
      isplitl [Hz3_0]; · iexact Hz3_0
      isplitl [Hz3_1]; · iexact Hz3_1
      isplitl [Hz3_2]; · iexact Hz3_2
      isplitl [Hz3_3]; · iexact Hz3_3
      isplitl [Hz3_4]; · iexact Hz3_4
      isplitl [Hz3_5]; · iexact Hz3_5
      isplitl [Hz3_6]; · iexact Hz3_6
      iexact Hz3_7
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

/-! ## The body lemma -/

theorem sound_of_core (h : CoreBody (F := F) m) : SoundBody m ρ := fun K c Kt => by
  refine BIBase.Entails.trans ?_ (wp_fupd frame (wpE (defs₀ (F := F)) 𝒱₀ c none) Set.univ (theBody (F := F)) Kt)
  iintro ⟨Hpre, Hk⟩
  ihave Hc := (pre_to_core m ρ K c) $$ Hpre
  icases Hc with ⟨%W, %g0, %f0, %f1, %f2, %f3, #Hrec, Hcore⟩
  iapply (h K c W g0 f0 f1 f2 f3 (fun a => iprop(|={Set.univ}=> Kt a)))
  isplitl [Hcore]; · iexact Hcore
  iintro Hpost
  imod (post_of_core m ρ K c) $$ [Hpost] with Hb
  · isplitr; · iexact Hrec
    iexact Hpost
  imodintro
  iapply Hk; iexact Hb

/-- info: 'Cert.KernelProof.sound_of_core' depends on axioms: [propext, Classical.choice, Quot.sound] -/
#guard_msgs in #print axioms sound_of_core

end Cert.KernelProof

end
-- ==== Proof.Kernel.SoundBody.lean ====
/-
  The body lemma: the run of the body, regrouped into the form the pipeline's obligation asks for.
-/
import proofs.«900475_g7700000000000476_dist_rsdw_v7x_xy2x2_y_m1024_d1024_f4096_bf16_1_alg».proof.Proof.Kernel.Body
import proofs.«900475_g7700000000000476_dist_rsdw_v7x_xy2x2_y_m1024_d1024_f4096_bf16_1_alg».proof.Proof.Kernel.Sound

noncomputable section

namespace Cert.KernelProof

open Cert.Kernel Cert.Kernel.Gen Cert.Kernel.Vals
open Idealize.ShloMosaic Idealize.ShloMosaic.TcCoe Idealize.SL.Sem

variable {F : FTy → Type} [FloatOps F]

variable (m : (ℓ : Loc nD τ sig) → Buf (Elt F) ℓ) (ρ : Dev nD → PrngReg)

theorem sound_body : SoundBody (F := F) m ρ := sound_of_core m ρ (body_core m)

/-- info: 'Cert.KernelProof.sound_body' depends on axioms: [propext, Classical.choice, Quot.sound] -/
#guard_msgs in #print axioms sound_body

end Cert.KernelProof

end
-- ==== Proof.lean ====
/- The matrix product `Xᵀ · DY` computed by four devices of a 2 × 2 mesh, against its one-device reference.

   The reference: `R = Xᵀ · DY` with `X : [2048, 1024]`, `DY : [2048, 4096]`, so `R[i, j] = ∑ k < 2048, X[k, i] · DY[k, j]`
   (`RefG.lean`: the reference's run read at an index). Device `c = 2·x + y` holds rows `1024·y …` of `X` and of `DY` and must end
   with rows `512·y …` of `R`. For each of the eight 256-column chunks of its column half `x` it forms two partial sums over
   ITS OWN 1024 rows: the one for the other row block goes to its y-neighbour, the one for its own row block is added to what
   the y-neighbour sends. Read at the exact instance every change of float format is the identity, a tile product is a plain
   sum (`MatmulAt.lean`), and the two halves `∑ k < 1024` add up to `∑ k < 2048` in either order (`SplitSum.lean`,
   `HalfSums.lean`: addition of extended reals is commutative and associative, so no finiteness is needed). The finished
   512 × 256 tile is stored into the result and sent to the x-neighbour, whose eight tiles fill the other column half: entry
   by entry the result block is `outAt` (`KernelIdeal/OutAt.lean`, `OutTiles.lean`), which is the device's block of `R`
   (`Join.lean`, with `BlockAt.lean` reading a block of an array at an index).

   The devices meet through 33 semaphore cells each (`KernelIdeal/Proto.lean`): a barrier cell with one unit from each
   neighbour, handing over that neighbour's receive slots; a send and a receive cell per chunk and per neighbour, each
   waited for whole; a receive cell's landing states what the slot then holds. A device waits on its barrier while it owes
   all sixteen arrivals, on its y cells while it owes arrivals at the x-neighbour, on its x cells owing nothing, which orders
   the waits (barrier below the y receive cells below the x receive cells). `KernelIdeal/Body.lean` runs one device's body
   under that discipline; `Sound.lean` and `Obligation.lean` hand it to the pipeline, `Launch.lean` starts the four devices
   together. The same text read at the word-level instance (`Kernel/`) gives that program's frame; the reference's frame is
   its generated run with the result dropped; the idealization rewrote no operation. `Assemble.lean` puts the five together. -/
import proofs.«900475_g7700000000000476_dist_rsdw_v7x_xy2x2_y_m1024_d1024_f4096_bf16_1_alg».proof.Defs
import proofs.«900475_g7700000000000476_dist_rsdw_v7x_xy2x2_y_m1024_d1024_f4096_bf16_1_alg».proof.Proof.Assemble
import proofs.«900475_g7700000000000476_dist_rsdw_v7x_xy2x2_y_m1024_d1024_f4096_bf16_1_alg».proof.Proof.KernelIdeal.SoundBody
import proofs.«900475_g7700000000000476_dist_rsdw_v7x_xy2x2_y_m1024_d1024_f4096_bf16_1_alg».proof.Proof.Kernel.SoundBody
import proofs.«900475_g7700000000000476_dist_rsdw_v7x_xy2x2_y_m1024_d1024_f4096_bf16_1_alg».proof.Proof.Gen.Kernel
import proofs.«900475_g7700000000000476_dist_rsdw_v7x_xy2x2_y_m1024_d1024_f4096_bf16_1_alg».proof.Proof.Gen.Kernel.Skeleton
import proofs.«900475_g7700000000000476_dist_rsdw_v7x_xy2x2_y_m1024_d1024_f4096_bf16_1_alg».proof.Proof.Gen.Kernel.Launch
import proofs.«900475_g7700000000000476_dist_rsdw_v7x_xy2x2_y_m1024_d1024_f4096_bf16_1_alg».proof.Proof.Gen.Kernel.Points
import proofs.«900475_g7700000000000476_dist_rsdw_v7x_xy2x2_y_m1024_d1024_f4096_bf16_1_alg».proof.Proof.Gen.Kernel.Frame
import proofs.«900475_g7700000000000476_dist_rsdw_v7x_xy2x2_y_m1024_d1024_f4096_bf16_1_alg».proof.Proof.Gen.KernelIdeal
import proofs.«900475_g7700000000000476_dist_rsdw_v7x_xy2x2_y_m1024_d1024_f4096_bf16_1_alg».proof.Proof.Gen.KernelIdeal.Skeleton
import proofs.«900475_g7700000000000476_dist_rsdw_v7x_xy2x2_y_m1024_d1024_f4096_bf16_1_alg».proof.Proof.Gen.KernelIdeal.Launch
import proofs.«900475_g7700000000000476_dist_rsdw_v7x_xy2x2_y_m1024_d1024_f4096_bf16_1_alg».proof.Proof.Gen.KernelIdeal.Points
import proofs.«900475_g7700000000000476_dist_rsdw_v7x_xy2x2_y_m1024_d1024_f4096_bf16_1_alg».proof.Proof.Gen.KernelIdeal.Frame
import proofs.«900475_g7700000000000476_dist_rsdw_v7x_xy2x2_y_m1024_d1024_f4096_bf16_1_alg».proof.Proof.Gen.ReferenceIdeal
import proofs.«900475_g7700000000000476_dist_rsdw_v7x_xy2x2_y_m1024_d1024_f4096_bf16_1_alg».proof.Proof.Gen.ReferenceIdeal.Read
import proofs.«900475_g7700000000000476_dist_rsdw_v7x_xy2x2_y_m1024_d1024_f4096_bf16_1_alg».proof.Proof.Gen.Pre_finite_inputs_Kernel
import proofs.«900475_g7700000000000476_dist_rsdw_v7x_xy2x2_y_m1024_d1024_f4096_bf16_1_alg».proof.Proof.Gen.Pre_finite_inputs_ReferenceIdeal
import Idealize.ShloMosaic.Adequacy
import Idealize.ShloMosaic.Init

noncomputable section

namespace Cert.Proof

open Idealize.ShloMosaic Idealize.SL.Sem

theorem claim : Cert.Claim :=
  Cert.Assemble.claim_of_bodies (fun m ρ => Cert.KernelIdealProof.sound_body m ρ) (fun m ρ => Cert.KernelProof.sound_body m ρ)

end Cert.Proof

end
